-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S800000 : Shape := ⟨1, ![800000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x4 : Shape := ⟨2, ![32, 4]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x4 : S_.BroadcastsInDim S32x4 (![] : Fin 0 → Fin S32x4.rank)
  reducesTo_S32x4_S_d0_1 : S32x4.ReducesTo [0, 1] S_

variable [Facts]

def fn_part6 {F : FTy → Type} [FloatOps F] (main_arg24 : FVec F S32x4 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S32x4 .f32 := Host.absf main_arg24
  let main_cst_40 : FVec F S_ .f32 := constant S_ .f32 0x7F800000#32
  let main_v105 : FVec F S32x4 .f32 := broadcastInDim S32x4 ![] bcast_S_S32x4 main_cst_40
  let main_v106 : IVec S32x4 1 := cmpf .olt main_v104 main_v105
  let main_c_41 : IVec S_ 1 := constantI S_ 1 1#1
  let main_v107 : IVec S_ 1 := (fun x v => Host.reduce IntOp.andi x v reducesTo_S32x4_S_d0_1 h_S_) main_v106 main_c_41
  let main_v108 : IVec S_ 1 := andi main_v103 main_v107
  main_v108

def fn_part5 {F : FTy → Type} [FloatOps F] (main_arg21 : FVec F S32 .f32) (main_arg22 : FVec F S32 .f32) (main_arg23 : FVec F S32 .f32) (main_arg24 : FVec F S32x4 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg21
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32 .f32 := Host.absf main_arg22
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32 .f32 := Host.absf main_arg23
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg24 main_v98 main_v101 main_c_39

def fn_part4 {F : FTy → Type} [FloatOps F] (main_arg17 : FVec F S64 .f32) (main_arg18 : FVec F S64x32 .f32) (main_arg19 : FVec F S32 .f32) (main_arg20 : FVec F S32 .f32) (main_arg21 : FVec F S32 .f32) (main_arg22 : FVec F S32 .f32) (main_arg23 : FVec F S32 .f32) (main_arg24 : FVec F S32x4 .f32) (main_v63 : IVec S_ 1) (main_v67 : IVec S_ 1) : IVec S_ 1 :=
  let main_v68 : IVec S_ 1 := andi main_v63 main_v67
  let main_v69 : FVec F S64 .f32 := Host.absf main_arg17
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x32 .f32 := Host.absf main_arg18
  let main_cst_28 : FVec F S_ .f32 := constant S_ .f32 0x7F800000#32
  let main_v75 : FVec F S64x32 .f32 := broadcastInDim S64x32 ![] bcast_S_S64x32 main_cst_28
  let main_v76 : IVec S64x32 1 := cmpf .olt main_v74 main_v75
  let main_c_29 : IVec S_ 1 := constantI S_ 1 1#1
  let main_v77 : IVec S_ 1 := (fun x v => Host.reduce IntOp.andi x v reducesTo_S64x32_S_d0_1 h_S_) main_v76 main_c_29
  let main_v78 : IVec S_ 1 := andi main_v73 main_v77
  let main_v79 : FVec F S32 .f32 := Host.absf main_arg19
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32 .f32 := Host.absf main_arg20
  let main_cst_32 : FVec F S_ .f32 := constant S_ .f32 0x7F800000#32
  fn_part5 (F := F) main_arg21 main_arg22 main_arg23 main_arg24 main_v83 main_v84 main_cst_32

def fn_part3 {F : FTy → Type} [FloatOps F] (main_arg14 : FVec F S64 .f32) (main_arg15 : FVec F S64 .f32) (main_arg16 : FVec F S64 .f32) (main_arg17 : FVec F S64 .f32) (main_arg18 : FVec F S64x32 .f32) (main_arg19 : FVec F S32 .f32) (main_arg20 : FVec F S32 .f32) (main_arg21 : FVec F S32 .f32) (main_arg22 : FVec F S32 .f32) (main_arg23 : FVec F S32 .f32) (main_arg24 : FVec F S32x4 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg16
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg17 main_arg18 main_arg19 main_arg20 main_arg21 main_arg22 main_arg23 main_arg24 main_v63 main_v67

def fn_part2 {F : FTy → Type} [FloatOps F] (main_arg10 : FVec F S256x128 .f32) (main_arg11 : FVec F S128 .f32) (main_arg12 : FVec F S128x64 .f32) (main_arg13 : FVec F S64 .f32) (main_arg14 : FVec F S64 .f32) (main_arg15 : FVec F S64 .f32) (main_arg16 : FVec F S64 .f32) (main_arg17 : FVec F S64 .f32) (main_arg18 : FVec F S64x32 .f32) (main_arg19 : FVec F S32 .f32) (main_arg20 : FVec F S32 .f32) (main_arg21 : FVec F S32 .f32) (main_arg22 : FVec F S32 .f32) (main_arg23 : FVec F S32 .f32) (main_arg24 : FVec F S32x4 .f32) (main_v33 : IVec S_ 1) : IVec S_ 1 :=
  let main_v34 : FVec F S256x128 .f32 := Host.absf main_arg10
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg12
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg14 main_arg15 main_arg16 main_arg17 main_arg18 main_arg19 main_arg20 main_arg21 main_arg22 main_arg23 main_arg24 main_v48 main_v49 main_v50

def fn_part1 {F : FTy → Type} [FloatOps F] (main_arg7 : FVec F S128 .f32) (main_arg8 : FVec F S128x128 .f32) (main_arg9 : FVec F S128 .f32) (main_arg10 : FVec F S256x128 .f32) (main_arg11 : FVec F S128 .f32) (main_arg12 : FVec F S128x64 .f32) (main_arg13 : FVec F S64 .f32) (main_arg14 : FVec F S64 .f32) (main_arg15 : FVec F S64 .f32) (main_arg16 : FVec F S64 .f32) (main_arg17 : FVec F S64 .f32) (main_arg18 : FVec F S64x32 .f32) (main_arg19 : FVec F S32 .f32) (main_arg20 : FVec F S32 .f32) (main_arg21 : FVec F S32 .f32) (main_arg22 : FVec F S32 .f32) (main_arg23 : FVec F S32 .f32) (main_arg24 : FVec F S32x4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x64 .f32) (main_arg1 : IVec S800000 32) (main_arg2 : IVec S800000 32) (main_arg3 : IVec S100000 32) (main_arg4 : FVec F S64x128 .f32) (main_arg5 : FVec F S128 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x64 .f32) (main_arg13 : FVec F S64 .f32) (main_arg14 : FVec F S64 .f32) (main_arg15 : FVec F S64 .f32) (main_arg16 : FVec F S64 .f32) (main_arg17 : FVec F S64 .f32) (main_arg18 : FVec F S64x32 .f32) (main_arg19 : FVec F S32 .f32) (main_arg20 : FVec F S32 .f32) (main_arg21 : FVec F S32 .f32) (main_arg22 : FVec F S32 .f32) (main_arg23 : FVec F S32 .f32) (main_arg24 : FVec F S32x4 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x64 : Shape := ⟨2, ![100000, 64]⟩
abbrev S800000 : Shape := ⟨1, ![800000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x4 : Shape := ⟨2, ![32, 4]⟩
abbrev S_ : Shape := ⟨0, ![]⟩
abbrev S800000x1 : Shape := ⟨2, ![800000, 1]⟩
abbrev S25000 : Shape := ⟨1, ![25000]⟩
abbrev S100000x1 : Shape := ⟨2, ![100000, 1]⟩
abbrev S25000x1 : Shape := ⟨2, ![25000, 1]⟩
abbrev S100000x128 : Shape := ⟨2, ![100000, 128]⟩
abbrev S5000x64 : Shape := ⟨2, ![5000, 64]⟩
abbrev S5000x128 : Shape := ⟨2, ![5000, 128]⟩
abbrev S1x128 : Shape := ⟨2, ![1, 128]⟩
abbrev S800000x128 : Shape := ⟨2, ![800000, 128]⟩
abbrev S25000x128 : Shape := ⟨2, ![25000, 128]⟩
abbrev S5000x1 : Shape := ⟨2, ![5000, 1]⟩
abbrev S16x128 : Shape := ⟨2, ![16, 128]⟩
abbrev S16 : Shape := ⟨1, ![16]⟩
abbrev S16x1 : Shape := ⟨2, ![16, 1]⟩
abbrev S16x4 : Shape := ⟨2, ![16, 4]⟩
abbrev S16x64 : Shape := ⟨2, ![16, 64]⟩
abbrev S1x64 : Shape := ⟨2, ![1, 64]⟩
abbrev S16x32 : Shape := ⟨2, ![16, 32]⟩
abbrev S1x32 : Shape := ⟨2, ![1, 32]⟩

abbrev nBuf : Space → Nat
  | .hbm => 154
  | .vmem => 55
  | .smem => 0
  | _ => 0

abbrev hbmTy0_0 (i : Nat) : BufTy := match i % 128 with
  | 0 => ⟨S100000x64, .f32⟩
  | 1 => ⟨S800000, .i32⟩
  | 2 => ⟨S800000, .i32⟩
  | 3 => ⟨S100000, .i32⟩
  | 4 => ⟨S64x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S256x128, .f32⟩
  | 11 => ⟨S128, .f32⟩
  | 12 => ⟨S128x64, .f32⟩
  | 13 => ⟨S64, .f32⟩
  | 14 => ⟨S64, .f32⟩
  | 15 => ⟨S64, .f32⟩
  | 16 => ⟨S64, .f32⟩
  | 17 => ⟨S64, .f32⟩
  | 18 => ⟨S64x32, .f32⟩
  | 19 => ⟨S32, .f32⟩
  | 20 => ⟨S32, .f32⟩
  | 21 => ⟨S32, .f32⟩
  | 22 => ⟨S32, .f32⟩
  | 23 => ⟨S32, .f32⟩
  | 24 => ⟨S32x4, .f32⟩
  | 25 => ⟨S_, .f32⟩
  | 26 => ⟨S800000, .f32⟩
  | 27 => ⟨S_, .f32⟩
  | 28 => ⟨S100000, .f32⟩
  | 29 => ⟨S800000x1, .i32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S_, .f32⟩
  | 42 => ⟨S25000, .f32⟩
  | 43 => ⟨S800000x1, .i32⟩
  | 44 => ⟨S25000, .f32⟩
  | 45 => ⟨S_, .f32⟩
  | 46 => ⟨S25000, .f32⟩
  | 47 => ⟨S25000, .i1⟩
  | 48 => ⟨S_, .f32⟩
  | 49 => ⟨S25000, .f32⟩
  | 50 => ⟨S25000, .f32⟩
  | 51 => ⟨S_, .f32⟩
  | 52 => ⟨S_, .f32⟩
  | 53 => ⟨S25000, .f32⟩
  | 54 => ⟨S25000, .f32⟩
  | 55 => ⟨S100000x1, .f32⟩
  | 56 => ⟨S25000x1, .f32⟩
  | 57 => ⟨S100000x128, .bf16⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .bf16⟩
  | 67 => ⟨S800000x128, .f32⟩
  | 68 => ⟨S_, .f32⟩
  | 69 => ⟨S25000x128, .f32⟩
  | 70 => ⟨S800000x1, .i32⟩
  | 71 => ⟨S25000x128, .f32⟩
  | 72 => ⟨S25000x128, .bf16⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .bf16⟩
  | 82 => ⟨S800000x128, .f32⟩
  | 83 => ⟨S_, .f32⟩
  | 84 => ⟨S100000x128, .f32⟩
  | 85 => ⟨S800000x1, .i32⟩
  | 86 => ⟨S100000x128, .f32⟩
  | 87 => ⟨S100000x128, .f32⟩
  | 88 => ⟨S100000x128, .bf16⟩
  | 89 => ⟨S_, .f32⟩
  | 90 => ⟨S16x128, .f32⟩
  | 91 => ⟨S100000x1, .i32⟩
  | 92 => ⟨S16x128, .f32⟩
  | 93 => ⟨S_, .f32⟩
  | 94 => ⟨S100000, .f32⟩
  | 95 => ⟨S_, .f32⟩
  | 96 => ⟨S16, .f32⟩
  | 97 => ⟨S100000x1, .i32⟩
  | 98 => ⟨S16, .f32⟩
  | 99 => ⟨S_, .f32⟩
  | 100 => ⟨S16, .f32⟩
  | 101 => ⟨S16, .f32⟩
  | 102 => ⟨S16x1, .f32⟩
  | 103 => ⟨S16x128, .f32⟩
  | 104 => ⟨S16x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .bf16⟩
  | 114 => ⟨S800000x128, .f32⟩
  | 115 => ⟨S_, .f32⟩
  | 116 => ⟨S25000x128, .f32⟩
  | 117 => ⟨S800000x1, .i32⟩
  | 118 => ⟨S25000x128, .f32⟩
  | 119 => ⟨S25000x128, .bf16⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S100000x64, .f32⟩

abbrev hbmTy0_1 (i : Nat) : BufTy := match i % 128 with
  | 0 => ⟨S800000x128, .bf16⟩
  | 1 => ⟨S800000x128, .f32⟩
  | 2 => ⟨S_, .f32⟩
  | 3 => ⟨S100000x128, .f32⟩
  | 4 => ⟨S800000x1, .i32⟩
  | 5 => ⟨S100000x128, .f32⟩
  | 6 => ⟨S100000x128, .f32⟩
  | 7 => ⟨S_, .f32⟩
  | 8 => ⟨S16x128, .f32⟩
  | 9 => ⟨S100000x1, .i32⟩
  | 10 => ⟨S16x128, .f32⟩
  | 11 => ⟨S_, .f32⟩
  | 12 => ⟨S100000, .f32⟩
  | 13 => ⟨S_, .f32⟩
  | 14 => ⟨S16, .f32⟩
  | 15 => ⟨S100000x1, .i32⟩
  | 16 => ⟨S16, .f32⟩
  | 17 => ⟨S_, .f32⟩
  | 18 => ⟨S16, .f32⟩
  | 19 => ⟨S16, .f32⟩
  | 20 => ⟨S16x1, .f32⟩
  | 21 => ⟨S16x128, .f32⟩
  | 22 => ⟨S16x128, .f32⟩
  | 23 => ⟨S128x128, .f32⟩
  | 24 => ⟨S128x128, .f32⟩
  | 25 => ⟨S16x4, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S128, .f32⟩
  | .local _ .vmem, ⟨4, _⟩ => ⟨S128x128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S5000x128, .bf16⟩
  | .local _ .vmem, ⟨12, _⟩ => ⟨S5000x128, .bf16⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .bf16⟩
  | .local _ .vmem, ⟨22, _⟩ => ⟨S5000x128, .bf16⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S5000x128, .bf16⟩
  | .local _ .vmem, ⟨28, _⟩ => ⟨S5000x128, .bf16⟩
  | .local _ .vmem, ⟨29, _⟩ => ⟨S5000x128, .f32⟩
  | .local _ .vmem, ⟨30, _⟩ => ⟨S5000x128, .f32⟩
  | .local _ .vmem, ⟨31, _⟩ => ⟨S5000x1, .f32⟩
  | .local _ .vmem, ⟨32, _⟩ => ⟨S5000x1, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | .local _ .vmem, ⟨36, _⟩ => ⟨S16x128, .f32⟩
  | .local _ .vmem, ⟨37, _⟩ => ⟨S16x128, .f32⟩
  | .local _ .vmem, ⟨38, _⟩ => ⟨S128x128, .f32⟩
  | .local _ .vmem, ⟨39, _⟩ => ⟨S128x128, .f32⟩
  | .local _ .vmem, ⟨40, _⟩ => ⟨S128, .f32⟩
  | .local _ .vmem, ⟨41, _⟩ => ⟨S128x64, .f32⟩
  | .local _ .vmem, ⟨42, _⟩ => ⟨S64, .f32⟩
  | .local _ .vmem, ⟨43, _⟩ => ⟨S64, .f32⟩
  | .local _ .vmem, ⟨44, _⟩ => ⟨S64, .f32⟩
  | .local _ .vmem, ⟨45, _⟩ => ⟨S64, .f32⟩
  | .local _ .vmem, ⟨46, _⟩ => ⟨S64, .f32⟩
  | .local _ .vmem, ⟨47, _⟩ => ⟨S64x32, .f32⟩
  | .local _ .vmem, ⟨48, _⟩ => ⟨S32, .f32⟩
  | .local _ .vmem, ⟨49, _⟩ => ⟨S32, .f32⟩
  | .local _ .vmem, ⟨50, _⟩ => ⟨S32, .f32⟩
  | .local _ .vmem, ⟨51, _⟩ => ⟨S32, .f32⟩
  | .local _ .vmem, ⟨52, _⟩ => ⟨S32, .f32⟩
  | .local _ .vmem, ⟨53, _⟩ => ⟨S32x4, .f32⟩
  | .local _ .vmem, ⟨54, _⟩ => ⟨S16x4, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_cst_0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst_1 : Ref sig .tc := ⟨.hbm, 31, rfl⟩
abbrev main_v4 : Ref sig .tc := ⟨.hbm, 32, rfl⟩
abbrev main_v5 : Ref sig .tc := ⟨.hbm, 33, rfl⟩
abbrev main_cst_2 : Ref sig .tc := ⟨.hbm, 34, rfl⟩
abbrev main_v6 : Ref sig .tc := ⟨.hbm, 35, rfl⟩
abbrev main_v7 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v8 : Ref sig .tc := ⟨.hbm, 40, rfl⟩
abbrev main_cst_4 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_5 : Ref sig .tc := ⟨.hbm, 45, rfl⟩
abbrev main_v12 : Ref sig .tc := ⟨.hbm, 46, rfl⟩
abbrev main_v13 : Ref sig .tc := ⟨.hbm, 47, rfl⟩
abbrev main_cst_6 : Ref sig .tc := ⟨.hbm, 48, rfl⟩
abbrev main_v14 : Ref sig .tc := ⟨.hbm, 49, rfl⟩
abbrev main_v15 : Ref sig .tc := ⟨.hbm, 50, rfl⟩
abbrev main_cst_7 : Ref sig .tc := ⟨.hbm, 51, rfl⟩
abbrev main_call1_v0 : Ref sig .tc := ⟨.hbm, 52, rfl⟩
abbrev main_call1_v1 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_c : Ref sig .tc := ⟨.hbm, 58, rfl⟩
abbrev main_v20 : Ref sig .tc := ⟨.hbm, 59, rfl⟩
abbrev main_v21 : Ref sig .tc := ⟨.hbm, 60, rfl⟩
abbrev main_c_8 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_9 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_c_10 : Ref sig .tc := ⟨.hbm, 73, rfl⟩
abbrev main_v32 : Ref sig .tc := ⟨.hbm, 74, rfl⟩
abbrev main_v33 : Ref sig .tc := ⟨.hbm, 75, rfl⟩
abbrev main_c_11 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_12 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43_0 : Ref sig .tc := ⟨.hbm, 87, rfl⟩
abbrev main_v43_1 : Ref sig .tc := ⟨.hbm, 88, rfl⟩
abbrev main_cst_13 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_14 : Ref sig .tc := ⟨.hbm, 93, rfl⟩
abbrev main_v47 : Ref sig .tc := ⟨.hbm, 94, rfl⟩
abbrev main_cst_15 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_cst_16 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_c_17 : Ref sig .tc := ⟨.hbm, 105, rfl⟩
abbrev main_v56 : Ref sig .tc := ⟨.hbm, 106, rfl⟩
abbrev main_v57 : Ref sig .tc := ⟨.hbm, 107, rfl⟩
abbrev main_c_18 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_cst_19 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_c_20 : Ref sig .tc := ⟨.hbm, 120, rfl⟩
abbrev main_v68 : Ref sig .tc := ⟨.hbm, 121, rfl⟩
abbrev main_v69 : Ref sig .tc := ⟨.hbm, 122, rfl⟩
abbrev main_c_21 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_cst_22 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_cst_23 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_cst_24 : Ref sig .tc := ⟨.hbm, 139, rfl⟩
abbrev main_v83 : Ref sig .tc := ⟨.hbm, 140, rfl⟩
abbrev main_cst_25 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_26 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg7_0 : Ref sig .tc := ⟨.vmem, 43, rfl⟩
abbrev cc5_stg8_0 : Ref sig .tc := ⟨.vmem, 44, rfl⟩
abbrev cc5_stg9_0 : Ref sig .tc := ⟨.vmem, 45, rfl⟩
abbrev cc5_stg10_0 : Ref sig .tc := ⟨.vmem, 46, rfl⟩
abbrev cc5_stg11_0 : Ref sig .tc := ⟨.vmem, 47, rfl⟩
abbrev cc5_stg12_0 : Ref sig .tc := ⟨.vmem, 48, rfl⟩
abbrev cc5_stg13_0 : Ref sig .tc := ⟨.vmem, 49, rfl⟩
abbrev cc5_stg14_0 : Ref sig .tc := ⟨.vmem, 50, rfl⟩
abbrev cc5_stg15_0 : Ref sig .tc := ⟨.vmem, 51, rfl⟩
abbrev cc5_stg16_0 : Ref sig .tc := ⟨.vmem, 52, rfl⟩
abbrev cc5_stg17_0 : Ref sig .tc := ⟨.vmem, 53, rfl⟩
abbrev cc5_stg18_0 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem7_0 : DmaSem sig := 43
abbrev cc5_sem8_0 : DmaSem sig := 44
abbrev cc5_sem9_0 : DmaSem sig := 45
abbrev cc5_sem10_0 : DmaSem sig := 46
abbrev cc5_sem11_0 : DmaSem sig := 47
abbrev cc5_sem12_0 : DmaSem sig := 48
abbrev cc5_sem13_0 : DmaSem sig := 49
abbrev cc5_sem14_0 : DmaSem sig := 50
abbrev cc5_sem15_0 : DmaSem sig := 51
abbrev cc5_sem16_0 : DmaSem sig := 52
abbrev cc5_sem17_0 : DmaSem sig := 53
abbrev cc5_sem18_0 : DmaSem sig := 54

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_8 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_9 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_10 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_13 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_14 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_15 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_16 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_17 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_18 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S16x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S16x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S64 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S64 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S64x32 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S32 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S32 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false]

abbrev stage5_14 : Fin 1 → Memref sig .tc .vmem S32 .f32 := fun | 0 => Memref.whole cc5_stg14_0 | ⟨_ + 1, h⟩ => absurd h (Nat.not_lt.2 (Nat.le_add_left _ _))
abbrev sem5_14 : Fin 1 → DmaSem sig := fun | 0 => cc5_sem14_0 | ⟨_ + 1, h⟩ => absurd h (Nat.not_lt.2 (Nat.le_add_left _ _))
abbrev reads5_14 : Fin grid5.rank → Bool := ![false]

abbrev stage5_15 : Fin 1 → Memref sig .tc .vmem S32 .f32 := fun | 0 => Memref.whole cc5_stg15_0 | ⟨_ + 1, h⟩ => absurd h (Nat.not_lt.2 (Nat.le_add_left _ _))
abbrev sem5_15 : Fin 1 → DmaSem sig := fun | 0 => cc5_sem15_0 | ⟨_ + 1, h⟩ => absurd h (Nat.not_lt.2 (Nat.le_add_left _ _))
abbrev reads5_15 : Fin grid5.rank → Bool := ![false]

abbrev stage5_16 : Fin 1 → Memref sig .tc .vmem S32 .f32 := fun | 0 => Memref.whole cc5_stg16_0 | ⟨_ + 1, h⟩ => absurd h (Nat.not_lt.2 (Nat.le_add_left _ _))
abbrev sem5_16 : Fin 1 → DmaSem sig := fun | 0 => cc5_sem16_0 | ⟨_ + 1, h⟩ => absurd h (Nat.not_lt.2 (Nat.le_add_left _ _))
abbrev reads5_16 : Fin grid5.rank → Bool := ![false]

abbrev stage5_17 : Fin 1 → Memref sig .tc .vmem S32x4 .f32 := fun | 0 => Memref.whole cc5_stg17_0 | ⟨_ + 1, h⟩ => absurd h (Nat.not_lt.2 (Nat.le_add_left _ _))
abbrev sem5_17 : Fin 1 → DmaSem sig := fun | 0 => cc5_sem17_0 | ⟨_ + 1, h⟩ => absurd h (Nat.not_lt.2 (Nat.le_add_left _ _))
abbrev reads5_17 : Fin grid5.rank → Bool := ![false]

abbrev stage5_18 : Fin 1 → Memref sig .tc .vmem S16x4 .f32 := fun | 0 => Memref.whole cc5_stg18_0 | ⟨_ + 1, h⟩ => absurd h (Nat.not_lt.2 (Nat.le_add_left _ _))
abbrev sem5_18 : Fin 1 → DmaSem sig := fun | 0 => cc5_sem18_0 | ⟨_ + 1, h⟩ => absurd h (Nat.not_lt.2 (Nat.le_add_left _ _))
abbrev reads5_18 : Fin grid5.rank → Bool := ![false]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S25000 : S_.BroadcastsInDim S25000 (![] : Fin 0 → Fin S25000.rank)
  shapeCasts_S100000_S100000x1 : S100000.ShapeCasts S100000x1
  shapeCasts_S25000_S25000x1 : S25000.ShapeCasts S25000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S25000x128 : S_.BroadcastsInDim S25000x128 (![] : Fin 0 → Fin S25000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  bcast_S_S16x128 : S_.BroadcastsInDim S16x128 (![] : Fin 0 → Fin S16x128.rank)
  bcast_S100000_S100000x1_0 : S100000.BroadcastsInDim S100000x1 (![0] : Fin 1 → Fin S100000x1.rank)
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  slices_S256x128_S128x128_0_0 : S256x128.Slices ![0, 0] S128x128
  slices_S256x128_S128x128_128_0 : S256x128.Slices ![128, 0] S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  shapeCasts_S128x128_S128x128 : S128x128.ShapeCasts S128x128
  broadcasts_S1x128_S16x128 : S1x128.Broadcasts S16x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S16x64 : S1x64.Broadcasts S16x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S16x32 : S1x32.Broadcasts S16x32
  inb_S32x4_S32x4_0_0 : ∀ a, (![0, 0] : Fin 2 → Nat) a + S32x4.size a ≤ S32x4.size a
  h_S32x4 : 0 < S32x4.numel
  inb_S16x4_S16x4_0_0 : ∀ a, (![0, 0] : Fin 2 → Nat) a + S16x4.size a ≤ S16x4.size a
  h_S16x4 : 0 < S16x4.numel
  scatter_S100000_S800000x1_S800000_n_0_0_1_wf : ScatterDims.WF S100000 S800000x1 S800000 [] [0] [0] 1
  scatter_S25000_S800000x1_S800000_n_0_0_1_wf : ScatterDims.WF S25000 S800000x1 S800000 [] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S100000x128_S800000x1_S800000x128_1_0_n_n_0_1_1128_wf : GatherDims.WF S100000x128 S800000x1 S800000x128 [1] [0] [] [0] [] 1 ![1, 128]
  scatter_S25000x128_S800000x1_S800000x128_1_0_0_1_wf : ScatterDims.WF S25000x128 S800000x1 S800000x128 [1] [0] [0] 1
  gather_S25000x128_S800000x1_S800000x128_1_0_n_n_0_1_1128_wf : GatherDims.WF S25000x128 S800000x1 S800000x128 [1] [0] [] [0] [] 1 ![1, 128]
  scatter_S100000x128_S800000x1_S800000x128_1_0_0_1_wf : ScatterDims.WF S100000x128 S800000x1 S800000x128 [1] [0] [0] 1
  scatter_S16x128_S100000x1_S100000x128_1_0_0_1_wf : ScatterDims.WF S16x128 S100000x1 S100000x128 [1] [0] [0] 1
  scatter_S16_S100000x1_S100000_n_0_0_1_wf : ScatterDims.WF S16 S100000x1 S100000 [] [0] [0] 1
  dot_S16x128_S128x128_S16x128_1_0_0_1_n_n_wf : DotDims.WF S16x128 S128x128 S16x128 [1] [0] [0] [1] [] []
  dot_S16x128_S128x64_S16x64_1_0_0_1_n_n_wf : DotDims.WF S16x128 S128x64 S16x64 [1] [0] [0] [1] [] []
  dot_S16x64_S64x32_S16x32_1_0_0_1_n_n_wf : DotDims.WF S16x64 S64x32 S16x32 [1] [0] [0] [1] [] []
  dot_S16x32_S32x4_S16x4_1_0_0_1_n_n_wf : DotDims.WF S16x32 S32x4 S16x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .bf16 = 32 ∨ (Rect.block (s := S100000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S25000x1.size a
  hwx1_1 : ∀ i : grid1.Coords, EltTy.bits .f32 = 32 ∨ (Rect.block (s := S25000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S25000x128.size a
  hwx1_2 : ∀ i : grid1.Coords, EltTy.bits .bf16 = 32 ∨ (Rect.block (s := S25000x128) S5000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .bf16 = 32 ∨ (Rect.block (s := S100000x128) S5000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S25000x128.size a
  hwx3_0 : ∀ i : grid3.Coords, EltTy.bits .f32 = 32 ∨ (Rect.block (s := S25000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S25000x1.size a
  hwx3_1 : ∀ i : grid3.Coords, EltTy.bits .f32 = 32 ∨ (Rect.block (s := S25000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S25000x128.size a
  hwx3_2 : ∀ i : grid3.Coords, EltTy.bits .bf16 = 32 ∨ (Rect.block (s := S25000x128) S5000x128.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S16x128.size a ≤ S16x128.size a
  hwx5_0 : ∀ i : grid5.Coords, EltTy.bits .f32 = 32 ∨ (Rect.block (s := S16x128) S16x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S16x128.size a ≤ S16x128.size a
  hwx5_1 : ∀ i : grid5.Coords, EltTy.bits .f32 = 32 ∨ (Rect.block (s := S16x128) S16x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x64.size a ≤ S128x64.size a
  hwx5_5 : ∀ i : grid5.Coords, EltTy.bits .f32 = 32 ∨ (Rect.block (s := S128x64) S128x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64.size a ≤ S64.size a
  hwx5_6 : ∀ i : grid5.Coords, EltTy.bits .f32 = 32 ∨ (Rect.block (s := S64) S64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64.size a ≤ S64.size a
  hwx5_7 : ∀ i : grid5.Coords, EltTy.bits .f32 = 32 ∨ (Rect.block (s := S64) S64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S64.size a ≤ S64.size a
  hwx5_8 : ∀ i : grid5.Coords, EltTy.bits .f32 = 32 ∨ (Rect.block (s := S64) S64.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S64.size a ≤ S64.size a
  hwx5_9 : ∀ i : grid5.Coords, EltTy.bits .f32 = 32 ∨ (Rect.block (s := S64) S64.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S64.size a ≤ S64.size a
  hwx5_10 : ∀ i : grid5.Coords, EltTy.bits .f32 = 32 ∨ (Rect.block (s := S64) S64.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S64x32.size a ≤ S64x32.size a
  hwx5_11 : ∀ i : grid5.Coords, EltTy.bits .f32 = 32 ∨ (Rect.block (s := S64x32) S64x32.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S32.size a ≤ S32.size a
  hwx5_12 : ∀ i : grid5.Coords, EltTy.bits .f32 = 32 ∨ (Rect.block (s := S32) S32.size (cc5_transform_12 i) (hinb5_12 i)).WholeWords (EltTy.packing .f32)
  hstage5_13 : ∀ j, (stage5_13 j).IsWhole
  nbuf5_13 : grid5.bufCount reads5_13 true = 1
  hreads5_13 : ∀ i i' : grid5.Coords, (∀ a, reads5_13 a = true → i a = i' a) → cc5_transform_13 i = cc5_transform_13 i'
  hinb5_13 : ∀ (i : grid5.Coords) a, (cc5_transform_13 i a + 1) * S32.size a ≤ S32.size a
  hwx5_13 : ∀ i : grid5.Coords, EltTy.bits .f32 = 32 ∨ (Rect.block (s := S32) S32.size (cc5_transform_13 i) (hinb5_13 i)).WholeWords (EltTy.packing .f32)
  hstage5_14 : ∀ j, (stage5_14 j).IsWhole
  nbuf5_14 : grid5.bufCount reads5_14 true = 1
  hreads5_14 : ∀ i i' : grid5.Coords, (∀ a, reads5_14 a = true → i a = i' a) → cc5_transform_14 i = cc5_transform_14 i'
  hinb5_14 : ∀ (i : grid5.Coords) a, (cc5_transform_14 i a + 1) * S32.size a ≤ S32.size a
  hwx5_14 : ∀ i : grid5.Coords, EltTy.bits .f32 = 32 ∨ (Rect.block (s := S32) S32.size (cc5_transform_14 i) (hinb5_14 i)).WholeWords (EltTy.packing .f32)
  hstage5_15 : ∀ j, (stage5_15 j).IsWhole
  nbuf5_15 : grid5.bufCount reads5_15 true = 1
  hreads5_15 : ∀ i i' : grid5.Coords, (∀ a, reads5_15 a = true → i a = i' a) → cc5_transform_15 i = cc5_transform_15 i'
  hinb5_15 : ∀ (i : grid5.Coords) a, (cc5_transform_15 i a + 1) * S32.size a ≤ S32.size a
  hwx5_15 : ∀ i : grid5.Coords, EltTy.bits .f32 = 32 ∨ (Rect.block (s := S32) S32.size (cc5_transform_15 i) (hinb5_15 i)).WholeWords (EltTy.packing .f32)
  hstage5_16 : ∀ j, (stage5_16 j).IsWhole
  nbuf5_16 : grid5.bufCount reads5_16 true = 1
  hreads5_16 : ∀ i i' : grid5.Coords, (∀ a, reads5_16 a = true → i a = i' a) → cc5_transform_16 i = cc5_transform_16 i'
  hinb5_16 : ∀ (i : grid5.Coords) a, (cc5_transform_16 i a + 1) * S32.size a ≤ S32.size a
  hwx5_16 : ∀ i : grid5.Coords, EltTy.bits .f32 = 32 ∨ (Rect.block (s := S32) S32.size (cc5_transform_16 i) (hinb5_16 i)).WholeWords (EltTy.packing .f32)
  hstage5_17 : ∀ j, (stage5_17 j).IsWhole
  nbuf5_17 : grid5.bufCount reads5_17 true = 1
  hreads5_17 : ∀ i i' : grid5.Coords, (∀ a, reads5_17 a = true → i a = i' a) → cc5_transform_17 i = cc5_transform_17 i'
  hinb5_17 : ∀ (i : grid5.Coords) a, (cc5_transform_17 i a + 1) * S32x4.size a ≤ S32x4.size a
  hwx5_17 : ∀ i : grid5.Coords, EltTy.bits .f32 = 32 ∨ (Rect.block (s := S32x4) S32x4.size (cc5_transform_17 i) (hinb5_17 i)).WholeWords (EltTy.packing .f32)
  hstage5_18 : ∀ j, (stage5_18 j).IsWhole
  nbuf5_18 : grid5.bufCount reads5_18 true = 1
  hreads5_18 : ∀ i i' : grid5.Coords, (∀ a, reads5_18 a = true → i a = i' a) → cc5_transform_18 i = cc5_transform_18 i'
  hinb5_18 : ∀ (i : grid5.Coords) a, (cc5_transform_18 i a + 1) * S16x4.size a ≤ S16x4.size a
  hwx5_18 : ∀ i : grid5.Coords, EltTy.bits .f32 = 32 ∨ (Rect.block (s := S16x4) S16x4.size (cc5_transform_18 i) (hinb5_18 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def scatter_S25000_S800000x1_S800000_n_0_0_1 : ScatterDims S25000 S800000x1 S800000 where
  updateWindowDims := []
  insertedWindowDims := [0]
  scatterDimsToOperandDims := [0]
  indexVectorDim := 1
  wf := scatter_S25000_S800000x1_S800000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S25000x128_S800000x1_S800000x128_1_0_0_1 : ScatterDims S25000x128 S800000x1 S800000x128 where
  updateWindowDims := [1]
  insertedWindowDims := [0]
  scatterDimsToOperandDims := [0]
  indexVectorDim := 1
  wf := scatter_S25000x128_S800000x1_S800000x128_1_0_0_1_wf
def gather_S25000x128_S800000x1_S800000x128_1_0_n_n_0_1_1128 : GatherDims S25000x128 S800000x1 S800000x128 where
  offsetDims := [1]
  collapsedSliceDims := [0]
  operandBatchingDims := []
  startIndicesBatchingDims := []
  startIndexMap := [0]
  indexVectorDim := 1
  sliceSizes := ![1, 128]
  wf := gather_S25000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S16x128_S100000x1_S100000x128_1_0_0_1 : ScatterDims S16x128 S100000x1 S100000x128 where
  updateWindowDims := [1]
  insertedWindowDims := [0]
  scatterDimsToOperandDims := [0]
  indexVectorDim := 1
  wf := scatter_S16x128_S100000x1_S100000x128_1_0_0_1_wf
def scatter_S16_S100000x1_S100000_n_0_0_1 : ScatterDims S16 S100000x1 S100000 where
  updateWindowDims := []
  insertedWindowDims := [0]
  scatterDimsToOperandDims := [0]
  indexVectorDim := 1
  wf := scatter_S16_S100000x1_S100000_n_0_0_1_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S16x128_S128x64_S16x64_1_0_0_1_n_n : DotDims S16x128 S128x64 S16x64 where
  lhsContracting := [1]
  rhsContracting := [0]
  lhsNonContracting := [0]
  rhsNonContracting := [1]
  lhsBatch := []
  rhsBatch := []
  wf := dot_S16x128_S128x64_S16x64_1_0_0_1_n_n_wf
def dot_S16x64_S64x32_S16x32_1_0_0_1_n_n : DotDims S16x64 S64x32 S16x32 where
  lhsContracting := [1]
  rhsContracting := [0]
  lhsNonContracting := [0]
  rhsNonContracting := [1]
  lhsBatch := []
  rhsBatch := []
  wf := dot_S16x64_S64x32_S16x32_1_0_0_1_n_n_wf
def dot_S16x32_S32x4_S16x4_1_0_0_1_n_n : DotDims S16x32 S32x4 S16x4 where
  lhsContracting := [1]
  rhsContracting := [0]
  lhsNonContracting := [0]
  rhsNonContracting := [1]
  lhsBatch := []
  rhsBatch := []
  wf := dot_S16x32_S32x4_S16x4_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v43_1) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v67) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v78) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v55) S16x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v91) S16x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v92) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v93) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg11) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg12) S128x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg13) S64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg14) S64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg15) S64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_arg16) S64.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_arg17) S64.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_arg18) S64x32.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_arg19) S32.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_arg20) S32.size cc5_transform_13 reads5_13 false true 1 stage5_13 sem5_13
    hrank5 hreads5_13 hinb5_13 nbuf5_13 (Memref.isWhole_whole _) hwx5_13 hstage5_13

abbrev win5_14 : Pipeline.Window sig grid5 :=
  Pipeline.Window.ofSpec (Memref.whole main_arg21) S32.size cc5_transform_14 reads5_14 false true 1 stage5_14 sem5_14
    hrank5 hreads5_14 hinb5_14 nbuf5_14 (Memref.isWhole_whole _) hwx5_14 hstage5_14

abbrev win5_15 : Pipeline.Window sig grid5 :=
  Pipeline.Window.ofSpec (Memref.whole main_arg22) S32.size cc5_transform_15 reads5_15 false true 1 stage5_15 sem5_15
    hrank5 hreads5_15 hinb5_15 nbuf5_15 (Memref.isWhole_whole _) hwx5_15 hstage5_15

abbrev win5_16 : Pipeline.Window sig grid5 :=
  Pipeline.Window.ofSpec (Memref.whole main_arg23) S32.size cc5_transform_16 reads5_16 false true 1 stage5_16 sem5_16
    hrank5 hreads5_16 hinb5_16 nbuf5_16 (Memref.isWhole_whole _) hwx5_16 hstage5_16

abbrev win5_17 : Pipeline.Window sig grid5 :=
  Pipeline.Window.ofSpec (Memref.whole main_arg24) S32x4.size cc5_transform_17 reads5_17 false true 1 stage5_17 sem5_17
    hrank5 hreads5_17 hinb5_17 nbuf5_17 (Memref.isWhole_whole _) hwx5_17 hstage5_17

abbrev win5_18 : Pipeline.Window sig grid5 :=
  Pipeline.Window.ofSpec (Memref.whole main_v94) S16x4.size cc5_transform_18 reads5_18 true true 1 stage5_18 sem5_18
    hrank5 hreads5_18 hinb5_18 nbuf5_18 (Memref.isWhole_whole _) hwx5_18 hstage5_18

abbrev win5 : Fin 19 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | 14 => win5_14 | 15 => win5_15 | 16 => win5_16 | 17 => win5_17 | 18 => win5_18 | ⟨_ + 19, h⟩ => absurd h (Nat.not_lt.2 (Nat.le_add_left _ _))
abbrev spec5 : Fin 19 → Pipeline.WinSpec sig grid5.rank := fun w => (win5 w).toWinSpec

class Facts : Prop extends Facts₀ where

variable [Facts]
-- ==== ReferenceIdeal.lean ====
abbrev S100000x64 : Shape := ⟨2, ![100000, 64]⟩
abbrev S800000 : Shape := ⟨1, ![800000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x4 : Shape := ⟨2, ![32, 4]⟩
abbrev S100000x128 : Shape := ⟨2, ![100000, 128]⟩
abbrev S1x128 : Shape := ⟨2, ![1, 128]⟩
abbrev S_ : Shape := ⟨0, ![]⟩
abbrev S800000x1 : Shape := ⟨2, ![800000, 1]⟩
abbrev S25000 : Shape := ⟨1, ![25000]⟩
abbrev S800000x128 : Shape := ⟨2, ![800000, 128]⟩
abbrev S25000x128 : Shape := ⟨2, ![25000, 128]⟩
abbrev S25000x1 : Shape := ⟨2, ![25000, 1]⟩
abbrev S100000x1 : Shape := ⟨2, ![100000, 1]⟩
abbrev S16x128 : Shape := ⟨2, ![16, 128]⟩
abbrev S16 : Shape := ⟨1, ![16]⟩
abbrev S16x1 : Shape := ⟨2, ![16, 1]⟩
abbrev S16x256 : Shape := ⟨2, ![16, 256]⟩
abbrev S16x64 : Shape := ⟨2, ![16, 64]⟩
abbrev S1x64 : Shape := ⟨2, ![1, 64]⟩
abbrev S16x32 : Shape := ⟨2, ![16, 32]⟩
abbrev S1x32 : Shape := ⟨2, ![1, 32]⟩
abbrev S16x4 : Shape := ⟨2, ![16, 4]⟩

abbrev nBuf : Space → Nat
  | .hbm => 254
  | .vmem => 0
  | .smem => 0
  | _ => 0

abbrev hbmTy0_0 (i : Nat) : BufTy := match i % 128 with
  | 0 => ⟨S100000x64, .f32⟩
  | 1 => ⟨S800000, .i32⟩
  | 2 => ⟨S800000, .i32⟩
  | 3 => ⟨S100000, .i32⟩
  | 4 => ⟨S64x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S256x128, .f32⟩
  | 11 => ⟨S128, .f32⟩
  | 12 => ⟨S128x64, .f32⟩
  | 13 => ⟨S64, .f32⟩
  | 14 => ⟨S64, .f32⟩
  | 15 => ⟨S64, .f32⟩
  | 16 => ⟨S64, .f32⟩
  | 17 => ⟨S64, .f32⟩
  | 18 => ⟨S64x32, .f32⟩
  | 19 => ⟨S32, .f32⟩
  | 20 => ⟨S32, .f32⟩
  | 21 => ⟨S32, .f32⟩
  | 22 => ⟨S32, .f32⟩
  | 23 => ⟨S32, .f32⟩
  | 24 => ⟨S32x4, .f32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S100000x128, .f32⟩
  | 33 => ⟨S_, .f32⟩
  | 34 => ⟨S800000, .f32⟩
  | 35 => ⟨S_, .f32⟩
  | 36 => ⟨S100000, .f32⟩
  | 37 => ⟨S800000x1, .i32⟩
  | 38 => ⟨S100000, .f32⟩
  | 39 => ⟨S_, .f32⟩
  | 40 => ⟨S100000, .f32⟩
  | 41 => ⟨S100000, .i1⟩
  | 42 => ⟨S_, .f32⟩
  | 43 => ⟨S100000, .f32⟩
  | 44 => ⟨S100000, .f32⟩
  | 45 => ⟨S_, .f32⟩
  | 46 => ⟨S_, .f32⟩
  | 47 => ⟨S100000, .f32⟩
  | 48 => ⟨S100000, .f32⟩
  | 49 => ⟨S_, .f32⟩
  | 50 => ⟨S25000, .f32⟩
  | 51 => ⟨S800000x1, .i32⟩
  | 52 => ⟨S25000, .f32⟩
  | 53 => ⟨S_, .f32⟩
  | 54 => ⟨S25000, .f32⟩
  | 55 => ⟨S25000, .i1⟩
  | 56 => ⟨S_, .f32⟩
  | 57 => ⟨S25000, .f32⟩
  | 58 => ⟨S25000, .f32⟩
  | 59 => ⟨S_, .f32⟩
  | 60 => ⟨S_, .f32⟩
  | 61 => ⟨S25000, .f32⟩
  | 62 => ⟨S25000, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x128, .f32⟩
  | 72 => ⟨S_, .f32⟩
  | 73 => ⟨S25000x128, .f32⟩
  | 74 => ⟨S800000x1, .i32⟩
  | 75 => ⟨S25000x128, .f32⟩
  | 76 => ⟨S25000x1, .f32⟩
  | 77 => ⟨S25000x128, .f32⟩
  | 78 => ⟨S25000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S_, .f32⟩
  | 89 => ⟨S100000x128, .f32⟩
  | 90 => ⟨S800000x1, .i32⟩
  | 91 => ⟨S100000x128, .f32⟩
  | 92 => ⟨S100000x1, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S_, .f32⟩
  | 102 => ⟨S16x128, .f32⟩
  | 103 => ⟨S100000x1, .i32⟩
  | 104 => ⟨S16x128, .f32⟩
  | 105 => ⟨S_, .f32⟩
  | 106 => ⟨S100000, .f32⟩
  | 107 => ⟨S_, .f32⟩
  | 108 => ⟨S16, .f32⟩
  | 109 => ⟨S100000x1, .i32⟩
  | 110 => ⟨S16, .f32⟩
  | 111 => ⟨S_, .f32⟩
  | 112 => ⟨S16, .f32⟩
  | 113 => ⟨S16, .f32⟩
  | 114 => ⟨S16x1, .f32⟩
  | 115 => ⟨S16x128, .f32⟩
  | 116 => ⟨S16x128, .f32⟩
  | 117 => ⟨S100000x128, .f32⟩
  | 118 => ⟨S_, .f32⟩
  | 119 => ⟨S800000, .f32⟩
  | 120 => ⟨S_, .f32⟩
  | 121 => ⟨S100000, .f32⟩
  | 122 => ⟨S800000x1, .i32⟩
  | 123 => ⟨S100000, .f32⟩
  | 124 => ⟨S_, .f32⟩
  | 125 => ⟨S100000, .f32⟩
  | 126 => ⟨S100000, .i1⟩
  | 127 => ⟨S_, .f32⟩
  | _ => ⟨S100000x64, .f32⟩

abbrev hbmTy0_1 (i : Nat) : BufTy := match i % 128 with
  | 0 => ⟨S100000, .f32⟩
  | 1 => ⟨S100000, .f32⟩
  | 2 => ⟨S_, .f32⟩
  | 3 => ⟨S_, .f32⟩
  | 4 => ⟨S100000, .f32⟩
  | 5 => ⟨S100000, .f32⟩
  | 6 => ⟨S_, .f32⟩
  | 7 => ⟨S25000, .f32⟩
  | 8 => ⟨S800000x1, .i32⟩
  | 9 => ⟨S25000, .f32⟩
  | 10 => ⟨S_, .f32⟩
  | 11 => ⟨S25000, .f32⟩
  | 12 => ⟨S25000, .i1⟩
  | 13 => ⟨S_, .f32⟩
  | 14 => ⟨S25000, .f32⟩
  | 15 => ⟨S25000, .f32⟩
  | 16 => ⟨S_, .f32⟩
  | 17 => ⟨S_, .f32⟩
  | 18 => ⟨S25000, .f32⟩
  | 19 => ⟨S25000, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S25000x128, .f32⟩
  | 31 => ⟨S800000x1, .i32⟩
  | 32 => ⟨S25000x128, .f32⟩
  | 33 => ⟨S25000x1, .f32⟩
  | 34 => ⟨S25000x128, .f32⟩
  | 35 => ⟨S25000x128, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x128, .f32⟩
  | 45 => ⟨S_, .f32⟩
  | 46 => ⟨S100000x128, .f32⟩
  | 47 => ⟨S800000x1, .i32⟩
  | 48 => ⟨S100000x128, .f32⟩
  | 49 => ⟨S100000x1, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .f32⟩
  | 59 => ⟨S16x128, .f32⟩
  | 60 => ⟨S100000x1, .i32⟩
  | 61 => ⟨S16x128, .f32⟩
  | 62 => ⟨S_, .f32⟩
  | 63 => ⟨S100000, .f32⟩
  | 64 => ⟨S_, .f32⟩
  | 65 => ⟨S16, .f32⟩
  | 66 => ⟨S100000x1, .i32⟩
  | 67 => ⟨S16, .f32⟩
  | 68 => ⟨S_, .f32⟩
  | 69 => ⟨S16, .f32⟩
  | 70 => ⟨S16, .f32⟩
  | 71 => ⟨S16x1, .f32⟩
  | 72 => ⟨S16x128, .f32⟩
  | 73 => ⟨S16x128, .f32⟩
  | 74 => ⟨S16x256, .f32⟩
  | 75 => ⟨S16x128, .f32⟩
  | 76 => ⟨S1x128, .f32⟩
  | 77 => ⟨S16x128, .f32⟩
  | 78 => ⟨S16x128, .f32⟩
  | 79 => ⟨S16x64, .f32⟩
  | 80 => ⟨S1x64, .f32⟩
  | 81 => ⟨S16x64, .f32⟩
  | 82 => ⟨S16x64, .f32⟩
  | 83 => ⟨S1x64, .f32⟩
  | 84 => ⟨S16x64, .f32⟩
  | 85 => ⟨S16x64, .f32⟩
  | 86 => ⟨S_, .f32⟩
  | 87 => ⟨S64, .f32⟩
  | 88 => ⟨S64, .f32⟩
  | 89 => ⟨S64, .f32⟩
  | 90 => ⟨S1x64, .f32⟩
  | 91 => ⟨S16x64, .f32⟩
  | 92 => ⟨S16x64, .f32⟩
  | 93 => ⟨S1x64, .f32⟩
  | 94 => ⟨S16x64, .f32⟩
  | 95 => ⟨S16x64, .f32⟩
  | 96 => ⟨S1x64, .f32⟩
  | 97 => ⟨S16x64, .f32⟩
  | 98 => ⟨S16x64, .f32⟩
  | 99 => ⟨S_, .f32⟩
  | 100 => ⟨S16x64, .f32⟩
  | 101 => ⟨S16x64, .f32⟩
  | 102 => ⟨S16x32, .f32⟩
  | 103 => ⟨S1x32, .f32⟩
  | 104 => ⟨S16x32, .f32⟩
  | 105 => ⟨S16x32, .f32⟩
  | 106 => ⟨S1x32, .f32⟩
  | 107 => ⟨S16x32, .f32⟩
  | 108 => ⟨S16x32, .f32⟩
  | 109 => ⟨S_, .f32⟩
  | 110 => ⟨S32, .f32⟩
  | 111 => ⟨S32, .f32⟩
  | 112 => ⟨S32, .f32⟩
  | 113 => ⟨S1x32, .f32⟩
  | 114 => ⟨S16x32, .f32⟩
  | 115 => ⟨S16x32, .f32⟩
  | 116 => ⟨S1x32, .f32⟩
  | 117 => ⟨S16x32, .f32⟩
  | 118 => ⟨S16x32, .f32⟩
  | 119 => ⟨S1x32, .f32⟩
  | 120 => ⟨S16x32, .f32⟩
  | 121 => ⟨S16x32, .f32⟩
  | 122 => ⟨S_, .f32⟩
  | 123 => ⟨S16x32, .f32⟩
  | 124 => ⟨S16x32, .f32⟩
  | 125 => ⟨S16x4, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_call0_cst : Ref sig .tc := ⟨.hbm, 29, rfl⟩
abbrev main_call0_v0 : Ref sig .tc := ⟨.hbm, 30, rfl⟩
abbrev main_v4 : Ref sig .tc := ⟨.hbm, 31, rfl⟩
abbrev main_v5 : Ref sig .tc := ⟨.hbm, 32, rfl⟩
abbrev main_cst : Ref sig .tc := ⟨.hbm, 33, rfl⟩
abbrev main_v6 : Ref sig .tc := ⟨.hbm, 34, rfl⟩
abbrev main_cst_0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_v11 : Ref sig .tc := ⟨.hbm, 41, rfl⟩
abbrev main_cst_2 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_v14 : Ref sig .tc := ⟨.hbm, 48, rfl⟩
abbrev main_cst_4 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_5 : Ref sig .tc := ⟨.hbm, 53, rfl⟩
abbrev main_v18 : Ref sig .tc := ⟨.hbm, 54, rfl⟩
abbrev main_v19 : Ref sig .tc := ⟨.hbm, 55, rfl⟩
abbrev main_cst_6 : Ref sig .tc := ⟨.hbm, 56, rfl⟩
abbrev main_v20 : Ref sig .tc := ⟨.hbm, 57, rfl⟩
abbrev main_v21 : Ref sig .tc := ⟨.hbm, 58, rfl⟩
abbrev main_cst_7 : Ref sig .tc := ⟨.hbm, 59, rfl⟩
abbrev main_call2_v0 : Ref sig .tc := ⟨.hbm, 60, rfl⟩
abbrev main_call2_v1 : Ref sig .tc := ⟨.hbm, 61, rfl⟩
abbrev main_v22 : Ref sig .tc := ⟨.hbm, 62, rfl⟩
abbrev main_c : Ref sig .tc := ⟨.hbm, 63, rfl⟩
abbrev main_v23 : Ref sig .tc := ⟨.hbm, 64, rfl⟩
abbrev main_v24 : Ref sig .tc := ⟨.hbm, 65, rfl⟩
abbrev main_c_8 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_9 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_c_10 : Ref sig .tc := ⟨.hbm, 79, rfl⟩
abbrev main_v36 : Ref sig .tc := ⟨.hbm, 80, rfl⟩
abbrev main_v37 : Ref sig .tc := ⟨.hbm, 81, rfl⟩
abbrev main_c_11 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_cst_12 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_call3_cst : Ref sig .tc := ⟨.hbm, 98, rfl⟩
abbrev main_call3_v0 : Ref sig .tc := ⟨.hbm, 99, rfl⟩
abbrev main_v52 : Ref sig .tc := ⟨.hbm, 100, rfl⟩
abbrev main_cst_13 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_14 : Ref sig .tc := ⟨.hbm, 105, rfl⟩
abbrev main_v56 : Ref sig .tc := ⟨.hbm, 106, rfl⟩
abbrev main_cst_15 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst_16 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_cst_17 : Ref sig .tc := ⟨.hbm, 118, rfl⟩
abbrev main_v66 : Ref sig .tc := ⟨.hbm, 119, rfl⟩
abbrev main_cst_18 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_19 : Ref sig .tc := ⟨.hbm, 124, rfl⟩
abbrev main_v70 : Ref sig .tc := ⟨.hbm, 125, rfl⟩
abbrev main_v71 : Ref sig .tc := ⟨.hbm, 126, rfl⟩
abbrev main_cst_20 : Ref sig .tc := ⟨.hbm, 127, rfl⟩
abbrev main_v72 : Ref sig .tc := ⟨.hbm, 128, rfl⟩
abbrev main_v73 : Ref sig .tc := ⟨.hbm, 129, rfl⟩
abbrev main_cst_21 : Ref sig .tc := ⟨.hbm, 130, rfl⟩
abbrev main_call4_v0 : Ref sig .tc := ⟨.hbm, 131, rfl⟩
abbrev main_call4_v1 : Ref sig .tc := ⟨.hbm, 132, rfl⟩
abbrev main_v74 : Ref sig .tc := ⟨.hbm, 133, rfl⟩
abbrev main_cst_22 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_cst_23 : Ref sig .tc := ⟨.hbm, 138, rfl⟩
abbrev main_v78 : Ref sig .tc := ⟨.hbm, 139, rfl⟩
abbrev main_v79 : Ref sig .tc := ⟨.hbm, 140, rfl⟩
abbrev main_cst_24 : Ref sig .tc := ⟨.hbm, 141, rfl⟩
abbrev main_v80 : Ref sig .tc := ⟨.hbm, 142, rfl⟩
abbrev main_v81 : Ref sig .tc := ⟨.hbm, 143, rfl⟩
abbrev main_cst_25 : Ref sig .tc := ⟨.hbm, 144, rfl⟩
abbrev main_call5_v0 : Ref sig .tc := ⟨.hbm, 145, rfl⟩
abbrev main_call5_v1 : Ref sig .tc := ⟨.hbm, 146, rfl⟩
abbrev main_v82 : Ref sig .tc := ⟨.hbm, 147, rfl⟩
abbrev main_c_26 : Ref sig .tc := ⟨.hbm, 148, rfl⟩
abbrev main_v83 : Ref sig .tc := ⟨.hbm, 149, rfl⟩
abbrev main_v84 : Ref sig .tc := ⟨.hbm, 150, rfl⟩
abbrev main_c_27 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_cst_28 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_c_29 : Ref sig .tc := ⟨.hbm, 164, rfl⟩
abbrev main_v96 : Ref sig .tc := ⟨.hbm, 165, rfl⟩
abbrev main_v97 : Ref sig .tc := ⟨.hbm, 166, rfl⟩
abbrev main_c_30 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_cst_31 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_call6_cst : Ref sig .tc := ⟨.hbm, 183, rfl⟩
abbrev main_call6_v0 : Ref sig .tc := ⟨.hbm, 184, rfl⟩
abbrev main_v112 : Ref sig .tc := ⟨.hbm, 185, rfl⟩
abbrev main_cst_32 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_cst_33 : Ref sig .tc := ⟨.hbm, 190, rfl⟩
abbrev main_v116 : Ref sig .tc := ⟨.hbm, 191, rfl⟩
abbrev main_cst_34 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_cst_35 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_cst_36 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_call7_cst : Ref sig .tc := ⟨.hbm, 227, rfl⟩
abbrev main_call7_v0 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_cst_37 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_call8_cst : Ref sig .tc := ⟨.hbm, 250, rfl⟩
abbrev main_call8_v0 : Ref sig .tc := ⟨.hbm, 251, rfl⟩
abbrev main_v169 : Ref sig .tc := ⟨.hbm, 252, rfl⟩
abbrev main_v170 : Ref sig .tc := ⟨.hbm, 253, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S25000 : S_.BroadcastsInDim S25000 (![] : Fin 0 → Fin S25000.rank)
  bcast_S_S25000x128 : S_.BroadcastsInDim S25000x128 (![] : Fin 0 → Fin S25000x128.rank)
  bcast_S25000_S25000x1_0 : S25000.BroadcastsInDim S25000x1 (![0] : Fin 1 → Fin S25000x1.rank)
  bcast_S25000x1_S25000x128_0_1 : S25000x1.BroadcastsInDim S25000x128 (![0, 1] : Fin 2 → Fin S25000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S16x128 : S_.BroadcastsInDim S16x128 (![] : Fin 0 → Fin S16x128.rank)
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  concatenates_S16x128_S16x128_S16x256_d1 : Shape.Concatenates [S16x128, S16x128] S16x256 1
  bcast_S1x128_S16x128_0_1 : S1x128.BroadcastsInDim S16x128 (![0, 1] : Fin 2 → Fin S16x128.rank)
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  bcast_S_S64 : S_.BroadcastsInDim S64 (![] : Fin 0 → Fin S64.rank)
  bcast_S_S16x64 : S_.BroadcastsInDim S16x64 (![] : Fin 0 → Fin S16x64.rank)
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  bcast_S_S32 : S_.BroadcastsInDim S32 (![] : Fin 0 → Fin S32.rank)
  bcast_S_S16x32 : S_.BroadcastsInDim S16x32 (![] : Fin 0 → Fin S16x32.rank)
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  scatter_S100000_S800000x1_S800000_n_0_0_1_wf : ScatterDims.WF S100000 S800000x1 S800000 [] [0] [0] 1
  scatter_S25000_S800000x1_S800000_n_0_0_1_wf : ScatterDims.WF S25000 S800000x1 S800000 [] [0] [0] 1
  gather_S100000x128_S800000x1_S800000x128_1_0_n_n_0_1_1128_wf : GatherDims.WF S100000x128 S800000x1 S800000x128 [1] [0] [] [0] [] 1 ![1, 128]
  scatter_S25000x128_S800000x1_S800000x128_1_0_0_1_wf : ScatterDims.WF S25000x128 S800000x1 S800000x128 [1] [0] [0] 1
  gather_S25000x128_S800000x1_S800000x128_1_0_n_n_0_1_1128_wf : GatherDims.WF S25000x128 S800000x1 S800000x128 [1] [0] [] [0] [] 1 ![1, 128]
  scatter_S100000x128_S800000x1_S800000x128_1_0_0_1_wf : ScatterDims.WF S100000x128 S800000x1 S800000x128 [1] [0] [0] 1
  scatter_S16x128_S100000x1_S100000x128_1_0_0_1_wf : ScatterDims.WF S16x128 S100000x1 S100000x128 [1] [0] [0] 1
  scatter_S16_S100000x1_S100000_n_0_0_1_wf : ScatterDims.WF S16 S100000x1 S100000 [] [0] [0] 1
  dot_S16x256_S256x128_S16x128_1_0_0_1_n_n_wf : DotDims.WF S16x256 S256x128 S16x128 [1] [0] [0] [1] [] []
  dot_S16x128_S128x64_S16x64_1_0_0_1_n_n_wf : DotDims.WF S16x128 S128x64 S16x64 [1] [0] [0] [1] [] []
  dot_S16x64_S64x32_S16x32_1_0_0_1_n_n_wf : DotDims.WF S16x64 S64x32 S16x32 [1] [0] [0] [1] [] []
  dot_S16x32_S32x4_S16x4_1_0_0_1_n_n_wf : DotDims.WF S16x32 S32x4 S16x4 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def scatter_S25000_S800000x1_S800000_n_0_0_1 : ScatterDims S25000 S800000x1 S800000 where
  updateWindowDims := []
  insertedWindowDims := [0]
  scatterDimsToOperandDims := [0]
  indexVectorDim := 1
  wf := scatter_S25000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S25000x128_S800000x1_S800000x128_1_0_0_1 : ScatterDims S25000x128 S800000x1 S800000x128 where
  updateWindowDims := [1]
  insertedWindowDims := [0]
  scatterDimsToOperandDims := [0]
  indexVectorDim := 1
  wf := scatter_S25000x128_S800000x1_S800000x128_1_0_0_1_wf
def gather_S25000x128_S800000x1_S800000x128_1_0_n_n_0_1_1128 : GatherDims S25000x128 S800000x1 S800000x128 where
  offsetDims := [1]
  collapsedSliceDims := [0]
  operandBatchingDims := []
  startIndicesBatchingDims := []
  startIndexMap := [0]
  indexVectorDim := 1
  sliceSizes := ![1, 128]
  wf := gather_S25000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S16x128_S100000x1_S100000x128_1_0_0_1 : ScatterDims S16x128 S100000x1 S100000x128 where
  updateWindowDims := [1]
  insertedWindowDims := [0]
  scatterDimsToOperandDims := [0]
  indexVectorDim := 1
  wf := scatter_S16x128_S100000x1_S100000x128_1_0_0_1_wf
def scatter_S16_S100000x1_S100000_n_0_0_1 : ScatterDims S16 S100000x1 S100000 where
  updateWindowDims := []
  insertedWindowDims := [0]
  scatterDimsToOperandDims := [0]
  indexVectorDim := 1
  wf := scatter_S16_S100000x1_S100000_n_0_0_1_wf
def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S16x128_S128x64_S16x64_1_0_0_1_n_n : DotDims S16x128 S128x64 S16x64 where
  lhsContracting := [1]
  rhsContracting := [0]
  lhsNonContracting := [0]
  rhsNonContracting := [1]
  lhsBatch := []
  rhsBatch := []
  wf := dot_S16x128_S128x64_S16x64_1_0_0_1_n_n_wf
def dot_S16x64_S64x32_S16x32_1_0_0_1_n_n : DotDims S16x64 S64x32 S16x32 where
  lhsContracting := [1]
  rhsContracting := [0]
  lhsNonContracting := [0]
  rhsNonContracting := [1]
  lhsBatch := []
  rhsBatch := []
  wf := dot_S16x64_S64x32_S16x32_1_0_0_1_n_n_wf
def dot_S16x32_S32x4_S16x4_1_0_0_1_n_n : DotDims S16x32 S32x4 S16x4 where
  lhsContracting := [1]
  rhsContracting := [0]
  lhsNonContracting := [0]
  rhsNonContracting := [1]
  lhsBatch := []
  rhsBatch := []
  wf := dot_S16x32_S32x4_S16x4_1_0_0_1_n_n_wf

class Facts : Prop extends Facts₀ where

variable [Facts]
-- ==== Proof.RefRunPartsA.lean ====
/-
  The reference's @main in pieces (1 … 7 of 21): consecutive slices of its operation list, cut where a stage of the
  computation is complete. Folded over a piece from ANY valuation that holds the earlier stages and the arguments it
  reads, each buffer a later piece reads holds the reference's stage function of the arguments: the fold is computed
  at the buffer, the hypotheses rewritten in, and the stage functions of the buffers the piece writes unfolded — the two
  sides are then one term (the inlined calls' operands pass through the identity transport between a buffer's type and its
  value's, which computes away once the valuation is a variable). A buffer a piece does not write keeps its contents.
-/
import proofs.«170622_j83494164234284_2_alg».proof.Proof.Gen.ReferenceIdeal
import proofs.«170622_j83494164234284_2_alg».proof.Proof.RefRead
import Idealize.ShloMosaic.Lib.StableHlo.Run

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

/-- An operation whose one written buffer is among the listed ones writes inside the list. -/
private theorem ws {Val : EltTy → Type} {Wl : List (Ref sig .tc)} {op : HloOp τ sig Val} {y : Ref sig .tc}
    (h : op.writes = {Proc.devRef .tc y}) (hy : y ∈ Wl) : op.writes ⊆ (Wl.map (Proc.devRef (τ := τ) .tc)).toFinset := by
  rw [h, Finset.singleton_subset_iff, List.mem_toFinset]; exact List.mem_map.mpr ⟨y, hy, rfl⟩

/-! ### Piece 1: operations 0 … 7 — writes main_v0 … main_v5; read later: main_v5 -/

/-- The operations of this piece, in @main's order. -/
abbrev p1 : List (HloOp τ sig (Elt F)) :=
  [ binary main_arg0 main_arg4 main_v0 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    unary main_arg5 main_v1 (broadcastInDim S1x128 ![1] bcast_S128_S1x128_1 : (⟨S128, .f32⟩ : BufTy).Contents (Elt F) → (⟨S1x128, .f32⟩ : BufTy).Contents (Elt F)),
    unary main_v1 main_v2 (broadcastInDim S100000x128 ![0, 1] bcast_S1x128_S100000x128_0_1 : (⟨S1x128, .f32⟩ : BufTy).Contents (Elt F) → (⟨S100000x128, .f32⟩ : BufTy).Contents (Elt F)),
    binary main_v0 main_v2 main_v3 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v3) (TRef.of (T := ⟨S100000x128, .f32⟩) main_call0_v0) (TRef.of (T := ⟨S100000x128, .f32⟩) main_v4) maximumf,
    binary main_v4 main_arg6 main_v5 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The buffers this piece writes, one per operation. -/
abbrev wl1 : List (Ref sig .tc) := [main_v0, main_v1, main_v2, main_v3, main_call0_cst, main_call0_v0, main_v4, main_v5]
theorem hw1 : (p1 : List (HloOp τ sig (Elt F))).Forall fun op => op.writes ⊆ ((wl1).map (Proc.devRef (τ := τ) .tc)).toFinset :=
  ⟨ws (y := main_v0) rfl (by decide), ws (y := main_v1) rfl (by decide), ws (y := main_v2) rfl (by decide), ws (y := main_v3) rfl (by decide), ws (y := main_call0_cst) rfl (by decide), ws (y := main_call0_v0) rfl (by decide), ws (y := main_v4) rfl (by decide), ws (y := main_v5) rfl (by decide)⟩
/-- A buffer this piece does not write keeps its contents. -/
theorem keep1 (W : Valuation τ sig (Elt F)) (r : Ref sig .tc) (hr : r ∉ wl1) :
    after p1 W (Proc.devRef .tc r) = W (Proc.devRef .tc r) := after_of_writes_sub p1 W hw1 hr
theorem sub1 : (p1 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub ..⟩
theorem fresh1 : (p1 : List (HloOp τ sig (Elt F))).Forall fun op => op.fresh = ∅ :=
  ⟨rfl, rfl, rfl, rfl, rfl, rfl, rfl, rfl⟩

set_option maxHeartbeats 400000 in
/-- Folded over this piece, the buffer main_v5 holds the reference's stage of the same name. -/
theorem piece1_v5 (W : Valuation τ sig (Elt F)) (x0 : (⟨S100000x64, .f32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F))
    (h0 : W (Proc.devRef .tc main_arg0) = x0)
    (h4 : W (Proc.devRef .tc main_arg4) = x4)
    (h5 : W (Proc.devRef .tc main_arg5) = x5)
    (h6 : W (Proc.devRef .tc main_arg6) = x6) :
    after p1 W (Proc.devRef .tc main_v5) = ReadP.val_main_v5 (F := F) x0 x4 x5 x6 := by
  subst h0 h4 h5 h6
  dsimp only [p1]
  after_results_simp
  simp only [ReadP.val_main_v0, ReadP.val_main_v1, ReadP.val_main_v2, ReadP.val_main_v3, ReadP.val_main_call0_cst, ReadP.val_main_call0_v0, ReadP.val_main_v4, ReadP.val_main_v5] <;> rfl

/-! ### Piece 2: operations 8 … 23 — writes main_cst … main_v14; read later: main_v6, main_v14 -/

/-- The operations of this piece, in @main's order. -/
abbrev p2 : List (HloOp τ sig (Elt F)) :=
  [ nullary main_cst (constant S_ .f32 0x3F800000#32),
    unary main_cst main_v6 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v7 (broadcastInDim S100000 ![] bcast_S_S100000 : (⟨S_, .f32⟩ : BufTy).Contents (Elt F) → (⟨S100000, .f32⟩ : BufTy).Contents (Elt F)),
    unary main_arg1 main_v8 (broadcastInDim S800000x1 ![0] bcast_S800000_S800000x1_0 : (⟨S800000, .i32⟩ : BufTy).Contents (Elt F) → (⟨S800000x1, .i32⟩ : BufTy).Contents (Elt F)),
    ternary main_v7 main_v8 main_v6 main_v9 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_1 (constant S_ .f32 0x00000000#32),
    unary main_cst_1 main_v10 (broadcastInDim S100000 ![] bcast_S_S100000 : (⟨S_, .f32⟩ : BufTy).Contents (Elt F) → (⟨S100000, .f32⟩ : BufTy).Contents (Elt F)),
    binary main_v9 main_v10 main_v11 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v12 (broadcastInDim S100000 ![] bcast_S_S100000 : (⟨S_, .f32⟩ : BufTy).Contents (Elt F) → (⟨S100000, .f32⟩ : BufTy).Contents (Elt F)),
    binary main_v12 main_v9 main_v13 (Host.divf : (⟨S100000, .f32⟩ : BufTy).Contents (Elt F) → (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v11) (TRef.of (T := ⟨S100000, .f32⟩) main_v13) (TRef.of (T := ⟨S100000, .f32⟩) main_call1_v1) (TRef.of (T := ⟨S100000, .f32⟩) main_v14) select ]
/-- The buffers this piece writes, one per operation. -/
abbrev wl2 : List (Ref sig .tc) := [main_cst, main_v6, main_cst_0, main_v7, main_v8, main_v9, main_cst_1, main_v10, main_v11, main_cst_2, main_v12, main_v13, main_cst_3, main_call1_v0, main_call1_v1, main_v14]
theorem hw2 : (p2 : List (HloOp τ sig (Elt F))).Forall fun op => op.writes ⊆ ((wl2).map (Proc.devRef (τ := τ) .tc)).toFinset :=
  ⟨ws (y := main_cst) rfl (by decide), ws (y := main_v6) rfl (by decide), ws (y := main_cst_0) rfl (by decide), ws (y := main_v7) rfl (by decide), ws (y := main_v8) rfl (by decide), ws (y := main_v9) rfl (by decide), ws (y := main_cst_1) rfl (by decide), ws (y := main_v10) rfl (by decide), ws (y := main_v11) rfl (by decide), ws (y := main_cst_2) rfl (by decide), ws (y := main_v12) rfl (by decide), ws (y := main_v13) rfl (by decide), ws (y := main_cst_3) rfl (by decide), ws (y := main_call1_v0) rfl (by decide), ws (y := main_call1_v1) rfl (by decide), ws (y := main_v14) rfl (by decide)⟩
/-- A buffer this piece does not write keeps its contents. -/
theorem keep2 (W : Valuation τ sig (Elt F)) (r : Ref sig .tc) (hr : r ∉ wl2) :
    after p2 W (Proc.devRef .tc r) = W (Proc.devRef .tc r) := after_of_writes_sub p2 W hw2 hr
theorem sub2 : (p2 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub ..⟩
theorem fresh2 : (p2 : List (HloOp τ sig (Elt F))).Forall fun op => op.fresh = ∅ :=
  ⟨rfl, rfl, rfl, rfl, rfl, rfl, rfl, rfl, rfl, rfl, rfl, rfl, rfl, rfl, rfl, rfl⟩

set_option maxHeartbeats 400000 in
/-- Folded over this piece, the buffer main_v6 holds the reference's stage of the same name. -/
theorem piece2_v6 (W : Valuation τ sig (Elt F)) (x1 : (⟨S800000, .i32⟩ : BufTy).Contents (Elt F))
    (h1 : W (Proc.devRef .tc main_arg1) = x1) :
    after p2 W (Proc.devRef .tc main_v6) = ReadP.val_main_v6 (F := F) := by
  subst h1
  dsimp only [p2]
  after_results_simp
  simp only [ReadP.val_main_cst, ReadP.val_main_v6, ReadP.val_main_cst_0, ReadP.val_main_v7, ReadP.val_main_v8, ReadP.val_main_v9, ReadP.val_main_cst_1, ReadP.val_main_v10, ReadP.val_main_v11, ReadP.val_main_cst_2, ReadP.val_main_v12, ReadP.val_main_v13, ReadP.val_main_cst_3, ReadP.val_main_call1_v0, ReadP.val_main_call1_v1, ReadP.val_main_v14] <;> rfl

set_option maxHeartbeats 400000 in
/-- Folded over this piece, the buffer main_v14 holds the reference's stage of the same name. -/
theorem piece2_v14 (W : Valuation τ sig (Elt F)) (x1 : (⟨S800000, .i32⟩ : BufTy).Contents (Elt F))
    (h1 : W (Proc.devRef .tc main_arg1) = x1) :
    after p2 W (Proc.devRef .tc main_v14) = ReadP.val_main_v14 (F := F) x1 := by
  subst h1
  dsimp only [p2]
  after_results_simp
  simp only [ReadP.val_main_cst, ReadP.val_main_v6, ReadP.val_main_cst_0, ReadP.val_main_v7, ReadP.val_main_v8, ReadP.val_main_v9, ReadP.val_main_cst_1, ReadP.val_main_v10, ReadP.val_main_v11, ReadP.val_main_cst_2, ReadP.val_main_v12, ReadP.val_main_v13, ReadP.val_main_cst_3, ReadP.val_main_call1_v0, ReadP.val_main_call1_v1, ReadP.val_main_v14] <;> rfl

/-! ### Piece 3: operations 24 … 37 — writes main_cst_4 … main_v22; read later: main_v22 -/

/-- The operations of this piece, in @main's order. -/
abbrev p3 : List (HloOp τ sig (Elt F)) :=
  [ nullary main_cst_4 (constant S_ .f32 0x00000000#32),
    unary main_cst_4 main_v15 (broadcastInDim S25000 ![] bcast_S_S25000 : (⟨S_, .f32⟩ : BufTy).Contents (Elt F) → (⟨S25000, .f32⟩ : BufTy).Contents (Elt F)),
    unary main_arg2 main_v16 (broadcastInDim S800000x1 ![0] bcast_S800000_S800000x1_0 : (⟨S800000, .i32⟩ : BufTy).Contents (Elt F) → (⟨S800000x1, .i32⟩ : BufTy).Contents (Elt F)),
    ternary main_v15 main_v16 main_v6 main_v17 ((fun x i u => Host.scatterAdd scatter_S25000_S800000x1_S800000_n_0_0_1 x i u) : (⟨S25000, .f32⟩ : BufTy).Contents (Elt F) → (⟨S800000x1, .i32⟩ : BufTy).Contents (Elt F) → (⟨S800000, .f32⟩ : BufTy).Contents (Elt F) → (⟨S25000, .f32⟩ : BufTy).Contents (Elt F)),
    nullary main_cst_5 (constant S_ .f32 0x00000000#32),
    unary main_cst_5 main_v18 (broadcastInDim S25000 ![] bcast_S_S25000 : (⟨S_, .f32⟩ : BufTy).Contents (Elt F) → (⟨S25000, .f32⟩ : BufTy).Contents (Elt F)),
    binary main_v17 main_v18 main_v19 (cmpf .ogt : (⟨S25000, .f32⟩ : BufTy).Contents (Elt F) → (⟨S25000, .f32⟩ : BufTy).Contents (Elt F) → (⟨S25000, .i1⟩ : BufTy).Contents (Elt F)),
    nullary main_cst_6 (constant S_ .f32 0x3F800000#32),
    unary main_cst_6 main_v20 (broadcastInDim S25000 ![] bcast_S_S25000 : (⟨S_, .f32⟩ : BufTy).Contents (Elt F) → (⟨S25000, .f32⟩ : BufTy).Contents (Elt F)),
    binary main_v20 main_v17 main_v21 (Host.divf : (⟨S25000, .f32⟩ : BufTy).Contents (Elt F) → (⟨S25000, .f32⟩ : BufTy).Contents (Elt F) → (⟨S25000, .f32⟩ : BufTy).Contents (Elt F)),
    nullary main_cst_7 (constant S_ .f32 0x00000000#32),
    TRef.unary (TRef.of (T := ⟨S_, .f32⟩) main_cst_7) (TRef.of (T := ⟨S_, .f32⟩) main_call2_v0) id,
    TRef.unary (TRef.of (T := ⟨S_, .f32⟩) main_call2_v0) (TRef.of (T := ⟨S25000, .f32⟩) main_call2_v1) (broadcastInDim S25000 ![] bcast_S_S25000),
    TRef.ternary (TRef.of (T := ⟨S25000, .i1⟩) main_v19) (TRef.of (T := ⟨S25000, .f32⟩) main_v21) (TRef.of (T := ⟨S25000, .f32⟩) main_call2_v1) (TRef.of (T := ⟨S25000, .f32⟩) main_v22) select ]
/-- The buffers this piece writes, one per operation. -/
abbrev wl3 : List (Ref sig .tc) := [main_cst_4, main_v15, main_v16, main_v17, main_cst_5, main_v18, main_v19, main_cst_6, main_v20, main_v21, main_cst_7, main_call2_v0, main_call2_v1, main_v22]
theorem hw3 : (p3 : List (HloOp τ sig (Elt F))).Forall fun op => op.writes ⊆ ((wl3).map (Proc.devRef (τ := τ) .tc)).toFinset :=
  ⟨ws (y := main_cst_4) rfl (by decide), ws (y := main_v15) rfl (by decide), ws (y := main_v16) rfl (by decide), ws (y := main_v17) rfl (by decide), ws (y := main_cst_5) rfl (by decide), ws (y := main_v18) rfl (by decide), ws (y := main_v19) rfl (by decide), ws (y := main_cst_6) rfl (by decide), ws (y := main_v20) rfl (by decide), ws (y := main_v21) rfl (by decide), ws (y := main_cst_7) rfl (by decide), ws (y := main_call2_v0) rfl (by decide), ws (y := main_call2_v1) rfl (by decide), ws (y := main_v22) rfl (by decide)⟩
/-- A buffer this piece does not write keeps its contents. -/
theorem keep3 (W : Valuation τ sig (Elt F)) (r : Ref sig .tc) (hr : r ∉ wl3) :
    after p3 W (Proc.devRef .tc r) = W (Proc.devRef .tc r) := after_of_writes_sub p3 W hw3 hr
theorem sub3 : (p3 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub ..⟩
theorem fresh3 : (p3 : List (HloOp τ sig (Elt F))).Forall fun op => op.fresh = ∅ :=
  ⟨rfl, rfl, rfl, rfl, rfl, rfl, rfl, rfl, rfl, rfl, rfl, rfl, rfl, rfl⟩

set_option maxHeartbeats 400000 in
/-- Folded over this piece, the buffer main_v22 holds the reference's stage of the same name. -/
theorem piece3_v22 (W : Valuation τ sig (Elt F)) (x2 : (⟨S800000, .i32⟩ : BufTy).Contents (Elt F))
    (h2 : W (Proc.devRef .tc main_arg2) = x2)
    (h_v6 : W (Proc.devRef .tc main_v6) = ReadP.val_main_v6 (F := F)) :
    after p3 W (Proc.devRef .tc main_v22) = ReadP.val_main_v22 (F := F) x2 := by
  subst h2
  dsimp only [p3]
  after_results_simp
  try rw [h_v6]
  simp only [ReadP.val_main_cst_4, ReadP.val_main_v15, ReadP.val_main_v16, ReadP.val_main_v17, ReadP.val_main_cst_5, ReadP.val_main_v18, ReadP.val_main_v19, ReadP.val_main_cst_6, ReadP.val_main_v20, ReadP.val_main_v21, ReadP.val_main_cst_7, ReadP.val_main_call2_v0, ReadP.val_main_call2_v1, ReadP.val_main_v22] <;> rfl

/-! ### Piece 4: operations 38 … 50 — writes main_c … main_v32; read later: main_v32 -/

/-- The operations of this piece, in @main's order. -/
abbrev p4 : List (HloOp τ sig (Elt F)) :=
  [ nullary main_c (constantI S_ 32 0#32),
    unary main_c main_v23 (broadcastInDim S800000 ![] bcast_S_S800000 : (⟨S_, .i32⟩ : BufTy).Contents (Elt F) → (⟨S800000, .i32⟩ : BufTy).Contents (Elt F)),
    binary main_arg1 main_v23 main_v24 (cmpi .slt : (⟨S800000, .i32⟩ : BufTy).Contents (Elt F) → (⟨S800000, .i32⟩ : BufTy).Contents (Elt F) → (⟨S800000, .i1⟩ : BufTy).Contents (Elt F)),
    nullary main_c_8 (constantI S_ 32 100000#32),
    unary main_c_8 main_v25 (broadcastInDim S800000 ![] bcast_S_S800000 : (⟨S_, .i32⟩ : BufTy).Contents (Elt F) → (⟨S800000, .i32⟩ : BufTy).Contents (Elt F)),
    binary main_arg1 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_arg1 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v5 main_v28 main_v29 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    nullary main_cst_9 (constant S_ .f32 0x00000000#32),
    unary main_cst_9 main_v30 (broadcastInDim S25000x128 ![] bcast_S_S25000x128 : (⟨S_, .f32⟩ : BufTy).Contents (Elt F) → (⟨S25000x128, .f32⟩ : BufTy).Contents (Elt F)),
    unary main_arg2 main_v31 (broadcastInDim S800000x1 ![0] bcast_S800000_S800000x1_0 : (⟨S800000, .i32⟩ : BufTy).Contents (Elt F) → (⟨S800000x1, .i32⟩ : BufTy).Contents (Elt F)),
    ternary main_v30 main_v31 main_v29 main_v32 ((fun x i u => Host.scatterAdd scatter_S25000x128_S800000x1_S800000x128_1_0_0_1 x i u) : (⟨S25000x128, .f32⟩ : BufTy).Contents (Elt F) → (⟨S800000x1, .i32⟩ : BufTy).Contents (Elt F) → (⟨S800000x128, .f32⟩ : BufTy).Contents (Elt F) → (⟨S25000x128, .f32⟩ : BufTy).Contents (Elt F)) ]
/-- The buffers this piece writes, one per operation. -/
abbrev wl4 : List (Ref sig .tc) := [main_c, main_v23, main_v24, main_c_8, main_v25, main_v26, main_v27, main_v28, main_v29, main_cst_9, main_v30, main_v31, main_v32]
theorem hw4 : (p4 : List (HloOp τ sig (Elt F))).Forall fun op => op.writes ⊆ ((wl4).map (Proc.devRef (τ := τ) .tc)).toFinset :=
  ⟨ws (y := main_c) rfl (by decide), ws (y := main_v23) rfl (by decide), ws (y := main_v24) rfl (by decide), ws (y := main_c_8) rfl (by decide), ws (y := main_v25) rfl (by decide), ws (y := main_v26) rfl (by decide), ws (y := main_v27) rfl (by decide), ws (y := main_v28) rfl (by decide), ws (y := main_v29) rfl (by decide), ws (y := main_cst_9) rfl (by decide), ws (y := main_v30) rfl (by decide), ws (y := main_v31) rfl (by decide), ws (y := main_v32) rfl (by decide)⟩
/-- A buffer this piece does not write keeps its contents. -/
theorem keep4 (W : Valuation τ sig (Elt F)) (r : Ref sig .tc) (hr : r ∉ wl4) :
    after p4 W (Proc.devRef .tc r) = W (Proc.devRef .tc r) := after_of_writes_sub p4 W hw4 hr
theorem sub4 : (p4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem fresh4 : (p4 : List (HloOp τ sig (Elt F))).Forall fun op => op.fresh = ∅ :=
  ⟨rfl, rfl, rfl, rfl, rfl, rfl, rfl, rfl, rfl, rfl, rfl, rfl, rfl⟩

set_option maxHeartbeats 400000 in
/-- Folded over this piece, the buffer main_v32 holds the reference's stage of the same name. -/
theorem piece4_v32 (W : Valuation τ sig (Elt F)) (x0 : (⟨S100000x64, .f32⟩ : BufTy).Contents (Elt F)) (x1 : (⟨S800000, .i32⟩ : BufTy).Contents (Elt F)) (x2 : (⟨S800000, .i32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F))
    (h1 : W (Proc.devRef .tc main_arg1) = x1)
    (h2 : W (Proc.devRef .tc main_arg2) = x2)
    (h_v5 : W (Proc.devRef .tc main_v5) = ReadP.val_main_v5 (F := F) x0 x4 x5 x6) :
    after p4 W (Proc.devRef .tc main_v32) = ReadP.val_main_v32 (F := F) x0 x1 x2 x4 x5 x6 := by
  subst h1 h2
  dsimp only [p4]
  after_results_simp
  try rw [h_v5]
  simp only [ReadP.val_main_c, ReadP.val_main_v23, ReadP.val_main_v24, ReadP.val_main_c_8, ReadP.val_main_v25, ReadP.val_main_v26, ReadP.val_main_v27, ReadP.val_main_v28, ReadP.val_main_v29, ReadP.val_main_cst_9, ReadP.val_main_v30, ReadP.val_main_v31, ReadP.val_main_v32] <;> rfl

/-! ### Piece 5: operations 51 … 53 — writes main_v33 … main_v35; read later: main_v35 -/

/-- The operations of this piece, in @main's order. -/
abbrev p5 : List (HloOp τ sig (Elt F)) :=
  [ unary main_v22 main_v33 (broadcastInDim S25000x1 ![0] bcast_S25000_S25000x1_0 : (⟨S25000, .f32⟩ : BufTy).Contents (Elt F) → (⟨S25000x1, .f32⟩ : BufTy).Contents (Elt F)),
    unary main_v33 main_v34 (broadcastInDim S25000x128 ![0, 1] bcast_S25000x1_S25000x128_0_1 : (⟨S25000x1, .f32⟩ : BufTy).Contents (Elt F) → (⟨S25000x128, .f32⟩ : BufTy).Contents (Elt F)),
    binary main_v32 main_v34 main_v35 (mulf : (⟨S25000x128, .f32⟩ : BufTy).Contents (Elt F) → (⟨S25000x128, .f32⟩ : BufTy).Contents (Elt F) → (⟨S25000x128, .f32⟩ : BufTy).Contents (Elt F)) ]
/-- The buffers this piece writes, one per operation. -/
abbrev wl5 : List (Ref sig .tc) := [main_v33, main_v34, main_v35]
theorem hw5 : (p5 : List (HloOp τ sig (Elt F))).Forall fun op => op.writes ⊆ ((wl5).map (Proc.devRef (τ := τ) .tc)).toFinset :=
  ⟨ws (y := main_v33) rfl (by decide), ws (y := main_v34) rfl (by decide), ws (y := main_v35) rfl (by decide)⟩
/-- A buffer this piece does not write keeps its contents. -/
theorem keep5 (W : Valuation τ sig (Elt F)) (r : Ref sig .tc) (hr : r ∉ wl5) :
    after p5 W (Proc.devRef .tc r) = W (Proc.devRef .tc r) := after_of_writes_sub p5 W hw5 hr
theorem sub5 : (p5 : List (HloOp τ sig (Elt F))).Forall fun op => op.bufs ⊆ tcRefs τ sig :=
  ⟨unary_bufs_sub .., unary_bufs_sub .., binary_bufs_sub ..⟩
theorem fresh5 : (p5 : List (HloOp τ sig (Elt F))).Forall fun op => op.fresh = ∅ :=
  ⟨rfl, rfl, rfl⟩

set_option maxHeartbeats 400000 in
/-- Folded over this piece, the buffer main_v35 holds the reference's stage of the same name. -/
theorem piece5_v35 (W : Valuation τ sig (Elt F)) (x0 : (⟨S100000x64, .f32⟩ : BufTy).Contents (Elt F)) (x1 : (⟨S800000, .i32⟩ : BufTy).Contents (Elt F)) (x2 : (⟨S800000, .i32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F))
    (h_v22 : W (Proc.devRef .tc main_v22) = ReadP.val_main_v22 (F := F) x2)
    (h_v32 : W (Proc.devRef .tc main_v32) = ReadP.val_main_v32 (F := F) x0 x1 x2 x4 x5 x6) :
    after p5 W (Proc.devRef .tc main_v35) = ReadP.val_main_v35 (F := F) x0 x1 x2 x4 x5 x6 := by
  dsimp only [p5]
  after_results_simp
  try rw [h_v22, h_v32]
  simp only [ReadP.val_main_v33, ReadP.val_main_v34, ReadP.val_main_v35] <;> rfl

/-! ### Piece 6: operations 54 … 65 — writes main_c_10 … main_v44; read later: main_v42, main_v43, main_v44 -/

/-- The operations of this piece, in @main's order. -/
abbrev p6 : List (HloOp τ sig (Elt F)) :=
  [ nullary main_c_10 (constantI S_ 32 0#32),
    unary main_c_10 main_v36 (broadcastInDim S800000 ![] bcast_S_S800000 : (⟨S_, .i32⟩ : BufTy).Contents (Elt F) → (⟨S800000, .i32⟩ : BufTy).Contents (Elt F)),
    binary main_arg2 main_v36 main_v37 (cmpi .slt : (⟨S800000, .i32⟩ : BufTy).Contents (Elt F) → (⟨S800000, .i32⟩ : BufTy).Contents (Elt F) → (⟨S800000, .i1⟩ : BufTy).Contents (Elt F)),
    nullary main_c_11 (constantI S_ 32 25000#32),
    unary main_c_11 main_v38 (broadcastInDim S800000 ![] bcast_S_S800000 : (⟨S_, .i32⟩ : BufTy).Contents (Elt F) → (⟨S800000, .i32⟩ : BufTy).Contents (Elt F)),
    binary main_arg2 main_v38 main_v39 (addi : (⟨S800000, .i32⟩ : BufTy).Contents (Elt F) → (⟨S800000, .i32⟩ : BufTy).Contents (Elt F) → (⟨S800000, .i32⟩ : BufTy).Contents (Elt F)),
    ternary main_v37 main_v39 main_arg2 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v40 main_v41 (broadcastInDim S800000x1 ![0] bcast_S800000_S800000x1_0 : (⟨S800000, .i32⟩ : BufTy).Contents (Elt F) → (⟨S800000x1, .i32⟩ : BufTy).Contents (Elt F)),
    binary main_v35 main_v41 main_v42 ((fun x i => Host.gather gather_S25000x128_S800000x1_S800000x128_1_0_n_n_0_1_1128 x i) : (⟨S25000x128, .f32⟩ : BufTy).Contents (Elt F) → (⟨S800000x1, .i32⟩ : BufTy).Contents (Elt F) → (⟨S800000x128, .f32⟩ : BufTy).Contents (Elt F)),
    nullary main_cst_12 (constant S_ .f32 0x00000000#32),
    unary main_cst_12 main_v43 (broadcastInDim S100000x128 ![] bcast_S_S100000x128 : (⟨S_, .f32⟩ : BufTy).Contents (Elt F) → (⟨S100000x128, .f32⟩ : BufTy).Contents (Elt F)),
    unary main_arg1 main_v44 (broadcastInDim S800000x1 ![0] bcast_S800000_S800000x1_0 : (⟨S800000, .i32⟩ : BufTy).Contents (Elt F) → (⟨S800000x1, .i32⟩ : BufTy).Contents (Elt F)) ]
/-- The buffers this piece writes, one per operation. -/
abbrev wl6 : List (Ref sig .tc) := [main_c_10, main_v36, main_v37, main_c_11, main_v38, main_v39, main_v40, main_v41, main_v42, main_cst_12, main_v43, main_v44]
theorem hw6 : (p6 : List (HloOp τ sig (Elt F))).Forall fun op => op.writes ⊆ ((wl6).map (Proc.devRef (τ := τ) .tc)).toFinset :=
  ⟨ws (y := main_c_10) rfl (by decide), ws (y := main_v36) rfl (by decide), ws (y := main_v37) rfl (by decide), ws (y := main_c_11) rfl (by decide), ws (y := main_v38) rfl (by decide), ws (y := main_v39) rfl (by decide), ws (y := main_v40) rfl (by decide), ws (y := main_v41) rfl (by decide), ws (y := main_v42) rfl (by decide), ws (y := main_cst_12) rfl (by decide), ws (y := main_v43) rfl (by decide), ws (y := main_v44) rfl (by decide)⟩
/-- A buffer this piece does not write keeps its contents. -/
theorem keep6 (W : Valuation τ sig (Elt F)) (r : Ref sig .tc) (hr : r ∉ wl6) :
    after p6 W (Proc.devRef .tc r) = W (Proc.devRef .tc r) := after_of_writes_sub p6 W hw6 hr
theorem sub6 : (p6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩
theorem fresh6 : (p6 : List (HloOp τ sig (Elt F))).Forall fun op => op.fresh = ∅ :=
  ⟨rfl, rfl, rfl, rfl, rfl, rfl, rfl, rfl, rfl, rfl, rfl, rfl⟩

set_option maxHeartbeats 400000 in
/-- Folded over this piece, the buffer main_v42 holds the reference's stage of the same name. -/
theorem piece6_v42 (W : Valuation τ sig (Elt F)) (x0 : (⟨S100000x64, .f32⟩ : BufTy).Contents (Elt F)) (x1 : (⟨S800000, .i32⟩ : BufTy).Contents (Elt F)) (x2 : (⟨S800000, .i32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F))
    (h2 : W (Proc.devRef .tc main_arg2) = x2)
    (h1 : W (Proc.devRef .tc main_arg1) = x1)
    (h_v35 : W (Proc.devRef .tc main_v35) = ReadP.val_main_v35 (F := F) x0 x1 x2 x4 x5 x6) :
    after p6 W (Proc.devRef .tc main_v42) = ReadP.val_main_v42 (F := F) x0 x1 x2 x4 x5 x6 := by
  subst h2 h1
  dsimp only [p6]
  after_results_simp
  try rw [h_v35]
  simp only [ReadP.val_main_c_10, ReadP.val_main_v36, ReadP.val_main_v37, ReadP.val_main_c_11, ReadP.val_main_v38, ReadP.val_main_v39, ReadP.val_main_v40, ReadP.val_main_v41, ReadP.val_main_v42, ReadP.val_main_cst_12, ReadP.val_main_v43, ReadP.val_main_v44] <;> rfl

set_option maxHeartbeats 400000 in
/-- Folded over this piece, the buffer main_v43 holds the reference's stage of the same name. -/
theorem piece6_v43 (W : Valuation τ sig (Elt F)) (x0 : (⟨S100000x64, .f32⟩ : BufTy).Contents (Elt F)) (x1 : (⟨S800000, .i32⟩ : BufTy).Contents (Elt F)) (x2 : (⟨S800000, .i32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F))
    (h2 : W (Proc.devRef .tc main_arg2) = x2)
    (h1 : W (Proc.devRef .tc main_arg1) = x1)
    (h_v35 : W (Proc.devRef .tc main_v35) = ReadP.val_main_v35 (F := F) x0 x1 x2 x4 x5 x6) :
    after p6 W (Proc.devRef .tc main_v43) = ReadP.val_main_v43 (F := F) := by
  subst h2 h1
  dsimp only [p6]
  after_results_simp
  try rw [h_v35]
  simp only [ReadP.val_main_c_10, ReadP.val_main_v36, ReadP.val_main_v37, ReadP.val_main_c_11, ReadP.val_main_v38, ReadP.val_main_v39, ReadP.val_main_v40, ReadP.val_main_v41, ReadP.val_main_v42, ReadP.val_main_cst_12, ReadP.val_main_v43, ReadP.val_main_v44] <;> rfl

set_option maxHeartbeats 400000 in
/-- Folded over this piece, the buffer main_v44 holds the reference's stage of the same name. -/
theorem piece6_v44 (W : Valuation τ sig (Elt F)) (x0 : (⟨S100000x64, .f32⟩ : BufTy).Contents (Elt F)) (x1 : (⟨S800000, .i32⟩ : BufTy).Contents (Elt F)) (x2 : (⟨S800000, .i32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F))
    (h2 : W (Proc.devRef .tc main_arg2) = x2)
    (h1 : W (Proc.devRef .tc main_arg1) = x1)
    (h_v35 : W (Proc.devRef .tc main_v35) = ReadP.val_main_v35 (F := F) x0 x1 x2 x4 x5 x6) :
    after p6 W (Proc.devRef .tc main_v44) = ReadP.val_main_v44 (F := F) x1 := by
  subst h2 h1
  dsimp only [p6]
  after_results_simp
  try rw [h_v35]
  simp only [ReadP.val_main_c_10, ReadP.val_main_v36, ReadP.val_main_v37, ReadP.val_main_c_11, ReadP.val_main_v38, ReadP.val_main_v39, ReadP.val_main_v40, ReadP.val_main_v41, ReadP.val_main_v42, ReadP.val_main_cst_12, ReadP.val_main_v43, ReadP.val_main_v44] <;> rfl

/-! ### Piece 7: operations 66 … 75 — writes main_v45 … main_v52; read later: main_v52 -/

/-- The operations of this piece, in @main's order. -/
abbrev p7 : List (HloOp τ sig (Elt F)) :=
  [ ternary main_v43 main_v44 main_v42 main_v45 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    unary main_v14 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x128 ![0, 1] bcast_S100000x1_S100000x128_0_1 : (⟨S100000x1, .f32⟩ : BufTy).Contents (Elt F) → (⟨S100000x128, .f32⟩ : BufTy).Contents (Elt F)),
    binary main_v45 main_v47 main_v48 (mulf : (⟨S100000x128, .f32⟩ : BufTy).Contents (Elt F) → (⟨S100000x128, .f32⟩ : BufTy).Contents (Elt F) → (⟨S100000x128, .f32⟩ : BufTy).Contents (Elt F)),
    unary main_arg7 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v51) (TRef.of (T := ⟨S100000x128, .f32⟩) main_call3_v0) (TRef.of (T := ⟨S100000x128, .f32⟩) main_v52) maximumf ]
/-- The buffers this piece writes, one per operation. -/
abbrev wl7 : List (Ref sig .tc) := [main_v45, main_v46, main_v47, main_v48, main_v49, main_v50, main_v51, main_call3_cst, main_call3_v0, main_v52]
theorem hw7 : (p7 : List (HloOp τ sig (Elt F))).Forall fun op => op.writes ⊆ ((wl7).map (Proc.devRef (τ := τ) .tc)).toFinset :=
  ⟨ws (y := main_v45) rfl (by decide), ws (y := main_v46) rfl (by decide), ws (y := main_v47) rfl (by decide), ws (y := main_v48) rfl (by decide), ws (y := main_v49) rfl (by decide), ws (y := main_v50) rfl (by decide), ws (y := main_v51) rfl (by decide), ws (y := main_call3_cst) rfl (by decide), ws (y := main_call3_v0) rfl (by decide), ws (y := main_v52) rfl (by decide)⟩
/-- A buffer this piece does not write keeps its contents. -/
theorem keep7 (W : Valuation τ sig (Elt F)) (r : Ref sig .tc) (hr : r ∉ wl7) :
    after p7 W (Proc.devRef .tc r) = W (Proc.devRef .tc r) := after_of_writes_sub p7 W hw7 hr
theorem sub7 : (p7 : List (HloOp τ sig (Elt F))).Forall fun op => op.bufs ⊆ tcRefs τ sig :=
  ⟨ternary_bufs_sub .., unary_bufs_sub .., unary_bufs_sub .., binary_bufs_sub .., unary_bufs_sub .., unary_bufs_sub .., binary_bufs_sub .., nullary_bufs_sub .., unary_bufs_sub .., binary_bufs_sub ..⟩
theorem fresh7 : (p7 : List (HloOp τ sig (Elt F))).Forall fun op => op.fresh = ∅ :=
  ⟨rfl, rfl, rfl, rfl, rfl, rfl, rfl, rfl, rfl, rfl⟩

set_option maxHeartbeats 400000 in
/-- Folded over this piece, the buffer main_v52 holds the reference's stage of the same name. -/
theorem piece7_v52 (W : Valuation τ sig (Elt F)) (x0 : (⟨S100000x64, .f32⟩ : BufTy).Contents (Elt F)) (x1 : (⟨S800000, .i32⟩ : BufTy).Contents (Elt F)) (x2 : (⟨S800000, .i32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F))
    (h7 : W (Proc.devRef .tc main_arg7) = x7)
    (h_v43 : W (Proc.devRef .tc main_v43) = ReadP.val_main_v43 (F := F))
    (h_v44 : W (Proc.devRef .tc main_v44) = ReadP.val_main_v44 (F := F) x1)
    (h_v42 : W (Proc.devRef .tc main_v42) = ReadP.val_main_v42 (F := F) x0 x1 x2 x4 x5 x6)
    (h_v14 : W (Proc.devRef .tc main_v14) = ReadP.val_main_v14 (F := F) x1) :
    after p7 W (Proc.devRef .tc main_v52) = ReadP.val_main_v52 (F := F) x0 x1 x2 x4 x5 x6 x7 := by
  subst h7
  dsimp only [p7]
  after_results_simp
  try rw [h_v43, h_v44, h_v42, h_v14]
  simp only [ReadP.val_main_v45, ReadP.val_main_v46, ReadP.val_main_v47, ReadP.val_main_v48, ReadP.val_main_v49, ReadP.val_main_v50, ReadP.val_main_v51, ReadP.val_main_call3_cst, ReadP.val_main_call3_v0, ReadP.val_main_v52] <;> rfl

end Cert.ReferenceIdeal.ValueQ
-- ==== Proof.RefRunPartsB.lean ====
/-
  The reference's @main in pieces (8 … 14 of 21): consecutive slices of its operation list, cut where a stage of the
  computation is complete. Folded over a piece from ANY valuation that holds the earlier stages and the arguments it
  reads, each buffer a later piece reads holds the reference's stage function of the arguments: the fold is computed
  at the buffer, the hypotheses rewritten in, and the stage functions of the buffers the piece writes unfolded — the two
  sides are then one term (the inlined calls' operands pass through the identity transport between a buffer's type and its
  value's, which computes away once the valuation is a variable). A buffer a piece does not write keeps its contents.
-/
import proofs.«170622_j83494164234284_2_alg».proof.Proof.Gen.ReferenceIdeal
import proofs.«170622_j83494164234284_2_alg».proof.Proof.RefRead
import Idealize.ShloMosaic.Lib.StableHlo.Run

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

/-- An operation whose one written buffer is among the listed ones writes inside the list. -/
private theorem ws {Val : EltTy → Type} {Wl : List (Ref sig .tc)} {op : HloOp τ sig Val} {y : Ref sig .tc}
    (h : op.writes = {Proc.devRef .tc y}) (hy : y ∈ Wl) : op.writes ⊆ (Wl.map (Proc.devRef (τ := τ) .tc)).toFinset := by
  rw [h, Finset.singleton_subset_iff, List.mem_toFinset]; exact List.mem_map.mpr ⟨y, hy, rfl⟩

/-! ### Piece 8: operations 76 … 91 — writes main_cst_13 … main_v64; read later: main_v64 -/

/-- The operations of this piece, in @main's order. -/
abbrev p8 : List (HloOp τ sig (Elt F)) :=
  [ nullary main_cst_13 (constant S_ .f32 0x00000000#32),
    unary main_cst_13 main_v53 (broadcastInDim S16x128 ![] bcast_S_S16x128 : (⟨S_, .f32⟩ : BufTy).Contents (Elt F) → (⟨S16x128, .f32⟩ : BufTy).Contents (Elt F)),
    unary main_arg3 main_v54 (broadcastInDim S100000x1 ![0] bcast_S100000_S100000x1_0 : (⟨S100000, .i32⟩ : BufTy).Contents (Elt F) → (⟨S100000x1, .i32⟩ : BufTy).Contents (Elt F)),
    ternary main_v53 main_v54 main_v52 main_v55 ((fun x i u => Host.scatterAdd scatter_S16x128_S100000x1_S100000x128_1_0_0_1 x i u) : (⟨S16x128, .f32⟩ : BufTy).Contents (Elt F) → (⟨S100000x1, .i32⟩ : BufTy).Contents (Elt F) → (⟨S100000x128, .f32⟩ : BufTy).Contents (Elt F) → (⟨S16x128, .f32⟩ : BufTy).Contents (Elt F)),
    nullary main_cst_14 (constant S_ .f32 0x3F800000#32),
    unary main_cst_14 main_v56 (broadcastInDim S100000 ![] bcast_S_S100000 : (⟨S_, .f32⟩ : BufTy).Contents (Elt F) → (⟨S100000, .f32⟩ : BufTy).Contents (Elt F)),
    nullary main_cst_15 (constant S_ .f32 0x00000000#32),
    unary main_cst_15 main_v57 (broadcastInDim S16 ![] bcast_S_S16 : (⟨S_, .f32⟩ : BufTy).Contents (Elt F) → (⟨S16, .f32⟩ : BufTy).Contents (Elt F)),
    unary main_arg3 main_v58 (broadcastInDim S100000x1 ![0] bcast_S100000_S100000x1_0 : (⟨S100000, .i32⟩ : BufTy).Contents (Elt F) → (⟨S100000x1, .i32⟩ : BufTy).Contents (Elt F)),
    ternary main_v57 main_v58 main_v56 main_v59 ((fun x i u => Host.scatterAdd scatter_S16_S100000x1_S100000_n_0_0_1 x i u) : (⟨S16, .f32⟩ : BufTy).Contents (Elt F) → (⟨S100000x1, .i32⟩ : BufTy).Contents (Elt F) → (⟨S100000, .f32⟩ : BufTy).Contents (Elt F) → (⟨S16, .f32⟩ : BufTy).Contents (Elt F)),
    nullary main_cst_16 (constant S_ .f32 0x3F800000#32),
    unary main_cst_16 main_v60 (broadcastInDim S16 ![] bcast_S_S16 : (⟨S_, .f32⟩ : BufTy).Contents (Elt F) → (⟨S16, .f32⟩ : BufTy).Contents (Elt F)),
    binary main_v59 main_v60 main_v61 (maximumf : (⟨S16, .f32⟩ : BufTy).Contents (Elt F) → (⟨S16, .f32⟩ : BufTy).Contents (Elt F) → (⟨S16, .f32⟩ : BufTy).Contents (Elt F)),
    unary main_v61 main_v62 (broadcastInDim S16x1 ![0] bcast_S16_S16x1_0 : (⟨S16, .f32⟩ : BufTy).Contents (Elt F) → (⟨S16x1, .f32⟩ : BufTy).Contents (Elt F)),
    unary main_v62 main_v63 (broadcastInDim S16x128 ![0, 1] bcast_S16x1_S16x128_0_1 : (⟨S16x1, .f32⟩ : BufTy).Contents (Elt F) → (⟨S16x128, .f32⟩ : BufTy).Contents (Elt F)),
    binary main_v55 main_v63 main_v64 (Host.divf : (⟨S16x128, .f32⟩ : BufTy).Contents (Elt F) → (⟨S16x128, .f32⟩ : BufTy).Contents (Elt F) → (⟨S16x128, .f32⟩ : BufTy).Contents (Elt F)) ]
/-- The buffers this piece writes, one per operation. -/
abbrev wl8 : List (Ref sig .tc) := [main_cst_13, main_v53, main_v54, main_v55, main_cst_14, main_v56, main_cst_15, main_v57, main_v58, main_v59, main_cst_16, main_v60, main_v61, main_v62, main_v63, main_v64]
theorem hw8 : (p8 : List (HloOp τ sig (Elt F))).Forall fun op => op.writes ⊆ ((wl8).map (Proc.devRef (τ := τ) .tc)).toFinset :=
  ⟨ws (y := main_cst_13) rfl (by decide), ws (y := main_v53) rfl (by decide), ws (y := main_v54) rfl (by decide), ws (y := main_v55) rfl (by decide), ws (y := main_cst_14) rfl (by decide), ws (y := main_v56) rfl (by decide), ws (y := main_cst_15) rfl (by decide), ws (y := main_v57) rfl (by decide), ws (y := main_v58) rfl (by decide), ws (y := main_v59) rfl (by decide), ws (y := main_cst_16) rfl (by decide), ws (y := main_v60) rfl (by decide), ws (y := main_v61) rfl (by decide), ws (y := main_v62) rfl (by decide), ws (y := main_v63) rfl (by decide), ws (y := main_v64) rfl (by decide)⟩
/-- A buffer this piece does not write keeps its contents. -/
theorem keep8 (W : Valuation τ sig (Elt F)) (r : Ref sig .tc) (hr : r ∉ wl8) :
    after p8 W (Proc.devRef .tc r) = W (Proc.devRef .tc r) := after_of_writes_sub p8 W hw8 hr
theorem sub8 : (p8 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem fresh8 : (p8 : List (HloOp τ sig (Elt F))).Forall fun op => op.fresh = ∅ :=
  ⟨rfl, rfl, rfl, rfl, rfl, rfl, rfl, rfl, rfl, rfl, rfl, rfl, rfl, rfl, rfl, rfl⟩

set_option maxHeartbeats 400000 in
/-- Folded over this piece, the buffer main_v64 holds the reference's stage of the same name. -/
theorem piece8_v64 (W : Valuation τ sig (Elt F)) (x0 : (⟨S100000x64, .f32⟩ : BufTy).Contents (Elt F)) (x1 : (⟨S800000, .i32⟩ : BufTy).Contents (Elt F)) (x2 : (⟨S800000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F))
    (h3 : W (Proc.devRef .tc main_arg3) = x3)
    (h_v52 : W (Proc.devRef .tc main_v52) = ReadP.val_main_v52 (F := F) x0 x1 x2 x4 x5 x6 x7) :
    after p8 W (Proc.devRef .tc main_v64) = ReadP.val_main_v64 (F := F) x0 x1 x2 x3 x4 x5 x6 x7 := by
  subst h3
  dsimp only [p8]
  after_results_simp
  try rw [h_v52]
  simp only [ReadP.val_main_cst_13, ReadP.val_main_v53, ReadP.val_main_v54, ReadP.val_main_v55, ReadP.val_main_cst_14, ReadP.val_main_v56, ReadP.val_main_cst_15, ReadP.val_main_v57, ReadP.val_main_v58, ReadP.val_main_v59, ReadP.val_main_cst_16, ReadP.val_main_v60, ReadP.val_main_v61, ReadP.val_main_v62, ReadP.val_main_v63, ReadP.val_main_v64] <;> rfl

/-! ### Piece 9: operations 92 … 92 — writes main_v65 … main_v65; read later: main_v65 -/

/-- The operations of this piece, in @main's order. -/
abbrev p9 : List (HloOp τ sig (Elt F)) :=
  [ binary main_v52 main_arg8 main_v65 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The buffers this piece writes, one per operation. -/
abbrev wl9 : List (Ref sig .tc) := [main_v65]
theorem hw9 : (p9 : List (HloOp τ sig (Elt F))).Forall fun op => op.writes ⊆ ((wl9).map (Proc.devRef (τ := τ) .tc)).toFinset :=
  ws (y := main_v65) rfl (by decide)
/-- A buffer this piece does not write keeps its contents. -/
theorem keep9 (W : Valuation τ sig (Elt F)) (r : Ref sig .tc) (hr : r ∉ wl9) :
    after p9 W (Proc.devRef .tc r) = W (Proc.devRef .tc r) := after_of_writes_sub p9 W hw9 hr
theorem sub9 : (p9 : List (HloOp τ sig (Elt F))).Forall fun op => op.bufs ⊆ tcRefs τ sig :=
  binary_bufs_sub ..
theorem fresh9 : (p9 : List (HloOp τ sig (Elt F))).Forall fun op => op.fresh = ∅ :=
  rfl

set_option maxHeartbeats 400000 in
/-- Folded over this piece, the buffer main_v65 holds the reference's stage of the same name. -/
theorem piece9_v65 (W : Valuation τ sig (Elt F)) (x0 : (⟨S100000x64, .f32⟩ : BufTy).Contents (Elt F)) (x1 : (⟨S800000, .i32⟩ : BufTy).Contents (Elt F)) (x2 : (⟨S800000, .i32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F))
    (h8 : W (Proc.devRef .tc main_arg8) = x8)
    (h_v52 : W (Proc.devRef .tc main_v52) = ReadP.val_main_v52 (F := F) x0 x1 x2 x4 x5 x6 x7) :
    after p9 W (Proc.devRef .tc main_v65) = ReadP.val_main_v65 (F := F) x0 x1 x2 x4 x5 x6 x7 x8 := by
  subst h8
  dsimp only [p9]
  after_results_simp
  try rw [h_v52]
  simp only [ReadP.val_main_v65] <;> rfl

/-! ### Piece 10: operations 93 … 108 — writes main_cst_17 … main_v74; read later: main_v66, main_v74 -/

/-- The operations of this piece, in @main's order. -/
abbrev p10 : List (HloOp τ sig (Elt F)) :=
  [ nullary main_cst_17 (constant S_ .f32 0x3F800000#32),
    unary main_cst_17 main_v66 (broadcastInDim S800000 ![] bcast_S_S800000 : (⟨S_, .f32⟩ : BufTy).Contents (Elt F) → (⟨S800000, .f32⟩ : BufTy).Contents (Elt F)),
    nullary main_cst_18 (constant S_ .f32 0x00000000#32),
    unary main_cst_18 main_v67 (broadcastInDim S100000 ![] bcast_S_S100000 : (⟨S_, .f32⟩ : BufTy).Contents (Elt F) → (⟨S100000, .f32⟩ : BufTy).Contents (Elt F)),
    unary main_arg1 main_v68 (broadcastInDim S800000x1 ![0] bcast_S800000_S800000x1_0 : (⟨S800000, .i32⟩ : BufTy).Contents (Elt F) → (⟨S800000x1, .i32⟩ : BufTy).Contents (Elt F)),
    ternary main_v67 main_v68 main_v66 main_v69 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_19 (constant S_ .f32 0x00000000#32),
    unary main_cst_19 main_v70 (broadcastInDim S100000 ![] bcast_S_S100000 : (⟨S_, .f32⟩ : BufTy).Contents (Elt F) → (⟨S100000, .f32⟩ : BufTy).Contents (Elt F)),
    binary main_v69 main_v70 main_v71 (cmpf .ogt : (⟨S100000, .f32⟩ : BufTy).Contents (Elt F) → (⟨S100000, .f32⟩ : BufTy).Contents (Elt F) → (⟨S100000, .i1⟩ : BufTy).Contents (Elt F)),
    nullary main_cst_20 (constant S_ .f32 0x3F800000#32),
    unary main_cst_20 main_v72 (broadcastInDim S100000 ![] bcast_S_S100000 : (⟨S_, .f32⟩ : BufTy).Contents (Elt F) → (⟨S100000, .f32⟩ : BufTy).Contents (Elt F)),
    binary main_v72 main_v69 main_v73 (Host.divf : (⟨S100000, .f32⟩ : BufTy).Contents (Elt F) → (⟨S100000, .f32⟩ : BufTy).Contents (Elt F) → (⟨S100000, .f32⟩ : BufTy).Contents (Elt F)),
    nullary main_cst_21 (constant S_ .f32 0x00000000#32),
    TRef.unary (TRef.of (T := ⟨S_, .f32⟩) main_cst_21) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v71) (TRef.of (T := ⟨S100000, .f32⟩) main_v73) (TRef.of (T := ⟨S100000, .f32⟩) main_call4_v1) (TRef.of (T := ⟨S100000, .f32⟩) main_v74) select ]
/-- The buffers this piece writes, one per operation. -/
abbrev wl10 : List (Ref sig .tc) := [main_cst_17, main_v66, main_cst_18, main_v67, main_v68, main_v69, main_cst_19, main_v70, main_v71, main_cst_20, main_v72, main_v73, main_cst_21, main_call4_v0, main_call4_v1, main_v74]
theorem hw10 : (p10 : List (HloOp τ sig (Elt F))).Forall fun op => op.writes ⊆ ((wl10).map (Proc.devRef (τ := τ) .tc)).toFinset :=
  ⟨ws (y := main_cst_17) rfl (by decide), ws (y := main_v66) rfl (by decide), ws (y := main_cst_18) rfl (by decide), ws (y := main_v67) rfl (by decide), ws (y := main_v68) rfl (by decide), ws (y := main_v69) rfl (by decide), ws (y := main_cst_19) rfl (by decide), ws (y := main_v70) rfl (by decide), ws (y := main_v71) rfl (by decide), ws (y := main_cst_20) rfl (by decide), ws (y := main_v72) rfl (by decide), ws (y := main_v73) rfl (by decide), ws (y := main_cst_21) rfl (by decide), ws (y := main_call4_v0) rfl (by decide), ws (y := main_call4_v1) rfl (by decide), ws (y := main_v74) rfl (by decide)⟩
/-- A buffer this piece does not write keeps its contents. -/
theorem keep10 (W : Valuation τ sig (Elt F)) (r : Ref sig .tc) (hr : r ∉ wl10) :
    after p10 W (Proc.devRef .tc r) = W (Proc.devRef .tc r) := after_of_writes_sub p10 W hw10 hr
theorem sub10 : (p10 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub ..⟩
theorem fresh10 : (p10 : List (HloOp τ sig (Elt F))).Forall fun op => op.fresh = ∅ :=
  ⟨rfl, rfl, rfl, rfl, rfl, rfl, rfl, rfl, rfl, rfl, rfl, rfl, rfl, rfl, rfl, rfl⟩

set_option maxHeartbeats 400000 in
/-- Folded over this piece, the buffer main_v66 holds the reference's stage of the same name. -/
theorem piece10_v66 (W : Valuation τ sig (Elt F)) (x1 : (⟨S800000, .i32⟩ : BufTy).Contents (Elt F))
    (h1 : W (Proc.devRef .tc main_arg1) = x1) :
    after p10 W (Proc.devRef .tc main_v66) = ReadP.val_main_v66 (F := F) := by
  subst h1
  dsimp only [p10]
  after_results_simp
  simp only [ReadP.val_main_cst_17, ReadP.val_main_v66, ReadP.val_main_cst_18, ReadP.val_main_v67, ReadP.val_main_v68, ReadP.val_main_v69, ReadP.val_main_cst_19, ReadP.val_main_v70, ReadP.val_main_v71, ReadP.val_main_cst_20, ReadP.val_main_v72, ReadP.val_main_v73, ReadP.val_main_cst_21, ReadP.val_main_call4_v0, ReadP.val_main_call4_v1, ReadP.val_main_v74] <;> rfl

set_option maxHeartbeats 400000 in
/-- Folded over this piece, the buffer main_v74 holds the reference's stage of the same name. -/
theorem piece10_v74 (W : Valuation τ sig (Elt F)) (x1 : (⟨S800000, .i32⟩ : BufTy).Contents (Elt F))
    (h1 : W (Proc.devRef .tc main_arg1) = x1) :
    after p10 W (Proc.devRef .tc main_v74) = ReadP.val_main_v74 (F := F) x1 := by
  subst h1
  dsimp only [p10]
  after_results_simp
  simp only [ReadP.val_main_cst_17, ReadP.val_main_v66, ReadP.val_main_cst_18, ReadP.val_main_v67, ReadP.val_main_v68, ReadP.val_main_v69, ReadP.val_main_cst_19, ReadP.val_main_v70, ReadP.val_main_v71, ReadP.val_main_cst_20, ReadP.val_main_v72, ReadP.val_main_v73, ReadP.val_main_cst_21, ReadP.val_main_call4_v0, ReadP.val_main_call4_v1, ReadP.val_main_v74] <;> rfl

/-! ### Piece 11: operations 109 … 122 — writes main_cst_22 … main_v82; read later: main_v82 -/

/-- The operations of this piece, in @main's order. -/
abbrev p11 : List (HloOp τ sig (Elt F)) :=
  [ nullary main_cst_22 (constant S_ .f32 0x00000000#32),
    unary main_cst_22 main_v75 (broadcastInDim S25000 ![] bcast_S_S25000 : (⟨S_, .f32⟩ : BufTy).Contents (Elt F) → (⟨S25000, .f32⟩ : BufTy).Contents (Elt F)),
    unary main_arg2 main_v76 (broadcastInDim S800000x1 ![0] bcast_S800000_S800000x1_0 : (⟨S800000, .i32⟩ : BufTy).Contents (Elt F) → (⟨S800000x1, .i32⟩ : BufTy).Contents (Elt F)),
    ternary main_v75 main_v76 main_v66 main_v77 ((fun x i u => Host.scatterAdd scatter_S25000_S800000x1_S800000_n_0_0_1 x i u) : (⟨S25000, .f32⟩ : BufTy).Contents (Elt F) → (⟨S800000x1, .i32⟩ : BufTy).Contents (Elt F) → (⟨S800000, .f32⟩ : BufTy).Contents (Elt F) → (⟨S25000, .f32⟩ : BufTy).Contents (Elt F)),
    nullary main_cst_23 (constant S_ .f32 0x00000000#32),
    unary main_cst_23 main_v78 (broadcastInDim S25000 ![] bcast_S_S25000 : (⟨S_, .f32⟩ : BufTy).Contents (Elt F) → (⟨S25000, .f32⟩ : BufTy).Contents (Elt F)),
    binary main_v77 main_v78 main_v79 (cmpf .ogt : (⟨S25000, .f32⟩ : BufTy).Contents (Elt F) → (⟨S25000, .f32⟩ : BufTy).Contents (Elt F) → (⟨S25000, .i1⟩ : BufTy).Contents (Elt F)),
    nullary main_cst_24 (constant S_ .f32 0x3F800000#32),
    unary main_cst_24 main_v80 (broadcastInDim S25000 ![] bcast_S_S25000 : (⟨S_, .f32⟩ : BufTy).Contents (Elt F) → (⟨S25000, .f32⟩ : BufTy).Contents (Elt F)),
    binary main_v80 main_v77 main_v81 (Host.divf : (⟨S25000, .f32⟩ : BufTy).Contents (Elt F) → (⟨S25000, .f32⟩ : BufTy).Contents (Elt F) → (⟨S25000, .f32⟩ : BufTy).Contents (Elt F)),
    nullary main_cst_25 (constant S_ .f32 0x00000000#32),
    TRef.unary (TRef.of (T := ⟨S_, .f32⟩) main_cst_25) (TRef.of (T := ⟨S_, .f32⟩) main_call5_v0) id,
    TRef.unary (TRef.of (T := ⟨S_, .f32⟩) main_call5_v0) (TRef.of (T := ⟨S25000, .f32⟩) main_call5_v1) (broadcastInDim S25000 ![] bcast_S_S25000),
    TRef.ternary (TRef.of (T := ⟨S25000, .i1⟩) main_v79) (TRef.of (T := ⟨S25000, .f32⟩) main_v81) (TRef.of (T := ⟨S25000, .f32⟩) main_call5_v1) (TRef.of (T := ⟨S25000, .f32⟩) main_v82) select ]
/-- The buffers this piece writes, one per operation. -/
abbrev wl11 : List (Ref sig .tc) := [main_cst_22, main_v75, main_v76, main_v77, main_cst_23, main_v78, main_v79, main_cst_24, main_v80, main_v81, main_cst_25, main_call5_v0, main_call5_v1, main_v82]
theorem hw11 : (p11 : List (HloOp τ sig (Elt F))).Forall fun op => op.writes ⊆ ((wl11).map (Proc.devRef (τ := τ) .tc)).toFinset :=
  ⟨ws (y := main_cst_22) rfl (by decide), ws (y := main_v75) rfl (by decide), ws (y := main_v76) rfl (by decide), ws (y := main_v77) rfl (by decide), ws (y := main_cst_23) rfl (by decide), ws (y := main_v78) rfl (by decide), ws (y := main_v79) rfl (by decide), ws (y := main_cst_24) rfl (by decide), ws (y := main_v80) rfl (by decide), ws (y := main_v81) rfl (by decide), ws (y := main_cst_25) rfl (by decide), ws (y := main_call5_v0) rfl (by decide), ws (y := main_call5_v1) rfl (by decide), ws (y := main_v82) rfl (by decide)⟩
/-- A buffer this piece does not write keeps its contents. -/
theorem keep11 (W : Valuation τ sig (Elt F)) (r : Ref sig .tc) (hr : r ∉ wl11) :
    after p11 W (Proc.devRef .tc r) = W (Proc.devRef .tc r) := after_of_writes_sub p11 W hw11 hr
theorem sub11 : (p11 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub ..⟩
theorem fresh11 : (p11 : List (HloOp τ sig (Elt F))).Forall fun op => op.fresh = ∅ :=
  ⟨rfl, rfl, rfl, rfl, rfl, rfl, rfl, rfl, rfl, rfl, rfl, rfl, rfl, rfl⟩

set_option maxHeartbeats 400000 in
/-- Folded over this piece, the buffer main_v82 holds the reference's stage of the same name. -/
theorem piece11_v82 (W : Valuation τ sig (Elt F)) (x2 : (⟨S800000, .i32⟩ : BufTy).Contents (Elt F))
    (h2 : W (Proc.devRef .tc main_arg2) = x2)
    (h_v66 : W (Proc.devRef .tc main_v66) = ReadP.val_main_v66 (F := F)) :
    after p11 W (Proc.devRef .tc main_v82) = ReadP.val_main_v82 (F := F) x2 := by
  subst h2
  dsimp only [p11]
  after_results_simp
  try rw [h_v66]
  simp only [ReadP.val_main_cst_22, ReadP.val_main_v75, ReadP.val_main_v76, ReadP.val_main_v77, ReadP.val_main_cst_23, ReadP.val_main_v78, ReadP.val_main_v79, ReadP.val_main_cst_24, ReadP.val_main_v80, ReadP.val_main_v81, ReadP.val_main_cst_25, ReadP.val_main_call5_v0, ReadP.val_main_call5_v1, ReadP.val_main_v82] <;> rfl

/-! ### Piece 12: operations 123 … 131 — writes main_c_26 … main_v89; read later: main_v89 -/

/-- The operations of this piece, in @main's order. -/
abbrev p12 : List (HloOp τ sig (Elt F)) :=
  [ nullary main_c_26 (constantI S_ 32 0#32),
    unary main_c_26 main_v83 (broadcastInDim S800000 ![] bcast_S_S800000 : (⟨S_, .i32⟩ : BufTy).Contents (Elt F) → (⟨S800000, .i32⟩ : BufTy).Contents (Elt F)),
    binary main_arg1 main_v83 main_v84 (cmpi .slt : (⟨S800000, .i32⟩ : BufTy).Contents (Elt F) → (⟨S800000, .i32⟩ : BufTy).Contents (Elt F) → (⟨S800000, .i1⟩ : BufTy).Contents (Elt F)),
    nullary main_c_27 (constantI S_ 32 100000#32),
    unary main_c_27 main_v85 (broadcastInDim S800000 ![] bcast_S_S800000 : (⟨S_, .i32⟩ : BufTy).Contents (Elt F) → (⟨S800000, .i32⟩ : BufTy).Contents (Elt F)),
    binary main_arg1 main_v85 main_v86 (addi : (⟨S800000, .i32⟩ : BufTy).Contents (Elt F) → (⟨S800000, .i32⟩ : BufTy).Contents (Elt F) → (⟨S800000, .i32⟩ : BufTy).Contents (Elt F)),
    ternary main_v84 main_v86 main_arg1 main_v87 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v87 main_v88 (broadcastInDim S800000x1 ![0] bcast_S800000_S800000x1_0 : (⟨S800000, .i32⟩ : BufTy).Contents (Elt F) → (⟨S800000x1, .i32⟩ : BufTy).Contents (Elt F)),
    binary main_v65 main_v88 main_v89 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)) ]
/-- The buffers this piece writes, one per operation. -/
abbrev wl12 : List (Ref sig .tc) := [main_c_26, main_v83, main_v84, main_c_27, main_v85, main_v86, main_v87, main_v88, main_v89]
theorem hw12 : (p12 : List (HloOp τ sig (Elt F))).Forall fun op => op.writes ⊆ ((wl12).map (Proc.devRef (τ := τ) .tc)).toFinset :=
  ⟨ws (y := main_c_26) rfl (by decide), ws (y := main_v83) rfl (by decide), ws (y := main_v84) rfl (by decide), ws (y := main_c_27) rfl (by decide), ws (y := main_v85) rfl (by decide), ws (y := main_v86) rfl (by decide), ws (y := main_v87) rfl (by decide), ws (y := main_v88) rfl (by decide), ws (y := main_v89) rfl (by decide)⟩
/-- A buffer this piece does not write keeps its contents. -/
theorem keep12 (W : Valuation τ sig (Elt F)) (r : Ref sig .tc) (hr : r ∉ wl12) :
    after p12 W (Proc.devRef .tc r) = W (Proc.devRef .tc r) := after_of_writes_sub p12 W hw12 hr
theorem sub12 : (p12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩
theorem fresh12 : (p12 : List (HloOp τ sig (Elt F))).Forall fun op => op.fresh = ∅ :=
  ⟨rfl, rfl, rfl, rfl, rfl, rfl, rfl, rfl, rfl⟩

set_option maxHeartbeats 400000 in
/-- Folded over this piece, the buffer main_v89 holds the reference's stage of the same name. -/
theorem piece12_v89 (W : Valuation τ sig (Elt F)) (x0 : (⟨S100000x64, .f32⟩ : BufTy).Contents (Elt F)) (x1 : (⟨S800000, .i32⟩ : BufTy).Contents (Elt F)) (x2 : (⟨S800000, .i32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F))
    (h1 : W (Proc.devRef .tc main_arg1) = x1)
    (h_v65 : W (Proc.devRef .tc main_v65) = ReadP.val_main_v65 (F := F) x0 x1 x2 x4 x5 x6 x7 x8) :
    after p12 W (Proc.devRef .tc main_v89) = ReadP.val_main_v89 (F := F) x0 x1 x2 x4 x5 x6 x7 x8 := by
  subst h1
  dsimp only [p12]
  after_results_simp
  try rw [h_v65]
  simp only [ReadP.val_main_c_26, ReadP.val_main_v83, ReadP.val_main_v84, ReadP.val_main_c_27, ReadP.val_main_v85, ReadP.val_main_v86, ReadP.val_main_v87, ReadP.val_main_v88, ReadP.val_main_v89] <;> rfl

/-! ### Piece 13: operations 132 … 138 — writes main_cst_28 … main_v95; read later: main_v95 -/

/-- The operations of this piece, in @main's order. -/
abbrev p13 : List (HloOp τ sig (Elt F)) :=
  [ nullary main_cst_28 (constant S_ .f32 0x00000000#32),
    unary main_cst_28 main_v90 (broadcastInDim S25000x128 ![] bcast_S_S25000x128 : (⟨S_, .f32⟩ : BufTy).Contents (Elt F) → (⟨S25000x128, .f32⟩ : BufTy).Contents (Elt F)),
    unary main_arg2 main_v91 (broadcastInDim S800000x1 ![0] bcast_S800000_S800000x1_0 : (⟨S800000, .i32⟩ : BufTy).Contents (Elt F) → (⟨S800000x1, .i32⟩ : BufTy).Contents (Elt F)),
    ternary main_v90 main_v91 main_v89 main_v92 ((fun x i u => Host.scatterAdd scatter_S25000x128_S800000x1_S800000x128_1_0_0_1 x i u) : (⟨S25000x128, .f32⟩ : BufTy).Contents (Elt F) → (⟨S800000x1, .i32⟩ : BufTy).Contents (Elt F) → (⟨S800000x128, .f32⟩ : BufTy).Contents (Elt F) → (⟨S25000x128, .f32⟩ : BufTy).Contents (Elt F)),
    unary main_v82 main_v93 (broadcastInDim S25000x1 ![0] bcast_S25000_S25000x1_0 : (⟨S25000, .f32⟩ : BufTy).Contents (Elt F) → (⟨S25000x1, .f32⟩ : BufTy).Contents (Elt F)),
    unary main_v93 main_v94 (broadcastInDim S25000x128 ![0, 1] bcast_S25000x1_S25000x128_0_1 : (⟨S25000x1, .f32⟩ : BufTy).Contents (Elt F) → (⟨S25000x128, .f32⟩ : BufTy).Contents (Elt F)),
    binary main_v92 main_v94 main_v95 (mulf : (⟨S25000x128, .f32⟩ : BufTy).Contents (Elt F) → (⟨S25000x128, .f32⟩ : BufTy).Contents (Elt F) → (⟨S25000x128, .f32⟩ : BufTy).Contents (Elt F)) ]
/-- The buffers this piece writes, one per operation. -/
abbrev wl13 : List (Ref sig .tc) := [main_cst_28, main_v90, main_v91, main_v92, main_v93, main_v94, main_v95]
theorem hw13 : (p13 : List (HloOp τ sig (Elt F))).Forall fun op => op.writes ⊆ ((wl13).map (Proc.devRef (τ := τ) .tc)).toFinset :=
  ⟨ws (y := main_cst_28) rfl (by decide), ws (y := main_v90) rfl (by decide), ws (y := main_v91) rfl (by decide), ws (y := main_v92) rfl (by decide), ws (y := main_v93) rfl (by decide), ws (y := main_v94) rfl (by decide), ws (y := main_v95) rfl (by decide)⟩
/-- A buffer this piece does not write keeps its contents. -/
theorem keep13 (W : Valuation τ sig (Elt F)) (r : Ref sig .tc) (hr : r ∉ wl13) :
    after p13 W (Proc.devRef .tc r) = W (Proc.devRef .tc r) := after_of_writes_sub p13 W hw13 hr
theorem sub13 : (p13 : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub ..⟩
theorem fresh13 : (p13 : List (HloOp τ sig (Elt F))).Forall fun op => op.fresh = ∅ :=
  ⟨rfl, rfl, rfl, rfl, rfl, rfl, rfl⟩

set_option maxHeartbeats 400000 in
/-- Folded over this piece, the buffer main_v95 holds the reference's stage of the same name. -/
theorem piece13_v95 (W : Valuation τ sig (Elt F)) (x0 : (⟨S100000x64, .f32⟩ : BufTy).Contents (Elt F)) (x1 : (⟨S800000, .i32⟩ : BufTy).Contents (Elt F)) (x2 : (⟨S800000, .i32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F))
    (h2 : W (Proc.devRef .tc main_arg2) = x2)
    (h_v89 : W (Proc.devRef .tc main_v89) = ReadP.val_main_v89 (F := F) x0 x1 x2 x4 x5 x6 x7 x8)
    (h_v82 : W (Proc.devRef .tc main_v82) = ReadP.val_main_v82 (F := F) x2) :
    after p13 W (Proc.devRef .tc main_v95) = ReadP.val_main_v95 (F := F) x0 x1 x2 x4 x5 x6 x7 x8 := by
  subst h2
  dsimp only [p13]
  after_results_simp
  try rw [h_v89, h_v82]
  simp only [ReadP.val_main_cst_28, ReadP.val_main_v90, ReadP.val_main_v91, ReadP.val_main_v92, ReadP.val_main_v93, ReadP.val_main_v94, ReadP.val_main_v95] <;> rfl

/-! ### Piece 14: operations 139 … 151 — writes main_c_29 … main_v105; read later: main_v105 -/

/-- The operations of this piece, in @main's order. -/
abbrev p14 : List (HloOp τ sig (Elt F)) :=
  [ nullary main_c_29 (constantI S_ 32 0#32),
    unary main_c_29 main_v96 (broadcastInDim S800000 ![] bcast_S_S800000 : (⟨S_, .i32⟩ : BufTy).Contents (Elt F) → (⟨S800000, .i32⟩ : BufTy).Contents (Elt F)),
    binary main_arg2 main_v96 main_v97 (cmpi .slt : (⟨S800000, .i32⟩ : BufTy).Contents (Elt F) → (⟨S800000, .i32⟩ : BufTy).Contents (Elt F) → (⟨S800000, .i1⟩ : BufTy).Contents (Elt F)),
    nullary main_c_30 (constantI S_ 32 25000#32),
    unary main_c_30 main_v98 (broadcastInDim S800000 ![] bcast_S_S800000 : (⟨S_, .i32⟩ : BufTy).Contents (Elt F) → (⟨S800000, .i32⟩ : BufTy).Contents (Elt F)),
    binary main_arg2 main_v98 main_v99 (addi : (⟨S800000, .i32⟩ : BufTy).Contents (Elt F) → (⟨S800000, .i32⟩ : BufTy).Contents (Elt F) → (⟨S800000, .i32⟩ : BufTy).Contents (Elt F)),
    ternary main_v97 main_v99 main_arg2 main_v100 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v100 main_v101 (broadcastInDim S800000x1 ![0] bcast_S800000_S800000x1_0 : (⟨S800000, .i32⟩ : BufTy).Contents (Elt F) → (⟨S800000x1, .i32⟩ : BufTy).Contents (Elt F)),
    binary main_v95 main_v101 main_v102 ((fun x i => Host.gather gather_S25000x128_S800000x1_S800000x128_1_0_n_n_0_1_1128 x i) : (⟨S25000x128, .f32⟩ : BufTy).Contents (Elt F) → (⟨S800000x1, .i32⟩ : BufTy).Contents (Elt F) → (⟨S800000x128, .f32⟩ : BufTy).Contents (Elt F)),
    nullary main_cst_31 (constant S_ .f32 0x00000000#32),
    unary main_cst_31 main_v103 (broadcastInDim S100000x128 ![] bcast_S_S100000x128 : (⟨S_, .f32⟩ : BufTy).Contents (Elt F) → (⟨S100000x128, .f32⟩ : BufTy).Contents (Elt F)),
    unary main_arg1 main_v104 (broadcastInDim S800000x1 ![0] bcast_S800000_S800000x1_0 : (⟨S800000, .i32⟩ : BufTy).Contents (Elt F) → (⟨S800000x1, .i32⟩ : BufTy).Contents (Elt F)),
    ternary main_v103 main_v104 main_v102 main_v105 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)) ]
/-- The buffers this piece writes, one per operation. -/
abbrev wl14 : List (Ref sig .tc) := [main_c_29, main_v96, main_v97, main_c_30, main_v98, main_v99, main_v100, main_v101, main_v102, main_cst_31, main_v103, main_v104, main_v105]
theorem hw14 : (p14 : List (HloOp τ sig (Elt F))).Forall fun op => op.writes ⊆ ((wl14).map (Proc.devRef (τ := τ) .tc)).toFinset :=
  ⟨ws (y := main_c_29) rfl (by decide), ws (y := main_v96) rfl (by decide), ws (y := main_v97) rfl (by decide), ws (y := main_c_30) rfl (by decide), ws (y := main_v98) rfl (by decide), ws (y := main_v99) rfl (by decide), ws (y := main_v100) rfl (by decide), ws (y := main_v101) rfl (by decide), ws (y := main_v102) rfl (by decide), ws (y := main_cst_31) rfl (by decide), ws (y := main_v103) rfl (by decide), ws (y := main_v104) rfl (by decide), ws (y := main_v105) rfl (by decide)⟩
/-- A buffer this piece does not write keeps its contents. -/
theorem keep14 (W : Valuation τ sig (Elt F)) (r : Ref sig .tc) (hr : r ∉ wl14) :
    after p14 W (Proc.devRef .tc r) = W (Proc.devRef .tc r) := after_of_writes_sub p14 W hw14 hr
theorem sub14 : (p14 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩
theorem fresh14 : (p14 : List (HloOp τ sig (Elt F))).Forall fun op => op.fresh = ∅ :=
  ⟨rfl, rfl, rfl, rfl, rfl, rfl, rfl, rfl, rfl, rfl, rfl, rfl, rfl⟩

set_option maxHeartbeats 400000 in
/-- Folded over this piece, the buffer main_v105 holds the reference's stage of the same name. -/
theorem piece14_v105 (W : Valuation τ sig (Elt F)) (x0 : (⟨S100000x64, .f32⟩ : BufTy).Contents (Elt F)) (x1 : (⟨S800000, .i32⟩ : BufTy).Contents (Elt F)) (x2 : (⟨S800000, .i32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F))
    (h2 : W (Proc.devRef .tc main_arg2) = x2)
    (h1 : W (Proc.devRef .tc main_arg1) = x1)
    (h_v95 : W (Proc.devRef .tc main_v95) = ReadP.val_main_v95 (F := F) x0 x1 x2 x4 x5 x6 x7 x8) :
    after p14 W (Proc.devRef .tc main_v105) = ReadP.val_main_v105 (F := F) x0 x1 x2 x4 x5 x6 x7 x8 := by
  subst h2 h1
  dsimp only [p14]
  after_results_simp
  try rw [h_v95]
  simp only [ReadP.val_main_c_29, ReadP.val_main_v96, ReadP.val_main_v97, ReadP.val_main_c_30, ReadP.val_main_v98, ReadP.val_main_v99, ReadP.val_main_v100, ReadP.val_main_v101, ReadP.val_main_v102, ReadP.val_main_cst_31, ReadP.val_main_v103, ReadP.val_main_v104, ReadP.val_main_v105] <;> rfl

end Cert.ReferenceIdeal.ValueQ
-- ==== Proof.RefRunPartsC.lean ====
/-
  The reference's @main in pieces (15 … 21 of 21): consecutive slices of its operation list, cut where a stage of the
  computation is complete. Folded over a piece from ANY valuation that holds the earlier stages and the arguments it
  reads, each buffer a later piece reads holds the reference's stage function of the arguments: the fold is computed
  at the buffer, the hypotheses rewritten in, and the stage functions of the buffers the piece writes unfolded — the two
  sides are then one term (the inlined calls' operands pass through the identity transport between a buffer's type and its
  value's, which computes away once the valuation is a variable). A buffer a piece does not write keeps its contents.
-/
import proofs.«170622_j83494164234284_2_alg».proof.Proof.Gen.ReferenceIdeal
import proofs.«170622_j83494164234284_2_alg».proof.Proof.RefRead
import Idealize.ShloMosaic.Lib.StableHlo.Run

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

/-- An operation whose one written buffer is among the listed ones writes inside the list. -/
private theorem ws {Val : EltTy → Type} {Wl : List (Ref sig .tc)} {op : HloOp τ sig Val} {y : Ref sig .tc}
    (h : op.writes = {Proc.devRef .tc y}) (hy : y ∈ Wl) : op.writes ⊆ (Wl.map (Proc.devRef (τ := τ) .tc)).toFinset := by
  rw [h, Finset.singleton_subset_iff, List.mem_toFinset]; exact List.mem_map.mpr ⟨y, hy, rfl⟩

/-! ### Piece 15: operations 152 … 160 — writes main_v106 … main_v112; read later: main_v112 -/

/-- The operations of this piece, in @main's order. -/
abbrev p15 : List (HloOp τ sig (Elt F)) :=
  [ unary main_v74 main_v106 (broadcastInDim S100000x1 ![0] bcast_S100000_S100000x1_0 : (⟨S100000, .f32⟩ : BufTy).Contents (Elt F) → (⟨S100000x1, .f32⟩ : BufTy).Contents (Elt F)),
    unary main_v106 main_v107 (broadcastInDim S100000x128 ![0, 1] bcast_S100000x1_S100000x128_0_1 : (⟨S100000x1, .f32⟩ : BufTy).Contents (Elt F) → (⟨S100000x128, .f32⟩ : BufTy).Contents (Elt F)),
    binary main_v105 main_v107 main_v108 (mulf : (⟨S100000x128, .f32⟩ : BufTy).Contents (Elt F) → (⟨S100000x128, .f32⟩ : BufTy).Contents (Elt F) → (⟨S100000x128, .f32⟩ : BufTy).Contents (Elt F)),
    unary main_arg9 main_v109 (broadcastInDim S1x128 ![1] bcast_S128_S1x128_1 : (⟨S128, .f32⟩ : BufTy).Contents (Elt F) → (⟨S1x128, .f32⟩ : BufTy).Contents (Elt F)),
    unary main_v109 main_v110 (broadcastInDim S100000x128 ![0, 1] bcast_S1x128_S100000x128_0_1 : (⟨S1x128, .f32⟩ : BufTy).Contents (Elt F) → (⟨S100000x128, .f32⟩ : BufTy).Contents (Elt F)),
    binary main_v108 main_v110 main_v111 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x128, .f32⟩) main_call6_v0) (broadcastInDim S100000x128 ![] bcast_S_S100000x128),
    TRef.binary (TRef.of (T := ⟨S100000x128, .f32⟩) main_v111) (TRef.of (T := ⟨S100000x128, .f32⟩) main_call6_v0) (TRef.of (T := ⟨S100000x128, .f32⟩) main_v112) maximumf ]
/-- The buffers this piece writes, one per operation. -/
abbrev wl15 : List (Ref sig .tc) := [main_v106, main_v107, main_v108, main_v109, main_v110, main_v111, main_call6_cst, main_call6_v0, main_v112]
theorem hw15 : (p15 : List (HloOp τ sig (Elt F))).Forall fun op => op.writes ⊆ ((wl15).map (Proc.devRef (τ := τ) .tc)).toFinset :=
  ⟨ws (y := main_v106) rfl (by decide), ws (y := main_v107) rfl (by decide), ws (y := main_v108) rfl (by decide), ws (y := main_v109) rfl (by decide), ws (y := main_v110) rfl (by decide), ws (y := main_v111) rfl (by decide), ws (y := main_call6_cst) rfl (by decide), ws (y := main_call6_v0) rfl (by decide), ws (y := main_v112) rfl (by decide)⟩
/-- A buffer this piece does not write keeps its contents. -/
theorem keep15 (W : Valuation τ sig (Elt F)) (r : Ref sig .tc) (hr : r ∉ wl15) :
    after p15 W (Proc.devRef .tc r) = W (Proc.devRef .tc r) := after_of_writes_sub p15 W hw15 hr
theorem sub15 : (p15 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub ..⟩
theorem fresh15 : (p15 : List (HloOp τ sig (Elt F))).Forall fun op => op.fresh = ∅ :=
  ⟨rfl, rfl, rfl, rfl, rfl, rfl, rfl, rfl, rfl⟩

set_option maxHeartbeats 400000 in
/-- Folded over this piece, the buffer main_v112 holds the reference's stage of the same name. -/
theorem piece15_v112 (W : Valuation τ sig (Elt F)) (x0 : (⟨S100000x64, .f32⟩ : BufTy).Contents (Elt F)) (x1 : (⟨S800000, .i32⟩ : BufTy).Contents (Elt F)) (x2 : (⟨S800000, .i32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F))
    (h9 : W (Proc.devRef .tc main_arg9) = x9)
    (h_v74 : W (Proc.devRef .tc main_v74) = ReadP.val_main_v74 (F := F) x1)
    (h_v105 : W (Proc.devRef .tc main_v105) = ReadP.val_main_v105 (F := F) x0 x1 x2 x4 x5 x6 x7 x8) :
    after p15 W (Proc.devRef .tc main_v112) = ReadP.val_main_v112 (F := F) x0 x1 x2 x4 x5 x6 x7 x8 x9 := by
  subst h9
  dsimp only [p15]
  after_results_simp
  try rw [h_v74, h_v105]
  simp only [ReadP.val_main_v106, ReadP.val_main_v107, ReadP.val_main_v108, ReadP.val_main_v109, ReadP.val_main_v110, ReadP.val_main_v111, ReadP.val_main_call6_cst, ReadP.val_main_call6_v0, ReadP.val_main_v112] <;> rfl

/-! ### Piece 16: operations 161 … 176 — writes main_cst_32 … main_v124; read later: main_v124 -/

/-- The operations of this piece, in @main's order. -/
abbrev p16 : List (HloOp τ sig (Elt F)) :=
  [ nullary main_cst_32 (constant S_ .f32 0x00000000#32),
    unary main_cst_32 main_v113 (broadcastInDim S16x128 ![] bcast_S_S16x128 : (⟨S_, .f32⟩ : BufTy).Contents (Elt F) → (⟨S16x128, .f32⟩ : BufTy).Contents (Elt F)),
    unary main_arg3 main_v114 (broadcastInDim S100000x1 ![0] bcast_S100000_S100000x1_0 : (⟨S100000, .i32⟩ : BufTy).Contents (Elt F) → (⟨S100000x1, .i32⟩ : BufTy).Contents (Elt F)),
    ternary main_v113 main_v114 main_v112 main_v115 ((fun x i u => Host.scatterAdd scatter_S16x128_S100000x1_S100000x128_1_0_0_1 x i u) : (⟨S16x128, .f32⟩ : BufTy).Contents (Elt F) → (⟨S100000x1, .i32⟩ : BufTy).Contents (Elt F) → (⟨S100000x128, .f32⟩ : BufTy).Contents (Elt F) → (⟨S16x128, .f32⟩ : BufTy).Contents (Elt F)),
    nullary main_cst_33 (constant S_ .f32 0x3F800000#32),
    unary main_cst_33 main_v116 (broadcastInDim S100000 ![] bcast_S_S100000 : (⟨S_, .f32⟩ : BufTy).Contents (Elt F) → (⟨S100000, .f32⟩ : BufTy).Contents (Elt F)),
    nullary main_cst_34 (constant S_ .f32 0x00000000#32),
    unary main_cst_34 main_v117 (broadcastInDim S16 ![] bcast_S_S16 : (⟨S_, .f32⟩ : BufTy).Contents (Elt F) → (⟨S16, .f32⟩ : BufTy).Contents (Elt F)),
    unary main_arg3 main_v118 (broadcastInDim S100000x1 ![0] bcast_S100000_S100000x1_0 : (⟨S100000, .i32⟩ : BufTy).Contents (Elt F) → (⟨S100000x1, .i32⟩ : BufTy).Contents (Elt F)),
    ternary main_v117 main_v118 main_v116 main_v119 ((fun x i u => Host.scatterAdd scatter_S16_S100000x1_S100000_n_0_0_1 x i u) : (⟨S16, .f32⟩ : BufTy).Contents (Elt F) → (⟨S100000x1, .i32⟩ : BufTy).Contents (Elt F) → (⟨S100000, .f32⟩ : BufTy).Contents (Elt F) → (⟨S16, .f32⟩ : BufTy).Contents (Elt F)),
    nullary main_cst_35 (constant S_ .f32 0x3F800000#32),
    unary main_cst_35 main_v120 (broadcastInDim S16 ![] bcast_S_S16 : (⟨S_, .f32⟩ : BufTy).Contents (Elt F) → (⟨S16, .f32⟩ : BufTy).Contents (Elt F)),
    binary main_v119 main_v120 main_v121 (maximumf : (⟨S16, .f32⟩ : BufTy).Contents (Elt F) → (⟨S16, .f32⟩ : BufTy).Contents (Elt F) → (⟨S16, .f32⟩ : BufTy).Contents (Elt F)),
    unary main_v121 main_v122 (broadcastInDim S16x1 ![0] bcast_S16_S16x1_0 : (⟨S16, .f32⟩ : BufTy).Contents (Elt F) → (⟨S16x1, .f32⟩ : BufTy).Contents (Elt F)),
    unary main_v122 main_v123 (broadcastInDim S16x128 ![0, 1] bcast_S16x1_S16x128_0_1 : (⟨S16x1, .f32⟩ : BufTy).Contents (Elt F) → (⟨S16x128, .f32⟩ : BufTy).Contents (Elt F)),
    binary main_v115 main_v123 main_v124 (Host.divf : (⟨S16x128, .f32⟩ : BufTy).Contents (Elt F) → (⟨S16x128, .f32⟩ : BufTy).Contents (Elt F) → (⟨S16x128, .f32⟩ : BufTy).Contents (Elt F)) ]
/-- The buffers this piece writes, one per operation. -/
abbrev wl16 : List (Ref sig .tc) := [main_cst_32, main_v113, main_v114, main_v115, main_cst_33, main_v116, main_cst_34, main_v117, main_v118, main_v119, main_cst_35, main_v120, main_v121, main_v122, main_v123, main_v124]
theorem hw16 : (p16 : List (HloOp τ sig (Elt F))).Forall fun op => op.writes ⊆ ((wl16).map (Proc.devRef (τ := τ) .tc)).toFinset :=
  ⟨ws (y := main_cst_32) rfl (by decide), ws (y := main_v113) rfl (by decide), ws (y := main_v114) rfl (by decide), ws (y := main_v115) rfl (by decide), ws (y := main_cst_33) rfl (by decide), ws (y := main_v116) rfl (by decide), ws (y := main_cst_34) rfl (by decide), ws (y := main_v117) rfl (by decide), ws (y := main_v118) rfl (by decide), ws (y := main_v119) rfl (by decide), ws (y := main_cst_35) rfl (by decide), ws (y := main_v120) rfl (by decide), ws (y := main_v121) rfl (by decide), ws (y := main_v122) rfl (by decide), ws (y := main_v123) rfl (by decide), ws (y := main_v124) rfl (by decide)⟩
/-- A buffer this piece does not write keeps its contents. -/
theorem keep16 (W : Valuation τ sig (Elt F)) (r : Ref sig .tc) (hr : r ∉ wl16) :
    after p16 W (Proc.devRef .tc r) = W (Proc.devRef .tc r) := after_of_writes_sub p16 W hw16 hr
theorem sub16 : (p16 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem fresh16 : (p16 : List (HloOp τ sig (Elt F))).Forall fun op => op.fresh = ∅ :=
  ⟨rfl, rfl, rfl, rfl, rfl, rfl, rfl, rfl, rfl, rfl, rfl, rfl, rfl, rfl, rfl, rfl⟩

set_option maxHeartbeats 400000 in
/-- Folded over this piece, the buffer main_v124 holds the reference's stage of the same name. -/
theorem piece16_v124 (W : Valuation τ sig (Elt F)) (x0 : (⟨S100000x64, .f32⟩ : BufTy).Contents (Elt F)) (x1 : (⟨S800000, .i32⟩ : BufTy).Contents (Elt F)) (x2 : (⟨S800000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F))
    (h3 : W (Proc.devRef .tc main_arg3) = x3)
    (h_v112 : W (Proc.devRef .tc main_v112) = ReadP.val_main_v112 (F := F) x0 x1 x2 x4 x5 x6 x7 x8 x9) :
    after p16 W (Proc.devRef .tc main_v124) = ReadP.val_main_v124 (F := F) x0 x1 x2 x3 x4 x5 x6 x7 x8 x9 := by
  subst h3
  dsimp only [p16]
  after_results_simp
  try rw [h_v112]
  simp only [ReadP.val_main_cst_32, ReadP.val_main_v113, ReadP.val_main_v114, ReadP.val_main_v115, ReadP.val_main_cst_33, ReadP.val_main_v116, ReadP.val_main_cst_34, ReadP.val_main_v117, ReadP.val_main_v118, ReadP.val_main_v119, ReadP.val_main_cst_35, ReadP.val_main_v120, ReadP.val_main_v121, ReadP.val_main_v122, ReadP.val_main_v123, ReadP.val_main_v124] <;> rfl

/-! ### Piece 17: operations 177 … 181 — writes main_v125 … main_v129; read later: main_v129 -/

/-- The operations of this piece, in @main's order. -/
abbrev p17 : List (HloOp τ sig (Elt F)) :=
  [ binary main_v64 main_v124 main_v125 ((fun a b => concatenate S16x256 1 [⟨S16x128, a⟩, ⟨S16x128, b⟩] concatenates_S16x128_S16x128_S16x256_d1) : (⟨S16x128, .f32⟩ : BufTy).Contents (Elt F) → (⟨S16x128, .f32⟩ : BufTy).Contents (Elt F) → (⟨S16x256, .f32⟩ : BufTy).Contents (Elt F)),
    binary main_v125 main_arg10 main_v126 ((fun l r => Host.dotGeneral dot_S16x256_S256x128_S16x128_1_0_0_1_n_n none l r) : (⟨S16x256, .f32⟩ : BufTy).Contents (Elt F) → (⟨S256x128, .f32⟩ : BufTy).Contents (Elt F) → (⟨S16x128, .f32⟩ : BufTy).Contents (Elt F)),
    unary main_arg11 main_v127 (broadcastInDim S1x128 ![1] bcast_S128_S1x128_1 : (⟨S128, .f32⟩ : BufTy).Contents (Elt F) → (⟨S1x128, .f32⟩ : BufTy).Contents (Elt F)),
    unary main_v127 main_v128 (broadcastInDim S16x128 ![0, 1] bcast_S1x128_S16x128_0_1 : (⟨S1x128, .f32⟩ : BufTy).Contents (Elt F) → (⟨S16x128, .f32⟩ : BufTy).Contents (Elt F)),
    binary main_v126 main_v128 main_v129 (addf : (⟨S16x128, .f32⟩ : BufTy).Contents (Elt F) → (⟨S16x128, .f32⟩ : BufTy).Contents (Elt F) → (⟨S16x128, .f32⟩ : BufTy).Contents (Elt F)) ]
/-- The buffers this piece writes, one per operation. -/
abbrev wl17 : List (Ref sig .tc) := [main_v125, main_v126, main_v127, main_v128, main_v129]
theorem hw17 : (p17 : List (HloOp τ sig (Elt F))).Forall fun op => op.writes ⊆ ((wl17).map (Proc.devRef (τ := τ) .tc)).toFinset :=
  ⟨ws (y := main_v125) rfl (by decide), ws (y := main_v126) rfl (by decide), ws (y := main_v127) rfl (by decide), ws (y := main_v128) rfl (by decide), ws (y := main_v129) rfl (by decide)⟩
/-- A buffer this piece does not write keeps its contents. -/
theorem keep17 (W : Valuation τ sig (Elt F)) (r : Ref sig .tc) (hr : r ∉ wl17) :
    after p17 W (Proc.devRef .tc r) = W (Proc.devRef .tc r) := after_of_writes_sub p17 W hw17 hr
theorem sub17 : (p17 : List (HloOp τ sig (Elt F))).Forall fun op => op.bufs ⊆ tcRefs τ sig :=
  ⟨binary_bufs_sub .., binary_bufs_sub .., unary_bufs_sub .., unary_bufs_sub .., binary_bufs_sub ..⟩
theorem fresh17 : (p17 : List (HloOp τ sig (Elt F))).Forall fun op => op.fresh = ∅ :=
  ⟨rfl, rfl, rfl, rfl, rfl⟩

set_option maxHeartbeats 400000 in
/-- Folded over this piece, the buffer main_v129 holds the reference's stage of the same name. -/
theorem piece17_v129 (W : Valuation τ sig (Elt F)) (x0 : (⟨S100000x64, .f32⟩ : BufTy).Contents (Elt F)) (x1 : (⟨S800000, .i32⟩ : BufTy).Contents (Elt F)) (x2 : (⟨S800000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S256x128, .f32⟩ : BufTy).Contents (Elt F)) (x11 : (⟨S128, .f32⟩ : BufTy).Contents (Elt F))
    (h10 : W (Proc.devRef .tc main_arg10) = x10)
    (h11 : W (Proc.devRef .tc main_arg11) = x11)
    (h_v64 : W (Proc.devRef .tc main_v64) = ReadP.val_main_v64 (F := F) x0 x1 x2 x3 x4 x5 x6 x7)
    (h_v124 : W (Proc.devRef .tc main_v124) = ReadP.val_main_v124 (F := F) x0 x1 x2 x3 x4 x5 x6 x7 x8 x9) :
    after p17 W (Proc.devRef .tc main_v129) = ReadP.val_main_v129 (F := F) x0 x1 x2 x3 x4 x5 x6 x7 x8 x9 x10 x11 := by
  subst h10 h11
  dsimp only [p17]
  after_results_simp
  try rw [h_v64, h_v124]
  simp only [ReadP.val_main_v125, ReadP.val_main_v126, ReadP.val_main_v127, ReadP.val_main_v128, ReadP.val_main_v129] <;> rfl

/-! ### Piece 18: operations 182 … 193 — writes main_v130 … main_v140; read later: main_v136, main_v140 -/

/-- The operations of this piece, in @main's order. -/
abbrev p18 : List (HloOp τ sig (Elt F)) :=
  [ binary main_v129 main_arg12 main_v130 ((fun l r => Host.dotGeneral dot_S16x128_S128x64_S16x64_1_0_0_1_n_n none l r) : (⟨S16x128, .f32⟩ : BufTy).Contents (Elt F) → (⟨S128x64, .f32⟩ : BufTy).Contents (Elt F) → (⟨S16x64, .f32⟩ : BufTy).Contents (Elt F)),
    unary main_arg13 main_v131 (broadcastInDim S1x64 ![1] bcast_S64_S1x64_1 : (⟨S64, .f32⟩ : BufTy).Contents (Elt F) → (⟨S1x64, .f32⟩ : BufTy).Contents (Elt F)),
    unary main_v131 main_v132 (broadcastInDim S16x64 ![0, 1] bcast_S1x64_S16x64_0_1 : (⟨S1x64, .f32⟩ : BufTy).Contents (Elt F) → (⟨S16x64, .f32⟩ : BufTy).Contents (Elt F)),
    binary main_v130 main_v132 main_v133 (addf : (⟨S16x64, .f32⟩ : BufTy).Contents (Elt F) → (⟨S16x64, .f32⟩ : BufTy).Contents (Elt F) → (⟨S16x64, .f32⟩ : BufTy).Contents (Elt F)),
    unary main_arg16 main_v134 (broadcastInDim S1x64 ![1] bcast_S64_S1x64_1 : (⟨S64, .f32⟩ : BufTy).Contents (Elt F) → (⟨S1x64, .f32⟩ : BufTy).Contents (Elt F)),
    unary main_v134 main_v135 (broadcastInDim S16x64 ![0, 1] bcast_S1x64_S16x64_0_1 : (⟨S1x64, .f32⟩ : BufTy).Contents (Elt F) → (⟨S16x64, .f32⟩ : BufTy).Contents (Elt F)),
    binary main_v133 main_v135 main_v136 (subf : (⟨S16x64, .f32⟩ : BufTy).Contents (Elt F) → (⟨S16x64, .f32⟩ : BufTy).Contents (Elt F) → (⟨S16x64, .f32⟩ : BufTy).Contents (Elt F)),
    nullary main_cst_36 (constant S_ .f32 0x3727C5AC#32),
    unary main_cst_36 main_v137 (broadcastInDim S64 ![] bcast_S_S64 : (⟨S_, .f32⟩ : BufTy).Contents (Elt F) → (⟨S64, .f32⟩ : BufTy).Contents (Elt F)),
    binary main_arg17 main_v137 main_v138 (addf : (⟨S64, .f32⟩ : BufTy).Contents (Elt F) → (⟨S64, .f32⟩ : BufTy).Contents (Elt F) → (⟨S64, .f32⟩ : BufTy).Contents (Elt F)),
    unary main_v138 main_v139 (Host.rsqrt : (⟨S64, .f32⟩ : BufTy).Contents (Elt F) → (⟨S64, .f32⟩ : BufTy).Contents (Elt F)),
    unary main_v139 main_v140 (broadcastInDim S1x64 ![1] bcast_S64_S1x64_1 : (⟨S64, .f32⟩ : BufTy).Contents (Elt F) → (⟨S1x64, .f32⟩ : BufTy).Contents (Elt F)) ]
/-- The buffers this piece writes, one per operation. -/
abbrev wl18 : List (Ref sig .tc) := [main_v130, main_v131, main_v132, main_v133, main_v134, main_v135, main_v136, main_cst_36, main_v137, main_v138, main_v139, main_v140]
theorem hw18 : (p18 : List (HloOp τ sig (Elt F))).Forall fun op => op.writes ⊆ ((wl18).map (Proc.devRef (τ := τ) .tc)).toFinset :=
  ⟨ws (y := main_v130) rfl (by decide), ws (y := main_v131) rfl (by decide), ws (y := main_v132) rfl (by decide), ws (y := main_v133) rfl (by decide), ws (y := main_v134) rfl (by decide), ws (y := main_v135) rfl (by decide), ws (y := main_v136) rfl (by decide), ws (y := main_cst_36) rfl (by decide), ws (y := main_v137) rfl (by decide), ws (y := main_v138) rfl (by decide), ws (y := main_v139) rfl (by decide), ws (y := main_v140) rfl (by decide)⟩
/-- A buffer this piece does not write keeps its contents. -/
theorem keep18 (W : Valuation τ sig (Elt F)) (r : Ref sig .tc) (hr : r ∉ wl18) :
    after p18 W (Proc.devRef .tc r) = W (Proc.devRef .tc r) := after_of_writes_sub p18 W hw18 hr
theorem sub18 : (p18 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub ..⟩
theorem fresh18 : (p18 : List (HloOp τ sig (Elt F))).Forall fun op => op.fresh = ∅ :=
  ⟨rfl, rfl, rfl, rfl, rfl, rfl, rfl, rfl, rfl, rfl, rfl, rfl⟩

set_option maxHeartbeats 400000 in
/-- Folded over this piece, the buffer main_v136 holds the reference's stage of the same name. -/
theorem piece18_v136 (W : Valuation τ sig (Elt F)) (x0 : (⟨S100000x64, .f32⟩ : BufTy).Contents (Elt F)) (x1 : (⟨S800000, .i32⟩ : BufTy).Contents (Elt F)) (x2 : (⟨S800000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S256x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) (x16 : (⟨S64, .f32⟩ : BufTy).Contents (Elt F)) (x17 : (⟨S64, .f32⟩ : BufTy).Contents (Elt F))
    (h12 : W (Proc.devRef .tc main_arg12) = x12)
    (h13 : W (Proc.devRef .tc main_arg13) = x13)
    (h16 : W (Proc.devRef .tc main_arg16) = x16)
    (h17 : W (Proc.devRef .tc main_arg17) = x17)
    (h_v129 : W (Proc.devRef .tc main_v129) = ReadP.val_main_v129 (F := F) x0 x1 x2 x3 x4 x5 x6 x7 x8 x9 x10 x11) :
    after p18 W (Proc.devRef .tc main_v136) = ReadP.val_main_v136 (F := F) x0 x1 x2 x3 x4 x5 x6 x7 x8 x9 x10 x11 x12 x13 x16 := by
  subst h12 h13 h16 h17
  dsimp only [p18]
  after_results_simp
  try rw [h_v129]
  simp only [ReadP.val_main_v130, ReadP.val_main_v131, ReadP.val_main_v132, ReadP.val_main_v133, ReadP.val_main_v134, ReadP.val_main_v135, ReadP.val_main_v136, ReadP.val_main_cst_36, ReadP.val_main_v137, ReadP.val_main_v138, ReadP.val_main_v139, ReadP.val_main_v140] <;> rfl

set_option maxHeartbeats 400000 in
/-- Folded over this piece, the buffer main_v140 holds the reference's stage of the same name. -/
theorem piece18_v140 (W : Valuation τ sig (Elt F)) (x0 : (⟨S100000x64, .f32⟩ : BufTy).Contents (Elt F)) (x1 : (⟨S800000, .i32⟩ : BufTy).Contents (Elt F)) (x2 : (⟨S800000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S256x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) (x16 : (⟨S64, .f32⟩ : BufTy).Contents (Elt F)) (x17 : (⟨S64, .f32⟩ : BufTy).Contents (Elt F))
    (h12 : W (Proc.devRef .tc main_arg12) = x12)
    (h13 : W (Proc.devRef .tc main_arg13) = x13)
    (h16 : W (Proc.devRef .tc main_arg16) = x16)
    (h17 : W (Proc.devRef .tc main_arg17) = x17)
    (h_v129 : W (Proc.devRef .tc main_v129) = ReadP.val_main_v129 (F := F) x0 x1 x2 x3 x4 x5 x6 x7 x8 x9 x10 x11) :
    after p18 W (Proc.devRef .tc main_v140) = ReadP.val_main_v140 (F := F) x17 := by
  subst h12 h13 h16 h17
  dsimp only [p18]
  after_results_simp
  try rw [h_v129]
  simp only [ReadP.val_main_v130, ReadP.val_main_v131, ReadP.val_main_v132, ReadP.val_main_v133, ReadP.val_main_v134, ReadP.val_main_v135, ReadP.val_main_v136, ReadP.val_main_cst_36, ReadP.val_main_v137, ReadP.val_main_v138, ReadP.val_main_v139, ReadP.val_main_v140] <;> rfl

/-! ### Piece 19: operations 194 … 204 — writes main_v141 … main_v149; read later: main_v149 -/

/-- The operations of this piece, in @main's order. -/
abbrev p19 : List (HloOp τ sig (Elt F)) :=
  [ unary main_v140 main_v141 (broadcastInDim S16x64 ![0, 1] bcast_S1x64_S16x64_0_1 : (⟨S1x64, .f32⟩ : BufTy).Contents (Elt F) → (⟨S16x64, .f32⟩ : BufTy).Contents (Elt F)),
    binary main_v136 main_v141 main_v142 (mulf : (⟨S16x64, .f32⟩ : BufTy).Contents (Elt F) → (⟨S16x64, .f32⟩ : BufTy).Contents (Elt F) → (⟨S16x64, .f32⟩ : BufTy).Contents (Elt F)),
    unary main_arg14 main_v143 (broadcastInDim S1x64 ![1] bcast_S64_S1x64_1 : (⟨S64, .f32⟩ : BufTy).Contents (Elt F) → (⟨S1x64, .f32⟩ : BufTy).Contents (Elt F)),
    unary main_v143 main_v144 (broadcastInDim S16x64 ![0, 1] bcast_S1x64_S16x64_0_1 : (⟨S1x64, .f32⟩ : BufTy).Contents (Elt F) → (⟨S16x64, .f32⟩ : BufTy).Contents (Elt F)),
    binary main_v142 main_v144 main_v145 (mulf : (⟨S16x64, .f32⟩ : BufTy).Contents (Elt F) → (⟨S16x64, .f32⟩ : BufTy).Contents (Elt F) → (⟨S16x64, .f32⟩ : BufTy).Contents (Elt F)),
    unary main_arg15 main_v146 (broadcastInDim S1x64 ![1] bcast_S64_S1x64_1 : (⟨S64, .f32⟩ : BufTy).Contents (Elt F) → (⟨S1x64, .f32⟩ : BufTy).Contents (Elt F)),
    unary main_v146 main_v147 (broadcastInDim S16x64 ![0, 1] bcast_S1x64_S16x64_0_1 : (⟨S1x64, .f32⟩ : BufTy).Contents (Elt F) → (⟨S16x64, .f32⟩ : BufTy).Contents (Elt F)),
    binary main_v145 main_v147 main_v148 (addf : (⟨S16x64, .f32⟩ : BufTy).Contents (Elt F) → (⟨S16x64, .f32⟩ : BufTy).Contents (Elt F) → (⟨S16x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S16x64, .f32⟩) main_call7_v0) (broadcastInDim S16x64 ![] bcast_S_S16x64),
    TRef.binary (TRef.of (T := ⟨S16x64, .f32⟩) main_v148) (TRef.of (T := ⟨S16x64, .f32⟩) main_call7_v0) (TRef.of (T := ⟨S16x64, .f32⟩) main_v149) maximumf ]
/-- The buffers this piece writes, one per operation. -/
abbrev wl19 : List (Ref sig .tc) := [main_v141, main_v142, main_v143, main_v144, main_v145, main_v146, main_v147, main_v148, main_call7_cst, main_call7_v0, main_v149]
theorem hw19 : (p19 : List (HloOp τ sig (Elt F))).Forall fun op => op.writes ⊆ ((wl19).map (Proc.devRef (τ := τ) .tc)).toFinset :=
  ⟨ws (y := main_v141) rfl (by decide), ws (y := main_v142) rfl (by decide), ws (y := main_v143) rfl (by decide), ws (y := main_v144) rfl (by decide), ws (y := main_v145) rfl (by decide), ws (y := main_v146) rfl (by decide), ws (y := main_v147) rfl (by decide), ws (y := main_v148) rfl (by decide), ws (y := main_call7_cst) rfl (by decide), ws (y := main_call7_v0) rfl (by decide), ws (y := main_v149) rfl (by decide)⟩
/-- A buffer this piece does not write keeps its contents. -/
theorem keep19 (W : Valuation τ sig (Elt F)) (r : Ref sig .tc) (hr : r ∉ wl19) :
    after p19 W (Proc.devRef .tc r) = W (Proc.devRef .tc r) := after_of_writes_sub p19 W hw19 hr
theorem sub19 : (p19 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem fresh19 : (p19 : List (HloOp τ sig (Elt F))).Forall fun op => op.fresh = ∅ :=
  ⟨rfl, rfl, rfl, rfl, rfl, rfl, rfl, rfl, rfl, rfl, rfl⟩

set_option maxHeartbeats 400000 in
/-- Folded over this piece, the buffer main_v149 holds the reference's stage of the same name. -/
theorem piece19_v149 (W : Valuation τ sig (Elt F)) (x0 : (⟨S100000x64, .f32⟩ : BufTy).Contents (Elt F)) (x1 : (⟨S800000, .i32⟩ : BufTy).Contents (Elt F)) (x2 : (⟨S800000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S256x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) (x14 : (⟨S64, .f32⟩ : BufTy).Contents (Elt F)) (x15 : (⟨S64, .f32⟩ : BufTy).Contents (Elt F)) (x16 : (⟨S64, .f32⟩ : BufTy).Contents (Elt F)) (x17 : (⟨S64, .f32⟩ : BufTy).Contents (Elt F))
    (h14 : W (Proc.devRef .tc main_arg14) = x14)
    (h15 : W (Proc.devRef .tc main_arg15) = x15)
    (h_v140 : W (Proc.devRef .tc main_v140) = ReadP.val_main_v140 (F := F) x17)
    (h_v136 : W (Proc.devRef .tc main_v136) = ReadP.val_main_v136 (F := F) x0 x1 x2 x3 x4 x5 x6 x7 x8 x9 x10 x11 x12 x13 x16) :
    after p19 W (Proc.devRef .tc main_v149) = ReadP.val_main_v149 (F := F) x0 x1 x2 x3 x4 x5 x6 x7 x8 x9 x10 x11 x12 x13 x14 x15 x16 x17 := by
  subst h14 h15
  dsimp only [p19]
  after_results_simp
  try rw [h_v140, h_v136]
  simp only [ReadP.val_main_v141, ReadP.val_main_v142, ReadP.val_main_v143, ReadP.val_main_v144, ReadP.val_main_v145, ReadP.val_main_v146, ReadP.val_main_v147, ReadP.val_main_v148, ReadP.val_main_call7_cst, ReadP.val_main_call7_v0, ReadP.val_main_v149] <;> rfl

/-! ### Piece 20: operations 205 … 227 — writes main_v150 … main_v169; read later: main_v169 -/

/-- The operations of this piece, in @main's order. -/
abbrev p20 : List (HloOp τ sig (Elt F)) :=
  [ binary main_v149 main_arg18 main_v150 ((fun l r => Host.dotGeneral dot_S16x64_S64x32_S16x32_1_0_0_1_n_n none l r) : (⟨S16x64, .f32⟩ : BufTy).Contents (Elt F) → (⟨S64x32, .f32⟩ : BufTy).Contents (Elt F) → (⟨S16x32, .f32⟩ : BufTy).Contents (Elt F)),
    unary main_arg19 main_v151 (broadcastInDim S1x32 ![1] bcast_S32_S1x32_1 : (⟨S32, .f32⟩ : BufTy).Contents (Elt F) → (⟨S1x32, .f32⟩ : BufTy).Contents (Elt F)),
    unary main_v151 main_v152 (broadcastInDim S16x32 ![0, 1] bcast_S1x32_S16x32_0_1 : (⟨S1x32, .f32⟩ : BufTy).Contents (Elt F) → (⟨S16x32, .f32⟩ : BufTy).Contents (Elt F)),
    binary main_v150 main_v152 main_v153 (addf : (⟨S16x32, .f32⟩ : BufTy).Contents (Elt F) → (⟨S16x32, .f32⟩ : BufTy).Contents (Elt F) → (⟨S16x32, .f32⟩ : BufTy).Contents (Elt F)),
    unary main_arg22 main_v154 (broadcastInDim S1x32 ![1] bcast_S32_S1x32_1 : (⟨S32, .f32⟩ : BufTy).Contents (Elt F) → (⟨S1x32, .f32⟩ : BufTy).Contents (Elt F)),
    unary main_v154 main_v155 (broadcastInDim S16x32 ![0, 1] bcast_S1x32_S16x32_0_1 : (⟨S1x32, .f32⟩ : BufTy).Contents (Elt F) → (⟨S16x32, .f32⟩ : BufTy).Contents (Elt F)),
    binary main_v153 main_v155 main_v156 (subf : (⟨S16x32, .f32⟩ : BufTy).Contents (Elt F) → (⟨S16x32, .f32⟩ : BufTy).Contents (Elt F) → (⟨S16x32, .f32⟩ : BufTy).Contents (Elt F)),
    nullary main_cst_37 (constant S_ .f32 0x3727C5AC#32),
    unary main_cst_37 main_v157 (broadcastInDim S32 ![] bcast_S_S32 : (⟨S_, .f32⟩ : BufTy).Contents (Elt F) → (⟨S32, .f32⟩ : BufTy).Contents (Elt F)),
    binary main_arg23 main_v157 main_v158 (addf : (⟨S32, .f32⟩ : BufTy).Contents (Elt F) → (⟨S32, .f32⟩ : BufTy).Contents (Elt F) → (⟨S32, .f32⟩ : BufTy).Contents (Elt F)),
    unary main_v158 main_v159 (Host.rsqrt : (⟨S32, .f32⟩ : BufTy).Contents (Elt F) → (⟨S32, .f32⟩ : BufTy).Contents (Elt F)),
    unary main_v159 main_v160 (broadcastInDim S1x32 ![1] bcast_S32_S1x32_1 : (⟨S32, .f32⟩ : BufTy).Contents (Elt F) → (⟨S1x32, .f32⟩ : BufTy).Contents (Elt F)),
    unary main_v160 main_v161 (broadcastInDim S16x32 ![0, 1] bcast_S1x32_S16x32_0_1 : (⟨S1x32, .f32⟩ : BufTy).Contents (Elt F) → (⟨S16x32, .f32⟩ : BufTy).Contents (Elt F)),
    binary main_v156 main_v161 main_v162 (mulf : (⟨S16x32, .f32⟩ : BufTy).Contents (Elt F) → (⟨S16x32, .f32⟩ : BufTy).Contents (Elt F) → (⟨S16x32, .f32⟩ : BufTy).Contents (Elt F)),
    unary main_arg20 main_v163 (broadcastInDim S1x32 ![1] bcast_S32_S1x32_1 : (⟨S32, .f32⟩ : BufTy).Contents (Elt F) → (⟨S1x32, .f32⟩ : BufTy).Contents (Elt F)),
    unary main_v163 main_v164 (broadcastInDim S16x32 ![0, 1] bcast_S1x32_S16x32_0_1 : (⟨S1x32, .f32⟩ : BufTy).Contents (Elt F) → (⟨S16x32, .f32⟩ : BufTy).Contents (Elt F)),
    binary main_v162 main_v164 main_v165 (mulf : (⟨S16x32, .f32⟩ : BufTy).Contents (Elt F) → (⟨S16x32, .f32⟩ : BufTy).Contents (Elt F) → (⟨S16x32, .f32⟩ : BufTy).Contents (Elt F)),
    unary main_arg21 main_v166 (broadcastInDim S1x32 ![1] bcast_S32_S1x32_1 : (⟨S32, .f32⟩ : BufTy).Contents (Elt F) → (⟨S1x32, .f32⟩ : BufTy).Contents (Elt F)),
    unary main_v166 main_v167 (broadcastInDim S16x32 ![0, 1] bcast_S1x32_S16x32_0_1 : (⟨S1x32, .f32⟩ : BufTy).Contents (Elt F) → (⟨S16x32, .f32⟩ : BufTy).Contents (Elt F)),
    binary main_v165 main_v167 main_v168 (addf : (⟨S16x32, .f32⟩ : BufTy).Contents (Elt F) → (⟨S16x32, .f32⟩ : BufTy).Contents (Elt F) → (⟨S16x32, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S16x32, .f32⟩) main_call8_v0) (broadcastInDim S16x32 ![] bcast_S_S16x32),
    TRef.binary (TRef.of (T := ⟨S16x32, .f32⟩) main_v168) (TRef.of (T := ⟨S16x32, .f32⟩) main_call8_v0) (TRef.of (T := ⟨S16x32, .f32⟩) main_v169) maximumf ]
/-- The buffers this piece writes, one per operation. -/
abbrev wl20 : List (Ref sig .tc) := [main_v150, main_v151, main_v152, main_v153, main_v154, main_v155, main_v156, main_cst_37, main_v157, main_v158, main_v159, main_v160, main_v161, main_v162, main_v163, main_v164, main_v165, main_v166, main_v167, main_v168, main_call8_cst, main_call8_v0, main_v169]
theorem hw20 : (p20 : List (HloOp τ sig (Elt F))).Forall fun op => op.writes ⊆ ((wl20).map (Proc.devRef (τ := τ) .tc)).toFinset :=
  ⟨ws (y := main_v150) rfl (by decide), ws (y := main_v151) rfl (by decide), ws (y := main_v152) rfl (by decide), ws (y := main_v153) rfl (by decide), ws (y := main_v154) rfl (by decide), ws (y := main_v155) rfl (by decide), ws (y := main_v156) rfl (by decide), ws (y := main_cst_37) rfl (by decide), ws (y := main_v157) rfl (by decide), ws (y := main_v158) rfl (by decide), ws (y := main_v159) rfl (by decide), ws (y := main_v160) rfl (by decide), ws (y := main_v161) rfl (by decide), ws (y := main_v162) rfl (by decide), ws (y := main_v163) rfl (by decide), ws (y := main_v164) rfl (by decide), ws (y := main_v165) rfl (by decide), ws (y := main_v166) rfl (by decide), ws (y := main_v167) rfl (by decide), ws (y := main_v168) rfl (by decide), ws (y := main_call8_cst) rfl (by decide), ws (y := main_call8_v0) rfl (by decide), ws (y := main_v169) rfl (by decide)⟩
/-- A buffer this piece does not write keeps its contents. -/
theorem keep20 (W : Valuation τ sig (Elt F)) (r : Ref sig .tc) (hr : r ∉ wl20) :
    after p20 W (Proc.devRef .tc r) = W (Proc.devRef .tc r) := after_of_writes_sub p20 W hw20 hr
theorem sub20 : (p20 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem fresh20 : (p20 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

set_option maxHeartbeats 400000 in
/-- Folded over this piece, the buffer main_v169 holds the reference's stage of the same name. -/
theorem piece20_v169 (W : Valuation τ sig (Elt F)) (x0 : (⟨S100000x64, .f32⟩ : BufTy).Contents (Elt F)) (x1 : (⟨S800000, .i32⟩ : BufTy).Contents (Elt F)) (x2 : (⟨S800000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S256x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) (x14 : (⟨S64, .f32⟩ : BufTy).Contents (Elt F)) (x15 : (⟨S64, .f32⟩ : BufTy).Contents (Elt F)) (x16 : (⟨S64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S32, .f32⟩ : BufTy).Contents (Elt F)) (x21 : (⟨S32, .f32⟩ : BufTy).Contents (Elt F)) (x22 : (⟨S32, .f32⟩ : BufTy).Contents (Elt F)) (x23 : (⟨S32, .f32⟩ : BufTy).Contents (Elt F))
    (h18 : W (Proc.devRef .tc main_arg18) = x18)
    (h19 : W (Proc.devRef .tc main_arg19) = x19)
    (h22 : W (Proc.devRef .tc main_arg22) = x22)
    (h23 : W (Proc.devRef .tc main_arg23) = x23)
    (h20 : W (Proc.devRef .tc main_arg20) = x20)
    (h21 : W (Proc.devRef .tc main_arg21) = x21)
    (h_v149 : W (Proc.devRef .tc main_v149) = ReadP.val_main_v149 (F := F) x0 x1 x2 x3 x4 x5 x6 x7 x8 x9 x10 x11 x12 x13 x14 x15 x16 x17) :
    after p20 W (Proc.devRef .tc main_v169) = ReadP.val_main_v169 (F := F) x0 x1 x2 x3 x4 x5 x6 x7 x8 x9 x10 x11 x12 x13 x14 x15 x16 x17 x18 x19 x20 x21 x22 x23 := by
  subst h18 h19 h22 h23 h20 h21
  dsimp only [p20]
  after_results_simp
  try rw [h_v149]
  simp only [ReadP.val_main_v150, ReadP.val_main_v151, ReadP.val_main_v152, ReadP.val_main_v153, ReadP.val_main_v154, ReadP.val_main_v155, ReadP.val_main_v156, ReadP.val_main_cst_37, ReadP.val_main_v157, ReadP.val_main_v158, ReadP.val_main_v159, ReadP.val_main_v160, ReadP.val_main_v161, ReadP.val_main_v162, ReadP.val_main_v163, ReadP.val_main_v164, ReadP.val_main_v165, ReadP.val_main_v166, ReadP.val_main_v167, ReadP.val_main_v168, ReadP.val_main_call8_cst, ReadP.val_main_call8_v0, ReadP.val_main_v169] <;> rfl

/-! ### Piece 21: operations 228 … 228 — writes main_v170 … main_v170; read later: main_v170 -/

/-- The operations of this piece, in @main's order. -/
abbrev p21 : List (HloOp τ sig (Elt F)) :=
  [ binary main_v169 main_arg24 main_v170 ((fun l r => Host.dotGeneral dot_S16x32_S32x4_S16x4_1_0_0_1_n_n none l r) : (⟨S16x32, .f32⟩ : BufTy).Contents (Elt F) → (⟨S32x4, .f32⟩ : BufTy).Contents (Elt F) → (⟨S16x4, .f32⟩ : BufTy).Contents (Elt F)) ]
/-- The buffers this piece writes, one per operation. -/
abbrev wl21 : List (Ref sig .tc) := [main_v170]
theorem hw21 : (p21 : List (HloOp τ sig (Elt F))).Forall fun op => op.writes ⊆ ((wl21).map (Proc.devRef (τ := τ) .tc)).toFinset :=
  ws (y := main_v170) rfl (by decide)
/-- A buffer this piece does not write keeps its contents. -/
theorem keep21 (W : Valuation τ sig (Elt F)) (r : Ref sig .tc) (hr : r ∉ wl21) :
    after p21 W (Proc.devRef .tc r) = W (Proc.devRef .tc r) := after_of_writes_sub p21 W hw21 hr
theorem sub21 : (p21 : List (HloOp τ sig (Elt F))).Forall fun op => op.bufs ⊆ tcRefs τ sig :=
  binary_bufs_sub ..
theorem fresh21 : (p21 : List (HloOp τ sig (Elt F))).Forall fun op => op.fresh = ∅ :=
  rfl

set_option maxHeartbeats 400000 in
/-- Folded over this piece, the buffer main_v170 holds the reference's stage of the same name. -/
theorem piece21_v170 (W : Valuation τ sig (Elt F)) (x0 : (⟨S100000x64, .f32⟩ : BufTy).Contents (Elt F)) (x1 : (⟨S800000, .i32⟩ : BufTy).Contents (Elt F)) (x2 : (⟨S800000, .i32⟩ : BufTy).Contents (Elt F)) (x3 : (⟨S100000, .i32⟩ : BufTy).Contents (Elt F)) (x4 : (⟨S64x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S256x128, .f32⟩ : BufTy).Contents (Elt F)) (x11 : (⟨S128, .f32⟩ : BufTy).Contents (Elt F)) (x12 : (⟨S128x64, .f32⟩ : BufTy).Contents (Elt F)) (x13 : (⟨S64, .f32⟩ : BufTy).Contents (Elt F)) (x14 : (⟨S64, .f32⟩ : BufTy).Contents (Elt F)) (x15 : (⟨S64, .f32⟩ : BufTy).Contents (Elt F)) (x16 : (⟨S64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S32, .f32⟩ : BufTy).Contents (Elt F)) (x21 : (⟨S32, .f32⟩ : BufTy).Contents (Elt F)) (x22 : (⟨S32, .f32⟩ : BufTy).Contents (Elt F)) (x23 : (⟨S32, .f32⟩ : BufTy).Contents (Elt F)) (x24 : (⟨S32x4, .f32⟩ : BufTy).Contents (Elt F))
    (h24 : W (Proc.devRef .tc main_arg24) = x24)
    (h_v169 : W (Proc.devRef .tc main_v169) = ReadP.val_main_v169 (F := F) x0 x1 x2 x3 x4 x5 x6 x7 x8 x9 x10 x11 x12 x13 x14 x15 x16 x17 x18 x19 x20 x21 x22 x23) :
    after p21 W (Proc.devRef .tc main_v170) = ReadP.val_main_v170 (F := F) x0 x1 x2 x3 x4 x5 x6 x7 x8 x9 x10 x11 x12 x13 x14 x15 x16 x17 x18 x19 x20 x21 x22 x23 x24 := by
  subst h24
  dsimp only [p21]
  after_results_simp
  try rw [h_v169]
  simp only [ReadP.val_main_v170] <;> rfl

end Cert.ReferenceIdeal.ValueQ
-- ==== Proof.RefRunChain.lean ====
/-
  The pieces of the reference's @main chained: the valuation after piece k is the fold of piece k over the valuation
  after piece k − 1, from the launch contents. At each cut the arguments still to be read are unchanged and each live
  stage buffer holds its stage function of the launch contents of the arguments; the last cut is the result.
-/
import proofs.«170622_j83494164234284_2_alg».proof.Proof.RefRunPartsA
import proofs.«170622_j83494164234284_2_alg».proof.Proof.RefRunPartsB
import proofs.«170622_j83494164234284_2_alg».proof.Proof.RefRunPartsC

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

/-- The fold over two lists in a row is the composition of the folds. -/
theorem after_app {Val : EltTy → Type} : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- @main's operations: the pieces in order. -/
abbrev ops : List (HloOp τ sig (Elt F)) := p1 ++ (p2 ++ (p3 ++ (p4 ++ (p5 ++ (p6 ++ (p7 ++ (p8 ++ (p9 ++ (p10 ++ (p11 ++ (p12 ++ (p13 ++ (p14 ++ (p15 ++ (p16 ++ (p17 ++ (p18 ++ (p19 ++ (p20 ++ (p21))))))))))))))))))))
/-- The buffers after piece 1. -/
abbrev V1 (W0 : Valuation τ sig (Elt F)) : Valuation τ sig (Elt F) := after p1 W0
/-- The buffers after piece 2. -/
abbrev V2 (W0 : Valuation τ sig (Elt F)) : Valuation τ sig (Elt F) := after p2 (V1 W0)
/-- The buffers after piece 3. -/
abbrev V3 (W0 : Valuation τ sig (Elt F)) : Valuation τ sig (Elt F) := after p3 (V2 W0)
/-- The buffers after piece 4. -/
abbrev V4 (W0 : Valuation τ sig (Elt F)) : Valuation τ sig (Elt F) := after p4 (V3 W0)
/-- The buffers after piece 5. -/
abbrev V5 (W0 : Valuation τ sig (Elt F)) : Valuation τ sig (Elt F) := after p5 (V4 W0)
/-- The buffers after piece 6. -/
abbrev V6 (W0 : Valuation τ sig (Elt F)) : Valuation τ sig (Elt F) := after p6 (V5 W0)
/-- The buffers after piece 7. -/
abbrev V7 (W0 : Valuation τ sig (Elt F)) : Valuation τ sig (Elt F) := after p7 (V6 W0)
/-- The buffers after piece 8. -/
abbrev V8 (W0 : Valuation τ sig (Elt F)) : Valuation τ sig (Elt F) := after p8 (V7 W0)
/-- The buffers after piece 9. -/
abbrev V9 (W0 : Valuation τ sig (Elt F)) : Valuation τ sig (Elt F) := after p9 (V8 W0)
/-- The buffers after piece 10. -/
abbrev V10 (W0 : Valuation τ sig (Elt F)) : Valuation τ sig (Elt F) := after p10 (V9 W0)
/-- The buffers after piece 11. -/
abbrev V11 (W0 : Valuation τ sig (Elt F)) : Valuation τ sig (Elt F) := after p11 (V10 W0)
/-- The buffers after piece 12. -/
abbrev V12 (W0 : Valuation τ sig (Elt F)) : Valuation τ sig (Elt F) := after p12 (V11 W0)
/-- The buffers after piece 13. -/
abbrev V13 (W0 : Valuation τ sig (Elt F)) : Valuation τ sig (Elt F) := after p13 (V12 W0)
/-- The buffers after piece 14. -/
abbrev V14 (W0 : Valuation τ sig (Elt F)) : Valuation τ sig (Elt F) := after p14 (V13 W0)
/-- The buffers after piece 15. -/
abbrev V15 (W0 : Valuation τ sig (Elt F)) : Valuation τ sig (Elt F) := after p15 (V14 W0)
/-- The buffers after piece 16. -/
abbrev V16 (W0 : Valuation τ sig (Elt F)) : Valuation τ sig (Elt F) := after p16 (V15 W0)
/-- The buffers after piece 17. -/
abbrev V17 (W0 : Valuation τ sig (Elt F)) : Valuation τ sig (Elt F) := after p17 (V16 W0)
/-- The buffers after piece 18. -/
abbrev V18 (W0 : Valuation τ sig (Elt F)) : Valuation τ sig (Elt F) := after p18 (V17 W0)
/-- The buffers after piece 19. -/
abbrev V19 (W0 : Valuation τ sig (Elt F)) : Valuation τ sig (Elt F) := after p19 (V18 W0)
/-- The buffers after piece 20. -/
abbrev V20 (W0 : Valuation τ sig (Elt F)) : Valuation τ sig (Elt F) := after p20 (V19 W0)
/-- The buffers after piece 21. -/
abbrev V21 (W0 : Valuation τ sig (Elt F)) : Valuation τ sig (Elt F) := after p21 (V20 W0)
theorem ops_after (W0 : Valuation τ sig (Elt F)) : after ops W0 = V21 W0 := by
  simp only [ops, after_app, V1, V2, V3, V4, V5, V6, V7, V8, V9, V10, V11, V12, V13, V14, V15, V16, V17, V18, V19, V20, V21]

/-! After piece 1 -/
theorem A1_1 (W0 : Valuation τ sig (Elt F)) : V1 W0 (Proc.devRef .tc main_arg1) = W0 (Proc.devRef .tc main_arg1) :=
  keep1 W0 main_arg1 (by decide)
theorem A1_2 (W0 : Valuation τ sig (Elt F)) : V1 W0 (Proc.devRef .tc main_arg2) = W0 (Proc.devRef .tc main_arg2) :=
  keep1 W0 main_arg2 (by decide)
theorem A1_7 (W0 : Valuation τ sig (Elt F)) : V1 W0 (Proc.devRef .tc main_arg7) = W0 (Proc.devRef .tc main_arg7) :=
  keep1 W0 main_arg7 (by decide)
theorem A1_3 (W0 : Valuation τ sig (Elt F)) : V1 W0 (Proc.devRef .tc main_arg3) = W0 (Proc.devRef .tc main_arg3) :=
  keep1 W0 main_arg3 (by decide)
theorem A1_8 (W0 : Valuation τ sig (Elt F)) : V1 W0 (Proc.devRef .tc main_arg8) = W0 (Proc.devRef .tc main_arg8) :=
  keep1 W0 main_arg8 (by decide)
theorem A1_9 (W0 : Valuation τ sig (Elt F)) : V1 W0 (Proc.devRef .tc main_arg9) = W0 (Proc.devRef .tc main_arg9) :=
  keep1 W0 main_arg9 (by decide)
theorem A1_10 (W0 : Valuation τ sig (Elt F)) : V1 W0 (Proc.devRef .tc main_arg10) = W0 (Proc.devRef .tc main_arg10) :=
  keep1 W0 main_arg10 (by decide)
theorem A1_11 (W0 : Valuation τ sig (Elt F)) : V1 W0 (Proc.devRef .tc main_arg11) = W0 (Proc.devRef .tc main_arg11) :=
  keep1 W0 main_arg11 (by decide)
theorem A1_12 (W0 : Valuation τ sig (Elt F)) : V1 W0 (Proc.devRef .tc main_arg12) = W0 (Proc.devRef .tc main_arg12) :=
  keep1 W0 main_arg12 (by decide)
theorem A1_13 (W0 : Valuation τ sig (Elt F)) : V1 W0 (Proc.devRef .tc main_arg13) = W0 (Proc.devRef .tc main_arg13) :=
  keep1 W0 main_arg13 (by decide)
theorem A1_16 (W0 : Valuation τ sig (Elt F)) : V1 W0 (Proc.devRef .tc main_arg16) = W0 (Proc.devRef .tc main_arg16) :=
  keep1 W0 main_arg16 (by decide)
theorem A1_17 (W0 : Valuation τ sig (Elt F)) : V1 W0 (Proc.devRef .tc main_arg17) = W0 (Proc.devRef .tc main_arg17) :=
  keep1 W0 main_arg17 (by decide)
theorem A1_14 (W0 : Valuation τ sig (Elt F)) : V1 W0 (Proc.devRef .tc main_arg14) = W0 (Proc.devRef .tc main_arg14) :=
  keep1 W0 main_arg14 (by decide)
theorem A1_15 (W0 : Valuation τ sig (Elt F)) : V1 W0 (Proc.devRef .tc main_arg15) = W0 (Proc.devRef .tc main_arg15) :=
  keep1 W0 main_arg15 (by decide)
theorem A1_18 (W0 : Valuation τ sig (Elt F)) : V1 W0 (Proc.devRef .tc main_arg18) = W0 (Proc.devRef .tc main_arg18) :=
  keep1 W0 main_arg18 (by decide)
theorem A1_19 (W0 : Valuation τ sig (Elt F)) : V1 W0 (Proc.devRef .tc main_arg19) = W0 (Proc.devRef .tc main_arg19) :=
  keep1 W0 main_arg19 (by decide)
theorem A1_22 (W0 : Valuation τ sig (Elt F)) : V1 W0 (Proc.devRef .tc main_arg22) = W0 (Proc.devRef .tc main_arg22) :=
  keep1 W0 main_arg22 (by decide)
theorem A1_23 (W0 : Valuation τ sig (Elt F)) : V1 W0 (Proc.devRef .tc main_arg23) = W0 (Proc.devRef .tc main_arg23) :=
  keep1 W0 main_arg23 (by decide)
theorem A1_20 (W0 : Valuation τ sig (Elt F)) : V1 W0 (Proc.devRef .tc main_arg20) = W0 (Proc.devRef .tc main_arg20) :=
  keep1 W0 main_arg20 (by decide)
theorem A1_21 (W0 : Valuation τ sig (Elt F)) : V1 W0 (Proc.devRef .tc main_arg21) = W0 (Proc.devRef .tc main_arg21) :=
  keep1 W0 main_arg21 (by decide)
theorem A1_24 (W0 : Valuation τ sig (Elt F)) : V1 W0 (Proc.devRef .tc main_arg24) = W0 (Proc.devRef .tc main_arg24) :=
  keep1 W0 main_arg24 (by decide)
theorem S1_v5 (W0 : Valuation τ sig (Elt F)) : V1 W0 (Proc.devRef .tc main_v5) = ReadP.val_main_v5 (F := F) (W0 (Proc.devRef .tc main_arg0)) (W0 (Proc.devRef .tc main_arg4)) (W0 (Proc.devRef .tc main_arg5)) (W0 (Proc.devRef .tc main_arg6)) :=
  piece1_v5 W0 (W0 (Proc.devRef .tc main_arg0)) (W0 (Proc.devRef .tc main_arg4)) (W0 (Proc.devRef .tc main_arg5)) (W0 (Proc.devRef .tc main_arg6)) rfl rfl rfl rfl

/-! After piece 2 -/
theorem A2_2 (W0 : Valuation τ sig (Elt F)) : V2 W0 (Proc.devRef .tc main_arg2) = W0 (Proc.devRef .tc main_arg2) :=
  (keep2 (V1 W0) main_arg2 (by decide)).trans (A1_2 W0)
theorem A2_1 (W0 : Valuation τ sig (Elt F)) : V2 W0 (Proc.devRef .tc main_arg1) = W0 (Proc.devRef .tc main_arg1) :=
  (keep2 (V1 W0) main_arg1 (by decide)).trans (A1_1 W0)
theorem A2_7 (W0 : Valuation τ sig (Elt F)) : V2 W0 (Proc.devRef .tc main_arg7) = W0 (Proc.devRef .tc main_arg7) :=
  (keep2 (V1 W0) main_arg7 (by decide)).trans (A1_7 W0)
theorem A2_3 (W0 : Valuation τ sig (Elt F)) : V2 W0 (Proc.devRef .tc main_arg3) = W0 (Proc.devRef .tc main_arg3) :=
  (keep2 (V1 W0) main_arg3 (by decide)).trans (A1_3 W0)
theorem A2_8 (W0 : Valuation τ sig (Elt F)) : V2 W0 (Proc.devRef .tc main_arg8) = W0 (Proc.devRef .tc main_arg8) :=
  (keep2 (V1 W0) main_arg8 (by decide)).trans (A1_8 W0)
theorem A2_9 (W0 : Valuation τ sig (Elt F)) : V2 W0 (Proc.devRef .tc main_arg9) = W0 (Proc.devRef .tc main_arg9) :=
  (keep2 (V1 W0) main_arg9 (by decide)).trans (A1_9 W0)
theorem A2_10 (W0 : Valuation τ sig (Elt F)) : V2 W0 (Proc.devRef .tc main_arg10) = W0 (Proc.devRef .tc main_arg10) :=
  (keep2 (V1 W0) main_arg10 (by decide)).trans (A1_10 W0)
theorem A2_11 (W0 : Valuation τ sig (Elt F)) : V2 W0 (Proc.devRef .tc main_arg11) = W0 (Proc.devRef .tc main_arg11) :=
  (keep2 (V1 W0) main_arg11 (by decide)).trans (A1_11 W0)
theorem A2_12 (W0 : Valuation τ sig (Elt F)) : V2 W0 (Proc.devRef .tc main_arg12) = W0 (Proc.devRef .tc main_arg12) :=
  (keep2 (V1 W0) main_arg12 (by decide)).trans (A1_12 W0)
theorem A2_13 (W0 : Valuation τ sig (Elt F)) : V2 W0 (Proc.devRef .tc main_arg13) = W0 (Proc.devRef .tc main_arg13) :=
  (keep2 (V1 W0) main_arg13 (by decide)).trans (A1_13 W0)
theorem A2_16 (W0 : Valuation τ sig (Elt F)) : V2 W0 (Proc.devRef .tc main_arg16) = W0 (Proc.devRef .tc main_arg16) :=
  (keep2 (V1 W0) main_arg16 (by decide)).trans (A1_16 W0)
theorem A2_17 (W0 : Valuation τ sig (Elt F)) : V2 W0 (Proc.devRef .tc main_arg17) = W0 (Proc.devRef .tc main_arg17) :=
  (keep2 (V1 W0) main_arg17 (by decide)).trans (A1_17 W0)
theorem A2_14 (W0 : Valuation τ sig (Elt F)) : V2 W0 (Proc.devRef .tc main_arg14) = W0 (Proc.devRef .tc main_arg14) :=
  (keep2 (V1 W0) main_arg14 (by decide)).trans (A1_14 W0)
theorem A2_15 (W0 : Valuation τ sig (Elt F)) : V2 W0 (Proc.devRef .tc main_arg15) = W0 (Proc.devRef .tc main_arg15) :=
  (keep2 (V1 W0) main_arg15 (by decide)).trans (A1_15 W0)
theorem A2_18 (W0 : Valuation τ sig (Elt F)) : V2 W0 (Proc.devRef .tc main_arg18) = W0 (Proc.devRef .tc main_arg18) :=
  (keep2 (V1 W0) main_arg18 (by decide)).trans (A1_18 W0)
theorem A2_19 (W0 : Valuation τ sig (Elt F)) : V2 W0 (Proc.devRef .tc main_arg19) = W0 (Proc.devRef .tc main_arg19) :=
  (keep2 (V1 W0) main_arg19 (by decide)).trans (A1_19 W0)
theorem A2_22 (W0 : Valuation τ sig (Elt F)) : V2 W0 (Proc.devRef .tc main_arg22) = W0 (Proc.devRef .tc main_arg22) :=
  (keep2 (V1 W0) main_arg22 (by decide)).trans (A1_22 W0)
theorem A2_23 (W0 : Valuation τ sig (Elt F)) : V2 W0 (Proc.devRef .tc main_arg23) = W0 (Proc.devRef .tc main_arg23) :=
  (keep2 (V1 W0) main_arg23 (by decide)).trans (A1_23 W0)
theorem A2_20 (W0 : Valuation τ sig (Elt F)) : V2 W0 (Proc.devRef .tc main_arg20) = W0 (Proc.devRef .tc main_arg20) :=
  (keep2 (V1 W0) main_arg20 (by decide)).trans (A1_20 W0)
theorem A2_21 (W0 : Valuation τ sig (Elt F)) : V2 W0 (Proc.devRef .tc main_arg21) = W0 (Proc.devRef .tc main_arg21) :=
  (keep2 (V1 W0) main_arg21 (by decide)).trans (A1_21 W0)
theorem A2_24 (W0 : Valuation τ sig (Elt F)) : V2 W0 (Proc.devRef .tc main_arg24) = W0 (Proc.devRef .tc main_arg24) :=
  (keep2 (V1 W0) main_arg24 (by decide)).trans (A1_24 W0)
theorem S2_v6 (W0 : Valuation τ sig (Elt F)) : V2 W0 (Proc.devRef .tc main_v6) = ReadP.val_main_v6 (F := F) :=
  piece2_v6 (V1 W0) (W0 (Proc.devRef .tc main_arg1)) (A1_1 W0)
theorem S2_v5 (W0 : Valuation τ sig (Elt F)) : V2 W0 (Proc.devRef .tc main_v5) = ReadP.val_main_v5 (F := F) (W0 (Proc.devRef .tc main_arg0)) (W0 (Proc.devRef .tc main_arg4)) (W0 (Proc.devRef .tc main_arg5)) (W0 (Proc.devRef .tc main_arg6)) :=
  (keep2 (V1 W0) main_v5 (by decide)).trans (S1_v5 W0)
theorem S2_v14 (W0 : Valuation τ sig (Elt F)) : V2 W0 (Proc.devRef .tc main_v14) = ReadP.val_main_v14 (F := F) (W0 (Proc.devRef .tc main_arg1)) :=
  piece2_v14 (V1 W0) (W0 (Proc.devRef .tc main_arg1)) (A1_1 W0)

/-! After piece 3 -/
theorem A3_1 (W0 : Valuation τ sig (Elt F)) : V3 W0 (Proc.devRef .tc main_arg1) = W0 (Proc.devRef .tc main_arg1) :=
  (keep3 (V2 W0) main_arg1 (by decide)).trans (A2_1 W0)
theorem A3_2 (W0 : Valuation τ sig (Elt F)) : V3 W0 (Proc.devRef .tc main_arg2) = W0 (Proc.devRef .tc main_arg2) :=
  (keep3 (V2 W0) main_arg2 (by decide)).trans (A2_2 W0)
theorem A3_7 (W0 : Valuation τ sig (Elt F)) : V3 W0 (Proc.devRef .tc main_arg7) = W0 (Proc.devRef .tc main_arg7) :=
  (keep3 (V2 W0) main_arg7 (by decide)).trans (A2_7 W0)
theorem A3_3 (W0 : Valuation τ sig (Elt F)) : V3 W0 (Proc.devRef .tc main_arg3) = W0 (Proc.devRef .tc main_arg3) :=
  (keep3 (V2 W0) main_arg3 (by decide)).trans (A2_3 W0)
theorem A3_8 (W0 : Valuation τ sig (Elt F)) : V3 W0 (Proc.devRef .tc main_arg8) = W0 (Proc.devRef .tc main_arg8) :=
  (keep3 (V2 W0) main_arg8 (by decide)).trans (A2_8 W0)
theorem A3_9 (W0 : Valuation τ sig (Elt F)) : V3 W0 (Proc.devRef .tc main_arg9) = W0 (Proc.devRef .tc main_arg9) :=
  (keep3 (V2 W0) main_arg9 (by decide)).trans (A2_9 W0)
theorem A3_10 (W0 : Valuation τ sig (Elt F)) : V3 W0 (Proc.devRef .tc main_arg10) = W0 (Proc.devRef .tc main_arg10) :=
  (keep3 (V2 W0) main_arg10 (by decide)).trans (A2_10 W0)
theorem A3_11 (W0 : Valuation τ sig (Elt F)) : V3 W0 (Proc.devRef .tc main_arg11) = W0 (Proc.devRef .tc main_arg11) :=
  (keep3 (V2 W0) main_arg11 (by decide)).trans (A2_11 W0)
theorem A3_12 (W0 : Valuation τ sig (Elt F)) : V3 W0 (Proc.devRef .tc main_arg12) = W0 (Proc.devRef .tc main_arg12) :=
  (keep3 (V2 W0) main_arg12 (by decide)).trans (A2_12 W0)
theorem A3_13 (W0 : Valuation τ sig (Elt F)) : V3 W0 (Proc.devRef .tc main_arg13) = W0 (Proc.devRef .tc main_arg13) :=
  (keep3 (V2 W0) main_arg13 (by decide)).trans (A2_13 W0)
theorem A3_16 (W0 : Valuation τ sig (Elt F)) : V3 W0 (Proc.devRef .tc main_arg16) = W0 (Proc.devRef .tc main_arg16) :=
  (keep3 (V2 W0) main_arg16 (by decide)).trans (A2_16 W0)
theorem A3_17 (W0 : Valuation τ sig (Elt F)) : V3 W0 (Proc.devRef .tc main_arg17) = W0 (Proc.devRef .tc main_arg17) :=
  (keep3 (V2 W0) main_arg17 (by decide)).trans (A2_17 W0)
theorem A3_14 (W0 : Valuation τ sig (Elt F)) : V3 W0 (Proc.devRef .tc main_arg14) = W0 (Proc.devRef .tc main_arg14) :=
  (keep3 (V2 W0) main_arg14 (by decide)).trans (A2_14 W0)
theorem A3_15 (W0 : Valuation τ sig (Elt F)) : V3 W0 (Proc.devRef .tc main_arg15) = W0 (Proc.devRef .tc main_arg15) :=
  (keep3 (V2 W0) main_arg15 (by decide)).trans (A2_15 W0)
theorem A3_18 (W0 : Valuation τ sig (Elt F)) : V3 W0 (Proc.devRef .tc main_arg18) = W0 (Proc.devRef .tc main_arg18) :=
  (keep3 (V2 W0) main_arg18 (by decide)).trans (A2_18 W0)
theorem A3_19 (W0 : Valuation τ sig (Elt F)) : V3 W0 (Proc.devRef .tc main_arg19) = W0 (Proc.devRef .tc main_arg19) :=
  (keep3 (V2 W0) main_arg19 (by decide)).trans (A2_19 W0)
theorem A3_22 (W0 : Valuation τ sig (Elt F)) : V3 W0 (Proc.devRef .tc main_arg22) = W0 (Proc.devRef .tc main_arg22) :=
  (keep3 (V2 W0) main_arg22 (by decide)).trans (A2_22 W0)
theorem A3_23 (W0 : Valuation τ sig (Elt F)) : V3 W0 (Proc.devRef .tc main_arg23) = W0 (Proc.devRef .tc main_arg23) :=
  (keep3 (V2 W0) main_arg23 (by decide)).trans (A2_23 W0)
theorem A3_20 (W0 : Valuation τ sig (Elt F)) : V3 W0 (Proc.devRef .tc main_arg20) = W0 (Proc.devRef .tc main_arg20) :=
  (keep3 (V2 W0) main_arg20 (by decide)).trans (A2_20 W0)
theorem A3_21 (W0 : Valuation τ sig (Elt F)) : V3 W0 (Proc.devRef .tc main_arg21) = W0 (Proc.devRef .tc main_arg21) :=
  (keep3 (V2 W0) main_arg21 (by decide)).trans (A2_21 W0)
theorem A3_24 (W0 : Valuation τ sig (Elt F)) : V3 W0 (Proc.devRef .tc main_arg24) = W0 (Proc.devRef .tc main_arg24) :=
  (keep3 (V2 W0) main_arg24 (by decide)).trans (A2_24 W0)
theorem S3_v5 (W0 : Valuation τ sig (Elt F)) : V3 W0 (Proc.devRef .tc main_v5) = ReadP.val_main_v5 (F := F) (W0 (Proc.devRef .tc main_arg0)) (W0 (Proc.devRef .tc main_arg4)) (W0 (Proc.devRef .tc main_arg5)) (W0 (Proc.devRef .tc main_arg6)) :=
  (keep3 (V2 W0) main_v5 (by decide)).trans (S2_v5 W0)
theorem S3_v22 (W0 : Valuation τ sig (Elt F)) : V3 W0 (Proc.devRef .tc main_v22) = ReadP.val_main_v22 (F := F) (W0 (Proc.devRef .tc main_arg2)) :=
  piece3_v22 (V2 W0) (W0 (Proc.devRef .tc main_arg2)) (A2_2 W0) (S2_v6 W0)
theorem S3_v14 (W0 : Valuation τ sig (Elt F)) : V3 W0 (Proc.devRef .tc main_v14) = ReadP.val_main_v14 (F := F) (W0 (Proc.devRef .tc main_arg1)) :=
  (keep3 (V2 W0) main_v14 (by decide)).trans (S2_v14 W0)

/-! After piece 4 -/
theorem A4_2 (W0 : Valuation τ sig (Elt F)) : V4 W0 (Proc.devRef .tc main_arg2) = W0 (Proc.devRef .tc main_arg2) :=
  (keep4 (V3 W0) main_arg2 (by decide)).trans (A3_2 W0)
theorem A4_1 (W0 : Valuation τ sig (Elt F)) : V4 W0 (Proc.devRef .tc main_arg1) = W0 (Proc.devRef .tc main_arg1) :=
  (keep4 (V3 W0) main_arg1 (by decide)).trans (A3_1 W0)
theorem A4_7 (W0 : Valuation τ sig (Elt F)) : V4 W0 (Proc.devRef .tc main_arg7) = W0 (Proc.devRef .tc main_arg7) :=
  (keep4 (V3 W0) main_arg7 (by decide)).trans (A3_7 W0)
theorem A4_3 (W0 : Valuation τ sig (Elt F)) : V4 W0 (Proc.devRef .tc main_arg3) = W0 (Proc.devRef .tc main_arg3) :=
  (keep4 (V3 W0) main_arg3 (by decide)).trans (A3_3 W0)
theorem A4_8 (W0 : Valuation τ sig (Elt F)) : V4 W0 (Proc.devRef .tc main_arg8) = W0 (Proc.devRef .tc main_arg8) :=
  (keep4 (V3 W0) main_arg8 (by decide)).trans (A3_8 W0)
theorem A4_9 (W0 : Valuation τ sig (Elt F)) : V4 W0 (Proc.devRef .tc main_arg9) = W0 (Proc.devRef .tc main_arg9) :=
  (keep4 (V3 W0) main_arg9 (by decide)).trans (A3_9 W0)
theorem A4_10 (W0 : Valuation τ sig (Elt F)) : V4 W0 (Proc.devRef .tc main_arg10) = W0 (Proc.devRef .tc main_arg10) :=
  (keep4 (V3 W0) main_arg10 (by decide)).trans (A3_10 W0)
theorem A4_11 (W0 : Valuation τ sig (Elt F)) : V4 W0 (Proc.devRef .tc main_arg11) = W0 (Proc.devRef .tc main_arg11) :=
  (keep4 (V3 W0) main_arg11 (by decide)).trans (A3_11 W0)
theorem A4_12 (W0 : Valuation τ sig (Elt F)) : V4 W0 (Proc.devRef .tc main_arg12) = W0 (Proc.devRef .tc main_arg12) :=
  (keep4 (V3 W0) main_arg12 (by decide)).trans (A3_12 W0)
theorem A4_13 (W0 : Valuation τ sig (Elt F)) : V4 W0 (Proc.devRef .tc main_arg13) = W0 (Proc.devRef .tc main_arg13) :=
  (keep4 (V3 W0) main_arg13 (by decide)).trans (A3_13 W0)
theorem A4_16 (W0 : Valuation τ sig (Elt F)) : V4 W0 (Proc.devRef .tc main_arg16) = W0 (Proc.devRef .tc main_arg16) :=
  (keep4 (V3 W0) main_arg16 (by decide)).trans (A3_16 W0)
theorem A4_17 (W0 : Valuation τ sig (Elt F)) : V4 W0 (Proc.devRef .tc main_arg17) = W0 (Proc.devRef .tc main_arg17) :=
  (keep4 (V3 W0) main_arg17 (by decide)).trans (A3_17 W0)
theorem A4_14 (W0 : Valuation τ sig (Elt F)) : V4 W0 (Proc.devRef .tc main_arg14) = W0 (Proc.devRef .tc main_arg14) :=
  (keep4 (V3 W0) main_arg14 (by decide)).trans (A3_14 W0)
theorem A4_15 (W0 : Valuation τ sig (Elt F)) : V4 W0 (Proc.devRef .tc main_arg15) = W0 (Proc.devRef .tc main_arg15) :=
  (keep4 (V3 W0) main_arg15 (by decide)).trans (A3_15 W0)
theorem A4_18 (W0 : Valuation τ sig (Elt F)) : V4 W0 (Proc.devRef .tc main_arg18) = W0 (Proc.devRef .tc main_arg18) :=
  (keep4 (V3 W0) main_arg18 (by decide)).trans (A3_18 W0)
theorem A4_19 (W0 : Valuation τ sig (Elt F)) : V4 W0 (Proc.devRef .tc main_arg19) = W0 (Proc.devRef .tc main_arg19) :=
  (keep4 (V3 W0) main_arg19 (by decide)).trans (A3_19 W0)
theorem A4_22 (W0 : Valuation τ sig (Elt F)) : V4 W0 (Proc.devRef .tc main_arg22) = W0 (Proc.devRef .tc main_arg22) :=
  (keep4 (V3 W0) main_arg22 (by decide)).trans (A3_22 W0)
theorem A4_23 (W0 : Valuation τ sig (Elt F)) : V4 W0 (Proc.devRef .tc main_arg23) = W0 (Proc.devRef .tc main_arg23) :=
  (keep4 (V3 W0) main_arg23 (by decide)).trans (A3_23 W0)
theorem A4_20 (W0 : Valuation τ sig (Elt F)) : V4 W0 (Proc.devRef .tc main_arg20) = W0 (Proc.devRef .tc main_arg20) :=
  (keep4 (V3 W0) main_arg20 (by decide)).trans (A3_20 W0)
theorem A4_21 (W0 : Valuation τ sig (Elt F)) : V4 W0 (Proc.devRef .tc main_arg21) = W0 (Proc.devRef .tc main_arg21) :=
  (keep4 (V3 W0) main_arg21 (by decide)).trans (A3_21 W0)
theorem A4_24 (W0 : Valuation τ sig (Elt F)) : V4 W0 (Proc.devRef .tc main_arg24) = W0 (Proc.devRef .tc main_arg24) :=
  (keep4 (V3 W0) main_arg24 (by decide)).trans (A3_24 W0)
theorem S4_v22 (W0 : Valuation τ sig (Elt F)) : V4 W0 (Proc.devRef .tc main_v22) = ReadP.val_main_v22 (F := F) (W0 (Proc.devRef .tc main_arg2)) :=
  (keep4 (V3 W0) main_v22 (by decide)).trans (S3_v22 W0)
theorem S4_v32 (W0 : Valuation τ sig (Elt F)) : V4 W0 (Proc.devRef .tc main_v32) = ReadP.val_main_v32 (F := F) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) :=
  piece4_v32 (V3 W0) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (A3_1 W0) (A3_2 W0) (S3_v5 W0)
theorem S4_v14 (W0 : Valuation τ sig (Elt F)) : V4 W0 (Proc.devRef .tc main_v14) = ReadP.val_main_v14 (F := F) (W0 (Proc.devRef .tc main_arg1)) :=
  (keep4 (V3 W0) main_v14 (by decide)).trans (S3_v14 W0)

/-! After piece 5 -/
theorem A5_2 (W0 : Valuation τ sig (Elt F)) : V5 W0 (Proc.devRef .tc main_arg2) = W0 (Proc.devRef .tc main_arg2) :=
  (keep5 (V4 W0) main_arg2 (by decide)).trans (A4_2 W0)
theorem A5_1 (W0 : Valuation τ sig (Elt F)) : V5 W0 (Proc.devRef .tc main_arg1) = W0 (Proc.devRef .tc main_arg1) :=
  (keep5 (V4 W0) main_arg1 (by decide)).trans (A4_1 W0)
theorem A5_7 (W0 : Valuation τ sig (Elt F)) : V5 W0 (Proc.devRef .tc main_arg7) = W0 (Proc.devRef .tc main_arg7) :=
  (keep5 (V4 W0) main_arg7 (by decide)).trans (A4_7 W0)
theorem A5_3 (W0 : Valuation τ sig (Elt F)) : V5 W0 (Proc.devRef .tc main_arg3) = W0 (Proc.devRef .tc main_arg3) :=
  (keep5 (V4 W0) main_arg3 (by decide)).trans (A4_3 W0)
theorem A5_8 (W0 : Valuation τ sig (Elt F)) : V5 W0 (Proc.devRef .tc main_arg8) = W0 (Proc.devRef .tc main_arg8) :=
  (keep5 (V4 W0) main_arg8 (by decide)).trans (A4_8 W0)
theorem A5_9 (W0 : Valuation τ sig (Elt F)) : V5 W0 (Proc.devRef .tc main_arg9) = W0 (Proc.devRef .tc main_arg9) :=
  (keep5 (V4 W0) main_arg9 (by decide)).trans (A4_9 W0)
theorem A5_10 (W0 : Valuation τ sig (Elt F)) : V5 W0 (Proc.devRef .tc main_arg10) = W0 (Proc.devRef .tc main_arg10) :=
  (keep5 (V4 W0) main_arg10 (by decide)).trans (A4_10 W0)
theorem A5_11 (W0 : Valuation τ sig (Elt F)) : V5 W0 (Proc.devRef .tc main_arg11) = W0 (Proc.devRef .tc main_arg11) :=
  (keep5 (V4 W0) main_arg11 (by decide)).trans (A4_11 W0)
theorem A5_12 (W0 : Valuation τ sig (Elt F)) : V5 W0 (Proc.devRef .tc main_arg12) = W0 (Proc.devRef .tc main_arg12) :=
  (keep5 (V4 W0) main_arg12 (by decide)).trans (A4_12 W0)
theorem A5_13 (W0 : Valuation τ sig (Elt F)) : V5 W0 (Proc.devRef .tc main_arg13) = W0 (Proc.devRef .tc main_arg13) :=
  (keep5 (V4 W0) main_arg13 (by decide)).trans (A4_13 W0)
theorem A5_16 (W0 : Valuation τ sig (Elt F)) : V5 W0 (Proc.devRef .tc main_arg16) = W0 (Proc.devRef .tc main_arg16) :=
  (keep5 (V4 W0) main_arg16 (by decide)).trans (A4_16 W0)
theorem A5_17 (W0 : Valuation τ sig (Elt F)) : V5 W0 (Proc.devRef .tc main_arg17) = W0 (Proc.devRef .tc main_arg17) :=
  (keep5 (V4 W0) main_arg17 (by decide)).trans (A4_17 W0)
theorem A5_14 (W0 : Valuation τ sig (Elt F)) : V5 W0 (Proc.devRef .tc main_arg14) = W0 (Proc.devRef .tc main_arg14) :=
  (keep5 (V4 W0) main_arg14 (by decide)).trans (A4_14 W0)
theorem A5_15 (W0 : Valuation τ sig (Elt F)) : V5 W0 (Proc.devRef .tc main_arg15) = W0 (Proc.devRef .tc main_arg15) :=
  (keep5 (V4 W0) main_arg15 (by decide)).trans (A4_15 W0)
theorem A5_18 (W0 : Valuation τ sig (Elt F)) : V5 W0 (Proc.devRef .tc main_arg18) = W0 (Proc.devRef .tc main_arg18) :=
  (keep5 (V4 W0) main_arg18 (by decide)).trans (A4_18 W0)
theorem A5_19 (W0 : Valuation τ sig (Elt F)) : V5 W0 (Proc.devRef .tc main_arg19) = W0 (Proc.devRef .tc main_arg19) :=
  (keep5 (V4 W0) main_arg19 (by decide)).trans (A4_19 W0)
theorem A5_22 (W0 : Valuation τ sig (Elt F)) : V5 W0 (Proc.devRef .tc main_arg22) = W0 (Proc.devRef .tc main_arg22) :=
  (keep5 (V4 W0) main_arg22 (by decide)).trans (A4_22 W0)
theorem A5_23 (W0 : Valuation τ sig (Elt F)) : V5 W0 (Proc.devRef .tc main_arg23) = W0 (Proc.devRef .tc main_arg23) :=
  (keep5 (V4 W0) main_arg23 (by decide)).trans (A4_23 W0)
theorem A5_20 (W0 : Valuation τ sig (Elt F)) : V5 W0 (Proc.devRef .tc main_arg20) = W0 (Proc.devRef .tc main_arg20) :=
  (keep5 (V4 W0) main_arg20 (by decide)).trans (A4_20 W0)
theorem A5_21 (W0 : Valuation τ sig (Elt F)) : V5 W0 (Proc.devRef .tc main_arg21) = W0 (Proc.devRef .tc main_arg21) :=
  (keep5 (V4 W0) main_arg21 (by decide)).trans (A4_21 W0)
theorem A5_24 (W0 : Valuation τ sig (Elt F)) : V5 W0 (Proc.devRef .tc main_arg24) = W0 (Proc.devRef .tc main_arg24) :=
  (keep5 (V4 W0) main_arg24 (by decide)).trans (A4_24 W0)
theorem S5_v35 (W0 : Valuation τ sig (Elt F)) : V5 W0 (Proc.devRef .tc main_v35) = ReadP.val_main_v35 (F := F) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) :=
  piece5_v35 (V4 W0) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (S4_v22 W0) (S4_v32 W0)
theorem S5_v14 (W0 : Valuation τ sig (Elt F)) : V5 W0 (Proc.devRef .tc main_v14) = ReadP.val_main_v14 (F := F) (W0 (Proc.devRef .tc main_arg1)) :=
  (keep5 (V4 W0) main_v14 (by decide)).trans (S4_v14 W0)

/-! After piece 6 -/
theorem A6_7 (W0 : Valuation τ sig (Elt F)) : V6 W0 (Proc.devRef .tc main_arg7) = W0 (Proc.devRef .tc main_arg7) :=
  (keep6 (V5 W0) main_arg7 (by decide)).trans (A5_7 W0)
theorem A6_3 (W0 : Valuation τ sig (Elt F)) : V6 W0 (Proc.devRef .tc main_arg3) = W0 (Proc.devRef .tc main_arg3) :=
  (keep6 (V5 W0) main_arg3 (by decide)).trans (A5_3 W0)
theorem A6_8 (W0 : Valuation τ sig (Elt F)) : V6 W0 (Proc.devRef .tc main_arg8) = W0 (Proc.devRef .tc main_arg8) :=
  (keep6 (V5 W0) main_arg8 (by decide)).trans (A5_8 W0)
theorem A6_1 (W0 : Valuation τ sig (Elt F)) : V6 W0 (Proc.devRef .tc main_arg1) = W0 (Proc.devRef .tc main_arg1) :=
  (keep6 (V5 W0) main_arg1 (by decide)).trans (A5_1 W0)
theorem A6_2 (W0 : Valuation τ sig (Elt F)) : V6 W0 (Proc.devRef .tc main_arg2) = W0 (Proc.devRef .tc main_arg2) :=
  (keep6 (V5 W0) main_arg2 (by decide)).trans (A5_2 W0)
theorem A6_9 (W0 : Valuation τ sig (Elt F)) : V6 W0 (Proc.devRef .tc main_arg9) = W0 (Proc.devRef .tc main_arg9) :=
  (keep6 (V5 W0) main_arg9 (by decide)).trans (A5_9 W0)
theorem A6_10 (W0 : Valuation τ sig (Elt F)) : V6 W0 (Proc.devRef .tc main_arg10) = W0 (Proc.devRef .tc main_arg10) :=
  (keep6 (V5 W0) main_arg10 (by decide)).trans (A5_10 W0)
theorem A6_11 (W0 : Valuation τ sig (Elt F)) : V6 W0 (Proc.devRef .tc main_arg11) = W0 (Proc.devRef .tc main_arg11) :=
  (keep6 (V5 W0) main_arg11 (by decide)).trans (A5_11 W0)
theorem A6_12 (W0 : Valuation τ sig (Elt F)) : V6 W0 (Proc.devRef .tc main_arg12) = W0 (Proc.devRef .tc main_arg12) :=
  (keep6 (V5 W0) main_arg12 (by decide)).trans (A5_12 W0)
theorem A6_13 (W0 : Valuation τ sig (Elt F)) : V6 W0 (Proc.devRef .tc main_arg13) = W0 (Proc.devRef .tc main_arg13) :=
  (keep6 (V5 W0) main_arg13 (by decide)).trans (A5_13 W0)
theorem A6_16 (W0 : Valuation τ sig (Elt F)) : V6 W0 (Proc.devRef .tc main_arg16) = W0 (Proc.devRef .tc main_arg16) :=
  (keep6 (V5 W0) main_arg16 (by decide)).trans (A5_16 W0)
theorem A6_17 (W0 : Valuation τ sig (Elt F)) : V6 W0 (Proc.devRef .tc main_arg17) = W0 (Proc.devRef .tc main_arg17) :=
  (keep6 (V5 W0) main_arg17 (by decide)).trans (A5_17 W0)
theorem A6_14 (W0 : Valuation τ sig (Elt F)) : V6 W0 (Proc.devRef .tc main_arg14) = W0 (Proc.devRef .tc main_arg14) :=
  (keep6 (V5 W0) main_arg14 (by decide)).trans (A5_14 W0)
theorem A6_15 (W0 : Valuation τ sig (Elt F)) : V6 W0 (Proc.devRef .tc main_arg15) = W0 (Proc.devRef .tc main_arg15) :=
  (keep6 (V5 W0) main_arg15 (by decide)).trans (A5_15 W0)
theorem A6_18 (W0 : Valuation τ sig (Elt F)) : V6 W0 (Proc.devRef .tc main_arg18) = W0 (Proc.devRef .tc main_arg18) :=
  (keep6 (V5 W0) main_arg18 (by decide)).trans (A5_18 W0)
theorem A6_19 (W0 : Valuation τ sig (Elt F)) : V6 W0 (Proc.devRef .tc main_arg19) = W0 (Proc.devRef .tc main_arg19) :=
  (keep6 (V5 W0) main_arg19 (by decide)).trans (A5_19 W0)
theorem A6_22 (W0 : Valuation τ sig (Elt F)) : V6 W0 (Proc.devRef .tc main_arg22) = W0 (Proc.devRef .tc main_arg22) :=
  (keep6 (V5 W0) main_arg22 (by decide)).trans (A5_22 W0)
theorem A6_23 (W0 : Valuation τ sig (Elt F)) : V6 W0 (Proc.devRef .tc main_arg23) = W0 (Proc.devRef .tc main_arg23) :=
  (keep6 (V5 W0) main_arg23 (by decide)).trans (A5_23 W0)
theorem A6_20 (W0 : Valuation τ sig (Elt F)) : V6 W0 (Proc.devRef .tc main_arg20) = W0 (Proc.devRef .tc main_arg20) :=
  (keep6 (V5 W0) main_arg20 (by decide)).trans (A5_20 W0)
theorem A6_21 (W0 : Valuation τ sig (Elt F)) : V6 W0 (Proc.devRef .tc main_arg21) = W0 (Proc.devRef .tc main_arg21) :=
  (keep6 (V5 W0) main_arg21 (by decide)).trans (A5_21 W0)
theorem A6_24 (W0 : Valuation τ sig (Elt F)) : V6 W0 (Proc.devRef .tc main_arg24) = W0 (Proc.devRef .tc main_arg24) :=
  (keep6 (V5 W0) main_arg24 (by decide)).trans (A5_24 W0)
theorem S6_v43 (W0 : Valuation τ sig (Elt F)) : V6 W0 (Proc.devRef .tc main_v43) = ReadP.val_main_v43 (F := F) :=
  piece6_v43 (V5 W0) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (A5_2 W0) (A5_1 W0) (S5_v35 W0)
theorem S6_v44 (W0 : Valuation τ sig (Elt F)) : V6 W0 (Proc.devRef .tc main_v44) = ReadP.val_main_v44 (F := F) (W0 (Proc.devRef .tc main_arg1)) :=
  piece6_v44 (V5 W0) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (A5_2 W0) (A5_1 W0) (S5_v35 W0)
theorem S6_v42 (W0 : Valuation τ sig (Elt F)) : V6 W0 (Proc.devRef .tc main_v42) = ReadP.val_main_v42 (F := F) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) :=
  piece6_v42 (V5 W0) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (A5_2 W0) (A5_1 W0) (S5_v35 W0)
theorem S6_v14 (W0 : Valuation τ sig (Elt F)) : V6 W0 (Proc.devRef .tc main_v14) = ReadP.val_main_v14 (F := F) (W0 (Proc.devRef .tc main_arg1)) :=
  (keep6 (V5 W0) main_v14 (by decide)).trans (S5_v14 W0)

/-! After piece 7 -/
theorem A7_3 (W0 : Valuation τ sig (Elt F)) : V7 W0 (Proc.devRef .tc main_arg3) = W0 (Proc.devRef .tc main_arg3) :=
  (keep7 (V6 W0) main_arg3 (by decide)).trans (A6_3 W0)
theorem A7_8 (W0 : Valuation τ sig (Elt F)) : V7 W0 (Proc.devRef .tc main_arg8) = W0 (Proc.devRef .tc main_arg8) :=
  (keep7 (V6 W0) main_arg8 (by decide)).trans (A6_8 W0)
theorem A7_1 (W0 : Valuation τ sig (Elt F)) : V7 W0 (Proc.devRef .tc main_arg1) = W0 (Proc.devRef .tc main_arg1) :=
  (keep7 (V6 W0) main_arg1 (by decide)).trans (A6_1 W0)
theorem A7_2 (W0 : Valuation τ sig (Elt F)) : V7 W0 (Proc.devRef .tc main_arg2) = W0 (Proc.devRef .tc main_arg2) :=
  (keep7 (V6 W0) main_arg2 (by decide)).trans (A6_2 W0)
theorem A7_9 (W0 : Valuation τ sig (Elt F)) : V7 W0 (Proc.devRef .tc main_arg9) = W0 (Proc.devRef .tc main_arg9) :=
  (keep7 (V6 W0) main_arg9 (by decide)).trans (A6_9 W0)
theorem A7_10 (W0 : Valuation τ sig (Elt F)) : V7 W0 (Proc.devRef .tc main_arg10) = W0 (Proc.devRef .tc main_arg10) :=
  (keep7 (V6 W0) main_arg10 (by decide)).trans (A6_10 W0)
theorem A7_11 (W0 : Valuation τ sig (Elt F)) : V7 W0 (Proc.devRef .tc main_arg11) = W0 (Proc.devRef .tc main_arg11) :=
  (keep7 (V6 W0) main_arg11 (by decide)).trans (A6_11 W0)
theorem A7_12 (W0 : Valuation τ sig (Elt F)) : V7 W0 (Proc.devRef .tc main_arg12) = W0 (Proc.devRef .tc main_arg12) :=
  (keep7 (V6 W0) main_arg12 (by decide)).trans (A6_12 W0)
theorem A7_13 (W0 : Valuation τ sig (Elt F)) : V7 W0 (Proc.devRef .tc main_arg13) = W0 (Proc.devRef .tc main_arg13) :=
  (keep7 (V6 W0) main_arg13 (by decide)).trans (A6_13 W0)
theorem A7_16 (W0 : Valuation τ sig (Elt F)) : V7 W0 (Proc.devRef .tc main_arg16) = W0 (Proc.devRef .tc main_arg16) :=
  (keep7 (V6 W0) main_arg16 (by decide)).trans (A6_16 W0)
theorem A7_17 (W0 : Valuation τ sig (Elt F)) : V7 W0 (Proc.devRef .tc main_arg17) = W0 (Proc.devRef .tc main_arg17) :=
  (keep7 (V6 W0) main_arg17 (by decide)).trans (A6_17 W0)
theorem A7_14 (W0 : Valuation τ sig (Elt F)) : V7 W0 (Proc.devRef .tc main_arg14) = W0 (Proc.devRef .tc main_arg14) :=
  (keep7 (V6 W0) main_arg14 (by decide)).trans (A6_14 W0)
theorem A7_15 (W0 : Valuation τ sig (Elt F)) : V7 W0 (Proc.devRef .tc main_arg15) = W0 (Proc.devRef .tc main_arg15) :=
  (keep7 (V6 W0) main_arg15 (by decide)).trans (A6_15 W0)
theorem A7_18 (W0 : Valuation τ sig (Elt F)) : V7 W0 (Proc.devRef .tc main_arg18) = W0 (Proc.devRef .tc main_arg18) :=
  (keep7 (V6 W0) main_arg18 (by decide)).trans (A6_18 W0)
theorem A7_19 (W0 : Valuation τ sig (Elt F)) : V7 W0 (Proc.devRef .tc main_arg19) = W0 (Proc.devRef .tc main_arg19) :=
  (keep7 (V6 W0) main_arg19 (by decide)).trans (A6_19 W0)
theorem A7_22 (W0 : Valuation τ sig (Elt F)) : V7 W0 (Proc.devRef .tc main_arg22) = W0 (Proc.devRef .tc main_arg22) :=
  (keep7 (V6 W0) main_arg22 (by decide)).trans (A6_22 W0)
theorem A7_23 (W0 : Valuation τ sig (Elt F)) : V7 W0 (Proc.devRef .tc main_arg23) = W0 (Proc.devRef .tc main_arg23) :=
  (keep7 (V6 W0) main_arg23 (by decide)).trans (A6_23 W0)
theorem A7_20 (W0 : Valuation τ sig (Elt F)) : V7 W0 (Proc.devRef .tc main_arg20) = W0 (Proc.devRef .tc main_arg20) :=
  (keep7 (V6 W0) main_arg20 (by decide)).trans (A6_20 W0)
theorem A7_21 (W0 : Valuation τ sig (Elt F)) : V7 W0 (Proc.devRef .tc main_arg21) = W0 (Proc.devRef .tc main_arg21) :=
  (keep7 (V6 W0) main_arg21 (by decide)).trans (A6_21 W0)
theorem A7_24 (W0 : Valuation τ sig (Elt F)) : V7 W0 (Proc.devRef .tc main_arg24) = W0 (Proc.devRef .tc main_arg24) :=
  (keep7 (V6 W0) main_arg24 (by decide)).trans (A6_24 W0)
theorem S7_v52 (W0 : Valuation τ sig (Elt F)) : V7 W0 (Proc.devRef .tc main_v52) = ReadP.val_main_v52 (F := F) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (W0 (Proc.devRef .tc main_arg7)) :=
  piece7_v52 (V6 W0) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (W0 (Proc.devRef .tc main_arg7)) (A6_7 W0) (S6_v43 W0) (S6_v44 W0) (S6_v42 W0) (S6_v14 W0)

/-! After piece 8 -/
theorem A8_8 (W0 : Valuation τ sig (Elt F)) : V8 W0 (Proc.devRef .tc main_arg8) = W0 (Proc.devRef .tc main_arg8) :=
  (keep8 (V7 W0) main_arg8 (by decide)).trans (A7_8 W0)
theorem A8_1 (W0 : Valuation τ sig (Elt F)) : V8 W0 (Proc.devRef .tc main_arg1) = W0 (Proc.devRef .tc main_arg1) :=
  (keep8 (V7 W0) main_arg1 (by decide)).trans (A7_1 W0)
theorem A8_2 (W0 : Valuation τ sig (Elt F)) : V8 W0 (Proc.devRef .tc main_arg2) = W0 (Proc.devRef .tc main_arg2) :=
  (keep8 (V7 W0) main_arg2 (by decide)).trans (A7_2 W0)
theorem A8_9 (W0 : Valuation τ sig (Elt F)) : V8 W0 (Proc.devRef .tc main_arg9) = W0 (Proc.devRef .tc main_arg9) :=
  (keep8 (V7 W0) main_arg9 (by decide)).trans (A7_9 W0)
theorem A8_3 (W0 : Valuation τ sig (Elt F)) : V8 W0 (Proc.devRef .tc main_arg3) = W0 (Proc.devRef .tc main_arg3) :=
  (keep8 (V7 W0) main_arg3 (by decide)).trans (A7_3 W0)
theorem A8_10 (W0 : Valuation τ sig (Elt F)) : V8 W0 (Proc.devRef .tc main_arg10) = W0 (Proc.devRef .tc main_arg10) :=
  (keep8 (V7 W0) main_arg10 (by decide)).trans (A7_10 W0)
theorem A8_11 (W0 : Valuation τ sig (Elt F)) : V8 W0 (Proc.devRef .tc main_arg11) = W0 (Proc.devRef .tc main_arg11) :=
  (keep8 (V7 W0) main_arg11 (by decide)).trans (A7_11 W0)
theorem A8_12 (W0 : Valuation τ sig (Elt F)) : V8 W0 (Proc.devRef .tc main_arg12) = W0 (Proc.devRef .tc main_arg12) :=
  (keep8 (V7 W0) main_arg12 (by decide)).trans (A7_12 W0)
theorem A8_13 (W0 : Valuation τ sig (Elt F)) : V8 W0 (Proc.devRef .tc main_arg13) = W0 (Proc.devRef .tc main_arg13) :=
  (keep8 (V7 W0) main_arg13 (by decide)).trans (A7_13 W0)
theorem A8_16 (W0 : Valuation τ sig (Elt F)) : V8 W0 (Proc.devRef .tc main_arg16) = W0 (Proc.devRef .tc main_arg16) :=
  (keep8 (V7 W0) main_arg16 (by decide)).trans (A7_16 W0)
theorem A8_17 (W0 : Valuation τ sig (Elt F)) : V8 W0 (Proc.devRef .tc main_arg17) = W0 (Proc.devRef .tc main_arg17) :=
  (keep8 (V7 W0) main_arg17 (by decide)).trans (A7_17 W0)
theorem A8_14 (W0 : Valuation τ sig (Elt F)) : V8 W0 (Proc.devRef .tc main_arg14) = W0 (Proc.devRef .tc main_arg14) :=
  (keep8 (V7 W0) main_arg14 (by decide)).trans (A7_14 W0)
theorem A8_15 (W0 : Valuation τ sig (Elt F)) : V8 W0 (Proc.devRef .tc main_arg15) = W0 (Proc.devRef .tc main_arg15) :=
  (keep8 (V7 W0) main_arg15 (by decide)).trans (A7_15 W0)
theorem A8_18 (W0 : Valuation τ sig (Elt F)) : V8 W0 (Proc.devRef .tc main_arg18) = W0 (Proc.devRef .tc main_arg18) :=
  (keep8 (V7 W0) main_arg18 (by decide)).trans (A7_18 W0)
theorem A8_19 (W0 : Valuation τ sig (Elt F)) : V8 W0 (Proc.devRef .tc main_arg19) = W0 (Proc.devRef .tc main_arg19) :=
  (keep8 (V7 W0) main_arg19 (by decide)).trans (A7_19 W0)
theorem A8_22 (W0 : Valuation τ sig (Elt F)) : V8 W0 (Proc.devRef .tc main_arg22) = W0 (Proc.devRef .tc main_arg22) :=
  (keep8 (V7 W0) main_arg22 (by decide)).trans (A7_22 W0)
theorem A8_23 (W0 : Valuation τ sig (Elt F)) : V8 W0 (Proc.devRef .tc main_arg23) = W0 (Proc.devRef .tc main_arg23) :=
  (keep8 (V7 W0) main_arg23 (by decide)).trans (A7_23 W0)
theorem A8_20 (W0 : Valuation τ sig (Elt F)) : V8 W0 (Proc.devRef .tc main_arg20) = W0 (Proc.devRef .tc main_arg20) :=
  (keep8 (V7 W0) main_arg20 (by decide)).trans (A7_20 W0)
theorem A8_21 (W0 : Valuation τ sig (Elt F)) : V8 W0 (Proc.devRef .tc main_arg21) = W0 (Proc.devRef .tc main_arg21) :=
  (keep8 (V7 W0) main_arg21 (by decide)).trans (A7_21 W0)
theorem A8_24 (W0 : Valuation τ sig (Elt F)) : V8 W0 (Proc.devRef .tc main_arg24) = W0 (Proc.devRef .tc main_arg24) :=
  (keep8 (V7 W0) main_arg24 (by decide)).trans (A7_24 W0)
theorem S8_v52 (W0 : Valuation τ sig (Elt F)) : V8 W0 (Proc.devRef .tc main_v52) = ReadP.val_main_v52 (F := F) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (W0 (Proc.devRef .tc main_arg7)) :=
  (keep8 (V7 W0) main_v52 (by decide)).trans (S7_v52 W0)
theorem S8_v64 (W0 : Valuation τ sig (Elt F)) : V8 W0 (Proc.devRef .tc main_v64) = ReadP.val_main_v64 (F := F) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) :=
  piece8_v64 (V7 W0) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (A7_3 W0) (S7_v52 W0)

/-! After piece 9 -/
theorem A9_1 (W0 : Valuation τ sig (Elt F)) : V9 W0 (Proc.devRef .tc main_arg1) = W0 (Proc.devRef .tc main_arg1) :=
  (keep9 (V8 W0) main_arg1 (by decide)).trans (A8_1 W0)
theorem A9_2 (W0 : Valuation τ sig (Elt F)) : V9 W0 (Proc.devRef .tc main_arg2) = W0 (Proc.devRef .tc main_arg2) :=
  (keep9 (V8 W0) main_arg2 (by decide)).trans (A8_2 W0)
theorem A9_9 (W0 : Valuation τ sig (Elt F)) : V9 W0 (Proc.devRef .tc main_arg9) = W0 (Proc.devRef .tc main_arg9) :=
  (keep9 (V8 W0) main_arg9 (by decide)).trans (A8_9 W0)
theorem A9_3 (W0 : Valuation τ sig (Elt F)) : V9 W0 (Proc.devRef .tc main_arg3) = W0 (Proc.devRef .tc main_arg3) :=
  (keep9 (V8 W0) main_arg3 (by decide)).trans (A8_3 W0)
theorem A9_10 (W0 : Valuation τ sig (Elt F)) : V9 W0 (Proc.devRef .tc main_arg10) = W0 (Proc.devRef .tc main_arg10) :=
  (keep9 (V8 W0) main_arg10 (by decide)).trans (A8_10 W0)
theorem A9_11 (W0 : Valuation τ sig (Elt F)) : V9 W0 (Proc.devRef .tc main_arg11) = W0 (Proc.devRef .tc main_arg11) :=
  (keep9 (V8 W0) main_arg11 (by decide)).trans (A8_11 W0)
theorem A9_12 (W0 : Valuation τ sig (Elt F)) : V9 W0 (Proc.devRef .tc main_arg12) = W0 (Proc.devRef .tc main_arg12) :=
  (keep9 (V8 W0) main_arg12 (by decide)).trans (A8_12 W0)
theorem A9_13 (W0 : Valuation τ sig (Elt F)) : V9 W0 (Proc.devRef .tc main_arg13) = W0 (Proc.devRef .tc main_arg13) :=
  (keep9 (V8 W0) main_arg13 (by decide)).trans (A8_13 W0)
theorem A9_16 (W0 : Valuation τ sig (Elt F)) : V9 W0 (Proc.devRef .tc main_arg16) = W0 (Proc.devRef .tc main_arg16) :=
  (keep9 (V8 W0) main_arg16 (by decide)).trans (A8_16 W0)
theorem A9_17 (W0 : Valuation τ sig (Elt F)) : V9 W0 (Proc.devRef .tc main_arg17) = W0 (Proc.devRef .tc main_arg17) :=
  (keep9 (V8 W0) main_arg17 (by decide)).trans (A8_17 W0)
theorem A9_14 (W0 : Valuation τ sig (Elt F)) : V9 W0 (Proc.devRef .tc main_arg14) = W0 (Proc.devRef .tc main_arg14) :=
  (keep9 (V8 W0) main_arg14 (by decide)).trans (A8_14 W0)
theorem A9_15 (W0 : Valuation τ sig (Elt F)) : V9 W0 (Proc.devRef .tc main_arg15) = W0 (Proc.devRef .tc main_arg15) :=
  (keep9 (V8 W0) main_arg15 (by decide)).trans (A8_15 W0)
theorem A9_18 (W0 : Valuation τ sig (Elt F)) : V9 W0 (Proc.devRef .tc main_arg18) = W0 (Proc.devRef .tc main_arg18) :=
  (keep9 (V8 W0) main_arg18 (by decide)).trans (A8_18 W0)
theorem A9_19 (W0 : Valuation τ sig (Elt F)) : V9 W0 (Proc.devRef .tc main_arg19) = W0 (Proc.devRef .tc main_arg19) :=
  (keep9 (V8 W0) main_arg19 (by decide)).trans (A8_19 W0)
theorem A9_22 (W0 : Valuation τ sig (Elt F)) : V9 W0 (Proc.devRef .tc main_arg22) = W0 (Proc.devRef .tc main_arg22) :=
  (keep9 (V8 W0) main_arg22 (by decide)).trans (A8_22 W0)
theorem A9_23 (W0 : Valuation τ sig (Elt F)) : V9 W0 (Proc.devRef .tc main_arg23) = W0 (Proc.devRef .tc main_arg23) :=
  (keep9 (V8 W0) main_arg23 (by decide)).trans (A8_23 W0)
theorem A9_20 (W0 : Valuation τ sig (Elt F)) : V9 W0 (Proc.devRef .tc main_arg20) = W0 (Proc.devRef .tc main_arg20) :=
  (keep9 (V8 W0) main_arg20 (by decide)).trans (A8_20 W0)
theorem A9_21 (W0 : Valuation τ sig (Elt F)) : V9 W0 (Proc.devRef .tc main_arg21) = W0 (Proc.devRef .tc main_arg21) :=
  (keep9 (V8 W0) main_arg21 (by decide)).trans (A8_21 W0)
theorem A9_24 (W0 : Valuation τ sig (Elt F)) : V9 W0 (Proc.devRef .tc main_arg24) = W0 (Proc.devRef .tc main_arg24) :=
  (keep9 (V8 W0) main_arg24 (by decide)).trans (A8_24 W0)
theorem S9_v65 (W0 : Valuation τ sig (Elt F)) : V9 W0 (Proc.devRef .tc main_v65) = ReadP.val_main_v65 (F := F) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (W0 (Proc.devRef .tc main_arg7)) (W0 (Proc.devRef .tc main_arg8)) :=
  piece9_v65 (V8 W0) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (W0 (Proc.devRef .tc main_arg7)) (W0 (Proc.devRef .tc main_arg8)) (A8_8 W0) (S8_v52 W0)
theorem S9_v64 (W0 : Valuation τ sig (Elt F)) : V9 W0 (Proc.devRef .tc main_v64) = ReadP.val_main_v64 (F := F) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) :=
  (keep9 (V8 W0) main_v64 (by decide)).trans (S8_v64 W0)

/-! After piece 10 -/
theorem A10_2 (W0 : Valuation τ sig (Elt F)) : V10 W0 (Proc.devRef .tc main_arg2) = W0 (Proc.devRef .tc main_arg2) :=
  (keep10 (V9 W0) main_arg2 (by decide)).trans (A9_2 W0)
theorem A10_1 (W0 : Valuation τ sig (Elt F)) : V10 W0 (Proc.devRef .tc main_arg1) = W0 (Proc.devRef .tc main_arg1) :=
  (keep10 (V9 W0) main_arg1 (by decide)).trans (A9_1 W0)
theorem A10_9 (W0 : Valuation τ sig (Elt F)) : V10 W0 (Proc.devRef .tc main_arg9) = W0 (Proc.devRef .tc main_arg9) :=
  (keep10 (V9 W0) main_arg9 (by decide)).trans (A9_9 W0)
theorem A10_3 (W0 : Valuation τ sig (Elt F)) : V10 W0 (Proc.devRef .tc main_arg3) = W0 (Proc.devRef .tc main_arg3) :=
  (keep10 (V9 W0) main_arg3 (by decide)).trans (A9_3 W0)
theorem A10_10 (W0 : Valuation τ sig (Elt F)) : V10 W0 (Proc.devRef .tc main_arg10) = W0 (Proc.devRef .tc main_arg10) :=
  (keep10 (V9 W0) main_arg10 (by decide)).trans (A9_10 W0)
theorem A10_11 (W0 : Valuation τ sig (Elt F)) : V10 W0 (Proc.devRef .tc main_arg11) = W0 (Proc.devRef .tc main_arg11) :=
  (keep10 (V9 W0) main_arg11 (by decide)).trans (A9_11 W0)
theorem A10_12 (W0 : Valuation τ sig (Elt F)) : V10 W0 (Proc.devRef .tc main_arg12) = W0 (Proc.devRef .tc main_arg12) :=
  (keep10 (V9 W0) main_arg12 (by decide)).trans (A9_12 W0)
theorem A10_13 (W0 : Valuation τ sig (Elt F)) : V10 W0 (Proc.devRef .tc main_arg13) = W0 (Proc.devRef .tc main_arg13) :=
  (keep10 (V9 W0) main_arg13 (by decide)).trans (A9_13 W0)
theorem A10_16 (W0 : Valuation τ sig (Elt F)) : V10 W0 (Proc.devRef .tc main_arg16) = W0 (Proc.devRef .tc main_arg16) :=
  (keep10 (V9 W0) main_arg16 (by decide)).trans (A9_16 W0)
theorem A10_17 (W0 : Valuation τ sig (Elt F)) : V10 W0 (Proc.devRef .tc main_arg17) = W0 (Proc.devRef .tc main_arg17) :=
  (keep10 (V9 W0) main_arg17 (by decide)).trans (A9_17 W0)
theorem A10_14 (W0 : Valuation τ sig (Elt F)) : V10 W0 (Proc.devRef .tc main_arg14) = W0 (Proc.devRef .tc main_arg14) :=
  (keep10 (V9 W0) main_arg14 (by decide)).trans (A9_14 W0)
theorem A10_15 (W0 : Valuation τ sig (Elt F)) : V10 W0 (Proc.devRef .tc main_arg15) = W0 (Proc.devRef .tc main_arg15) :=
  (keep10 (V9 W0) main_arg15 (by decide)).trans (A9_15 W0)
theorem A10_18 (W0 : Valuation τ sig (Elt F)) : V10 W0 (Proc.devRef .tc main_arg18) = W0 (Proc.devRef .tc main_arg18) :=
  (keep10 (V9 W0) main_arg18 (by decide)).trans (A9_18 W0)
theorem A10_19 (W0 : Valuation τ sig (Elt F)) : V10 W0 (Proc.devRef .tc main_arg19) = W0 (Proc.devRef .tc main_arg19) :=
  (keep10 (V9 W0) main_arg19 (by decide)).trans (A9_19 W0)
theorem A10_22 (W0 : Valuation τ sig (Elt F)) : V10 W0 (Proc.devRef .tc main_arg22) = W0 (Proc.devRef .tc main_arg22) :=
  (keep10 (V9 W0) main_arg22 (by decide)).trans (A9_22 W0)
theorem A10_23 (W0 : Valuation τ sig (Elt F)) : V10 W0 (Proc.devRef .tc main_arg23) = W0 (Proc.devRef .tc main_arg23) :=
  (keep10 (V9 W0) main_arg23 (by decide)).trans (A9_23 W0)
theorem A10_20 (W0 : Valuation τ sig (Elt F)) : V10 W0 (Proc.devRef .tc main_arg20) = W0 (Proc.devRef .tc main_arg20) :=
  (keep10 (V9 W0) main_arg20 (by decide)).trans (A9_20 W0)
theorem A10_21 (W0 : Valuation τ sig (Elt F)) : V10 W0 (Proc.devRef .tc main_arg21) = W0 (Proc.devRef .tc main_arg21) :=
  (keep10 (V9 W0) main_arg21 (by decide)).trans (A9_21 W0)
theorem A10_24 (W0 : Valuation τ sig (Elt F)) : V10 W0 (Proc.devRef .tc main_arg24) = W0 (Proc.devRef .tc main_arg24) :=
  (keep10 (V9 W0) main_arg24 (by decide)).trans (A9_24 W0)
theorem S10_v66 (W0 : Valuation τ sig (Elt F)) : V10 W0 (Proc.devRef .tc main_v66) = ReadP.val_main_v66 (F := F) :=
  piece10_v66 (V9 W0) (W0 (Proc.devRef .tc main_arg1)) (A9_1 W0)
theorem S10_v65 (W0 : Valuation τ sig (Elt F)) : V10 W0 (Proc.devRef .tc main_v65) = ReadP.val_main_v65 (F := F) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (W0 (Proc.devRef .tc main_arg7)) (W0 (Proc.devRef .tc main_arg8)) :=
  (keep10 (V9 W0) main_v65 (by decide)).trans (S9_v65 W0)
theorem S10_v74 (W0 : Valuation τ sig (Elt F)) : V10 W0 (Proc.devRef .tc main_v74) = ReadP.val_main_v74 (F := F) (W0 (Proc.devRef .tc main_arg1)) :=
  piece10_v74 (V9 W0) (W0 (Proc.devRef .tc main_arg1)) (A9_1 W0)
theorem S10_v64 (W0 : Valuation τ sig (Elt F)) : V10 W0 (Proc.devRef .tc main_v64) = ReadP.val_main_v64 (F := F) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) :=
  (keep10 (V9 W0) main_v64 (by decide)).trans (S9_v64 W0)

/-! After piece 11 -/
theorem A11_1 (W0 : Valuation τ sig (Elt F)) : V11 W0 (Proc.devRef .tc main_arg1) = W0 (Proc.devRef .tc main_arg1) :=
  (keep11 (V10 W0) main_arg1 (by decide)).trans (A10_1 W0)
theorem A11_2 (W0 : Valuation τ sig (Elt F)) : V11 W0 (Proc.devRef .tc main_arg2) = W0 (Proc.devRef .tc main_arg2) :=
  (keep11 (V10 W0) main_arg2 (by decide)).trans (A10_2 W0)
theorem A11_9 (W0 : Valuation τ sig (Elt F)) : V11 W0 (Proc.devRef .tc main_arg9) = W0 (Proc.devRef .tc main_arg9) :=
  (keep11 (V10 W0) main_arg9 (by decide)).trans (A10_9 W0)
theorem A11_3 (W0 : Valuation τ sig (Elt F)) : V11 W0 (Proc.devRef .tc main_arg3) = W0 (Proc.devRef .tc main_arg3) :=
  (keep11 (V10 W0) main_arg3 (by decide)).trans (A10_3 W0)
theorem A11_10 (W0 : Valuation τ sig (Elt F)) : V11 W0 (Proc.devRef .tc main_arg10) = W0 (Proc.devRef .tc main_arg10) :=
  (keep11 (V10 W0) main_arg10 (by decide)).trans (A10_10 W0)
theorem A11_11 (W0 : Valuation τ sig (Elt F)) : V11 W0 (Proc.devRef .tc main_arg11) = W0 (Proc.devRef .tc main_arg11) :=
  (keep11 (V10 W0) main_arg11 (by decide)).trans (A10_11 W0)
theorem A11_12 (W0 : Valuation τ sig (Elt F)) : V11 W0 (Proc.devRef .tc main_arg12) = W0 (Proc.devRef .tc main_arg12) :=
  (keep11 (V10 W0) main_arg12 (by decide)).trans (A10_12 W0)
theorem A11_13 (W0 : Valuation τ sig (Elt F)) : V11 W0 (Proc.devRef .tc main_arg13) = W0 (Proc.devRef .tc main_arg13) :=
  (keep11 (V10 W0) main_arg13 (by decide)).trans (A10_13 W0)
theorem A11_16 (W0 : Valuation τ sig (Elt F)) : V11 W0 (Proc.devRef .tc main_arg16) = W0 (Proc.devRef .tc main_arg16) :=
  (keep11 (V10 W0) main_arg16 (by decide)).trans (A10_16 W0)
theorem A11_17 (W0 : Valuation τ sig (Elt F)) : V11 W0 (Proc.devRef .tc main_arg17) = W0 (Proc.devRef .tc main_arg17) :=
  (keep11 (V10 W0) main_arg17 (by decide)).trans (A10_17 W0)
theorem A11_14 (W0 : Valuation τ sig (Elt F)) : V11 W0 (Proc.devRef .tc main_arg14) = W0 (Proc.devRef .tc main_arg14) :=
  (keep11 (V10 W0) main_arg14 (by decide)).trans (A10_14 W0)
theorem A11_15 (W0 : Valuation τ sig (Elt F)) : V11 W0 (Proc.devRef .tc main_arg15) = W0 (Proc.devRef .tc main_arg15) :=
  (keep11 (V10 W0) main_arg15 (by decide)).trans (A10_15 W0)
theorem A11_18 (W0 : Valuation τ sig (Elt F)) : V11 W0 (Proc.devRef .tc main_arg18) = W0 (Proc.devRef .tc main_arg18) :=
  (keep11 (V10 W0) main_arg18 (by decide)).trans (A10_18 W0)
theorem A11_19 (W0 : Valuation τ sig (Elt F)) : V11 W0 (Proc.devRef .tc main_arg19) = W0 (Proc.devRef .tc main_arg19) :=
  (keep11 (V10 W0) main_arg19 (by decide)).trans (A10_19 W0)
theorem A11_22 (W0 : Valuation τ sig (Elt F)) : V11 W0 (Proc.devRef .tc main_arg22) = W0 (Proc.devRef .tc main_arg22) :=
  (keep11 (V10 W0) main_arg22 (by decide)).trans (A10_22 W0)
theorem A11_23 (W0 : Valuation τ sig (Elt F)) : V11 W0 (Proc.devRef .tc main_arg23) = W0 (Proc.devRef .tc main_arg23) :=
  (keep11 (V10 W0) main_arg23 (by decide)).trans (A10_23 W0)
theorem A11_20 (W0 : Valuation τ sig (Elt F)) : V11 W0 (Proc.devRef .tc main_arg20) = W0 (Proc.devRef .tc main_arg20) :=
  (keep11 (V10 W0) main_arg20 (by decide)).trans (A10_20 W0)
theorem A11_21 (W0 : Valuation τ sig (Elt F)) : V11 W0 (Proc.devRef .tc main_arg21) = W0 (Proc.devRef .tc main_arg21) :=
  (keep11 (V10 W0) main_arg21 (by decide)).trans (A10_21 W0)
theorem A11_24 (W0 : Valuation τ sig (Elt F)) : V11 W0 (Proc.devRef .tc main_arg24) = W0 (Proc.devRef .tc main_arg24) :=
  (keep11 (V10 W0) main_arg24 (by decide)).trans (A10_24 W0)
theorem S11_v65 (W0 : Valuation τ sig (Elt F)) : V11 W0 (Proc.devRef .tc main_v65) = ReadP.val_main_v65 (F := F) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (W0 (Proc.devRef .tc main_arg7)) (W0 (Proc.devRef .tc main_arg8)) :=
  (keep11 (V10 W0) main_v65 (by decide)).trans (S10_v65 W0)
theorem S11_v82 (W0 : Valuation τ sig (Elt F)) : V11 W0 (Proc.devRef .tc main_v82) = ReadP.val_main_v82 (F := F) (W0 (Proc.devRef .tc main_arg2)) :=
  piece11_v82 (V10 W0) (W0 (Proc.devRef .tc main_arg2)) (A10_2 W0) (S10_v66 W0)
theorem S11_v74 (W0 : Valuation τ sig (Elt F)) : V11 W0 (Proc.devRef .tc main_v74) = ReadP.val_main_v74 (F := F) (W0 (Proc.devRef .tc main_arg1)) :=
  (keep11 (V10 W0) main_v74 (by decide)).trans (S10_v74 W0)
theorem S11_v64 (W0 : Valuation τ sig (Elt F)) : V11 W0 (Proc.devRef .tc main_v64) = ReadP.val_main_v64 (F := F) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) :=
  (keep11 (V10 W0) main_v64 (by decide)).trans (S10_v64 W0)

/-! After piece 12 -/
theorem A12_2 (W0 : Valuation τ sig (Elt F)) : V12 W0 (Proc.devRef .tc main_arg2) = W0 (Proc.devRef .tc main_arg2) :=
  (keep12 (V11 W0) main_arg2 (by decide)).trans (A11_2 W0)
theorem A12_1 (W0 : Valuation τ sig (Elt F)) : V12 W0 (Proc.devRef .tc main_arg1) = W0 (Proc.devRef .tc main_arg1) :=
  (keep12 (V11 W0) main_arg1 (by decide)).trans (A11_1 W0)
theorem A12_9 (W0 : Valuation τ sig (Elt F)) : V12 W0 (Proc.devRef .tc main_arg9) = W0 (Proc.devRef .tc main_arg9) :=
  (keep12 (V11 W0) main_arg9 (by decide)).trans (A11_9 W0)
theorem A12_3 (W0 : Valuation τ sig (Elt F)) : V12 W0 (Proc.devRef .tc main_arg3) = W0 (Proc.devRef .tc main_arg3) :=
  (keep12 (V11 W0) main_arg3 (by decide)).trans (A11_3 W0)
theorem A12_10 (W0 : Valuation τ sig (Elt F)) : V12 W0 (Proc.devRef .tc main_arg10) = W0 (Proc.devRef .tc main_arg10) :=
  (keep12 (V11 W0) main_arg10 (by decide)).trans (A11_10 W0)
theorem A12_11 (W0 : Valuation τ sig (Elt F)) : V12 W0 (Proc.devRef .tc main_arg11) = W0 (Proc.devRef .tc main_arg11) :=
  (keep12 (V11 W0) main_arg11 (by decide)).trans (A11_11 W0)
theorem A12_12 (W0 : Valuation τ sig (Elt F)) : V12 W0 (Proc.devRef .tc main_arg12) = W0 (Proc.devRef .tc main_arg12) :=
  (keep12 (V11 W0) main_arg12 (by decide)).trans (A11_12 W0)
theorem A12_13 (W0 : Valuation τ sig (Elt F)) : V12 W0 (Proc.devRef .tc main_arg13) = W0 (Proc.devRef .tc main_arg13) :=
  (keep12 (V11 W0) main_arg13 (by decide)).trans (A11_13 W0)
theorem A12_16 (W0 : Valuation τ sig (Elt F)) : V12 W0 (Proc.devRef .tc main_arg16) = W0 (Proc.devRef .tc main_arg16) :=
  (keep12 (V11 W0) main_arg16 (by decide)).trans (A11_16 W0)
theorem A12_17 (W0 : Valuation τ sig (Elt F)) : V12 W0 (Proc.devRef .tc main_arg17) = W0 (Proc.devRef .tc main_arg17) :=
  (keep12 (V11 W0) main_arg17 (by decide)).trans (A11_17 W0)
theorem A12_14 (W0 : Valuation τ sig (Elt F)) : V12 W0 (Proc.devRef .tc main_arg14) = W0 (Proc.devRef .tc main_arg14) :=
  (keep12 (V11 W0) main_arg14 (by decide)).trans (A11_14 W0)
theorem A12_15 (W0 : Valuation τ sig (Elt F)) : V12 W0 (Proc.devRef .tc main_arg15) = W0 (Proc.devRef .tc main_arg15) :=
  (keep12 (V11 W0) main_arg15 (by decide)).trans (A11_15 W0)
theorem A12_18 (W0 : Valuation τ sig (Elt F)) : V12 W0 (Proc.devRef .tc main_arg18) = W0 (Proc.devRef .tc main_arg18) :=
  (keep12 (V11 W0) main_arg18 (by decide)).trans (A11_18 W0)
theorem A12_19 (W0 : Valuation τ sig (Elt F)) : V12 W0 (Proc.devRef .tc main_arg19) = W0 (Proc.devRef .tc main_arg19) :=
  (keep12 (V11 W0) main_arg19 (by decide)).trans (A11_19 W0)
theorem A12_22 (W0 : Valuation τ sig (Elt F)) : V12 W0 (Proc.devRef .tc main_arg22) = W0 (Proc.devRef .tc main_arg22) :=
  (keep12 (V11 W0) main_arg22 (by decide)).trans (A11_22 W0)
theorem A12_23 (W0 : Valuation τ sig (Elt F)) : V12 W0 (Proc.devRef .tc main_arg23) = W0 (Proc.devRef .tc main_arg23) :=
  (keep12 (V11 W0) main_arg23 (by decide)).trans (A11_23 W0)
theorem A12_20 (W0 : Valuation τ sig (Elt F)) : V12 W0 (Proc.devRef .tc main_arg20) = W0 (Proc.devRef .tc main_arg20) :=
  (keep12 (V11 W0) main_arg20 (by decide)).trans (A11_20 W0)
theorem A12_21 (W0 : Valuation τ sig (Elt F)) : V12 W0 (Proc.devRef .tc main_arg21) = W0 (Proc.devRef .tc main_arg21) :=
  (keep12 (V11 W0) main_arg21 (by decide)).trans (A11_21 W0)
theorem A12_24 (W0 : Valuation τ sig (Elt F)) : V12 W0 (Proc.devRef .tc main_arg24) = W0 (Proc.devRef .tc main_arg24) :=
  (keep12 (V11 W0) main_arg24 (by decide)).trans (A11_24 W0)
theorem S12_v89 (W0 : Valuation τ sig (Elt F)) : V12 W0 (Proc.devRef .tc main_v89) = ReadP.val_main_v89 (F := F) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (W0 (Proc.devRef .tc main_arg7)) (W0 (Proc.devRef .tc main_arg8)) :=
  piece12_v89 (V11 W0) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (W0 (Proc.devRef .tc main_arg7)) (W0 (Proc.devRef .tc main_arg8)) (A11_1 W0) (S11_v65 W0)
theorem S12_v82 (W0 : Valuation τ sig (Elt F)) : V12 W0 (Proc.devRef .tc main_v82) = ReadP.val_main_v82 (F := F) (W0 (Proc.devRef .tc main_arg2)) :=
  (keep12 (V11 W0) main_v82 (by decide)).trans (S11_v82 W0)
theorem S12_v74 (W0 : Valuation τ sig (Elt F)) : V12 W0 (Proc.devRef .tc main_v74) = ReadP.val_main_v74 (F := F) (W0 (Proc.devRef .tc main_arg1)) :=
  (keep12 (V11 W0) main_v74 (by decide)).trans (S11_v74 W0)
theorem S12_v64 (W0 : Valuation τ sig (Elt F)) : V12 W0 (Proc.devRef .tc main_v64) = ReadP.val_main_v64 (F := F) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) :=
  (keep12 (V11 W0) main_v64 (by decide)).trans (S11_v64 W0)

/-! After piece 13 -/
theorem A13_2 (W0 : Valuation τ sig (Elt F)) : V13 W0 (Proc.devRef .tc main_arg2) = W0 (Proc.devRef .tc main_arg2) :=
  (keep13 (V12 W0) main_arg2 (by decide)).trans (A12_2 W0)
theorem A13_1 (W0 : Valuation τ sig (Elt F)) : V13 W0 (Proc.devRef .tc main_arg1) = W0 (Proc.devRef .tc main_arg1) :=
  (keep13 (V12 W0) main_arg1 (by decide)).trans (A12_1 W0)
theorem A13_9 (W0 : Valuation τ sig (Elt F)) : V13 W0 (Proc.devRef .tc main_arg9) = W0 (Proc.devRef .tc main_arg9) :=
  (keep13 (V12 W0) main_arg9 (by decide)).trans (A12_9 W0)
theorem A13_3 (W0 : Valuation τ sig (Elt F)) : V13 W0 (Proc.devRef .tc main_arg3) = W0 (Proc.devRef .tc main_arg3) :=
  (keep13 (V12 W0) main_arg3 (by decide)).trans (A12_3 W0)
theorem A13_10 (W0 : Valuation τ sig (Elt F)) : V13 W0 (Proc.devRef .tc main_arg10) = W0 (Proc.devRef .tc main_arg10) :=
  (keep13 (V12 W0) main_arg10 (by decide)).trans (A12_10 W0)
theorem A13_11 (W0 : Valuation τ sig (Elt F)) : V13 W0 (Proc.devRef .tc main_arg11) = W0 (Proc.devRef .tc main_arg11) :=
  (keep13 (V12 W0) main_arg11 (by decide)).trans (A12_11 W0)
theorem A13_12 (W0 : Valuation τ sig (Elt F)) : V13 W0 (Proc.devRef .tc main_arg12) = W0 (Proc.devRef .tc main_arg12) :=
  (keep13 (V12 W0) main_arg12 (by decide)).trans (A12_12 W0)
theorem A13_13 (W0 : Valuation τ sig (Elt F)) : V13 W0 (Proc.devRef .tc main_arg13) = W0 (Proc.devRef .tc main_arg13) :=
  (keep13 (V12 W0) main_arg13 (by decide)).trans (A12_13 W0)
theorem A13_16 (W0 : Valuation τ sig (Elt F)) : V13 W0 (Proc.devRef .tc main_arg16) = W0 (Proc.devRef .tc main_arg16) :=
  (keep13 (V12 W0) main_arg16 (by decide)).trans (A12_16 W0)
theorem A13_17 (W0 : Valuation τ sig (Elt F)) : V13 W0 (Proc.devRef .tc main_arg17) = W0 (Proc.devRef .tc main_arg17) :=
  (keep13 (V12 W0) main_arg17 (by decide)).trans (A12_17 W0)
theorem A13_14 (W0 : Valuation τ sig (Elt F)) : V13 W0 (Proc.devRef .tc main_arg14) = W0 (Proc.devRef .tc main_arg14) :=
  (keep13 (V12 W0) main_arg14 (by decide)).trans (A12_14 W0)
theorem A13_15 (W0 : Valuation τ sig (Elt F)) : V13 W0 (Proc.devRef .tc main_arg15) = W0 (Proc.devRef .tc main_arg15) :=
  (keep13 (V12 W0) main_arg15 (by decide)).trans (A12_15 W0)
theorem A13_18 (W0 : Valuation τ sig (Elt F)) : V13 W0 (Proc.devRef .tc main_arg18) = W0 (Proc.devRef .tc main_arg18) :=
  (keep13 (V12 W0) main_arg18 (by decide)).trans (A12_18 W0)
theorem A13_19 (W0 : Valuation τ sig (Elt F)) : V13 W0 (Proc.devRef .tc main_arg19) = W0 (Proc.devRef .tc main_arg19) :=
  (keep13 (V12 W0) main_arg19 (by decide)).trans (A12_19 W0)
theorem A13_22 (W0 : Valuation τ sig (Elt F)) : V13 W0 (Proc.devRef .tc main_arg22) = W0 (Proc.devRef .tc main_arg22) :=
  (keep13 (V12 W0) main_arg22 (by decide)).trans (A12_22 W0)
theorem A13_23 (W0 : Valuation τ sig (Elt F)) : V13 W0 (Proc.devRef .tc main_arg23) = W0 (Proc.devRef .tc main_arg23) :=
  (keep13 (V12 W0) main_arg23 (by decide)).trans (A12_23 W0)
theorem A13_20 (W0 : Valuation τ sig (Elt F)) : V13 W0 (Proc.devRef .tc main_arg20) = W0 (Proc.devRef .tc main_arg20) :=
  (keep13 (V12 W0) main_arg20 (by decide)).trans (A12_20 W0)
theorem A13_21 (W0 : Valuation τ sig (Elt F)) : V13 W0 (Proc.devRef .tc main_arg21) = W0 (Proc.devRef .tc main_arg21) :=
  (keep13 (V12 W0) main_arg21 (by decide)).trans (A12_21 W0)
theorem A13_24 (W0 : Valuation τ sig (Elt F)) : V13 W0 (Proc.devRef .tc main_arg24) = W0 (Proc.devRef .tc main_arg24) :=
  (keep13 (V12 W0) main_arg24 (by decide)).trans (A12_24 W0)
theorem S13_v95 (W0 : Valuation τ sig (Elt F)) : V13 W0 (Proc.devRef .tc main_v95) = ReadP.val_main_v95 (F := F) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (W0 (Proc.devRef .tc main_arg7)) (W0 (Proc.devRef .tc main_arg8)) :=
  piece13_v95 (V12 W0) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (W0 (Proc.devRef .tc main_arg7)) (W0 (Proc.devRef .tc main_arg8)) (A12_2 W0) (S12_v89 W0) (S12_v82 W0)
theorem S13_v74 (W0 : Valuation τ sig (Elt F)) : V13 W0 (Proc.devRef .tc main_v74) = ReadP.val_main_v74 (F := F) (W0 (Proc.devRef .tc main_arg1)) :=
  (keep13 (V12 W0) main_v74 (by decide)).trans (S12_v74 W0)
theorem S13_v64 (W0 : Valuation τ sig (Elt F)) : V13 W0 (Proc.devRef .tc main_v64) = ReadP.val_main_v64 (F := F) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) :=
  (keep13 (V12 W0) main_v64 (by decide)).trans (S12_v64 W0)

/-! After piece 14 -/
theorem A14_9 (W0 : Valuation τ sig (Elt F)) : V14 W0 (Proc.devRef .tc main_arg9) = W0 (Proc.devRef .tc main_arg9) :=
  (keep14 (V13 W0) main_arg9 (by decide)).trans (A13_9 W0)
theorem A14_3 (W0 : Valuation τ sig (Elt F)) : V14 W0 (Proc.devRef .tc main_arg3) = W0 (Proc.devRef .tc main_arg3) :=
  (keep14 (V13 W0) main_arg3 (by decide)).trans (A13_3 W0)
theorem A14_10 (W0 : Valuation τ sig (Elt F)) : V14 W0 (Proc.devRef .tc main_arg10) = W0 (Proc.devRef .tc main_arg10) :=
  (keep14 (V13 W0) main_arg10 (by decide)).trans (A13_10 W0)
theorem A14_11 (W0 : Valuation τ sig (Elt F)) : V14 W0 (Proc.devRef .tc main_arg11) = W0 (Proc.devRef .tc main_arg11) :=
  (keep14 (V13 W0) main_arg11 (by decide)).trans (A13_11 W0)
theorem A14_12 (W0 : Valuation τ sig (Elt F)) : V14 W0 (Proc.devRef .tc main_arg12) = W0 (Proc.devRef .tc main_arg12) :=
  (keep14 (V13 W0) main_arg12 (by decide)).trans (A13_12 W0)
theorem A14_13 (W0 : Valuation τ sig (Elt F)) : V14 W0 (Proc.devRef .tc main_arg13) = W0 (Proc.devRef .tc main_arg13) :=
  (keep14 (V13 W0) main_arg13 (by decide)).trans (A13_13 W0)
theorem A14_16 (W0 : Valuation τ sig (Elt F)) : V14 W0 (Proc.devRef .tc main_arg16) = W0 (Proc.devRef .tc main_arg16) :=
  (keep14 (V13 W0) main_arg16 (by decide)).trans (A13_16 W0)
theorem A14_17 (W0 : Valuation τ sig (Elt F)) : V14 W0 (Proc.devRef .tc main_arg17) = W0 (Proc.devRef .tc main_arg17) :=
  (keep14 (V13 W0) main_arg17 (by decide)).trans (A13_17 W0)
theorem A14_14 (W0 : Valuation τ sig (Elt F)) : V14 W0 (Proc.devRef .tc main_arg14) = W0 (Proc.devRef .tc main_arg14) :=
  (keep14 (V13 W0) main_arg14 (by decide)).trans (A13_14 W0)
theorem A14_15 (W0 : Valuation τ sig (Elt F)) : V14 W0 (Proc.devRef .tc main_arg15) = W0 (Proc.devRef .tc main_arg15) :=
  (keep14 (V13 W0) main_arg15 (by decide)).trans (A13_15 W0)
theorem A14_18 (W0 : Valuation τ sig (Elt F)) : V14 W0 (Proc.devRef .tc main_arg18) = W0 (Proc.devRef .tc main_arg18) :=
  (keep14 (V13 W0) main_arg18 (by decide)).trans (A13_18 W0)
theorem A14_19 (W0 : Valuation τ sig (Elt F)) : V14 W0 (Proc.devRef .tc main_arg19) = W0 (Proc.devRef .tc main_arg19) :=
  (keep14 (V13 W0) main_arg19 (by decide)).trans (A13_19 W0)
theorem A14_22 (W0 : Valuation τ sig (Elt F)) : V14 W0 (Proc.devRef .tc main_arg22) = W0 (Proc.devRef .tc main_arg22) :=
  (keep14 (V13 W0) main_arg22 (by decide)).trans (A13_22 W0)
theorem A14_23 (W0 : Valuation τ sig (Elt F)) : V14 W0 (Proc.devRef .tc main_arg23) = W0 (Proc.devRef .tc main_arg23) :=
  (keep14 (V13 W0) main_arg23 (by decide)).trans (A13_23 W0)
theorem A14_20 (W0 : Valuation τ sig (Elt F)) : V14 W0 (Proc.devRef .tc main_arg20) = W0 (Proc.devRef .tc main_arg20) :=
  (keep14 (V13 W0) main_arg20 (by decide)).trans (A13_20 W0)
theorem A14_21 (W0 : Valuation τ sig (Elt F)) : V14 W0 (Proc.devRef .tc main_arg21) = W0 (Proc.devRef .tc main_arg21) :=
  (keep14 (V13 W0) main_arg21 (by decide)).trans (A13_21 W0)
theorem A14_24 (W0 : Valuation τ sig (Elt F)) : V14 W0 (Proc.devRef .tc main_arg24) = W0 (Proc.devRef .tc main_arg24) :=
  (keep14 (V13 W0) main_arg24 (by decide)).trans (A13_24 W0)
theorem S14_v74 (W0 : Valuation τ sig (Elt F)) : V14 W0 (Proc.devRef .tc main_v74) = ReadP.val_main_v74 (F := F) (W0 (Proc.devRef .tc main_arg1)) :=
  (keep14 (V13 W0) main_v74 (by decide)).trans (S13_v74 W0)
theorem S14_v105 (W0 : Valuation τ sig (Elt F)) : V14 W0 (Proc.devRef .tc main_v105) = ReadP.val_main_v105 (F := F) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (W0 (Proc.devRef .tc main_arg7)) (W0 (Proc.devRef .tc main_arg8)) :=
  piece14_v105 (V13 W0) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (W0 (Proc.devRef .tc main_arg7)) (W0 (Proc.devRef .tc main_arg8)) (A13_2 W0) (A13_1 W0) (S13_v95 W0)
theorem S14_v64 (W0 : Valuation τ sig (Elt F)) : V14 W0 (Proc.devRef .tc main_v64) = ReadP.val_main_v64 (F := F) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) :=
  (keep14 (V13 W0) main_v64 (by decide)).trans (S13_v64 W0)

/-! After piece 15 -/
theorem A15_3 (W0 : Valuation τ sig (Elt F)) : V15 W0 (Proc.devRef .tc main_arg3) = W0 (Proc.devRef .tc main_arg3) :=
  (keep15 (V14 W0) main_arg3 (by decide)).trans (A14_3 W0)
theorem A15_10 (W0 : Valuation τ sig (Elt F)) : V15 W0 (Proc.devRef .tc main_arg10) = W0 (Proc.devRef .tc main_arg10) :=
  (keep15 (V14 W0) main_arg10 (by decide)).trans (A14_10 W0)
theorem A15_11 (W0 : Valuation τ sig (Elt F)) : V15 W0 (Proc.devRef .tc main_arg11) = W0 (Proc.devRef .tc main_arg11) :=
  (keep15 (V14 W0) main_arg11 (by decide)).trans (A14_11 W0)
theorem A15_12 (W0 : Valuation τ sig (Elt F)) : V15 W0 (Proc.devRef .tc main_arg12) = W0 (Proc.devRef .tc main_arg12) :=
  (keep15 (V14 W0) main_arg12 (by decide)).trans (A14_12 W0)
theorem A15_13 (W0 : Valuation τ sig (Elt F)) : V15 W0 (Proc.devRef .tc main_arg13) = W0 (Proc.devRef .tc main_arg13) :=
  (keep15 (V14 W0) main_arg13 (by decide)).trans (A14_13 W0)
theorem A15_16 (W0 : Valuation τ sig (Elt F)) : V15 W0 (Proc.devRef .tc main_arg16) = W0 (Proc.devRef .tc main_arg16) :=
  (keep15 (V14 W0) main_arg16 (by decide)).trans (A14_16 W0)
theorem A15_17 (W0 : Valuation τ sig (Elt F)) : V15 W0 (Proc.devRef .tc main_arg17) = W0 (Proc.devRef .tc main_arg17) :=
  (keep15 (V14 W0) main_arg17 (by decide)).trans (A14_17 W0)
theorem A15_14 (W0 : Valuation τ sig (Elt F)) : V15 W0 (Proc.devRef .tc main_arg14) = W0 (Proc.devRef .tc main_arg14) :=
  (keep15 (V14 W0) main_arg14 (by decide)).trans (A14_14 W0)
theorem A15_15 (W0 : Valuation τ sig (Elt F)) : V15 W0 (Proc.devRef .tc main_arg15) = W0 (Proc.devRef .tc main_arg15) :=
  (keep15 (V14 W0) main_arg15 (by decide)).trans (A14_15 W0)
theorem A15_18 (W0 : Valuation τ sig (Elt F)) : V15 W0 (Proc.devRef .tc main_arg18) = W0 (Proc.devRef .tc main_arg18) :=
  (keep15 (V14 W0) main_arg18 (by decide)).trans (A14_18 W0)
theorem A15_19 (W0 : Valuation τ sig (Elt F)) : V15 W0 (Proc.devRef .tc main_arg19) = W0 (Proc.devRef .tc main_arg19) :=
  (keep15 (V14 W0) main_arg19 (by decide)).trans (A14_19 W0)
theorem A15_22 (W0 : Valuation τ sig (Elt F)) : V15 W0 (Proc.devRef .tc main_arg22) = W0 (Proc.devRef .tc main_arg22) :=
  (keep15 (V14 W0) main_arg22 (by decide)).trans (A14_22 W0)
theorem A15_23 (W0 : Valuation τ sig (Elt F)) : V15 W0 (Proc.devRef .tc main_arg23) = W0 (Proc.devRef .tc main_arg23) :=
  (keep15 (V14 W0) main_arg23 (by decide)).trans (A14_23 W0)
theorem A15_20 (W0 : Valuation τ sig (Elt F)) : V15 W0 (Proc.devRef .tc main_arg20) = W0 (Proc.devRef .tc main_arg20) :=
  (keep15 (V14 W0) main_arg20 (by decide)).trans (A14_20 W0)
theorem A15_21 (W0 : Valuation τ sig (Elt F)) : V15 W0 (Proc.devRef .tc main_arg21) = W0 (Proc.devRef .tc main_arg21) :=
  (keep15 (V14 W0) main_arg21 (by decide)).trans (A14_21 W0)
theorem A15_24 (W0 : Valuation τ sig (Elt F)) : V15 W0 (Proc.devRef .tc main_arg24) = W0 (Proc.devRef .tc main_arg24) :=
  (keep15 (V14 W0) main_arg24 (by decide)).trans (A14_24 W0)
theorem S15_v112 (W0 : Valuation τ sig (Elt F)) : V15 W0 (Proc.devRef .tc main_v112) = ReadP.val_main_v112 (F := F) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) :=
  piece15_v112 (V14 W0) (W0 (Proc.devRef .tc main_arg0)) (W0 (Proc.devRef .tc main_arg1)) (W0 (Proc.devRef .tc main_arg2)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (A14_9 W0) (S14_v74 W0) (S14_v105 W0)
theorem S15_v64 (W0 : Valuation τ sig (Elt F)) : V15 W0 (Proc.devRef .tc main_v64) = ReadP.val_main_v64 (F := F) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) :=
  (keep15 (V14 W0) main_v64 (by decide)).trans (S14_v64 W0)

/-! After piece 16 -/
theorem A16_10 (W0 : Valuation τ sig (Elt F)) : V16 W0 (Proc.devRef .tc main_arg10) = W0 (Proc.devRef .tc main_arg10) :=
  (keep16 (V15 W0) main_arg10 (by decide)).trans (A15_10 W0)
theorem A16_11 (W0 : Valuation τ sig (Elt F)) : V16 W0 (Proc.devRef .tc main_arg11) = W0 (Proc.devRef .tc main_arg11) :=
  (keep16 (V15 W0) main_arg11 (by decide)).trans (A15_11 W0)
theorem A16_12 (W0 : Valuation τ sig (Elt F)) : V16 W0 (Proc.devRef .tc main_arg12) = W0 (Proc.devRef .tc main_arg12) :=
  (keep16 (V15 W0) main_arg12 (by decide)).trans (A15_12 W0)
theorem A16_13 (W0 : Valuation τ sig (Elt F)) : V16 W0 (Proc.devRef .tc main_arg13) = W0 (Proc.devRef .tc main_arg13) :=
  (keep16 (V15 W0) main_arg13 (by decide)).trans (A15_13 W0)
theorem A16_16 (W0 : Valuation τ sig (Elt F)) : V16 W0 (Proc.devRef .tc main_arg16) = W0 (Proc.devRef .tc main_arg16) :=
  (keep16 (V15 W0) main_arg16 (by decide)).trans (A15_16 W0)
theorem A16_17 (W0 : Valuation τ sig (Elt F)) : V16 W0 (Proc.devRef .tc main_arg17) = W0 (Proc.devRef .tc main_arg17) :=
  (keep16 (V15 W0) main_arg17 (by decide)).trans (A15_17 W0)
theorem A16_14 (W0 : Valuation τ sig (Elt F)) : V16 W0 (Proc.devRef .tc main_arg14) = W0 (Proc.devRef .tc main_arg14) :=
  (keep16 (V15 W0) main_arg14 (by decide)).trans (A15_14 W0)
theorem A16_15 (W0 : Valuation τ sig (Elt F)) : V16 W0 (Proc.devRef .tc main_arg15) = W0 (Proc.devRef .tc main_arg15) :=
  (keep16 (V15 W0) main_arg15 (by decide)).trans (A15_15 W0)
theorem A16_18 (W0 : Valuation τ sig (Elt F)) : V16 W0 (Proc.devRef .tc main_arg18) = W0 (Proc.devRef .tc main_arg18) :=
  (keep16 (V15 W0) main_arg18 (by decide)).trans (A15_18 W0)
theorem A16_19 (W0 : Valuation τ sig (Elt F)) : V16 W0 (Proc.devRef .tc main_arg19) = W0 (Proc.devRef .tc main_arg19) :=
  (keep16 (V15 W0) main_arg19 (by decide)).trans (A15_19 W0)
theorem A16_22 (W0 : Valuation τ sig (Elt F)) : V16 W0 (Proc.devRef .tc main_arg22) = W0 (Proc.devRef .tc main_arg22) :=
  (keep16 (V15 W0) main_arg22 (by decide)).trans (A15_22 W0)
theorem A16_23 (W0 : Valuation τ sig (Elt F)) : V16 W0 (Proc.devRef .tc main_arg23) = W0 (Proc.devRef .tc main_arg23) :=
  (keep16 (V15 W0) main_arg23 (by decide)).trans (A15_23 W0)
theorem A16_20 (W0 : Valuation τ sig (Elt F)) : V16 W0 (Proc.devRef .tc main_arg20) = W0 (Proc.devRef .tc main_arg20) :=
  (keep16 (V15 W0) main_arg20 (by decide)).trans (A15_20 W0)
theorem A16_21 (W0 : Valuation τ sig (Elt F)) : V16 W0 (Proc.devRef .tc main_arg21) = W0 (Proc.devRef .tc main_arg21) :=
  (keep16 (V15 W0) main_arg21 (by decide)).trans (A15_21 W0)
theorem A16_24 (W0 : Valuation τ sig (Elt F)) : V16 W0 (Proc.devRef .tc main_arg24) = W0 (Proc.devRef .tc main_arg24) :=
  (keep16 (V15 W0) main_arg24 (by decide)).trans (A15_24 W0)
theorem S16_v64 (W0 : Valuation τ sig (Elt F)) : V16 W0 (Proc.devRef .tc main_v64) = ReadP.val_main_v64 (F := F) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) :=
  (keep16 (V15 W0) main_v64 (by decide)).trans (S15_v64 W0)
theorem S16_v124 (W0 : Valuation τ sig (Elt F)) : V16 W0 (Proc.devRef .tc main_v124) = ReadP.val_main_v124 (F := F) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) :=
  piece16_v124 (V15 W0) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (A15_3 W0) (S15_v112 W0)

/-! After piece 17 -/
theorem A17_12 (W0 : Valuation τ sig (Elt F)) : V17 W0 (Proc.devRef .tc main_arg12) = W0 (Proc.devRef .tc main_arg12) :=
  (keep17 (V16 W0) main_arg12 (by decide)).trans (A16_12 W0)
theorem A17_13 (W0 : Valuation τ sig (Elt F)) : V17 W0 (Proc.devRef .tc main_arg13) = W0 (Proc.devRef .tc main_arg13) :=
  (keep17 (V16 W0) main_arg13 (by decide)).trans (A16_13 W0)
theorem A17_16 (W0 : Valuation τ sig (Elt F)) : V17 W0 (Proc.devRef .tc main_arg16) = W0 (Proc.devRef .tc main_arg16) :=
  (keep17 (V16 W0) main_arg16 (by decide)).trans (A16_16 W0)
theorem A17_17 (W0 : Valuation τ sig (Elt F)) : V17 W0 (Proc.devRef .tc main_arg17) = W0 (Proc.devRef .tc main_arg17) :=
  (keep17 (V16 W0) main_arg17 (by decide)).trans (A16_17 W0)
theorem A17_14 (W0 : Valuation τ sig (Elt F)) : V17 W0 (Proc.devRef .tc main_arg14) = W0 (Proc.devRef .tc main_arg14) :=
  (keep17 (V16 W0) main_arg14 (by decide)).trans (A16_14 W0)
theorem A17_15 (W0 : Valuation τ sig (Elt F)) : V17 W0 (Proc.devRef .tc main_arg15) = W0 (Proc.devRef .tc main_arg15) :=
  (keep17 (V16 W0) main_arg15 (by decide)).trans (A16_15 W0)
theorem A17_18 (W0 : Valuation τ sig (Elt F)) : V17 W0 (Proc.devRef .tc main_arg18) = W0 (Proc.devRef .tc main_arg18) :=
  (keep17 (V16 W0) main_arg18 (by decide)).trans (A16_18 W0)
theorem A17_19 (W0 : Valuation τ sig (Elt F)) : V17 W0 (Proc.devRef .tc main_arg19) = W0 (Proc.devRef .tc main_arg19) :=
  (keep17 (V16 W0) main_arg19 (by decide)).trans (A16_19 W0)
theorem A17_22 (W0 : Valuation τ sig (Elt F)) : V17 W0 (Proc.devRef .tc main_arg22) = W0 (Proc.devRef .tc main_arg22) :=
  (keep17 (V16 W0) main_arg22 (by decide)).trans (A16_22 W0)
theorem A17_23 (W0 : Valuation τ sig (Elt F)) : V17 W0 (Proc.devRef .tc main_arg23) = W0 (Proc.devRef .tc main_arg23) :=
  (keep17 (V16 W0) main_arg23 (by decide)).trans (A16_23 W0)
theorem A17_20 (W0 : Valuation τ sig (Elt F)) : V17 W0 (Proc.devRef .tc main_arg20) = W0 (Proc.devRef .tc main_arg20) :=
  (keep17 (V16 W0) main_arg20 (by decide)).trans (A16_20 W0)
theorem A17_21 (W0 : Valuation τ sig (Elt F)) : V17 W0 (Proc.devRef .tc main_arg21) = W0 (Proc.devRef .tc main_arg21) :=
  (keep17 (V16 W0) main_arg21 (by decide)).trans (A16_21 W0)
theorem A17_24 (W0 : Valuation τ sig (Elt F)) : V17 W0 (Proc.devRef .tc main_arg24) = W0 (Proc.devRef .tc main_arg24) :=
  (keep17 (V16 W0) main_arg24 (by decide)).trans (A16_24 W0)
theorem S17_v129 (W0 : Valuation τ sig (Elt F)) : V17 W0 (Proc.devRef .tc main_v129) = ReadP.val_main_v129 (F := F) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) :=
  piece17_v129 (V16 W0) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (A16_10 W0) (A16_11 W0) (S16_v64 W0) (S16_v124 W0)

/-! After piece 18 -/
theorem A18_14 (W0 : Valuation τ sig (Elt F)) : V18 W0 (Proc.devRef .tc main_arg14) = W0 (Proc.devRef .tc main_arg14) :=
  (keep18 (V17 W0) main_arg14 (by decide)).trans (A17_14 W0)
theorem A18_15 (W0 : Valuation τ sig (Elt F)) : V18 W0 (Proc.devRef .tc main_arg15) = W0 (Proc.devRef .tc main_arg15) :=
  (keep18 (V17 W0) main_arg15 (by decide)).trans (A17_15 W0)
theorem A18_18 (W0 : Valuation τ sig (Elt F)) : V18 W0 (Proc.devRef .tc main_arg18) = W0 (Proc.devRef .tc main_arg18) :=
  (keep18 (V17 W0) main_arg18 (by decide)).trans (A17_18 W0)
theorem A18_19 (W0 : Valuation τ sig (Elt F)) : V18 W0 (Proc.devRef .tc main_arg19) = W0 (Proc.devRef .tc main_arg19) :=
  (keep18 (V17 W0) main_arg19 (by decide)).trans (A17_19 W0)
theorem A18_22 (W0 : Valuation τ sig (Elt F)) : V18 W0 (Proc.devRef .tc main_arg22) = W0 (Proc.devRef .tc main_arg22) :=
  (keep18 (V17 W0) main_arg22 (by decide)).trans (A17_22 W0)
theorem A18_23 (W0 : Valuation τ sig (Elt F)) : V18 W0 (Proc.devRef .tc main_arg23) = W0 (Proc.devRef .tc main_arg23) :=
  (keep18 (V17 W0) main_arg23 (by decide)).trans (A17_23 W0)
theorem A18_20 (W0 : Valuation τ sig (Elt F)) : V18 W0 (Proc.devRef .tc main_arg20) = W0 (Proc.devRef .tc main_arg20) :=
  (keep18 (V17 W0) main_arg20 (by decide)).trans (A17_20 W0)
theorem A18_21 (W0 : Valuation τ sig (Elt F)) : V18 W0 (Proc.devRef .tc main_arg21) = W0 (Proc.devRef .tc main_arg21) :=
  (keep18 (V17 W0) main_arg21 (by decide)).trans (A17_21 W0)
theorem A18_24 (W0 : Valuation τ sig (Elt F)) : V18 W0 (Proc.devRef .tc main_arg24) = W0 (Proc.devRef .tc main_arg24) :=
  (keep18 (V17 W0) main_arg24 (by decide)).trans (A17_24 W0)
theorem S18_v140 (W0 : Valuation τ sig (Elt F)) : V18 W0 (Proc.devRef .tc main_v140) = ReadP.val_main_v140 (F := F) (W0 (Proc.devRef .tc main_arg17)) :=
  piece18_v140 (V17 W0) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg16)) (W0 (Proc.devRef .tc main_arg17)) (A17_12 W0) (A17_13 W0) (A17_16 W0) (A17_17 W0) (S17_v129 W0)
theorem S18_v136 (W0 : Valuation τ sig (Elt F)) : V18 W0 (Proc.devRef .tc main_v136) = ReadP.val_main_v136 (F := F) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg16)) :=
  piece18_v136 (V17 W0) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg16)) (W0 (Proc.devRef .tc main_arg17)) (A17_12 W0) (A17_13 W0) (A17_16 W0) (A17_17 W0) (S17_v129 W0)

/-! After piece 19 -/
theorem A19_18 (W0 : Valuation τ sig (Elt F)) : V19 W0 (Proc.devRef .tc main_arg18) = W0 (Proc.devRef .tc main_arg18) :=
  (keep19 (V18 W0) main_arg18 (by decide)).trans (A18_18 W0)
theorem A19_19 (W0 : Valuation τ sig (Elt F)) : V19 W0 (Proc.devRef .tc main_arg19) = W0 (Proc.devRef .tc main_arg19) :=
  (keep19 (V18 W0) main_arg19 (by decide)).trans (A18_19 W0)
theorem A19_22 (W0 : Valuation τ sig (Elt F)) : V19 W0 (Proc.devRef .tc main_arg22) = W0 (Proc.devRef .tc main_arg22) :=
  (keep19 (V18 W0) main_arg22 (by decide)).trans (A18_22 W0)
theorem A19_23 (W0 : Valuation τ sig (Elt F)) : V19 W0 (Proc.devRef .tc main_arg23) = W0 (Proc.devRef .tc main_arg23) :=
  (keep19 (V18 W0) main_arg23 (by decide)).trans (A18_23 W0)
theorem A19_20 (W0 : Valuation τ sig (Elt F)) : V19 W0 (Proc.devRef .tc main_arg20) = W0 (Proc.devRef .tc main_arg20) :=
  (keep19 (V18 W0) main_arg20 (by decide)).trans (A18_20 W0)
theorem A19_21 (W0 : Valuation τ sig (Elt F)) : V19 W0 (Proc.devRef .tc main_arg21) = W0 (Proc.devRef .tc main_arg21) :=
  (keep19 (V18 W0) main_arg21 (by decide)).trans (A18_21 W0)
theorem A19_24 (W0 : Valuation τ sig (Elt F)) : V19 W0 (Proc.devRef .tc main_arg24) = W0 (Proc.devRef .tc main_arg24) :=
  (keep19 (V18 W0) main_arg24 (by decide)).trans (A18_24 W0)
theorem S19_v149 (W0 : Valuation τ sig (Elt F)) : V19 W0 (Proc.devRef .tc main_v149) = ReadP.val_main_v149 (F := F) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) :=
  piece19_v149 (V18 W0) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) (A18_14 W0) (A18_15 W0) (S18_v140 W0) (S18_v136 W0)

/-! After piece 20 -/
theorem A20_24 (W0 : Valuation τ sig (Elt F)) : V20 W0 (Proc.devRef .tc main_arg24) = W0 (Proc.devRef .tc main_arg24) :=
  (keep20 (V19 W0) main_arg24 (by decide)).trans (A19_24 W0)
theorem S20_v169 (W0 : Valuation τ sig (Elt F)) : V20 W0 (Proc.devRef .tc main_v169) = ReadP.val_main_v169 (F := F) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) (W0 (Proc.devRef .tc main_arg18)) (W0 (Proc.devRef .tc main_arg19)) (W0 (Proc.devRef .tc main_arg20)) (W0 (Proc.devRef .tc main_arg21)) (W0 (Proc.devRef .tc main_arg22)) (W0 (Proc.devRef .tc main_arg23)) :=
  piece20_v169 (V19 W0) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) (W0 (Proc.devRef .tc main_arg18)) (W0 (Proc.devRef .tc main_arg19)) (W0 (Proc.devRef .tc main_arg20)) (W0 (Proc.devRef .tc main_arg21)) (W0 (Proc.devRef .tc main_arg22)) (W0 (Proc.devRef .tc main_arg23)) (A19_18 W0) (A19_19 W0) (A19_22 W0) (A19_23 W0) (A19_20 W0) (A19_21 W0) (S19_v149 W0)

/-! After piece 21 -/
theorem S21_v170 (W0 : Valuation τ sig (Elt F)) : V21 W0 (Proc.devRef .tc main_v170) = ReadP.val_main_v170 (F := F) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) (W0 (Proc.devRef .tc main_arg18)) (W0 (Proc.devRef .tc main_arg19)) (W0 (Proc.devRef .tc main_arg20)) (W0 (Proc.devRef .tc main_arg21)) (W0 (Proc.devRef .tc main_arg22)) (W0 (Proc.devRef .tc main_arg23)) (W0 (Proc.devRef .tc main_arg24)) :=
  piece21_v170 (V20 W0) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) (W0 (Proc.devRef .tc main_arg18)) (W0 (Proc.devRef .tc main_arg19)) (W0 (Proc.devRef .tc main_arg20)) (W0 (Proc.devRef .tc main_arg21)) (W0 (Proc.devRef .tc main_arg22)) (W0 (Proc.devRef .tc main_arg23)) (W0 (Proc.devRef .tc main_arg24)) (A20_24 W0) (S20_v169 W0)

/-- The fold of the whole of @main at the result buffer is the reference's last stage of the launch contents of the arguments. -/
theorem ref_after (W0 : Valuation τ sig (Elt F)) : after ops W0 (Proc.devRef .tc main_v170) = ReadP.val_main_v170 (F := F) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) (W0 (Proc.devRef .tc main_arg6)) (W0 (Proc.devRef .tc main_arg7)) (W0 (Proc.devRef .tc main_arg8)) (W0 (Proc.devRef .tc main_arg9)) (W0 (Proc.devRef .tc main_arg10)) (W0 (Proc.devRef .tc main_arg11)) (W0 (Proc.devRef .tc main_arg12)) (W0 (Proc.devRef .tc main_arg13)) (W0 (Proc.devRef .tc main_arg14)) (W0 (Proc.devRef .tc main_arg15)) (W0 (Proc.devRef .tc main_arg16)) (W0 (Proc.devRef .tc main_arg17)) (W0 (Proc.devRef .tc main_arg18)) (W0 (Proc.devRef .tc main_arg19)) (W0 (Proc.devRef .tc main_arg20)) (W0 (Proc.devRef .tc main_arg21)) (W0 (Proc.devRef .tc main_arg22)) (W0 (Proc.devRef .tc main_arg23)) (W0 (Proc.devRef .tc main_arg24)) := by
  rw [ops_after]; exact S21_v170 W0

/-- A buffer no piece writes — every argument — ends as launched. -/
theorem arg_keep (W0 : Valuation τ sig (Elt F)) (r : Ref sig .tc) (h1 : r ∉ wl1) (h2 : r ∉ wl2) (h3 : r ∉ wl3) (h4 : r ∉ wl4) (h5 : r ∉ wl5) (h6 : r ∉ wl6) (h7 : r ∉ wl7) (h8 : r ∉ wl8) (h9 : r ∉ wl9) (h10 : r ∉ wl10) (h11 : r ∉ wl11) (h12 : r ∉ wl12) (h13 : r ∉ wl13) (h14 : r ∉ wl14) (h15 : r ∉ wl15) (h16 : r ∉ wl16) (h17 : r ∉ wl17) (h18 : r ∉ wl18) (h19 : r ∉ wl19) (h20 : r ∉ wl20) (h21 : r ∉ wl21) :
    after ops W0 (Proc.devRef .tc r) = W0 (Proc.devRef .tc r) := by
  rw [ops_after]
  exact (keep21 (V20 W0) r h21).trans ((keep20 (V19 W0) r h20).trans ((keep19 (V18 W0) r h19).trans ((keep18 (V17 W0) r h18).trans ((keep17 (V16 W0) r h17).trans ((keep16 (V15 W0) r h16).trans ((keep15 (V14 W0) r h15).trans ((keep14 (V13 W0) r h14).trans ((keep13 (V12 W0) r h13).trans ((keep12 (V11 W0) r h12).trans ((keep11 (V10 W0) r h11).trans ((keep10 (V9 W0) r h10).trans ((keep9 (V8 W0) r h9).trans ((keep8 (V7 W0) r h8).trans ((keep7 (V6 W0) r h7).trans ((keep6 (V5 W0) r h6).trans ((keep5 (V4 W0) r h5).trans ((keep4 (V3 W0) r h4).trans ((keep3 (V2 W0) r h3).trans ((keep2 (V1 W0) r h2).trans (keep1 W0 r h1))))))))))))))))))))

theorem ops_sub : (ops : List (HloOp τ sig (Elt F))).Forall fun op => op.bufs ⊆ tcRefs τ sig :=
  List.forall_append.2 ⟨sub1, List.forall_append.2 ⟨sub2, List.forall_append.2 ⟨sub3, List.forall_append.2 ⟨sub4, List.forall_append.2 ⟨sub5, List.forall_append.2 ⟨sub6, List.forall_append.2 ⟨sub7, List.forall_append.2 ⟨sub8, List.forall_append.2 ⟨sub9, List.forall_append.2 ⟨sub10, List.forall_append.2 ⟨sub11, List.forall_append.2 ⟨sub12, List.forall_append.2 ⟨sub13, List.forall_append.2 ⟨sub14, List.forall_append.2 ⟨sub15, List.forall_append.2 ⟨sub16, List.forall_append.2 ⟨sub17, List.forall_append.2 ⟨sub18, List.forall_append.2 ⟨sub19, List.forall_append.2 ⟨sub20, sub21⟩⟩⟩⟩⟩⟩⟩⟩⟩⟩⟩⟩⟩⟩⟩⟩⟩⟩⟩⟩
theorem ops_fresh : (ops : List (HloOp τ sig (Elt F))).Forall fun op => op.fresh = ∅ :=
  List.forall_append.2 ⟨fresh1, List.forall_append.2 ⟨fresh2, List.forall_append.2 ⟨fresh3, List.forall_append.2 ⟨fresh4, List.forall_append.2 ⟨fresh5, List.forall_append.2 ⟨fresh6, List.forall_append.2 ⟨fresh7, List.forall_append.2 ⟨fresh8, List.forall_append.2 ⟨fresh9, List.forall_append.2 ⟨fresh10, List.forall_append.2 ⟨fresh11, List.forall_append.2 ⟨fresh12, List.forall_append.2 ⟨fresh13, List.forall_append.2 ⟨fresh14, List.forall_append.2 ⟨fresh15, List.forall_append.2 ⟨fresh16, List.forall_append.2 ⟨fresh17, List.forall_append.2 ⟨fresh18, List.forall_append.2 ⟨fresh19, List.forall_append.2 ⟨fresh20, fresh21⟩⟩⟩⟩⟩⟩⟩⟩⟩⟩⟩⟩⟩⟩⟩⟩⟩⟩⟩⟩

end Cert.ReferenceIdeal.ValueQ
-- ==== Proof.RefRunMain.lean ====
/-
  The reference's run. Its @main is printed as four windows run in order; each window is, by computation, the
  straight line of the pieces that cover it, and lines in a row are the line of their concatenation. The library's run
  of a straight line then ends every buffer at the fold of the operations over the launch contents: at the result
  buffer that fold is the reference's last stage (the chained pieces), and no operation writes an argument.
-/
import proofs.«170622_j83494164234284_2_alg».proof.Proof.RefRunChain

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0. -/
abbrev w0 : List (HloOp τ sig (Elt F)) := p1 ++ (p2 ++ (p3 ++ (p4 ++ (p5 ++ (p6)))))
set_option maxRecDepth 8192 in
set_option maxHeartbeats 4000000 in
/-- Window 0 is the line of its operations: the closing return of the line is absorbed by the last step. -/
theorem part0_eq (c : Dev nD) : main_part0 (F := F) c = seq w0 := rfl

/-- The operations of @main's window 1. -/
abbrev w1 : List (HloOp τ sig (Elt F)) := p7 ++ (p8 ++ (p9 ++ (p10 ++ (p11 ++ (p12)))))
set_option maxRecDepth 8192 in
set_option maxHeartbeats 4000000 in
/-- Window 1 is the line of its operations: the closing return of the line is absorbed by the last step. -/
theorem part1_eq (c : Dev nD) : main_part1 (F := F) c = seq w1 := rfl

/-- The operations of @main's window 2. -/
abbrev w2 : List (HloOp τ sig (Elt F)) := p13 ++ (p14 ++ (p15 ++ (p16 ++ (p17 ++ (p18)))))
set_option maxRecDepth 8192 in
set_option maxHeartbeats 4000000 in
/-- Window 2 is the line of its operations: the closing return of the line is absorbed by the last step. -/
theorem part2_eq (c : Dev nD) : main_part2 (F := F) c = seq w2 := rfl

/-- The operations of @main's window 3. -/
abbrev w3 : List (HloOp τ sig (Elt F)) := p19 ++ (p20 ++ (p21))
set_option maxRecDepth 8192 in
set_option maxHeartbeats 4000000 in
/-- Window 3 is the line of its operations: the closing return of the line is absorbed by the last step. -/
theorem part3_eq (c : Dev nD) : main_part3 (F := F) c = seq w3 := rfl

/-- @main is the line of all its operations. -/
theorem main_eq (c : Dev nD) : main (F := F) c = seq ops := by
  have eo : (ops : List (HloOp τ sig (Elt F))) = w0 ++ (w1 ++ (w2 ++ w3)) := by
    simp only [ops, w0, w1, w2, w3, List.append_assoc]
  rw [eo, seq_append w0 (w1 ++ (w2 ++ w3)), seq_append w1 (w2 ++ w3), seq_append w2 w3, ← part0_eq c, ← part1_eq c, ← part2_eq c, ← part3_eq c]
  rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- On every device, from any memory with zero counters, every weakly fair execution of the reference's @main
    terminates with the result buffer at the last stage of the arguments' launch contents and the arguments unchanged. -/
theorem refRun (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v170) = ReadP.val_main_v170 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨(h c main_v170).trans (ref_after (launchContents m c)),
      (h c main_arg0).trans (arg_keep (launchContents m c) main_arg0 (by decide) (by decide) (by decide) (by decide) (by decide) (by decide) (by decide) (by decide) (by decide) (by decide) (by decide) (by decide) (by decide) (by decide) (by decide) (by decide) (by decide) (by decide) (by decide) (by decide) (by decide)),
      (h c main_arg1).trans (arg_keep (launchContents m c) main_arg1 (by decide) (by decide) (by decide) (by decide) (by decide) (by decide) (by decide) (by decide) (by decide) (by decide) (by decide) (by decide) (by decide) (by decide) (by decide) (by decide) (by decide) (by decide) (by decide) (by decide) (by decide)),
      (h c main_arg2).trans (arg_keep (launchContents m c) main_arg2 (by decide) (by decide) (by decide) (by decide) (by decide) (by decide) (by decide) (by decide) (by decide) (by decide) (by decide) (by decide) (by decide) (by decide) (by decide) (by decide) (by decide) (by decide) (by decide) (by decide) (by decide)),
      (h c main_arg3).trans (arg_keep (launchContents m c) main_arg3 (by decide) (by decide) (by decide) (by decide) (by decide) (by decide) (by decide) (by decide) (by decide) (by decide) (by decide) (by decide) (by decide) (by decide) (by decide) (by decide) (by decide) (by decide) (by decide) (by decide) (by decide)),
      (h c main_arg4).trans (arg_keep (launchContents m c) main_arg4 (by decide) (by decide) (by decide) (by decide) (by decide) (by decide) (by decide) (by decide) (by decide) (by decide) (by decide) (by decide) (by decide) (by decide) (by decide) (by decide) (by decide) (by decide) (by decide) (by decide) (by decide)),
      (h c main_arg5).trans (arg_keep (launchContents m c) main_arg5 (by decide) (by decide) (by decide) (by decide) (by decide) (by decide) (by decide) (by decide) (by decide) (by decide) (by decide) (by decide) (by decide) (by decide) (by decide) (by decide) (by decide) (by decide) (by decide) (by decide) (by decide)),
      (h c main_arg6).trans (arg_keep (launchContents m c) main_arg6 (by decide) (by decide) (by decide) (by decide) (by decide) (by decide) (by decide) (by decide) (by decide) (by decide) (by decide) (by decide) (by decide) (by decide) (by decide) (by decide) (by decide) (by decide) (by decide) (by decide) (by decide)),
      (h c main_arg7).trans (arg_keep (launchContents m c) main_arg7 (by decide) (by decide) (by decide) (by decide) (by decide) (by decide) (by decide) (by decide) (by decide) (by decide) (by decide) (by decide) (by decide) (by decide) (by decide) (by decide) (by decide) (by decide) (by decide) (by decide) (by decide)),
      (h c main_arg8).trans (arg_keep (launchContents m c) main_arg8 (by decide) (by decide) (by decide) (by decide) (by decide) (by decide) (by decide) (by decide) (by decide) (by decide) (by decide) (by decide) (by decide) (by decide) (by decide) (by decide) (by decide) (by decide) (by decide) (by decide) (by decide)),
      (h c main_arg9).trans (arg_keep (launchContents m c) main_arg9 (by decide) (by decide) (by decide) (by decide) (by decide) (by decide) (by decide) (by decide) (by decide) (by decide) (by decide) (by decide) (by decide) (by decide) (by decide) (by decide) (by decide) (by decide) (by decide) (by decide) (by decide)),
      (h c main_arg10).trans (arg_keep (launchContents m c) main_arg10 (by decide) (by decide) (by decide) (by decide) (by decide) (by decide) (by decide) (by decide) (by decide) (by decide) (by decide) (by decide) (by decide) (by decide) (by decide) (by decide) (by decide) (by decide) (by decide) (by decide) (by decide)),
      (h c main_arg11).trans (arg_keep (launchContents m c) main_arg11 (by decide) (by decide) (by decide) (by decide) (by decide) (by decide) (by decide) (by decide) (by decide) (by decide) (by decide) (by decide) (by decide) (by decide) (by decide) (by decide) (by decide) (by decide) (by decide) (by decide) (by decide)),
      (h c main_arg12).trans (arg_keep (launchContents m c) main_arg12 (by decide) (by decide) (by decide) (by decide) (by decide) (by decide) (by decide) (by decide) (by decide) (by decide) (by decide) (by decide) (by decide) (by decide) (by decide) (by decide) (by decide) (by decide) (by decide) (by decide) (by decide)),
      (h c main_arg13).trans (arg_keep (launchContents m c) main_arg13 (by decide) (by decide) (by decide) (by decide) (by decide) (by decide) (by decide) (by decide) (by decide) (by decide) (by decide) (by decide) (by decide) (by decide) (by decide) (by decide) (by decide) (by decide) (by decide) (by decide) (by decide)),
      (h c main_arg14).trans (arg_keep (launchContents m c) main_arg14 (by decide) (by decide) (by decide) (by decide) (by decide) (by decide) (by decide) (by decide) (by decide) (by decide) (by decide) (by decide) (by decide) (by decide) (by decide) (by decide) (by decide) (by decide) (by decide) (by decide) (by decide)),
      (h c main_arg15).trans (arg_keep (launchContents m c) main_arg15 (by decide) (by decide) (by decide) (by decide) (by decide) (by decide) (by decide) (by decide) (by decide) (by decide) (by decide) (by decide) (by decide) (by decide) (by decide) (by decide) (by decide) (by decide) (by decide) (by decide) (by decide)),
      (h c main_arg16).trans (arg_keep (launchContents m c) main_arg16 (by decide) (by decide) (by decide) (by decide) (by decide) (by decide) (by decide) (by decide) (by decide) (by decide) (by decide) (by decide) (by decide) (by decide) (by decide) (by decide) (by decide) (by decide) (by decide) (by decide) (by decide)),
      (h c main_arg17).trans (arg_keep (launchContents m c) main_arg17 (by decide) (by decide) (by decide) (by decide) (by decide) (by decide) (by decide) (by decide) (by decide) (by decide) (by decide) (by decide) (by decide) (by decide) (by decide) (by decide) (by decide) (by decide) (by decide) (by decide) (by decide)),
      (h c main_arg18).trans (arg_keep (launchContents m c) main_arg18 (by decide) (by decide) (by decide) (by decide) (by decide) (by decide) (by decide) (by decide) (by decide) (by decide) (by decide) (by decide) (by decide) (by decide) (by decide) (by decide) (by decide) (by decide) (by decide) (by decide) (by decide)),
      (h c main_arg19).trans (arg_keep (launchContents m c) main_arg19 (by decide) (by decide) (by decide) (by decide) (by decide) (by decide) (by decide) (by decide) (by decide) (by decide) (by decide) (by decide) (by decide) (by decide) (by decide) (by decide) (by decide) (by decide) (by decide) (by decide) (by decide)),
      (h c main_arg20).trans (arg_keep (launchContents m c) main_arg20 (by decide) (by decide) (by decide) (by decide) (by decide) (by decide) (by decide) (by decide) (by decide) (by decide) (by decide) (by decide) (by decide) (by decide) (by decide) (by decide) (by decide) (by decide) (by decide) (by decide) (by decide)),
      (h c main_arg21).trans (arg_keep (launchContents m c) main_arg21 (by decide) (by decide) (by decide) (by decide) (by decide) (by decide) (by decide) (by decide) (by decide) (by decide) (by decide) (by decide) (by decide) (by decide) (by decide) (by decide) (by decide) (by decide) (by decide) (by decide) (by decide)),
      (h c main_arg22).trans (arg_keep (launchContents m c) main_arg22 (by decide) (by decide) (by decide) (by decide) (by decide) (by decide) (by decide) (by decide) (by decide) (by decide) (by decide) (by decide) (by decide) (by decide) (by decide) (by decide) (by decide) (by decide) (by decide) (by decide) (by decide)),
      (h c main_arg23).trans (arg_keep (launchContents m c) main_arg23 (by decide) (by decide) (by decide) (by decide) (by decide) (by decide) (by decide) (by decide) (by decide) (by decide) (by decide) (by decide) (by decide) (by decide) (by decide) (by decide) (by decide) (by decide) (by decide) (by decide) (by decide)),
      (h c main_arg24).trans (arg_keep (launchContents m c) main_arg24 (by decide) (by decide) (by decide) (by decide) (by decide) (by decide) (by decide) (by decide) (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ
      (fun _ => List.forall_iff_forall_mem.1 ops_fresh))

end Cert.ReferenceIdeal.ValueQ
-- ==== Proof.RunResult.lean ====
/-
  The kernel program's run with its result named.

  The kernel's @main is sixteen segments: stretches of host operations and six launches of a blocked kernel over a grid.
  Each segment is entered with every buffer at a known contents and left with every buffer at a known contents: a host
  stretch leaves the fold of its operations over what it found, a launch leaves its arrays at what the write-backs of
  its grid points leave and every other buffer as found. So every weakly fair execution from a memory with zero counters
  terminates, and in its final state each buffer holds the last boundary's contents: the arguments what they held at
  launch, and the result buffer what the last launch's single write-back leaves there. The frame claim keeps only the
  arguments; here the result buffer is kept too, because the value claim is about it.
-/
import proofs.«170622_j83494164234284_2_alg».proof.Proof.Gen.KernelIdeal.Frame

set_option maxRecDepth 16384

noncomputable section

namespace Cert.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the kernel program terminates without a fault, and
    in its final state the result buffer holds the contents of the last segment boundary (`W16`: what the sixth launch
    leaves) and every argument array what it held at launch. The final state is read buffer by buffer off the last
    thread state, which owns every unscoped buffer at the last boundary's contents. -/
theorem run_result : θ_run defs (onTc (τ := τ) (main (F := F))) ⟨m, fun _ => 0, ρ⟩ (fun r => ∀ c : Dev nD,
      r.2.mem ((c.tc : Thread nD τ).loc main_v94) = W16 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v94 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c),
       (h c _ (mem_uc main_arg18 (by decide))).trans (W16_main_arg18 m ρ c),
       (h c _ (mem_uc main_arg19 (by decide))).trans (W16_main_arg19 m ρ c),
       (h c _ (mem_uc main_arg20 (by decide))).trans (W16_main_arg20 m ρ c),
       (h c _ (mem_uc main_arg21 (by decide))).trans (W16_main_arg21 m ρ c),
       (h c _ (mem_uc main_arg22 (by decide))).trans (W16_main_arg22 m ρ c),
       (h c _ (mem_uc main_arg23 (by decide))).trans (W16_main_arg23 m ρ c),
       (h c _ (mem_uc main_arg24 (by decide))).trans (W16_main_arg24 m ρ c)⟩)

end Cert.Bridge

end
-- ==== Proof.HostKeep.lean ====
/-
  A buffer that a stretch of host operations does not write keeps its contents.

  Each host operation writes exactly one buffer, its result. A stretch is a list of such operations, folded over the
  buffer contents it finds; so at any buffer that is not the result of one of its operations the fold returns what it
  found. The lists below name, stretch by stretch, the buffers the kernel program's host operations write; the lemmas
  say that every other buffer is left alone. They hold for any float values.
-/
import proofs.«170622_j83494164234284_2_alg».proof.Proof.Gen.KernelIdeal.Launch
import Idealize.ShloMosaic.Lib.StableHlo.Run

noncomputable section

namespace Cert.Bridge

open Cert.KernelIdeal Cert.KernelIdeal.Gen
open Idealize.ShloMosaic Idealize.ShloMosaic.TcCoe Idealize.SL.Sem

variable {F : FTy → Type} [FloatOps F]

/-- The buffers the operations of `hostOps0` write, in order. -/
def written0 : List (Ref sig .tc) :=
  [main_cst, main_v0, main_cst_0, main_v1, main_v2, main_v3, main_cst_1, main_v4, main_v5, main_cst_2, main_v6, main_v7, main_cst_3]

/-- `hostOps0` leaves every buffer it does not write as it found it. -/
theorem keep0 (W : Valuation τ sig (Elt F)) (b : Ref sig .tc) (hb : b ∉ written0) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hb (by subst e; decide))))

/-- The buffers the operations of `hostOps0_1` write, in order. -/
def written0_1 : List (Ref sig .tc) :=
  [main_call0_v0, main_call0_v1, main_v8]

/-- `hostOps0_1` leaves every buffer it does not write as it found it. -/
theorem keep0_1 (W : Valuation τ sig (Elt F)) (b : Ref sig .tc) (hb : b ∉ written0_1) :
    StableHlo.after (hostOps0_1 (F := F)) W (Proc.devRef .tc b) = W (Proc.devRef .tc b) :=
  StableHlo.after_of_forall_not_mem (b := Proc.devRef .tc b) _ _ (List.forall_iff_forall_mem.mp (by
    simp only [hostOps0_1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hb (by subst e; decide))))

/-- The buffers the operations of `hostOps0_2` write, in order. -/
def written0_2 : List (Ref sig .tc) :=
  [main_cst_4, main_v9, main_v10, main_v11, main_cst_5, main_v12, main_v13, main_cst_6, main_v14, main_v15, main_cst_7]

/-- `hostOps0_2` leaves every buffer it does not write as it found it. -/
theorem keep0_2 (W : Valuation τ sig (Elt F)) (b : Ref sig .tc) (hb : b ∉ written0_2) :
    StableHlo.after (hostOps0_2 (F := F)) W (Proc.devRef .tc b) = W (Proc.devRef .tc b) :=
  StableHlo.after_of_forall_not_mem (b := Proc.devRef .tc b) _ _ (List.forall_iff_forall_mem.mp (by
    simp only [hostOps0_2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hb (by subst e; decide))))

/-- The buffers the operations of `hostOps0_3` write, in order. -/
def written0_3 : List (Ref sig .tc) :=
  [main_call1_v0, main_call1_v1, main_v16]

/-- `hostOps0_3` leaves every buffer it does not write as it found it. -/
theorem keep0_3 (W : Valuation τ sig (Elt F)) (b : Ref sig .tc) (hb : b ∉ written0_3) :
    StableHlo.after (hostOps0_3 (F := F)) W (Proc.devRef .tc b) = W (Proc.devRef .tc b) :=
  StableHlo.after_of_forall_not_mem (b := Proc.devRef .tc b) _ _ (List.forall_iff_forall_mem.mp (by
    simp only [hostOps0_3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hb (by subst e; decide))))

/-- The buffers the operations of `hostOps0_4` write, in order. -/
def written0_4 : List (Ref sig .tc) :=
  [main_v17, main_v18]

/-- `hostOps0_4` leaves every buffer it does not write as it found it. -/
theorem keep0_4 (W : Valuation τ sig (Elt F)) (b : Ref sig .tc) (hb : b ∉ written0_4) :
    StableHlo.after (hostOps0_4 (F := F)) W (Proc.devRef .tc b) = W (Proc.devRef .tc b) :=
  StableHlo.after_of_forall_not_mem (b := Proc.devRef .tc b) _ _ (List.forall_iff_forall_mem.mp (by
    simp only [hostOps0_4, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hb (by subst e; decide))))

/-- The buffers the operations of `hostOps1` write, in order. -/
def written1 : List (Ref sig .tc) :=
  [main_c, main_v20, main_v21, main_c_8, main_v22, main_v23, main_v24, main_v25, main_v26, main_v27, main_cst_9, main_v28, main_v29, main_v30]

/-- `hostOps1` leaves every buffer it does not write as it found it. -/
theorem keep1 (W : Valuation τ sig (Elt F)) (b : Ref sig .tc) (hb : b ∉ written1) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hb (by subst e; decide))))

/-- The buffers the operations of `hostOps2` write, in order. -/
def written2 : List (Ref sig .tc) :=
  [main_c_10, main_v32, main_v33, main_c_11, main_v34, main_v35, main_v36, main_v37, main_v38, main_v39, main_cst_12, main_v40, main_v41, main_v42]

/-- `hostOps2` leaves every buffer it does not write as it found it. -/
theorem keep2 (W : Valuation τ sig (Elt F)) (b : Ref sig .tc) (hb : b ∉ written2) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hb (by subst e; decide))))

/-- The buffers the operations of `hostOps3` write, in order. -/
def written3 : List (Ref sig .tc) :=
  [main_cst_13, main_v44, main_v45, main_v46, main_cst_14, main_v47, main_cst_15, main_v48, main_v49, main_v50, main_cst_16, main_v51, main_v52, main_v53, main_v54, main_v55, main_c_17, main_v56, main_v57, main_c_18, main_v58, main_v59, main_v60, main_v61, main_v62, main_v63, main_cst_19, main_v64, main_v65, main_v66]

/-- `hostOps3` leaves every buffer it does not write as it found it. -/
theorem keep3 (W : Valuation τ sig (Elt F)) (b : Ref sig .tc) (hb : b ∉ written3) :
    StableHlo.after (hostOps3 (F := F)) W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hb (by subst e; decide))))

/-- The buffers the operations of `hostOps4` write, in order. -/
def written4 : List (Ref sig .tc) :=
  [main_c_20, main_v68, main_v69, main_c_21, main_v70, main_v71, main_v72, main_v73, main_v74, main_v75, main_cst_22, main_v76, main_v77, main_v78]

/-- `hostOps4` leaves every buffer it does not write as it found it. -/
theorem keep4 (W : Valuation τ sig (Elt F)) (b : Ref sig .tc) (hb : b ∉ written4) :
    StableHlo.after (hostOps4 (F := F)) W (Proc.devRef .tc b) = W (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hb (by subst e; decide))))

/-- The buffers the operations of `hostOps5` write, in order. -/
def written5 : List (Ref sig .tc) :=
  [main_cst_23, main_v80, main_v81, main_v82, main_cst_24, main_v83, main_cst_25, main_v84, main_v85, main_v86, main_cst_26, main_v87, main_v88, main_v89, main_v90, main_v91, main_v92, main_v93]

/-- `hostOps5` leaves every buffer it does not write as it found it. -/
theorem keep5 (W : Valuation τ sig (Elt F)) (b : Ref sig .tc) (hb : b ∉ written5) :
    StableHlo.after (hostOps5 (F := F)) W (Proc.devRef .tc b) = W (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (fun e => hb (by subst e; decide))))

end Cert.Bridge

end
-- ==== Proof.LibMatmulRows.lean ====
/-
  A matrix product accumulated into zero, read one entry at a time.

  For the plain dimension numbers "rows by contraction, times contraction by columns" (`DotDims.plain M K N`: the left
  operand is [M, K], the right one [K, N], the result [M, N], no batch axis) the entry (p, q) of a `tpu.matmul` whose
  accumulator is the zero splat is, at the ideal values, the sum over the contraction position k of left (p, k) times
  right (k, q). So entry (p, q) depends on row p of the left operand and on column q of the right operand and on nothing
  else: a product computed on a block of rows is the block of rows of the product. The host's `dot_general` with the same
  dimension numbers reads the same way (it has no accumulator). Nothing of real arithmetic is used beyond 0 + x = x, so
  the statements hold at the infinities too.
-/
import Idealize.ShloMosaic.Lib.ValueIdx
import Idealize.ShloMosaic.PureOps.Ideal.Laws

noncomputable section

open scoped BigOperators

namespace Cert.Bridge

open Idealize.ShloMosaic Idealize.ShloMosaic.ValueIdx

/-- The left operand's row coordinate at output index `j` is `j`'s row, whatever the contraction position. -/
theorem plain_lhsIdx_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate at output index `j` is `j`'s column, whatever the contraction position. -/
theorem plain_rhsIdx_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index of a plain product, re-indexed by the contraction coordinate:
    the left factor is read at (p, k), the right one at (k, q). -/
theorem plain_contr_sum (M K N : Nat) (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhsIdx_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact plain_rhsIdx_col M K N _ _)
  rw [el, er]

/-- A plain `tpu.matmul` into the zero splat, read at (p, q): row p of the left operand against column q of the right. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contr_sum M K N lhs rhs p q)

/-- The host's plain `dot_general`, read at (p, q): the same sum. -/
theorem dotGeneral_plain_apply {φ₁ φ₂ : FTy} (M K N : Nat) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) :=
  (Ideal.dotGeneral_apply (DotDims.plain M K N) prec sched lhs rhs (ix2 p q)).trans (plain_contr_sum M K N lhs rhs p q)

end Cert.Bridge

end
-- ==== Proof.Region0Pay.lean ====
/-
  Region 0, one entry at a time.

  The first kernel computes, on a block of 5000 rows of x, relu(x·W0 + b0)·Wc1: a product into a zero accumulator, the
  bias row added to every row, a maximum with 0, and a second product into a zero accumulator (the changes of float
  format in between are the identity at the ideal values). Entry (p, q) of that block is a function of ROW p of the
  block of x alone (and of the whole W0, b0, Wc1): `proj0Entry`. The reference computes the same chain on all 100000
  rows, and its entry (r, q) is the same function of row r of x. So a block of the kernel's result is the block of rows
  of the reference's result.
-/
import proofs.«170622_j83494164234284_2_alg».proof.Proof.Gen.KernelIdeal.Skeleton
import proofs.«170622_j83494164234284_2_alg».proof.Proof.RefRead
import proofs.«170622_j83494164234284_2_alg».proof.Proof.LibMatmulRows
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.Bridge.R0

open Cert.Bridge Cert.KernelIdeal Cert.KernelIdeal.Gen

/-- Entry q of one row of relu(x·W0 + b0)·Wc1, from that row `x` of the input: the sum over the 128 hidden positions k
    of max(Σ_j x_j·W0[j,k] + b0[k], 0) times Wc1[k,q]. -/
def proj0Entry (x : Fin 64 → EReal) (W0 : (⟨2, ![64, 128]⟩ : Shape).Idx → EReal) (b0 : (⟨1, ![128]⟩ : Shape).Idx → EReal)
    (Wc1 : (⟨2, ![128, 128]⟩ : Shape).Idx → EReal) (q : Fin 128) : EReal :=
  ∑ k : Fin 128, max ((∑ j : Fin 64, x j * W0 (ix2 j k)) + b0 (ix1 k)) (Ideal.ofBits .f32 0x00000000#32) * Wc1 (ix2 k q)

/-- The two printed dimension-number records of this kernel are the plain ones. -/
theorem dot_5000x64_plain : dot_S5000x64_S64x128_S5000x128_1_0_0_1_n_n = DotDims.plain 5000 64 128 := rfl
theorem dot_5000x128_plain : dot_S5000x128_S128x128_S5000x128_1_0_0_1_n_n = DotDims.plain 5000 128 128 := rfl

/-- The bias vector cast to one row and broadcast down 5000 rows reads, at (p, k), the vector at k. -/
theorem biasRow5000_apply (b : Vec Ideal S128 .f32) (p : Fin 5000) (k : Fin 128) :
    broadcastTo S5000x128 (shapeCast S1x128 b shapeCasts_S128_S1x128) broadcasts_S1x128_S5000x128 (ix2 p k) = b (ix1 k) :=
  (broadcastTo_1b_ab_apply _ _ p k).trans (shapeCast_a_1a_apply b _ 0 k)

/-- The kernel's payload at (p, q) is `proj0Entry` of row p of its block of x. -/
theorem k0_pay1_apply (v0 : Vec Ideal S5000x64 .f32) (v2 : Vec Ideal S64x128 .f32) (v5 : Vec Ideal S128 .f32)
    (v12 : Vec Ideal S128x128 .f32) (p : Fin 5000) (q : Fin 128) :
    k0_pay1 (F := Ideal) v0 v2 v5 v12 (ix2 p q) = proj0Entry (fun j => v0 (ix2 p j)) v2 v5 v12 q := by
  unfold k0_pay1 proj0Entry
  dsimp only
  rw [dot_5000x64_plain, dot_5000x128_plain]
  refine (matmul_plain_zero_apply 5000 128 128 none _ _ p q).trans ?_
  refine Finset.sum_congr rfl fun k _ => ?_
  show max (FloatOps.matmul (DotDims.plain 5000 64 128) none _ _ _ (ix2 p k) + _) _ * v12 (ix2 k q) = _
  rw [matmul_plain_zero_apply 5000 64 128 none _ _ p k, biasRow5000_apply v5 p k]
  rfl

/-- The reference's stage at (r, q) is `proj0Entry` of row r of x. -/
theorem val_main_v5_ix2 (x0 : (⟨S100000x64, .f32⟩ : BufTy).Contents (Elt Ideal)) (x4 : (⟨S64x128, .f32⟩ : BufTy).Contents (Elt Ideal))
    (x5 : (⟨S128, .f32⟩ : BufTy).Contents (Elt Ideal)) (x6 : (⟨S128x128, .f32⟩ : BufTy).Contents (Elt Ideal))
    (r : Fin 100000) (q : Fin 128) :
    Cert.ReferenceIdeal.ReadP.val_main_v5 (F := Ideal) x0 x4 x5 x6 (ix2 r q) = proj0Entry (fun j => x0 (ix2 r j)) x4 x5 x6 q := by
  have el5 : ∀ k : Fin 128, Cert.ReferenceIdeal.ReadP.lidx_main_v5 (ix2 r q) k = ix2 r k := fun k =>
    funext fun a => by match a with | ⟨0, _⟩ => rfl | ⟨1, _⟩ => rfl
  have er5 : ∀ k : Fin 128, Cert.ReferenceIdeal.ReadP.ridx_main_v5 (ix2 r q) k = ix2 k q := fun k =>
    funext fun a => by match a with | ⟨0, _⟩ => rfl | ⟨1, _⟩ => rfl
  have el0 : ∀ (k : Fin 128) (j : Fin 64), Cert.ReferenceIdeal.ReadP.lidx_main_v0 (ix2 r k) j = ix2 r j := fun k j =>
    funext fun a => by match a with | ⟨0, _⟩ => rfl | ⟨1, _⟩ => rfl
  have er0 : ∀ (k : Fin 128) (j : Fin 64), Cert.ReferenceIdeal.ReadP.ridx_main_v0 (ix2 r k) j = ix2 j k := fun k j =>
    funext fun a => by match a with | ⟨0, _⟩ => rfl | ⟨1, _⟩ => rfl
  have eb : ∀ k : Fin 128, Cert.ReferenceIdeal.ReadP.idx_main_v1 (Cert.ReferenceIdeal.ReadP.idx_main_v2 (ix2 r k)) = ix1 k := fun k =>
    funext fun a => by match a with | ⟨0, _⟩ => rfl
  rw [Cert.ReferenceIdeal.ReadP.val_main_v5_apply]
  unfold proj0Entry
  refine Finset.sum_congr rfl fun k _ => ?_
  rw [el5 k, er5 k, Cert.ReferenceIdeal.ReadP.val_main_v4_apply, Cert.ReferenceIdeal.ReadP.val_main_v3_apply,
    Cert.ReferenceIdeal.ReadP.val_main_v0_apply, Cert.ReferenceIdeal.ReadP.val_main_v2_apply,
    Cert.ReferenceIdeal.ReadP.val_main_v1_apply, Cert.ReferenceIdeal.ReadP.val_main_call0_v0_apply,
    Cert.ReferenceIdeal.ReadP.val_main_call0_cst_apply, eb k]
  simp only [el0 k, er0 k]
  rfl

/-- The join: where row p of the kernel's block of x is row r of x, entry (p, q) of the kernel's payload is entry (r, q)
    of the reference's stage. -/
theorem k0_pay1_eq_ref (x0 : (⟨S100000x64, .f32⟩ : BufTy).Contents (Elt Ideal)) (x4 : (⟨S64x128, .f32⟩ : BufTy).Contents (Elt Ideal))
    (x5 : (⟨S128, .f32⟩ : BufTy).Contents (Elt Ideal)) (x6 : (⟨S128x128, .f32⟩ : BufTy).Contents (Elt Ideal))
    (v0 : Vec Ideal S5000x64 .f32) (p : Fin 5000) (q : Fin 128) (r : Fin 100000)
    (hrow : ∀ j : Fin 64, v0 (ix2 p j) = x0 (ix2 r j)) :
    k0_pay1 (F := Ideal) v0 x4 x5 x6 (ix2 p q) = Cert.ReferenceIdeal.ReadP.val_main_v5 (F := Ideal) x0 x4 x5 x6 (ix2 r q) := by
  rw [k0_pay1_apply, val_main_v5_ix2, show (fun j => v0 (ix2 p j)) = (fun j => x0 (ix2 r j)) from funext hrow]

end Cert.Bridge.R0

end
-- ==== Proof.Region0.lean ====
/-
  Region 0: the array the first kernel leaves is the reference's relu(x·W0 + b0)·Wc1.

  The grid has 20 points. At point t the kernel reads rows 5000·t … 5000·t + 4999 of x (block index (t, 0)) and the whole
  of W0, b0 and Wc1 (block index 0 on every axis), and writes back rows 5000·t … 5000·t + 4999 of its result. Entry (p, q)
  of what point t writes back depends on row p of its block of x, which is row 5000·t + p of x; so the block written
  back is the block of rows 5000·t … of the reference's stage, one whole-array function. Row r of the result is covered by
  point r / 5000, so the twenty write-backs leave the reference's stage on the whole array.
-/
import proofs.«170622_j83494164234284_2_alg».proof.Proof.Gen.KernelIdeal.Frame
import proofs.«170622_j83494164234284_2_alg».proof.Proof.RefRead
import proofs.«170622_j83494164234284_2_alg».proof.Proof.Region0Pay
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.Bridge.R0

open Cert.Bridge Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the grid: the windows of x and of the result move down the rows with the point, the
    three parameter windows stay at block 0. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of the block of x at point t is row 5000·t + p of x. -/
theorem xblock0_apply (c : Dev nD) (t : Fin cfg0.N) (p : Fin 5000) (j : Fin 64) (r : Fin 100000)
    (hr : r.val = 5000 * t.val + p.val) :
    (iblk0 (F := Ideal) V c 0 t : Vec Ideal S5000x64 .f32) (ix2 p j) = (V c main_arg0 : S100000x64.Idx → EReal) (ix2 r j) := by
  obtain ⟨e0, e1, -⟩ := index_facts0 t
  unfold iblk0
  show V c main_arg0 (((cfg0.win 0).blk t).view.emb (ix2 p j)) = V c main_arg0 (ix2 r j)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 64 + 1 * j.val = j.val; omega

/-- The block of W0 at any point is W0. -/
theorem w0block0_eq (c : Dev nD) (t : Fin cfg0.N) :
    (iblk0 (F := Ideal) V c 1 t : Vec Ideal S64x128 .f32) = (V c main_arg4 : S64x128.Idx → EReal) := by
  obtain ⟨-, -, e0, e1, -⟩ := index_facts0 t
  funext y
  unfold iblk0
  show V c main_arg4 (((cfg0.win 1).blk t).view.emb y) = V c main_arg4 y
  refine congrArg (V c main_arg4) (funext fun a => Fin.ext ?_)
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- The block of b0 at any point is b0. -/
theorem b0block0_eq (c : Dev nD) (t : Fin cfg0.N) :
    (iblk0 (F := Ideal) V c 2 t : Vec Ideal S128 .f32) = (V c main_arg5 : S128.Idx → EReal) := by
  obtain ⟨-, -, -, -, e0, -⟩ := index_facts0 t
  funext y
  unfold iblk0
  show V c main_arg5 (((cfg0.win 2).blk t).view.emb y) = V c main_arg5 y
  refine congrArg (V c main_arg5) (funext fun a => Fin.ext ?_)
  match a with
  | ⟨0, _⟩ => show win0_2.index t (0 : Fin 1) * 128 + 1 * (y 0).val = (y 0).val; omega

/-- The block of Wc1 at any point is Wc1. -/
theorem wc1block0_eq (c : Dev nD) (t : Fin cfg0.N) :
    (iblk0 (F := Ideal) V c 3 t : Vec Ideal S128x128 .f32) = (V c main_arg6 : S128x128.Idx → EReal) := by
  obtain ⟨-, -, -, -, -, e0, e1, -⟩ := index_facts0 t
  funext y
  unfold iblk0
  show V c main_arg6 (((cfg0.win 3).blk t).view.emb y) = V c main_arg6 y
  refine congrArg (V c main_arg6) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- What point t writes back is its block of rows of the reference's stage. -/
theorem flushed0_eq (c : Dev nD) (x0 : (⟨S100000x64, .f32⟩ : BufTy).Contents (Elt Ideal)) (x4 : (⟨S64x128, .f32⟩ : BufTy).Contents (Elt Ideal))
    (x5 : (⟨S128, .f32⟩ : BufTy).Contents (Elt Ideal)) (x6 : (⟨S128x128, .f32⟩ : BufTy).Contents (Elt Ideal))
    (h0 : V c main_arg0 = x0) (h4 : V c main_arg4 = x4) (h5 : V c main_arg5 = x5) (h6 : V c main_arg6 = x6) (t : Fin cfg0.N) :
    (dat0 (F := Ideal) V c).flushed 4 t
      = ((cfg0.win 4).blk t).view.read (Elt Ideal) (Cert.ReferenceIdeal.ReadP.val_main_v5 (F := Ideal) x0 x4 x5 x6) := by
  show (cfg0.win 4).cut (grid0.coords t) ((dat0 V c).after 4 t) = _
  rw [after0_4]
  unfold out0_4
  rw [View.canon_unit_zero zeros2]
  simp only [View.ld_unit_zero (S := S5000x64) zeros2, View.ld_unit_zero (S := S64x128) zeros2,
    View.ld_unit_zero (S := S128) zeros1, View.ld_unit_zero (S := S128x128) zeros2]
  rw [w0block0_eq, b0block0_eq, wc1block0_eq, h4, h5, h6]
  obtain ⟨-, -, -, -, -, -, -, e0, e1⟩ := index_facts0 t
  have hN : t.val < 20 := lt_of_lt_of_eq t.isLt N_0
  funext y
  obtain ⟨p, q, rfl⟩ : ∃ (p : Fin 5000) (q : Fin 128), y = ix2 p q := ⟨y 0, y 1, eq_ix2 y⟩
  have hp : p.val < 5000 := p.isLt
  have hr : 5000 * t.val + p.val < 100000 := by omega
  have hemb : ((cfg0.win 4).blk t).view.emb (ix2 p q) = ix2 (⟨5000 * t.val + p.val, hr⟩ : Fin 100000) q :=
    funext fun a => Fin.ext (by
      match a with
      | ⟨0, _⟩ => show win0_4.index t (0 : Fin 2) * 5000 + 1 * p.val = 5000 * t.val + p.val; omega
      | ⟨1, _⟩ => show win0_4.index t (1 : Fin 2) * 128 + 1 * q.val = q.val; omega)
  show k0_pay1 (F := Ideal) (iblk0 V c 0 t) x4 x5 x6 (ix2 p q)
    = Cert.ReferenceIdeal.ReadP.val_main_v5 (F := Ideal) x0 x4 x5 x6 (((cfg0.win 4).blk t).view.emb (ix2 p q))
  rw [hemb]
  refine k0_pay1_eq_ref x0 x4 x5 x6 (iblk0 V c 0 t) p q ⟨5000 * t.val + p.val, hr⟩ fun j => ?_
  rw [xblock0_apply V c t p j ⟨5000 * t.val + p.val, hr⟩ rfl, h0]

/-- An index of the result array is in point t's block iff each coordinate is in the block's range on its axis. -/
theorem mem_block0 (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v19).slice (win0_4.rect t)).set ↔ _
  rw [View.set_slice_whole, Rect.mem_set_unit]
  exact Iff.rfl

/-- Row r of the result is in the block of point r / 5000. -/
theorem rows_covered0 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨-, -, -, -, -, -, -, e0, e1⟩ := index_facts0 t
  have ht : t.val = (i 0).val / 5000 := rfl
  refine ⟨t, flush0_4 t, ?_⟩
  rw [mem_block0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

end Cert.Bridge.R0

namespace Cert.Bridge

open Cert.KernelIdeal Cert.KernelIdeal.Gen

variable (V : (c : Dev nD) → (b : Ref sig .tc) → Buf (Elt Ideal) ((c : Thread nD τ).loc b))

/-- REGION 0: after its twenty points the result array holds the reference's relu(x·W0 + b0)·Wc1. -/
theorem region0 (c : Dev nD) (x0 : (⟨S100000x64, .f32⟩ : BufTy).Contents (Elt Ideal)) (x4 : (⟨S64x128, .f32⟩ : BufTy).Contents (Elt Ideal))
    (x5 : (⟨S128, .f32⟩ : BufTy).Contents (Elt Ideal)) (x6 : (⟨S128x128, .f32⟩ : BufTy).Contents (Elt Ideal))
    (h0 : V c main_arg0 = x0) (h4 : V c main_arg4 = x4) (h5 : V c main_arg5 = x5) (h6 : V c main_arg6 = x6) :
    (dat0 (F := Ideal) V c).arrAt 4 cfg0.N = Cert.ReferenceIdeal.ReadP.val_main_v5 (F := Ideal) x0 x4 x5 x6 :=
  (dat0 (F := Ideal) V c).arrAt_eq_of_cover 4 _ (fun t _ => R0.flushed0_eq V c x0 x4 x5 x6 h0 h4 h5 h6 t) R0.rows_covered0

end Cert.Bridge

end
-- ==== Proof.Region1.lean ====
import proofs.«170622_j83494164234284_2_alg».proof.Proof.Gen.KernelIdeal.Frame
import proofs.«170622_j83494164234284_2_alg».proof.Proof.RefRead
import Idealize.ShloMosaic.Lib.ValueIdx
import Idealize.ShloMosaic.Lib.ValueLayout
import Idealize.ShloMosaic.Lib.Pipeline.Value
import Idealize.ShloMosaic.PureOps.Ideal.Laws
noncomputable section
open Idealize.ShloMosaic Idealize.ShloMosaic.TcCoe Idealize.SL.Sem
open Idealize.ShloMosaic.ValueIdx
namespace Cert.Bridge
open Cert.KernelIdeal Cert.KernelIdeal.Gen

/-! # Region 1: every row of the hyperedge sums scaled by that hyperedge's inverse size

The array has 25000 rows of 128 lanes and is worked in 5 blocks of 5000 rows. Entry (r, l) of the
result is entry (r, l) of the summed rows times entry r of the one-column array of inverse sizes:
it depends on row r of the first operand and on row r of the column, nothing else. The reference
reaches the same column by broadcasting the length-25000 vector first to one column and then along
the 128 lanes; the kernel is handed the vector reshaped to one column and broadcasts that along the
lanes. Both read entry r of the vector at row r, so the two sides agree entry by entry with no
algebra beyond the product itself. -/

/-! ## Two layout reads: a vector as one column, a column along the lanes -/

/-- A length-`a` vector reshaped to one column reads, at row `i` (whatever the unit coordinate),
    entry `i` of the vector: both have row-major position `i`. -/
theorem r1_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast along `b` lanes reads, at `(p, l)`, the column's entry at row `p`. -/
theorem r1_broadcastTo_a1_ab_apply {α : Type} {a b : ℕ} (v : (⟨2, ![a, 1]⟩ : Shape).Idx → α)
    (h : (⟨2, ![a, 1]⟩ : Shape).Broadcasts ⟨2, ![a, b]⟩) (p : Fin a) (l : Fin b) :
    broadcastTo ⟨2, ![a, b]⟩ v h (ix2 p l) = v (ix2 p (0 : Fin 1)) := by
  refine broadcastTo_apply v h (ix2 p l) (ix2 p (0 : Fin 1)) fun ax => ?_
  match ax with
  | ⟨0, _⟩ =>
    show p.val = if a = 1 then 0 else p.val
    split
    · have := p.isLt; omega
    · rfl
  | ⟨1, _⟩ => rfl

/-! ## The result as one function of the two arrays the region reads -/

/-- Row `r` of `R` times entry `r` of the column `Bc`, lane by lane. -/
abbrev rowScale1 (R : S25000x128.Idx → EReal) (Bc : S25000x1.Idx → EReal) : S25000x128.Idx → EReal :=
  fun i => R i * Bc (ix2 (⟨(i 0).val, (i 0).isLt⟩ : Fin 25000) (0 : Fin 1))

/-! ## What one grid point computes, entry by entry -/

/-- The body's stored value at `(p, l)` of a block: the loaded block's entry there times the loaded
    column's entry at row `p`. The casts to the same shape are identities, the rounding to the
    narrower float format is the identity on the extended reals. -/
theorem r1_pay_apply (v0 : Vec Ideal S5000x128 .f32) (v2 : Vec Ideal S5000x1 .f32) (p : Fin 5000) (l : Fin 128) :
    k1_pay1 (F := Ideal) v0 v2 (ix2 p l) = v0 (ix2 p l) * v2 (ix2 p (0 : Fin 1)) := by
  unfold k1_pay1
  show (shapeCast S5000x128 v0 shapeCasts_S5000x128_S5000x128) (ix2 p l)
      * (broadcastTo S5000x128 (shapeCast S5000x1 v2 shapeCasts_S5000x1_S5000x1) broadcasts_S5000x1_S5000x128) (ix2 p l) = _
  rw [shapeCast_self, shapeCast_self]
  exact congrArg (v0 (ix2 p l) * ·) (r1_broadcastTo_a1_ab_apply v2 broadcasts_S5000x1_S5000x128 p l)

/-! ## Where each window's block sits: block `t` is rows `5000 t … 5000 t + 4999` -/

/-- The three index maps, decided over the five points: the block index on the row axis is the point,
    on the lane axis zero. -/
theorem r1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem r1_hz : (![0, 0] : Fin 2 → Nat) = fun _ => 0 := funext fun a => by fin_cases a <;> rfl

/-- What point `t` writes back is block `t` of `rowScale1` of the two arrays as the region finds them. -/
theorem r1_flushed_eq (V : (c : Dev nD) → (b : Ref sig .tc) → Buf (Elt Ideal) ((c : Thread nD τ).loc b))
    (c : Dev nD) (t : Fin cfg1.N) :
    (dat1 (F := Ideal) V c).flushed 2 t
      = ((cfg1.win 2).blk t).view.read (Elt Ideal) (rowScale1 (V c main_v30) (V c main_v18)) := by
  show (cfg1.win 2).cut (grid1.coords t) ((dat1 (F := Ideal) V c).after 2 t) = _
  rw [after1_2]
  unfold out1_2
  rw [View.canon_unit_zero r1_hz]
  simp only [View.ld_unit_zero (S := S5000x128) r1_hz, View.ld_unit_zero (S := S5000x1) r1_hz]
  obtain ⟨e0, e1, e2, e3, e4, e5⟩ := r1_idx_facts t
  funext j
  obtain ⟨p, l, rfl⟩ : ∃ (p : Fin 5000) (l : Fin 128), j = ix2 p l := ⟨j 0, j 1, eq_ix2 j⟩
  refine (r1_pay_apply (iblk1 V c 0 t) (iblk1 V c 1 t) p l).trans ?_
  show (HMul.hMul : EReal → EReal → EReal) (V c main_v30 (((cfg1.win 0).blk t).view.emb (ix2 p l)))
        (V c main_v18 (((cfg1.win 1).blk t).view.emb (ix2 p (0 : Fin 1))))
      = (HMul.hMul : EReal → EReal → EReal) (V c main_v30 (((cfg1.win 2).blk t).view.emb (ix2 p l)))
        (V c main_v18 (ix2 (⟨((((cfg1.win 2).blk t).view.emb (ix2 p l)) 0).val, ((((cfg1.win 2).blk t).view.emb (ix2 p l)) 0).isLt⟩ : Fin 25000) (0 : Fin 1)))
  have h0 : ((cfg1.win 0).blk t).view.emb (ix2 p l) = ((cfg1.win 2).blk t).view.emb (ix2 p l) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * l.val = win1_2.index t (1 : Fin 2) * 128 + 1 * l.val; omega
  have h1 : ((cfg1.win 1).blk t).view.emb (ix2 p (0 : Fin 1))
      = ix2 (⟨((((cfg1.win 2).blk t).view.emb (ix2 p l)) 0).val, ((((cfg1.win 2).blk t).view.emb (ix2 p l)) 0).isLt⟩ : Fin 25000) (0 : Fin 1) := by
    funext a; apply Fin.ext
    match a with
    | ⟨0, _⟩ => show win1_1.index t (0 : Fin 2) * 5000 + 1 * p.val = win1_2.index t (0 : Fin 2) * 5000 + 1 * p.val; omega
    | ⟨1, _⟩ => show win1_1.index t (1 : Fin 2) * 1 + 1 * 0 = 0; omega
  rw [h0, h1]

/-! ## The five blocks cover the array: row `r` lies in block `r / 5000` -/

theorem r1_mem_blk (t : Fin cfg1.N) (i : S25000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v31).slice (win1_2.rect t)).set ↔ _
  rw [View.set_slice_whole, Rect.mem_set_unit]
  exact Iff.rfl

theorem r1_cover (i : S25000x128.Idx) :
    ∃ t : Fin cfg1.N, (cfg1.win 2).flush t = true ∧ i ∈ ((cfg1.win 2).blk t).view.set := by
  have hi0 : (i 0).val < 25000 := (i 0).isLt
  have hi1 : (i 1).val < 128 := (i 1).isLt
  have hN : grid1.N = 5 := N_1
  have ht : (i 0).val / 5000 < grid1.N := by rw [hN]; omega
  obtain ⟨-, -, -, -, e4, e5⟩ := r1_idx_facts ⟨(i 0).val / 5000, ht⟩
  refine ⟨⟨(i 0).val / 5000, ht⟩, flush1_2 _, ?_⟩
  rw [r1_mem_blk]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e5]; omega

/-- After the region the output array is `rowScale1` of the two arrays the region found. -/
theorem r1_final (V : (c : Dev nD) → (b : Ref sig .tc) → Buf (Elt Ideal) ((c : Thread nD τ).loc b)) (c : Dev nD) :
    (dat1 (F := Ideal) V c).arrAt 2 cfg1.N = rowScale1 (V c main_v30) (V c main_v18) :=
  (dat1 (F := Ideal) V c).arrAt_eq_of_cover 2 (rowScale1 (V c main_v30) (V c main_v18))
    (fun t _ => r1_flushed_eq V c t) r1_cover

/-! ## Against the reference -/

/-- The reference's product stage is `rowScale1` of its summed rows and of its vector of inverse sizes
    reshaped to one column: its two-step broadcast reads entry `r` of the vector at `(r, l)`, and so
    does the reshaped column at `(r, 0)`. -/
theorem r1_reference (x0 : (⟨S100000x64, .f32⟩ : BufTy).Contents (Elt Ideal)) (x1 x2 : (⟨S800000, .i32⟩ : BufTy).Contents (Elt Ideal))
    (x4 : (⟨S64x128, .f32⟩ : BufTy).Contents (Elt Ideal)) (x5 : (⟨S128, .f32⟩ : BufTy).Contents (Elt Ideal)) (x6 : (⟨S128x128, .f32⟩ : BufTy).Contents (Elt Ideal)) :
    rowScale1 (Cert.ReferenceIdeal.ReadP.val_main_v32 (F := Ideal) x0 x1 x2 x4 x5 x6)
        (shapeCast S25000x1 (Cert.ReferenceIdeal.ReadP.val_main_v22 (F := Ideal) x2) shapeCasts_S25000_S25000x1)
      = Cert.ReferenceIdeal.ReadP.val_main_v35 (F := Ideal) x0 x1 x2 x4 x5 x6 := by
  funext i
  rw [Cert.ReferenceIdeal.ReadP.val_main_v35_apply, Cert.ReferenceIdeal.ReadP.val_main_v34_apply, Cert.ReferenceIdeal.ReadP.val_main_v33_apply]
  generalize Cert.ReferenceIdeal.ReadP.val_main_v32 (F := Ideal) x0 x1 x2 x4 x5 x6 = R
  generalize Cert.ReferenceIdeal.ReadP.val_main_v22 (F := Ideal) x2 = B
  show R i * shapeCast S25000x1 B shapeCasts_S25000_S25000x1 (ix2 (⟨(i 0).val, (i 0).isLt⟩ : Fin 25000) (0 : Fin 1)) = R i * B _
  rw [r1_shapeCast_a_a1_apply B shapeCasts_S25000_S25000x1]
  refine congrArg (R i * B ·) (funext fun a => ?_)
  match a with
  | ⟨0, _⟩ => rfl

theorem region1 (V : (c : Dev nD) → (b : Ref sig .tc) → Buf (Elt Ideal) ((c : Thread nD τ).loc b)) (c : Dev nD)
    (x0 : (⟨S100000x64, .f32⟩ : BufTy).Contents (Elt Ideal)) (x1 x2 : (⟨S800000, .i32⟩ : BufTy).Contents (Elt Ideal))
    (x4 : (⟨S64x128, .f32⟩ : BufTy).Contents (Elt Ideal)) (x5 : (⟨S128, .f32⟩ : BufTy).Contents (Elt Ideal)) (x6 : (⟨S128x128, .f32⟩ : BufTy).Contents (Elt Ideal))
    (hR : V c main_v30 = Cert.ReferenceIdeal.ReadP.val_main_v32 (F := Ideal) x0 x1 x2 x4 x5 x6)
    (hB : V c main_v18 = shapeCast S25000x1 (Cert.ReferenceIdeal.ReadP.val_main_v22 (F := Ideal) x2) shapeCasts_S25000_S25000x1) :
    (dat1 (F := Ideal) V c).arrAt 2 cfg1.N = Cert.ReferenceIdeal.ReadP.val_main_v35 (F := Ideal) x0 x1 x2 x4 x5 x6 := by
  rw [r1_final V c, hR, hB]
  exact r1_reference x0 x1 x2 x4 x5 x6

end Cert.Bridge
-- ==== Proof.Region2Pay.lean ====
/-
  Region 2, one entry at a time.

  The third kernel works on a block of 5000 rows. Its first payload is pointwise along a row: entry (p, q) is
  max(A[p,q]·d[p] + bc1[q], 0), where A is the block of the aggregated features, d the block of the inverse-degree
  column (one entry per row, broadcast along the row) and bc1 the bias row (broadcast down the rows): `h1Entry`. Its
  second payload is the product of the first one with Wc2 into a zero accumulator, so entry (p, q) of it is the sum over
  k of the first payload at (p, k) times Wc2[k,q]: it depends on row p of the first payload only.
  The reference computes the same two arrays on all 100000 rows; it broadcasts the inverse degrees to a column and then
  along the rows in two steps, which reads row r's inverse degree at every (r, q) all the same.
-/
import proofs.«170622_j83494164234284_2_alg».proof.Proof.Gen.KernelIdeal.Skeleton
import proofs.«170622_j83494164234284_2_alg».proof.Proof.RefRead
import proofs.«170622_j83494164234284_2_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx

namespace Cert.Bridge.R2

open Cert.Bridge Cert.KernelIdeal Cert.KernelIdeal.Gen

/-- One entry of relu(A·d + bc1): the aggregated feature `a`, the row's inverse degree `d`, the column's bias `b`. -/
def h1Entry (a d b : EReal) : EReal := max (a * d + b) (Ideal.ofBits .f32 0x00000000#32)

/-- The printed dimension-number record of this kernel's product is the plain one. -/
theorem dot_5000x128_plain : dot_S5000x128_S128x128_S5000x128_1_0_0_1_n_n = DotDims.plain 5000 128 128 := rfl

/-- The bias vector cast to one row and broadcast down 5000 rows reads, at (p, k), the vector at k. -/
theorem biasRow5000_apply (b : Vec Ideal S128 .f32) (p : Fin 5000) (k : Fin 128) :
    broadcastTo S5000x128 (shapeCast S1x128 b shapeCasts_S128_S1x128) broadcasts_S1x128_S5000x128 (ix2 p k) = b (ix1 k) :=
  (broadcastTo_1b_ab_apply _ _ p k).trans (shapeCast_a_1a_apply b _ 0 k)

/-- A column of 5000 entries broadcast along rows of 128 reads, at (p, k), the column at row p. -/
theorem col5000_apply (d : Vec Ideal S5000x1 .f32) (p : Fin 5000) (k : Fin 128) :
    broadcastTo S5000x128 (shapeCast S5000x1 d shapeCasts_S5000x1_S5000x1) broadcasts_S5000x1_S5000x128 (ix2 p k)
      = d (ix2 p (0 : Fin 1)) := by
  rw [shapeCast_self]
  refine broadcastTo_apply d _ (ix2 p k) (ix2 p (0 : Fin 1)) fun ax => ?_
  match ax with
  | ⟨0, _⟩ => show p.val = if (5000 : ℕ) = 1 then 0 else p.val; rw [if_neg (by decide)]
  | ⟨1, _⟩ => show (0 : ℕ) = if (1 : ℕ) = 1 then 0 else k.val; rw [if_pos rfl]

/-- The first payload at (p, q). -/
theorem k2_pay1_apply (v0 : Vec Ideal S5000x128 .f32) (v2 : Vec Ideal S5000x1 .f32) (v6 : Vec Ideal S128 .f32)
    (p : Fin 5000) (q : Fin 128) :
    k2_pay1 (F := Ideal) v0 v2 v6 (ix2 p q) = h1Entry (v0 (ix2 p q)) (v2 (ix2 p (0 : Fin 1))) (v6 (ix1 q)) := by
  unfold k2_pay1 h1Entry
  show max (shapeCast S5000x128 v0 shapeCasts_S5000x128_S5000x128 (ix2 p q) * _ + _) _ = _
  rw [shapeCast_self, col5000_apply v2 p q, biasRow5000_apply v6 p q]
  rfl

/-- The second payload at (p, q): row p of the first payload against column q of Wc2. -/
theorem k2_pay2_apply (v0 : Vec Ideal S5000x128 .f32) (v2 : Vec Ideal S5000x1 .f32) (v6 : Vec Ideal S128 .f32)
    (v14 : Vec Ideal S128x128 .f32) (p : Fin 5000) (q : Fin 128) :
    k2_pay2 (F := Ideal) v0 v2 v6 v14 (ix2 p q) = ∑ k : Fin 128, k2_pay1 (F := Ideal) v0 v2 v6 (ix2 p k) * v14 (ix2 k q) := by
  unfold k2_pay2
  rw [dot_5000x128_plain]
  exact matmul_plain_zero_apply 5000 128 128 none _ _ p q

/-- The reference's relu stage at (r, q). -/
theorem val_main_v52_ix2 (x0 : (⟨S100000x64, .f32⟩ : BufTy).Contents (Elt Ideal)) (x1 x2 : (⟨S800000, .i32⟩ : BufTy).Contents (Elt Ideal))
    (x4 : (⟨S64x128, .f32⟩ : BufTy).Contents (Elt Ideal)) (x5 : (⟨S128, .f32⟩ : BufTy).Contents (Elt Ideal)) (x6 : (⟨S128x128, .f32⟩ : BufTy).Contents (Elt Ideal))
    (x7 : (⟨S128, .f32⟩ : BufTy).Contents (Elt Ideal)) (r : Fin 100000) (q : Fin 128) :
    Cert.ReferenceIdeal.ReadP.val_main_v52 (F := Ideal) x0 x1 x2 x4 x5 x6 x7 (ix2 r q)
      = h1Entry (Cert.ReferenceIdeal.ReadP.val_main_v45 (F := Ideal) x0 x1 x2 x4 x5 x6 (ix2 r q)) (Cert.ReferenceIdeal.ReadP.val_main_v14 (F := Ideal) x1 (ix1 r)) (x7 (ix1 q)) := by
  have e1 : Cert.ReferenceIdeal.ReadP.idx_main_v46 (Cert.ReferenceIdeal.ReadP.idx_main_v47 (ix2 r q)) = ix1 r :=
    funext fun a => by match a with | ⟨0, _⟩ => rfl
  have e2 : Cert.ReferenceIdeal.ReadP.idx_main_v49 (Cert.ReferenceIdeal.ReadP.idx_main_v50 (ix2 r q)) = ix1 q :=
    funext fun a => by match a with | ⟨0, _⟩ => rfl
  rw [Cert.ReferenceIdeal.ReadP.val_main_v52_apply, Cert.ReferenceIdeal.ReadP.val_main_v51_apply, Cert.ReferenceIdeal.ReadP.val_main_v48_apply, Cert.ReferenceIdeal.ReadP.val_main_v47_apply,
    Cert.ReferenceIdeal.ReadP.val_main_v46_apply, Cert.ReferenceIdeal.ReadP.val_main_v50_apply, Cert.ReferenceIdeal.ReadP.val_main_v49_apply, Cert.ReferenceIdeal.ReadP.val_main_call3_v0_apply,
    Cert.ReferenceIdeal.ReadP.val_main_call3_cst_apply, e1, e2]
  rfl

/-- The reference's product stage at (r, q): row r of the relu stage against column q of Wc2. -/
theorem val_main_v65_ix2 (x0 : (⟨S100000x64, .f32⟩ : BufTy).Contents (Elt Ideal)) (x1 x2 : (⟨S800000, .i32⟩ : BufTy).Contents (Elt Ideal))
    (x4 : (⟨S64x128, .f32⟩ : BufTy).Contents (Elt Ideal)) (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal)) (r : Fin 100000) (q : Fin 128) :
    Cert.ReferenceIdeal.ReadP.val_main_v65 (F := Ideal) x0 x1 x2 x4 x5 x6 x7 x8 (ix2 r q)
      = ∑ k : Fin 128, Cert.ReferenceIdeal.ReadP.val_main_v52 (F := Ideal) x0 x1 x2 x4 x5 x6 x7 (ix2 r k) * x8 (ix2 k q) := by
  have el : ∀ k : Fin 128, Cert.ReferenceIdeal.ReadP.lidx_main_v65 (ix2 r q) k = ix2 r k := fun k =>
    funext fun a => by match a with | ⟨0, _⟩ => rfl | ⟨1, _⟩ => rfl
  have er : ∀ k : Fin 128, Cert.ReferenceIdeal.ReadP.ridx_main_v65 (ix2 r q) k = ix2 k q := fun k =>
    funext fun a => by match a with | ⟨0, _⟩ => rfl | ⟨1, _⟩ => rfl
  rw [Cert.ReferenceIdeal.ReadP.val_main_v65_apply]
  refine Finset.sum_congr rfl fun k _ => ?_
  rw [el k, er k]

/-- The join for the first output: where row p of the kernel's blocks is row r of the arrays, entry (p, q) of the first
    payload is entry (r, q) of the reference's relu stage. -/
theorem k2_pay1_eq_ref (x0 : (⟨S100000x64, .f32⟩ : BufTy).Contents (Elt Ideal)) (x1 x2 : (⟨S800000, .i32⟩ : BufTy).Contents (Elt Ideal))
    (x4 : (⟨S64x128, .f32⟩ : BufTy).Contents (Elt Ideal)) (x5 : (⟨S128, .f32⟩ : BufTy).Contents (Elt Ideal)) (x6 : (⟨S128x128, .f32⟩ : BufTy).Contents (Elt Ideal))
    (x7 : (⟨S128, .f32⟩ : BufTy).Contents (Elt Ideal))
    (v0 : Vec Ideal S5000x128 .f32) (v2 : Vec Ideal S5000x1 .f32) (p : Fin 5000) (q : Fin 128) (r : Fin 100000)
    (hA : v0 (ix2 p q) = Cert.ReferenceIdeal.ReadP.val_main_v45 (F := Ideal) x0 x1 x2 x4 x5 x6 (ix2 r q))
    (hD : v2 (ix2 p (0 : Fin 1)) = Cert.ReferenceIdeal.ReadP.val_main_v14 (F := Ideal) x1 (ix1 r)) :
    k2_pay1 (F := Ideal) v0 v2 x7 (ix2 p q) = Cert.ReferenceIdeal.ReadP.val_main_v52 (F := Ideal) x0 x1 x2 x4 x5 x6 x7 (ix2 r q) := by
  rw [k2_pay1_apply, val_main_v52_ix2, hA, hD]

/-- The join for the second output: the same, through the product with Wc2. -/
theorem k2_pay2_eq_ref (x0 : (⟨S100000x64, .f32⟩ : BufTy).Contents (Elt Ideal)) (x1 x2 : (⟨S800000, .i32⟩ : BufTy).Contents (Elt Ideal))
    (x4 : (⟨S64x128, .f32⟩ : BufTy).Contents (Elt Ideal)) (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (v0 : Vec Ideal S5000x128 .f32) (v2 : Vec Ideal S5000x1 .f32) (p : Fin 5000) (q : Fin 128) (r : Fin 100000)
    (hA : ∀ k : Fin 128, v0 (ix2 p k) = Cert.ReferenceIdeal.ReadP.val_main_v45 (F := Ideal) x0 x1 x2 x4 x5 x6 (ix2 r k))
    (hD : v2 (ix2 p (0 : Fin 1)) = Cert.ReferenceIdeal.ReadP.val_main_v14 (F := Ideal) x1 (ix1 r)) :
    k2_pay2 (F := Ideal) v0 v2 x7 x8 (ix2 p q) = Cert.ReferenceIdeal.ReadP.val_main_v65 (F := Ideal) x0 x1 x2 x4 x5 x6 x7 x8 (ix2 r q) := by
  rw [k2_pay2_apply, val_main_v65_ix2]
  refine Finset.sum_congr rfl fun k _ => ?_
  rw [k2_pay1_eq_ref x0 x1 x2 x4 x5 x6 x7 v0 v2 p k r (hA k) hD]

end Cert.Bridge.R2

end
-- ==== Proof.Region2.lean ====
/-
  Region 2: the two arrays the third kernel leaves are the reference's relu(A·D + bc1) and its product with Wc2.

  The grid has 20 points. At point t the kernel reads rows 5000·t … 5000·t + 4999 of the aggregated features A and of
  the inverse-degree column (block index (t, 0) for both), and the whole of bc1 and Wc2 (block index 0), and writes back
  rows 5000·t … 5000·t + 4999 of each of its two results. Entry (p, q) of either block written back depends on row p of
  the two row blocks, which is row 5000·t + p of the arrays; so each block written back is the block of rows 5000·t … of
  the reference's stage. Row r of a result is covered by point r / 5000.
  The inverse-degree column arrives as the [100000, 1] reshape of the reference's inverse-degree vector: its entry
  (r, 0) is the vector's entry r (same row-major position).
-/
import proofs.«170622_j83494164234284_2_alg».proof.Proof.Gen.KernelIdeal.Frame
import proofs.«170622_j83494164234284_2_alg».proof.Proof.RefRead
import proofs.«170622_j83494164234284_2_alg».proof.Proof.Region2Pay
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.Bridge.R2

open Cert.Bridge Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the grid: the two row windows and the two result windows move down the rows with the
    point, the two parameter windows stay at block 0. -/
theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Row p of the block of A at point t is row 5000·t + p of A. -/
theorem ablock2_apply (c : Dev nD) (t : Fin cfg2.N) (p : Fin 5000) (k : Fin 128) (r : Fin 100000)
    (hr : r.val = 5000 * t.val + p.val) :
    (iblk2 (F := Ideal) V c 0 t : Vec Ideal S5000x128 .f32) (ix2 p k) = (V c main_v42 : S100000x128.Idx → EReal) (ix2 r k) := by
  obtain ⟨e0, e1, -⟩ := index_facts2 t
  unfold iblk2
  show V c main_v42 (((cfg2.win 0).blk t).view.emb (ix2 p k)) = V c main_v42 (ix2 r k)
  refine congrArg (V c main_v42) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- Row p of the block of the inverse-degree column at point t is row 5000·t + p of the column. -/
theorem dblock2_apply (c : Dev nD) (t : Fin cfg2.N) (p : Fin 5000) (r : Fin 100000)
    (hr : r.val = 5000 * t.val + p.val) :
    (iblk2 (F := Ideal) V c 1 t : Vec Ideal S5000x1 .f32) (ix2 p (0 : Fin 1))
      = (V c main_v17 : S100000x1.Idx → EReal) (ix2 r (0 : Fin 1)) := by
  obtain ⟨-, -, e0, e1, -⟩ := index_facts2 t
  unfold iblk2
  show V c main_v17 (((cfg2.win 1).blk t).view.emb (ix2 p (0 : Fin 1))) = V c main_v17 (ix2 r (0 : Fin 1))
  refine congrArg (V c main_v17) (funext fun a => Fin.ext ?_)
  match a with
  | ⟨0, _⟩ => show win2_1.index t (0 : Fin 2) * 5000 + 1 * p.val = r.val; omega
  | ⟨1, _⟩ => show win2_1.index t (1 : Fin 2) * 1 + 1 * 0 = 0; omega

/-- The block of bc1 at any point is bc1. -/
theorem bblock2_eq (c : Dev nD) (t : Fin cfg2.N) :
    (iblk2 (F := Ideal) V c 2 t : Vec Ideal S128 .f32) = (V c main_arg7 : S128.Idx → EReal) := by
  obtain ⟨-, -, -, -, e0, -⟩ := index_facts2 t
  funext y
  unfold iblk2
  show V c main_arg7 (((cfg2.win 2).blk t).view.emb y) = V c main_arg7 y
  refine congrArg (V c main_arg7) (funext fun a => Fin.ext ?_)
  match a with
  | ⟨0, _⟩ => show win2_2.index t (0 : Fin 1) * 128 + 1 * (y 0).val = (y 0).val; omega

/-- The block of Wc2 at any point is Wc2. -/
theorem wblock2_eq (c : Dev nD) (t : Fin cfg2.N) :
    (iblk2 (F := Ideal) V c 3 t : Vec Ideal S128x128 .f32) = (V c main_arg8 : S128x128.Idx → EReal) := by
  obtain ⟨-, -, -, -, -, e0, e1, -⟩ := index_facts2 t
  funext y
  unfold iblk2
  show V c main_arg8 (((cfg2.win 3).blk t).view.emb y) = V c main_arg8 y
  refine congrArg (V c main_arg8) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Entry (r, 0) of the [100000, 1] reshape of a vector is the vector's entry r. -/
theorem column_apply (d : S100000.Idx → EReal) (r : Fin 100000) :
    shapeCast S100000x1 d shapeCasts_S100000_S100000x1 (ix2 r (0 : Fin 1)) = d (ix1 r) :=
  shapeCast_apply d shapeCasts_S100000_S100000x1 (ix2 r (0 : Fin 1)) (ix1 r) (by
    rw [Shape.rowMajor_val_two, Shape.rowMajor_val_one]
    show r.val = r.val * 1 + 0
    omega)

/-- What point t writes back to the first result is the block of rows 5000·t … of ANY whole-array function `G` that
    the first payload agrees with row by row (row p of the block against row 5000·t + p of `G`). Stated for an
    arbitrary `G` so that nothing about `G` is ever opened here. -/
theorem flushed2_4_of (c : Dev nD) (t : Fin cfg2.N) (b : S128.Idx → EReal) (hb : V c main_arg7 = b)
    (G : S100000x128.Idx → EReal)
    (hG : ∀ (p : Fin 5000) (q : Fin 128) (r : Fin 100000), r.val = 5000 * t.val + p.val →
      k2_pay1 (F := Ideal) (iblk2 V c 0 t) (iblk2 V c 1 t) b (ix2 p q) = G (ix2 r q)) :
    (dat2 (F := Ideal) V c).flushed 4 t = ((cfg2.win 4).blk t).view.read (Elt Ideal) G := by
  show (cfg2.win 4).cut (grid2.coords t) ((dat2 V c).after 4 t) = _
  rw [after2_4]
  unfold out2_4
  rw [View.canon_unit_zero zeros2]
  simp only [View.ld_unit_zero (S := S5000x128) zeros2, View.ld_unit_zero (S := S5000x1) zeros2,
    View.ld_unit_zero (S := S128) zeros1]
  rw [bblock2_eq, hb]
  obtain ⟨-, -, -, -, -, -, -, e0, e1, -⟩ := index_facts2 t
  have hN : t.val < 20 := lt_of_lt_of_eq t.isLt N_2
  funext y
  obtain ⟨p, q, rfl⟩ : ∃ (p : Fin 5000) (q : Fin 128), y = ix2 p q := ⟨y 0, y 1, eq_ix2 y⟩
  have hp : p.val < 5000 := p.isLt
  have hr : 5000 * t.val + p.val < 100000 := by omega
  have hemb : ((cfg2.win 4).blk t).view.emb (ix2 p q) = ix2 (⟨5000 * t.val + p.val, hr⟩ : Fin 100000) q :=
    funext fun a => Fin.ext (by
      match a with
      | ⟨0, _⟩ => show win2_4.index t (0 : Fin 2) * 5000 + 1 * p.val = 5000 * t.val + p.val; omega
      | ⟨1, _⟩ => show win2_4.index t (1 : Fin 2) * 128 + 1 * q.val = q.val; omega)
  show k2_pay1 (F := Ideal) (iblk2 V c 0 t) (iblk2 V c 1 t) b (ix2 p q) = G (((cfg2.win 4).blk t).view.emb (ix2 p q))
  rw [hemb]
  exact hG p q ⟨5000 * t.val + p.val, hr⟩ rfl

/-- The same for the second result and the second payload. -/
theorem flushed2_5_of (c : Dev nD) (t : Fin cfg2.N) (b : S128.Idx → EReal) (hb : V c main_arg7 = b)
    (W : S128x128.Idx → EReal) (hW : V c main_arg8 = W) (G : S100000x128.Idx → EReal)
    (hG : ∀ (p : Fin 5000) (q : Fin 128) (r : Fin 100000), r.val = 5000 * t.val + p.val →
      k2_pay2 (F := Ideal) (iblk2 V c 0 t) (iblk2 V c 1 t) b W (ix2 p q) = G (ix2 r q)) :
    (dat2 (F := Ideal) V c).flushed 5 t = ((cfg2.win 5).blk t).view.read (Elt Ideal) G := by
  show (cfg2.win 5).cut (grid2.coords t) ((dat2 V c).after 5 t) = _
  rw [after2_5]
  unfold out2_5
  rw [View.canon_unit_zero zeros2]
  simp only [View.ld_unit_zero (S := S5000x128) zeros2, View.ld_unit_zero (S := S5000x1) zeros2,
    View.ld_unit_zero (S := S128) zeros1, View.ld_unit_zero (S := S128x128) zeros2]
  rw [bblock2_eq, wblock2_eq, hb, hW]
  obtain ⟨-, -, -, -, -, -, -, -, -, e0, e1⟩ := index_facts2 t
  have hN : t.val < 20 := lt_of_lt_of_eq t.isLt N_2
  funext y
  obtain ⟨p, q, rfl⟩ : ∃ (p : Fin 5000) (q : Fin 128), y = ix2 p q := ⟨y 0, y 1, eq_ix2 y⟩
  have hp : p.val < 5000 := p.isLt
  have hr : 5000 * t.val + p.val < 100000 := by omega
  have hemb : ((cfg2.win 5).blk t).view.emb (ix2 p q) = ix2 (⟨5000 * t.val + p.val, hr⟩ : Fin 100000) q :=
    funext fun a => Fin.ext (by
      match a with
      | ⟨0, _⟩ => show win2_5.index t (0 : Fin 2) * 5000 + 1 * p.val = 5000 * t.val + p.val; omega
      | ⟨1, _⟩ => show win2_5.index t (1 : Fin 2) * 128 + 1 * q.val = q.val; omega)
  show k2_pay2 (F := Ideal) (iblk2 V c 0 t) (iblk2 V c 1 t) b W (ix2 p q) = G (((cfg2.win 5).blk t).view.emb (ix2 p q))
  rw [hemb]
  exact hG p q ⟨5000 * t.val + p.val, hr⟩ rfl

/-- An index of the first result array is in point t's block iff each coordinate is in the block's range on its axis. -/
theorem mem_block2_4 (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v43_0).slice (win2_4.rect t)).set ↔ _
  rw [View.set_slice_whole, Rect.mem_set_unit]
  exact Iff.rfl

/-- The same for the second result array. -/
theorem mem_block2_5 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v43_1).slice (win2_5.rect t)).set ↔ _
  rw [View.set_slice_whole, Rect.mem_set_unit]
  exact Iff.rfl

/-- Row r of the first result is in the block of point r / 5000. -/
theorem rows_covered2_4 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  let t : Fin cfg2.N := ⟨(i 0).val / 5000, by rw [show cfg2.N = 20 from N_2]; omega⟩
  obtain ⟨-, -, -, -, -, -, -, e0, e1, -⟩ := index_facts2 t
  have ht : t.val = (i 0).val / 5000 := rfl
  refine ⟨t, flush2_4 t, ?_⟩
  rw [mem_block2_4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- Row r of the second result is in the block of point r / 5000. -/
theorem rows_covered2_5 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  let t : Fin cfg2.N := ⟨(i 0).val / 5000, by rw [show cfg2.N = 20 from N_2]; omega⟩
  obtain ⟨-, -, -, -, -, -, -, -, -, e0, e1⟩ := index_facts2 t
  have ht : t.val = (i 0).val / 5000 := rfl
  refine ⟨t, flush2_5 t, ?_⟩
  rw [mem_block2_5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

end Cert.Bridge.R2

namespace Cert.Bridge

open Cert.KernelIdeal Cert.KernelIdeal.Gen

variable (V : (c : Dev nD) → (b : Ref sig .tc) → Buf (Elt Ideal) ((c : Thread nD τ).loc b))

/-- REGION 2: after its twenty points the two result arrays hold the reference's relu(A·D + bc1) and that times Wc2. -/
theorem region2 (c : Dev nD) (x0 : (⟨S100000x64, .f32⟩ : BufTy).Contents (Elt Ideal)) (x1 x2 : (⟨S800000, .i32⟩ : BufTy).Contents (Elt Ideal))
    (x4 : (⟨S64x128, .f32⟩ : BufTy).Contents (Elt Ideal)) (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (hA : V c main_v42 = Cert.ReferenceIdeal.ReadP.val_main_v45 (F := Ideal) x0 x1 x2 x4 x5 x6)
    (hD : V c main_v17 = shapeCast S100000x1 (Cert.ReferenceIdeal.ReadP.val_main_v14 (F := Ideal) x1) shapeCasts_S100000_S100000x1)
    (h7 : V c main_arg7 = x7) (h8 : V c main_arg8 = x8) :
    (dat2 (F := Ideal) V c).arrAt 4 cfg2.N = Cert.ReferenceIdeal.ReadP.val_main_v52 (F := Ideal) x0 x1 x2 x4 x5 x6 x7
    ∧ (dat2 (F := Ideal) V c).arrAt 5 cfg2.N = Cert.ReferenceIdeal.ReadP.val_main_v65 (F := Ideal) x0 x1 x2 x4 x5 x6 x7 x8 :=
  ⟨(dat2 (F := Ideal) V c).arrAt_eq_of_cover 4 _
      (fun t _ => R2.flushed2_4_of V c t x7 h7 _ fun p q r hr =>
        R2.k2_pay1_eq_ref x0 x1 x2 x4 x5 x6 x7 (iblk2 V c 0 t) (iblk2 V c 1 t) p q r
          (by rw [R2.ablock2_apply V c t p q r hr, hA])
          (by rw [R2.dblock2_apply V c t p r hr, hD, R2.column_apply]))
      R2.rows_covered2_4,
   (dat2 (F := Ideal) V c).arrAt_eq_of_cover 5 _
      (fun t _ => R2.flushed2_5_of V c t x7 h7 x8 h8 _ fun p q r hr =>
        R2.k2_pay2_eq_ref x0 x1 x2 x4 x5 x6 x7 x8 (iblk2 V c 0 t) (iblk2 V c 1 t) p q r
          (fun k => by rw [R2.ablock2_apply V c t p k r hr, hA])
          (by rw [R2.dblock2_apply V c t p r hr, hD, R2.column_apply]))
      R2.rows_covered2_5⟩

end Cert.Bridge

end
-- ==== Proof.Region3.lean ====
import proofs.«170622_j83494164234284_2_alg».proof.Proof.Gen.KernelIdeal.Frame
import proofs.«170622_j83494164234284_2_alg».proof.Proof.RefRead
import Idealize.ShloMosaic.Lib.ValueIdx
import Idealize.ShloMosaic.Lib.ValueLayout
import Idealize.ShloMosaic.Lib.Pipeline.Value
import Idealize.ShloMosaic.PureOps.Ideal.Laws
noncomputable section
open Idealize.ShloMosaic Idealize.ShloMosaic.TcCoe Idealize.SL.Sem
open Idealize.ShloMosaic.ValueIdx
namespace Cert.Bridge
open Cert.KernelIdeal Cert.KernelIdeal.Gen

/-! # Region 3: every row of the second layer's hyperedge sums scaled by that hyperedge's inverse size

The array has 25000 rows of 128 lanes and is worked in 5 blocks of 5000 rows. Entry (r, l) of the
result is entry (r, l) of the summed rows times entry r of the one-column array of inverse sizes:
it depends on row r of the first operand and on row r of the column, nothing else. The reference
reaches the same column by broadcasting the length-25000 vector first to one column and then along
the 128 lanes; the kernel is handed the vector reshaped to one column and broadcasts that along the
lanes. Both read entry r of the vector at row r, so the two sides agree entry by entry with no
algebra beyond the product itself. -/

/-! ## Two layout reads: a vector as one column, a column along the lanes -/

/-- A length-`a` vector reshaped to one column reads, at row `i` (whatever the unit coordinate),
    entry `i` of the vector: both have row-major position `i`. -/
theorem r3_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast along `b` lanes reads, at `(p, l)`, the column's entry at row `p`. -/
theorem r3_broadcastTo_a1_ab_apply {α : Type} {a b : ℕ} (v : (⟨2, ![a, 1]⟩ : Shape).Idx → α)
    (h : (⟨2, ![a, 1]⟩ : Shape).Broadcasts ⟨2, ![a, b]⟩) (p : Fin a) (l : Fin b) :
    broadcastTo ⟨2, ![a, b]⟩ v h (ix2 p l) = v (ix2 p (0 : Fin 1)) := by
  refine broadcastTo_apply v h (ix2 p l) (ix2 p (0 : Fin 1)) fun ax => ?_
  match ax with
  | ⟨0, _⟩ =>
    show p.val = if a = 1 then 0 else p.val
    split
    · have := p.isLt; omega
    · rfl
  | ⟨1, _⟩ => rfl

/-! ## The result as one function of the two arrays the region reads -/

/-- Row `r` of `R` times entry `r` of the column `Bc`, lane by lane. -/
abbrev rowScale3 (R : S25000x128.Idx → EReal) (Bc : S25000x1.Idx → EReal) : S25000x128.Idx → EReal :=
  fun i => R i * Bc (ix2 (⟨(i 0).val, (i 0).isLt⟩ : Fin 25000) (0 : Fin 1))

/-! ## What one grid point computes, entry by entry -/

/-- The body's stored value at `(p, l)` of a block: the loaded block's entry there times the loaded
    column's entry at row `p`. The casts to the same shape are identities, the rounding to the
    narrower float format is the identity on the extended reals. -/
theorem r3_pay_apply (v0 : Vec Ideal S5000x128 .f32) (v2 : Vec Ideal S5000x1 .f32) (p : Fin 5000) (l : Fin 128) :
    k3_pay1 (F := Ideal) v0 v2 (ix2 p l) = v0 (ix2 p l) * v2 (ix2 p (0 : Fin 1)) := by
  unfold k3_pay1
  show (shapeCast S5000x128 v0 shapeCasts_S5000x128_S5000x128) (ix2 p l)
      * (broadcastTo S5000x128 (shapeCast S5000x1 v2 shapeCasts_S5000x1_S5000x1) broadcasts_S5000x1_S5000x128) (ix2 p l) = _
  rw [shapeCast_self, shapeCast_self]
  exact congrArg (v0 (ix2 p l) * ·) (r3_broadcastTo_a1_ab_apply v2 broadcasts_S5000x1_S5000x128 p l)

/-! ## Where each window's block sits: block `t` is rows `5000 t … 5000 t + 4999` -/

/-- The three index maps, decided over the five points: the block index on the row axis is the point,
    on the lane axis zero. -/
theorem r3_idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

theorem r3_hz : (![0, 0] : Fin 2 → Nat) = fun _ => 0 := funext fun a => by fin_cases a <;> rfl

/-- What point `t` writes back is block `t` of `rowScale3` of the two arrays as the region finds them. -/
theorem r3_flushed_eq (V : (c : Dev nD) → (b : Ref sig .tc) → Buf (Elt Ideal) ((c : Thread nD τ).loc b))
    (c : Dev nD) (t : Fin cfg3.N) :
    (dat3 (F := Ideal) V c).flushed 2 t
      = ((cfg3.win 2).blk t).view.read (Elt Ideal) (rowScale3 (V c main_v66) (V c main_v18)) := by
  show (cfg3.win 2).cut (grid3.coords t) ((dat3 (F := Ideal) V c).after 2 t) = _
  rw [after3_2]
  unfold out3_2
  rw [View.canon_unit_zero r3_hz]
  simp only [View.ld_unit_zero (S := S5000x128) r3_hz, View.ld_unit_zero (S := S5000x1) r3_hz]
  obtain ⟨e0, e1, e2, e3, e4, e5⟩ := r3_idx_facts t
  funext j
  obtain ⟨p, l, rfl⟩ : ∃ (p : Fin 5000) (l : Fin 128), j = ix2 p l := ⟨j 0, j 1, eq_ix2 j⟩
  refine (r3_pay_apply (iblk3 V c 0 t) (iblk3 V c 1 t) p l).trans ?_
  show (HMul.hMul : EReal → EReal → EReal) (V c main_v66 (((cfg3.win 0).blk t).view.emb (ix2 p l)))
        (V c main_v18 (((cfg3.win 1).blk t).view.emb (ix2 p (0 : Fin 1))))
      = (HMul.hMul : EReal → EReal → EReal) (V c main_v66 (((cfg3.win 2).blk t).view.emb (ix2 p l)))
        (V c main_v18 (ix2 (⟨((((cfg3.win 2).blk t).view.emb (ix2 p l)) 0).val, ((((cfg3.win 2).blk t).view.emb (ix2 p l)) 0).isLt⟩ : Fin 25000) (0 : Fin 1)))
  have h0 : ((cfg3.win 0).blk t).view.emb (ix2 p l) = ((cfg3.win 2).blk t).view.emb (ix2 p l) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * l.val = win3_2.index t (1 : Fin 2) * 128 + 1 * l.val; omega
  have h1 : ((cfg3.win 1).blk t).view.emb (ix2 p (0 : Fin 1))
      = ix2 (⟨((((cfg3.win 2).blk t).view.emb (ix2 p l)) 0).val, ((((cfg3.win 2).blk t).view.emb (ix2 p l)) 0).isLt⟩ : Fin 25000) (0 : Fin 1) := by
    funext a; apply Fin.ext
    match a with
    | ⟨0, _⟩ => show win3_1.index t (0 : Fin 2) * 5000 + 1 * p.val = win3_2.index t (0 : Fin 2) * 5000 + 1 * p.val; omega
    | ⟨1, _⟩ => show win3_1.index t (1 : Fin 2) * 1 + 1 * 0 = 0; omega
  rw [h0, h1]

/-! ## The five blocks cover the array: row `r` lies in block `r / 5000` -/

theorem r3_mem_blk (t : Fin cfg3.N) (i : S25000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v67).slice (win3_2.rect t)).set ↔ _
  rw [View.set_slice_whole, Rect.mem_set_unit]
  exact Iff.rfl

theorem r3_cover (i : S25000x128.Idx) :
    ∃ t : Fin cfg3.N, (cfg3.win 2).flush t = true ∧ i ∈ ((cfg3.win 2).blk t).view.set := by
  have hi0 : (i 0).val < 25000 := (i 0).isLt
  have hi1 : (i 1).val < 128 := (i 1).isLt
  have hN : grid3.N = 5 := N_3
  have ht : (i 0).val / 5000 < grid3.N := by rw [hN]; omega
  obtain ⟨-, -, -, -, e4, e5⟩ := r3_idx_facts ⟨(i 0).val / 5000, ht⟩
  refine ⟨⟨(i 0).val / 5000, ht⟩, flush3_2 _, ?_⟩
  rw [r3_mem_blk]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    rw [e5]; omega

/-- After the region the output array is `rowScale3` of the two arrays the region found. -/
theorem r3_final (V : (c : Dev nD) → (b : Ref sig .tc) → Buf (Elt Ideal) ((c : Thread nD τ).loc b)) (c : Dev nD) :
    (dat3 (F := Ideal) V c).arrAt 2 cfg3.N = rowScale3 (V c main_v66) (V c main_v18) :=
  (dat3 (F := Ideal) V c).arrAt_eq_of_cover 2 (rowScale3 (V c main_v66) (V c main_v18))
    (fun t _ => r3_flushed_eq V c t) r3_cover

/-! ## Against the reference -/

/-- The reference's product stage is `rowScale3` of its summed rows and of its vector of inverse sizes
    reshaped to one column: its two-step broadcast reads entry `r` of the vector at `(r, l)`, and so
    does the reshaped column at `(r, 0)`. -/
theorem r3_reference (x0 : (⟨S100000x64, .f32⟩ : BufTy).Contents (Elt Ideal)) (x1 x2 : (⟨S800000, .i32⟩ : BufTy).Contents (Elt Ideal))
    (x4 : (⟨S64x128, .f32⟩ : BufTy).Contents (Elt Ideal)) (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal)) :
    rowScale3 (Cert.ReferenceIdeal.ReadP.val_main_v92 (F := Ideal) x0 x1 x2 x4 x5 x6 x7 x8)
        (shapeCast S25000x1 (Cert.ReferenceIdeal.ReadP.val_main_v82 (F := Ideal) x2) shapeCasts_S25000_S25000x1)
      = Cert.ReferenceIdeal.ReadP.val_main_v95 (F := Ideal) x0 x1 x2 x4 x5 x6 x7 x8 := by
  funext i
  rw [Cert.ReferenceIdeal.ReadP.val_main_v95_apply, Cert.ReferenceIdeal.ReadP.val_main_v94_apply, Cert.ReferenceIdeal.ReadP.val_main_v93_apply]
  generalize Cert.ReferenceIdeal.ReadP.val_main_v92 (F := Ideal) x0 x1 x2 x4 x5 x6 x7 x8 = R
  generalize Cert.ReferenceIdeal.ReadP.val_main_v82 (F := Ideal) x2 = B
  show R i * shapeCast S25000x1 B shapeCasts_S25000_S25000x1 (ix2 (⟨(i 0).val, (i 0).isLt⟩ : Fin 25000) (0 : Fin 1)) = R i * B _
  rw [r3_shapeCast_a_a1_apply B shapeCasts_S25000_S25000x1]
  refine congrArg (R i * B ·) (funext fun a => ?_)
  match a with
  | ⟨0, _⟩ => rfl

theorem region3 (V : (c : Dev nD) → (b : Ref sig .tc) → Buf (Elt Ideal) ((c : Thread nD τ).loc b)) (c : Dev nD)
    (x0 : (⟨S100000x64, .f32⟩ : BufTy).Contents (Elt Ideal)) (x1 x2 : (⟨S800000, .i32⟩ : BufTy).Contents (Elt Ideal))
    (x4 : (⟨S64x128, .f32⟩ : BufTy).Contents (Elt Ideal)) (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (hR : V c main_v66 = Cert.ReferenceIdeal.ReadP.val_main_v92 (F := Ideal) x0 x1 x2 x4 x5 x6 x7 x8)
    (hB : V c main_v18 = shapeCast S25000x1 (Cert.ReferenceIdeal.ReadP.val_main_v82 (F := Ideal) x2) shapeCasts_S25000_S25000x1) :
    (dat3 (F := Ideal) V c).arrAt 2 cfg3.N = Cert.ReferenceIdeal.ReadP.val_main_v95 (F := Ideal) x0 x1 x2 x4 x5 x6 x7 x8 := by
  rw [r3_final V c, hR, hB]
  exact r3_reference x0 x1 x2 x4 x5 x6 x7 x8

end Cert.Bridge
-- ==== Proof.Region4.lean ====
import proofs.«170622_j83494164234284_2_alg».proof.Proof.Gen.KernelIdeal.Frame
import proofs.«170622_j83494164234284_2_alg».proof.Proof.RefRead
import Idealize.ShloMosaic.Lib.ValueIdx
import Idealize.ShloMosaic.Lib.ValueLayout
import Idealize.ShloMosaic.Lib.Pipeline.Value
import Idealize.ShloMosaic.PureOps.Ideal.Laws
noncomputable section
open Idealize.ShloMosaic Idealize.ShloMosaic.TcCoe Idealize.SL.Sem
open Idealize.ShloMosaic.ValueIdx
namespace Cert.Bridge
open Cert.KernelIdeal Cert.KernelIdeal.Gen

/-! # Region 4: the node sums scaled row by row, a bias added lane by lane, negative entries cut to zero

The array has 100000 rows of 128 lanes and is worked in 20 blocks of 5000 rows. Entry (r, l) of the
result is the larger of zero and entry (r, l) of the summed rows times entry r of the one-column
array of inverse degrees plus entry l of the bias: it depends on row r of the first operand, on row r
of the column and on lane l of the bias. The reference broadcasts the length-100000 vector to one
column and then along the lanes, and the bias to one row and then down the rows; the kernel is handed
the vector reshaped to one column and the bias as it is. Both sides read the same three entries and
apply the same product, sum and maximum in the same order, so they agree entry by entry. -/

/-! ## Two layout reads: a vector as one column, a column along the lanes -/

/-- A length-`a` vector reshaped to one column reads, at row `i` (whatever the unit coordinate),
    entry `i` of the vector: both have row-major position `i`. -/
theorem r4_shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast along `b` lanes reads, at `(p, l)`, the column's entry at row `p`. -/
theorem r4_broadcastTo_a1_ab_apply {α : Type} {a b : ℕ} (v : (⟨2, ![a, 1]⟩ : Shape).Idx → α)
    (h : (⟨2, ![a, 1]⟩ : Shape).Broadcasts ⟨2, ![a, b]⟩) (p : Fin a) (l : Fin b) :
    broadcastTo ⟨2, ![a, b]⟩ v h (ix2 p l) = v (ix2 p (0 : Fin 1)) := by
  refine broadcastTo_apply v h (ix2 p l) (ix2 p (0 : Fin 1)) fun ax => ?_
  match ax with
  | ⟨0, _⟩ =>
    show p.val = if a = 1 then 0 else p.val
    split
    · have := p.isLt; omega
    · rfl
  | ⟨1, _⟩ => rfl

/-! ## The result as one function of the three arrays the region reads -/

/-- The larger of zero and: row `r` of `A` times entry `r` of the column `Dc`, plus the bias at the lane. -/
abbrev biasRelu4 (A : S100000x128.Idx → EReal) (Dc : S100000x1.Idx → EReal) (b : S128.Idx → EReal) : S100000x128.Idx → EReal :=
  fun i => max (A i * Dc (ix2 (⟨(i 0).val, (i 0).isLt⟩ : Fin 100000) (0 : Fin 1)) + b (ix1 (⟨(i 1).val, (i 1).isLt⟩ : Fin 128)))
    (Ideal.ofBits .f32 0x00000000#32)

/-! ## What one grid point computes, entry by entry -/

/-- The body's stored value at `(p, l)` of a block: the loaded block's entry there times the loaded
    column's entry at row `p`, plus the bias at lane `l`, and the larger of that and zero. The casts to
    the same shape are identities; the bias is read as one row repeated down the block. -/
theorem r4_pay_apply (v0 : Vec Ideal S5000x128 .f32) (v2 : Vec Ideal S5000x1 .f32) (v6 : Vec Ideal S128 .f32) (p : Fin 5000) (l : Fin 128) :
    k4_pay1 (F := Ideal) v0 v2 v6 (ix2 p l)
      = max (v0 (ix2 p l) * v2 (ix2 p (0 : Fin 1)) + v6 (ix1 l)) (Ideal.ofBits .f32 0x00000000#32) := by
  unfold k4_pay1
  show max ((shapeCast S5000x128 v0 shapeCasts_S5000x128_S5000x128) (ix2 p l)
        * (broadcastTo S5000x128 (shapeCast S5000x1 v2 shapeCasts_S5000x1_S5000x1) broadcasts_S5000x1_S5000x128) (ix2 p l)
        + (broadcastTo S5000x128 (shapeCast S1x128 v6 shapeCasts_S128_S1x128) broadcasts_S1x128_S5000x128) (ix2 p l))
      (Ideal.ofBits .f32 0x00000000#32) = _
  rw [shapeCast_self, shapeCast_self, r4_broadcastTo_a1_ab_apply v2 broadcasts_S5000x1_S5000x128 p l,
    broadcastTo_1b_ab_apply (shapeCast S1x128 v6 shapeCasts_S128_S1x128) broadcasts_S1x128_S5000x128 p l,
    shapeCast_a_1a_apply v6 shapeCasts_S128_S1x128 (0 : Fin 1) l]

/-! ## Where each window's block sits: block `t` is rows `5000 t … 5000 t + 4999`; the bias is one block -/

/-- The four index maps, decided over the twenty points: on the row axis the block index is the point, on the
    lane axis zero; the bias window's only block index is zero. -/
theorem r4_idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

theorem r4_hz : (![0, 0] : Fin 2 → Nat) = fun _ => 0 := funext fun a => by fin_cases a <;> rfl
theorem r4_hz1 : (![0] : Fin 1 → Nat) = fun _ => 0 := funext fun a => by fin_cases a; rfl

/-- What point `t` writes back is block `t` of `biasRelu4` of the three arrays as the region finds them. -/
theorem r4_flushed_eq (V : (c : Dev nD) → (b : Ref sig .tc) → Buf (Elt Ideal) ((c : Thread nD τ).loc b))
    (c : Dev nD) (t : Fin cfg4.N) :
    (dat4 (F := Ideal) V c).flushed 3 t
      = ((cfg4.win 3).blk t).view.read (Elt Ideal) (biasRelu4 (V c main_v78) (V c main_v17) (V c main_arg9)) := by
  show (cfg4.win 3).cut (grid4.coords t) ((dat4 (F := Ideal) V c).after 3 t) = _
  rw [after4_3]
  unfold out4_3
  rw [View.canon_unit_zero r4_hz]
  simp only [View.ld_unit_zero (S := S5000x128) r4_hz, View.ld_unit_zero (S := S5000x1) r4_hz, View.ld_unit_zero (S := S128) r4_hz1]
  obtain ⟨e0, e1, e2, e3, e4, e5, e6⟩ := r4_idx_facts t
  funext j
  obtain ⟨p, l, rfl⟩ : ∃ (p : Fin 5000) (l : Fin 128), j = ix2 p l := ⟨j 0, j 1, eq_ix2 j⟩
  refine (r4_pay_apply (iblk4 V c 0 t) (iblk4 V c 1 t) (iblk4 V c 2 t) p l).trans ?_
  show (Max.max : EReal → EReal → EReal)
        ((HAdd.hAdd : EReal → EReal → EReal)
          ((HMul.hMul : EReal → EReal → EReal) (V c main_v78 (((cfg4.win 0).blk t).view.emb (ix2 p l)))
            (V c main_v17 (((cfg4.win 1).blk t).view.emb (ix2 p (0 : Fin 1)))))
          (V c main_arg9 (((cfg4.win 2).blk t).view.emb (ix1 l))))
        (Ideal.ofBits .f32 0x00000000#32)
      = (Max.max : EReal → EReal → EReal)
        ((HAdd.hAdd : EReal → EReal → EReal)
          ((HMul.hMul : EReal → EReal → EReal) (V c main_v78 (((cfg4.win 3).blk t).view.emb (ix2 p l)))
            (V c main_v17 (ix2 (⟨((((cfg4.win 3).blk t).view.emb (ix2 p l)) 0).val, ((((cfg4.win 3).blk t).view.emb (ix2 p l)) 0).isLt⟩ : Fin 100000) (0 : Fin 1))))
          (V c main_arg9 (ix1 (⟨((((cfg4.win 3).blk t).view.emb (ix2 p l)) 1).val, ((((cfg4.win 3).blk t).view.emb (ix2 p l)) 1).isLt⟩ : Fin 128))))
        (Ideal.ofBits .f32 0x00000000#32)
  have h0 : ((cfg4.win 0).blk t).view.emb (ix2 p l) = ((cfg4.win 3).blk t).view.emb (ix2 p l) := by
    funext a; apply Fin.ext
    match a with
    | ⟨0, _⟩ => show win4_0.index t (0 : Fin 2) * 5000 + 1 * p.val = win4_3.index t (0 : Fin 2) * 5000 + 1 * p.val; omega
    | ⟨1, _⟩ => show win4_0.index t (1 : Fin 2) * 128 + 1 * l.val = win4_3.index t (1 : Fin 2) * 128 + 1 * l.val; omega
  have h1 : ((cfg4.win 1).blk t).view.emb (ix2 p (0 : Fin 1))
      = ix2 (⟨((((cfg4.win 3).blk t).view.emb (ix2 p l)) 0).val, ((((cfg4.win 3).blk t).view.emb (ix2 p l)) 0).isLt⟩ : Fin 100000) (0 : Fin 1) := by
    funext a; apply Fin.ext
    match a with
    | ⟨0, _⟩ => show win4_1.index t (0 : Fin 2) * 5000 + 1 * p.val = win4_3.index t (0 : Fin 2) * 5000 + 1 * p.val; omega
    | ⟨1, _⟩ => show win4_1.index t (1 : Fin 2) * 1 + 1 * 0 = 0; omega
  have h2 : ((cfg4.win 2).blk t).view.emb (ix1 l)
      = ix1 (⟨((((cfg4.win 3).blk t).view.emb (ix2 p l)) 1).val, ((((cfg4.win 3).blk t).view.emb (ix2 p l)) 1).isLt⟩ : Fin 128) := by
    funext a; apply Fin.ext
    match a with
    | ⟨0, _⟩ => show win4_2.index t (0 : Fin 1) * 128 + 1 * l.val = win4_3.index t (1 : Fin 2) * 128 + 1 * l.val; omega
  rw [h0, h1, h2]

/-! ## The twenty blocks cover the array: row `r` lies in block `r / 5000` -/

theorem r4_mem_blk (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v79).slice (win4_3.rect t)).set ↔ _
  rw [View.set_slice_whole, Rect.mem_set_unit]
  exact Iff.rfl

theorem r4_cover (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  have hN : grid4.N = 20 := N_4
  have ht : (i 0).val / 5000 < grid4.N := by rw [hN]; omega
  obtain ⟨-, -, -, -, -, e5, e6⟩ := r4_idx_facts ⟨(i 0).val / 5000, ht⟩
  refine ⟨⟨(i 0).val / 5000, ht⟩, flush4_3 _, ?_⟩
  rw [r4_mem_blk]
  intro a
  match a with
  | ⟨0, _⟩ =>
    show win4_3.index ⟨(i 0).val / 5000, ht⟩ (0 : Fin 2) * 5000 ≤ (i 0).val ∧ (i 0).val < win4_3.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win4_3.index ⟨(i 0).val / 5000, ht⟩ (1 : Fin 2) * 128 ≤ (i 1).val ∧ (i 1).val < win4_3.index ⟨(i 0).val / 5000, ht⟩ (1 : Fin 2) * 128 + 128
    rw [e6]; omega

/-- After the region the output array is `biasRelu4` of the three arrays the region found. -/
theorem r4_final (V : (c : Dev nD) → (b : Ref sig .tc) → Buf (Elt Ideal) ((c : Thread nD τ).loc b)) (c : Dev nD) :
    (dat4 (F := Ideal) V c).arrAt 3 cfg4.N = biasRelu4 (V c main_v78) (V c main_v17) (V c main_arg9) :=
  (dat4 (F := Ideal) V c).arrAt_eq_of_cover 3 (biasRelu4 (V c main_v78) (V c main_v17) (V c main_arg9))
    (fun t _ => r4_flushed_eq V c t) r4_cover

/-! ## Against the reference -/

/-- The reference's last stage is `biasRelu4` of its summed rows, of its vector of inverse degrees
    reshaped to one column, and of the bias: its two-step broadcasts read entry `r` of the vector and
    entry `l` of the bias at `(r, l)`, and its zero is the same constant word. -/
theorem r4_reference (x0 : (⟨S100000x64, .f32⟩ : BufTy).Contents (Elt Ideal)) (x1 x2 : (⟨S800000, .i32⟩ : BufTy).Contents (Elt Ideal))
    (x4 : (⟨S64x128, .f32⟩ : BufTy).Contents (Elt Ideal)) (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal)) (x9 : (⟨S128, .f32⟩ : BufTy).Contents (Elt Ideal)) :
    biasRelu4 (Cert.ReferenceIdeal.ReadP.val_main_v105 (F := Ideal) x0 x1 x2 x4 x5 x6 x7 x8)
        (shapeCast S100000x1 (Cert.ReferenceIdeal.ReadP.val_main_v74 (F := Ideal) x1) shapeCasts_S100000_S100000x1) x9
      = Cert.ReferenceIdeal.ReadP.val_main_v112 (F := Ideal) x0 x1 x2 x4 x5 x6 x7 x8 x9 := by
  funext i
  rw [Cert.ReferenceIdeal.ReadP.val_main_v112_apply, Cert.ReferenceIdeal.ReadP.val_main_v111_apply, Cert.ReferenceIdeal.ReadP.val_main_v108_apply,
    Cert.ReferenceIdeal.ReadP.val_main_v107_apply, Cert.ReferenceIdeal.ReadP.val_main_v106_apply,
    Cert.ReferenceIdeal.ReadP.val_main_v110_apply, Cert.ReferenceIdeal.ReadP.val_main_v109_apply,
    Cert.ReferenceIdeal.ReadP.val_main_call6_v0_apply, Cert.ReferenceIdeal.ReadP.val_main_call6_cst_apply]
  generalize Cert.ReferenceIdeal.ReadP.val_main_v105 (F := Ideal) x0 x1 x2 x4 x5 x6 x7 x8 = A
  generalize Cert.ReferenceIdeal.ReadP.val_main_v74 (F := Ideal) x1 = D
  show max (A i * shapeCast S100000x1 D shapeCasts_S100000_S100000x1 (ix2 (⟨(i 0).val, (i 0).isLt⟩ : Fin 100000) (0 : Fin 1))
        + x9 (ix1 (⟨(i 1).val, (i 1).isLt⟩ : Fin 128))) (Ideal.ofBits .f32 0x00000000#32)
      = max (A i * D _ + x9 _) (Ideal.ofBits .f32 0x00000000#32)
  rw [r4_shapeCast_a_a1_apply D shapeCasts_S100000_S100000x1]
  have hd : (ix1 (⟨(i 0).val, (i 0).isLt⟩ : Fin 100000) : S100000.Idx)
      = Cert.ReferenceIdeal.ReadP.idx_main_v106 (Cert.ReferenceIdeal.ReadP.idx_main_v107 i) :=
    funext fun a => match a with | ⟨0, _⟩ => rfl
  have hb : (ix1 (⟨(i 1).val, (i 1).isLt⟩ : Fin 128) : S128.Idx)
      = Cert.ReferenceIdeal.ReadP.idx_main_v109 (Cert.ReferenceIdeal.ReadP.idx_main_v110 i) :=
    funext fun a => match a with | ⟨0, _⟩ => rfl
  rw [hd, hb]

theorem region4 (V : (c : Dev nD) → (b : Ref sig .tc) → Buf (Elt Ideal) ((c : Thread nD τ).loc b)) (c : Dev nD)
    (x0 : (⟨S100000x64, .f32⟩ : BufTy).Contents (Elt Ideal)) (x1 x2 : (⟨S800000, .i32⟩ : BufTy).Contents (Elt Ideal))
    (x4 : (⟨S64x128, .f32⟩ : BufTy).Contents (Elt Ideal)) (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal)) (x9 : (⟨S128, .f32⟩ : BufTy).Contents (Elt Ideal))
    (hA : V c main_v78 = Cert.ReferenceIdeal.ReadP.val_main_v105 (F := Ideal) x0 x1 x2 x4 x5 x6 x7 x8)
    (hD : V c main_v17 = shapeCast S100000x1 (Cert.ReferenceIdeal.ReadP.val_main_v74 (F := Ideal) x1) shapeCasts_S100000_S100000x1)
    (h9 : V c main_arg9 = x9) :
    (dat4 (F := Ideal) V c).arrAt 3 cfg4.N = Cert.ReferenceIdeal.ReadP.val_main_v112 (F := Ideal) x0 x1 x2 x4 x5 x6 x7 x8 x9 := by
  rw [r4_final V c, hA, hD, h9]
  exact r4_reference x0 x1 x2 x4 x5 x6 x7 x8 x9

end Cert.Bridge
-- ==== Proof.Region5a.lean ====
import Idealize.ShloMosaic.Lib.ValueIdx
import Idealize.ShloMosaic.Lib.ValueLayout
import Idealize.ShloMosaic.Lib.Pipeline.Value
import Idealize.ShloMosaic.PureOps.Ideal.Laws

/-!
# The head's pieces, read over variables

The last kernel computes, from the two pooled feature blocks `P1`, `P2` (16 graphs × 128 features each),

  g  = P1 · Wg[0:128] + P2 · Wg[128:256] + bg,
  h1 = relu (((g · W1 + b1) − rm1) · rsqrt (rv1 + ε) · γ1 + β1),
  h2 = relu (((h1 · W2 + b2) − rm2) · rsqrt (rv2 + ε) · γ2 + β2),
  out = h2 · W3,

where the reference computes `concat (P1, P2) · Wg + bg` and then the same layers. This file has the pieces
that mention no program: a sum of 256 terms split in two halves, the product of a two-block concatenation with
a matrix as two half products, the two spellings of "one row repeated over all rows" (a unit axis added and
stretched; two `broadcast_in_dim`s), the batch-norm scale row in both spellings, and a splat constant in both
spellings. Every value is an extended real; addition there is commutative and associative, which is all the
splitting of the sum uses.
-/

noncomputable section

open Idealize.ShloMosaic Idealize.ShloMosaic.ValueIdx
open scoped BigOperators

namespace Cert.Bridge

/-! ## A sum over 256 indices, in two halves -/

/-- A sum of 256 terms is the sum of the first 128 plus the sum of the last 128. -/
theorem sum_split_256 {M : Type*} [AddCommMonoid M] (f : Fin 256 → M) :
    ∑ k : Fin 256, f k
      = ∑ k : Fin 128, f ⟨k.val, by omega⟩ + ∑ k : Fin 128, f ⟨128 + k.val, by omega⟩ :=
  Fin.sum_univ_add (a := 128) (b := 128) f

/-- Row `r` of the concatenation of two 16×128 blocks along the feature axis, times column `q` of a 256×128 matrix:
    the first block's row times the matrix's first 128 rows, plus the second block's row times its last 128 rows.
    At column `k < 128` the concatenation reads the first block at `(r, k)`, at column `128 + k` the second block at
    `(r, k)`. -/
theorem concat_dot_split (P1 P2 : (⟨2, ![16, 128]⟩ : Shape).Idx → EReal) (W : (⟨2, ![256, 128]⟩ : Shape).Idx → EReal)
    (h : Shape.Concatenates [(⟨2, ![16, 128]⟩ : Shape), ⟨2, ![16, 128]⟩] ⟨2, ![16, 256]⟩ 1) (r : Fin 16) (q : Fin 128) :
    ∑ k : Fin 256, concatenate ⟨2, ![16, 256]⟩ 1 [⟨⟨2, ![16, 128]⟩, P1⟩, ⟨⟨2, ![16, 128]⟩, P2⟩] h (ix2 r k) * W (ix2 k q)
      = ∑ k : Fin 128, P1 (ix2 r k) * W (ix2 (⟨k.val, by omega⟩ : Fin 256) q)
        + ∑ k : Fin 128, P2 (ix2 r k) * W (ix2 (⟨128 + k.val, by omega⟩ : Fin 256) q) := by
  rw [sum_split_256]
  refine congr (congrArg HAdd.hAdd (Finset.sum_congr rfl fun k _ => ?_)) (Finset.sum_congr rfl fun k _ => ?_)
  · refine congrArg (· * W (ix2 (⟨k.val, by omega⟩ : Fin 256) q)) ?_
    exact concatenate_pair_apply_left 1 P1 P2 h _ rfl (ix2 r k) (fun b => by
      match b with
      | ⟨0, _⟩ => rfl
      | ⟨1, _⟩ => rfl)
  · refine congrArg (· * W (ix2 (⟨128 + k.val, by omega⟩ : Fin 256) q)) ?_
    exact concatenate_pair_apply_right 1 P1 P2 h _ rfl rfl (ix2 r k) (fun b hb => by
      match b with
      | ⟨0, _⟩ => rfl
      | ⟨1, _⟩ => exact absurd rfl hb) (by show k.val + 128 = 128 + k.val; omega)

/-- The same with the matrix's two halves named as the kernel receives them: its rows `0 … 127` and its rows `128 … 255`, each a
    128×128 slice. Slice `o` at `(k, q)` is the matrix at `(o + k, q)`. -/
theorem concat_dot_eq_halves (P1 P2 : (⟨2, ![16, 128]⟩ : Shape).Idx → EReal) (W : (⟨2, ![256, 128]⟩ : Shape).Idx → EReal)
    (h : Shape.Concatenates [(⟨2, ![16, 128]⟩ : Shape), ⟨2, ![16, 128]⟩] ⟨2, ![16, 256]⟩ 1)
    (hs0 : (⟨2, ![256, 128]⟩ : Shape).Slices ![0, 0] ⟨2, ![128, 128]⟩)
    (hs1 : (⟨2, ![256, 128]⟩ : Shape).Slices ![128, 0] ⟨2, ![128, 128]⟩) (r : Fin 16) (q : Fin 128) :
    ∑ k : Fin 256, concatenate ⟨2, ![16, 256]⟩ 1 [⟨⟨2, ![16, 128]⟩, P1⟩, ⟨⟨2, ![16, 128]⟩, P2⟩] h (ix2 r k) * W (ix2 k q)
      = ∑ k : Fin 128, P1 (ix2 r k) * extractStridedSlice ⟨2, ![128, 128]⟩ ![0, 0] W hs0 (ix2 k q)
        + ∑ k : Fin 128, P2 (ix2 r k) * extractStridedSlice ⟨2, ![128, 128]⟩ ![128, 0] W hs1 (ix2 k q) := by
  rw [concat_dot_split]
  refine congr (congrArg HAdd.hAdd (Finset.sum_congr rfl fun k _ => ?_)) (Finset.sum_congr rfl fun k _ => ?_)
  · exact congrArg (P1 (ix2 r k) * ·) (slice2_axis0_apply 0 W hs0 k q ⟨k.val, by omega⟩ (Nat.zero_add _).symm).symm
  · exact congrArg (P2 (ix2 r k) * ·) (slice2_axis0_apply 128 W hs1 k q ⟨128 + k.val, by omega⟩ rfl).symm

/-! ## One row over all rows, in two spellings -/

section Rows
variable {α : Type} {a n : ℕ}

/-- A vector given a leading unit axis and stretched over `a` rows reads, at `(p, c)`, the vector at `c`. -/
theorem rowStretch_apply (v : (⟨1, ![n]⟩ : Shape).Idx → α) (h1 : (⟨1, ![n]⟩ : Shape).ShapeCasts ⟨2, ![1, n]⟩)
    (h2 : (⟨2, ![1, n]⟩ : Shape).Broadcasts ⟨2, ![a, n]⟩) (p : Fin a) (c : Fin n) :
    broadcastTo ⟨2, ![a, n]⟩ (shapeCast ⟨2, ![1, n]⟩ v h1) h2 (ix2 p c) = v (ix1 c) := by
  rw [broadcastTo_1b_ab_apply, shapeCast_a_1a_apply]

/-- A vector sent to the feature axis of a one-row matrix and that row sent to every row reads, at `(p, c)`, the vector
    at `c`. -/
theorem rowInDim_apply (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (p : Fin a) (c : Fin n) :
    broadcastInDim ⟨2, ![a, n]⟩ ![0, 1] h2 (broadcastInDim ⟨2, ![1, n]⟩ ![1] h1 v) (ix2 p c) = v (ix1 c) := by
  refine (broadcastInDim_apply _ h2 _ (ix2 p c) (ix2 (0 : Fin 1) c) fun ax => ?_).trans
    (broadcastInDim_apply _ h1 v _ (ix1 c) fun ax => ?_)
  · match ax with
    | ⟨0, _⟩ => show (0 : ℕ) = if (1 : ℕ) = 1 then 0 else p.val; rw [if_pos rfl]
    | ⟨1, _⟩ =>
      show c.val = if n = 1 then 0 else c.val
      split
      · have := c.isLt; omega
      · rfl
  · match ax with
    | ⟨0, _⟩ =>
      show c.val = if n = 1 then 0 else c.val
      split
      · have := c.isLt; omega
      · rfl

/-- The two spellings are one array. -/
theorem rowStretch_eq_rowInDim (v : (⟨1, ![n]⟩ : Shape).Idx → α) (h1 : (⟨1, ![n]⟩ : Shape).ShapeCasts ⟨2, ![1, n]⟩)
    (h2 : (⟨2, ![1, n]⟩ : Shape).Broadcasts ⟨2, ![a, n]⟩)
    (h3 : (⟨1, ![n]⟩ : Shape).BroadcastsInDim ⟨2, ![1, n]⟩ (![1] : Fin 1 → Fin 2))
    (h4 : (⟨2, ![1, n]⟩ : Shape).BroadcastsInDim ⟨2, ![a, n]⟩ (![0, 1] : Fin 2 → Fin 2)) :
    broadcastTo ⟨2, ![a, n]⟩ (shapeCast ⟨2, ![1, n]⟩ v h1) h2
      = broadcastInDim ⟨2, ![a, n]⟩ ![0, 1] h4 (broadcastInDim ⟨2, ![1, n]⟩ ![1] h3 v) := by
  funext j
  obtain ⟨p, c, rfl⟩ : ∃ (p : Fin a) (c : Fin n), j = ix2 p c := ⟨j 0, j 1, eq_ix2 j⟩
  rw [rowStretch_apply, rowInDim_apply]

end Rows

/-! ## The batch-norm scale row `rsqrt (rv + ε)`, in two spellings -/

/-- The kernel adds the unit axis first, adds the splat `ε`, takes the reciprocal square root of the one row and
    stretches it; the reference adds `ε` to the vector, takes the reciprocal square root and then broadcasts twice.
    At `(p, c)` both are the reciprocal square root of `rv c + ε`: the kernel's and the host's reciprocal square root are one
    function on the extended reals, and `ε` is the same word on both sides. -/
theorem rsqrtRow_eq {a n : ℕ} (rv : FVec Ideal ⟨1, ![n]⟩ .f32) (w : BitVec 32)
    (h1 : (⟨1, ![n]⟩ : Shape).ShapeCasts ⟨2, ![1, n]⟩) (h2 : (⟨2, ![1, n]⟩ : Shape).Broadcasts ⟨2, ![a, n]⟩)
    (h0 : (⟨0, ![]⟩ : Shape).BroadcastsInDim ⟨1, ![n]⟩ (![] : Fin 0 → Fin 1))
    (h3 : (⟨1, ![n]⟩ : Shape).BroadcastsInDim ⟨2, ![1, n]⟩ (![1] : Fin 1 → Fin 2))
    (h4 : (⟨2, ![1, n]⟩ : Shape).BroadcastsInDim ⟨2, ![a, n]⟩ (![0, 1] : Fin 2 → Fin 2)) :
    broadcastTo ⟨2, ![a, n]⟩
        (rsqrt (addf (shapeCast ⟨2, ![1, n]⟩ rv h1) (broadcast ⟨2, ![1, n]⟩ (Scalar.ofBits (F := Ideal) .f32 w)))) h2
      = broadcastInDim ⟨2, ![a, n]⟩ ![0, 1] h4 (broadcastInDim ⟨2, ![1, n]⟩ ![1] h3
          (Host.rsqrt (addf rv (broadcastInDim ⟨1, ![n]⟩ ![] h0 (constant (F := Ideal) ⟨0, ![]⟩ .f32 w))))) := by
  funext j
  obtain ⟨p, c, rfl⟩ : ∃ (p : Fin a) (c : Fin n), j = ix2 p c := ⟨j 0, j 1, eq_ix2 j⟩
  rw [broadcastTo_1b_ab_apply, rowInDim_apply]
  show Ideal.rsqrt (shapeCast ⟨2, ![1, n]⟩ rv h1 (ix2 (0 : Fin 1) c) + Ideal.ofBits .f32 w)
    = Ideal.rsqrt (rv (ix1 c) + Ideal.ofBits .f32 w)
  rw [shapeCast_a_1a_apply]

/-! ## A splat constant, in two spellings -/

/-- A scalar constant broadcast to a shape, and the rank-0 constant array sent to that shape: the same word everywhere. -/
theorem splat_eq {s : Shape} (w : BitVec 32) (h0 : (⟨0, ![]⟩ : Shape).BroadcastsInDim s (![] : Fin 0 → Fin s.rank)) :
    broadcast s (Scalar.ofBits (F := Ideal) .f32 w) = broadcastInDim s ![] h0 (constant (F := Ideal) ⟨0, ![]⟩ .f32 w) := rfl

/-- The zero splat a matrix product accumulates into is the zero array. -/
theorem constant_zero_eq {s : Shape} : constant (F := Ideal) s .f32 0x00000000#32 = fun _ => (0 : EReal) :=
  funext fun _ => Ideal.ofBits_zero_f32

/-! ## A kernel matrix product against the host's -/

/-- A `tpu.matmul` of two operands narrowed to bf16, into the zero accumulator, is the host's `dot_general` of the operands
    when the two carry the same dimension numbers: narrowing is the identity on extended reals, the accumulator adds zero,
    and both products are the same sum over the contraction index. -/
theorem matmul_trunc_eq_dotGeneral {sl sr so : Shape} (Dk Dr : DotDims sl sr so) (hD : Dk = Dr)
    (a : FVec Ideal sl .f32) (w : FVec Ideal sr .f32) (h1 h2 : FTy.bits .bf16 < FTy.bits .f32) :
    matmul Dk none (truncf .bf16 a h1) (truncf .bf16 w h2) (constant so .f32 0x00000000#32)
      = Host.dotGeneral Dr none a w := by
  subst hD
  funext j
  simp only [matmul, Host.dotGeneral]
  rw [Ideal.matmul_constant_zero_apply, Ideal.dotGeneral_apply]
  rfl

/-! ## One dense layer with batch normalisation and relu, in the kernel's spelling and in the reference's -/

section Layer
variable {m K n : ℕ}

/-- The kernel's layer: `relu ((((a · W + b) − rm) · rsqrt (rv + ε)) · γ + β)`, the product a `tpu.matmul` of bf16 operands into
    zero, each row vector given a unit axis and stretched over the `m` rows, `ε` added to the one-row form of `rv`. -/
def denseNormK (D : DotDims ⟨2, ![m, K]⟩ ⟨2, ![K, n]⟩ ⟨2, ![m, n]⟩) (hb : FTy.bits .bf16 < FTy.bits .f32)
    (hc : (⟨1, ![n]⟩ : Shape).ShapeCasts ⟨2, ![1, n]⟩) (hs : (⟨2, ![1, n]⟩ : Shape).Broadcasts ⟨2, ![m, n]⟩)
    (eps : BitVec 32) (a : FVec Ideal ⟨2, ![m, K]⟩ .f32) (W : FVec Ideal ⟨2, ![K, n]⟩ .f32)
    (b γ β rm rv : FVec Ideal ⟨1, ![n]⟩ .f32) : FVec Ideal ⟨2, ![m, n]⟩ .f32 :=
  maximumf
    (addf
      (mulf
        (mulf
          (subf
            (addf (matmul D none (truncf .bf16 a hb) (truncf .bf16 W hb) (constant ⟨2, ![m, n]⟩ .f32 0x00000000#32))
              (broadcastTo ⟨2, ![m, n]⟩ (shapeCast ⟨2, ![1, n]⟩ b hc) hs))
            (broadcastTo ⟨2, ![m, n]⟩ (shapeCast ⟨2, ![1, n]⟩ rm hc) hs))
          (broadcastTo ⟨2, ![m, n]⟩
            (rsqrt (addf (shapeCast ⟨2, ![1, n]⟩ rv hc) (broadcast ⟨2, ![1, n]⟩ (Scalar.ofBits (F := Ideal) .f32 eps)))) hs))
        (broadcastTo ⟨2, ![m, n]⟩ (shapeCast ⟨2, ![1, n]⟩ γ hc) hs))
      (broadcastTo ⟨2, ![m, n]⟩ (shapeCast ⟨2, ![1, n]⟩ β hc) hs))
    (broadcast ⟨2, ![m, n]⟩ (Scalar.ofBits (F := Ideal) .f32 0x00000000#32))

/-- The reference's layer: the same formula, the product a `dot_general`, each row vector sent through two
    `broadcast_in_dim`s, `ε` added to the vector `rv` itself. -/
def denseNormR (D : DotDims ⟨2, ![m, K]⟩ ⟨2, ![K, n]⟩ ⟨2, ![m, n]⟩)
    (h0 : (⟨0, ![]⟩ : Shape).BroadcastsInDim ⟨1, ![n]⟩ (![] : Fin 0 → Fin 1))
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2))
    (hz : (⟨0, ![]⟩ : Shape).BroadcastsInDim ⟨2, ![m, n]⟩ (![] : Fin 0 → Fin 2))
    (eps : BitVec 32) (a : FVec Ideal ⟨2, ![m, K]⟩ .f32) (W : FVec Ideal ⟨2, ![K, n]⟩ .f32)
    (b γ β rm rv : FVec Ideal ⟨1, ![n]⟩ .f32) : FVec Ideal ⟨2, ![m, n]⟩ .f32 :=
  maximumf
    (addf
      (mulf
        (mulf
          (subf
            (addf (Host.dotGeneral D none a W)
              (broadcastInDim ⟨2, ![m, n]⟩ ![0, 1] h2 (broadcastInDim ⟨2, ![1, n]⟩ ![1] h1 b)))
            (broadcastInDim ⟨2, ![m, n]⟩ ![0, 1] h2 (broadcastInDim ⟨2, ![1, n]⟩ ![1] h1 rm)))
          (broadcastInDim ⟨2, ![m, n]⟩ ![0, 1] h2 (broadcastInDim ⟨2, ![1, n]⟩ ![1] h1
            (Host.rsqrt (addf rv (broadcastInDim ⟨1, ![n]⟩ ![] h0 (constant (F := Ideal) ⟨0, ![]⟩ .f32 eps)))))))
        (broadcastInDim ⟨2, ![m, n]⟩ ![0, 1] h2 (broadcastInDim ⟨2, ![1, n]⟩ ![1] h1 γ)))
      (broadcastInDim ⟨2, ![m, n]⟩ ![0, 1] h2 (broadcastInDim ⟨2, ![1, n]⟩ ![1] h1 β)))
    (broadcastInDim ⟨2, ![m, n]⟩ ![] hz (constant (F := Ideal) ⟨0, ![]⟩ .f32 0x00000000#32))

/-- The two spellings are one array: operation by operation the same function of the same operands. -/
theorem denseNormK_eq_denseNormR (Dk Dr : DotDims ⟨2, ![m, K]⟩ ⟨2, ![K, n]⟩ ⟨2, ![m, n]⟩) (hD : Dk = Dr)
    (hb : FTy.bits .bf16 < FTy.bits .f32)
    (hc : (⟨1, ![n]⟩ : Shape).ShapeCasts ⟨2, ![1, n]⟩) (hs : (⟨2, ![1, n]⟩ : Shape).Broadcasts ⟨2, ![m, n]⟩)
    (h0 : (⟨0, ![]⟩ : Shape).BroadcastsInDim ⟨1, ![n]⟩ (![] : Fin 0 → Fin 1))
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2))
    (hz : (⟨0, ![]⟩ : Shape).BroadcastsInDim ⟨2, ![m, n]⟩ (![] : Fin 0 → Fin 2))
    (eps : BitVec 32) (a : FVec Ideal ⟨2, ![m, K]⟩ .f32) (W : FVec Ideal ⟨2, ![K, n]⟩ .f32)
    (b γ β rm rv : FVec Ideal ⟨1, ![n]⟩ .f32) :
    denseNormK Dk hb hc hs eps a W b γ β rm rv = denseNormR Dr h0 h1 h2 hz eps a W b γ β rm rv := by
  unfold denseNormK denseNormR
  rw [matmul_trunc_eq_dotGeneral Dk Dr hD a W hb hb, rowStretch_eq_rowInDim b hc hs h1 h2,
    rowStretch_eq_rowInDim rm hc hs h1 h2, rowStretch_eq_rowInDim γ hc hs h1 h2, rowStretch_eq_rowInDim β hc hs h1 h2,
    rsqrtRow_eq rv eps hc hs h0 h1 h2, splat_eq 0x00000000#32 hz]

end Layer

end Cert.Bridge

end
-- ==== Proof.Region5b.lean ====
import proofs.«170622_j83494164234284_2_alg».proof.Proof.Gen.KernelIdeal.Skeleton
import proofs.«170622_j83494164234284_2_alg».proof.Proof.RefRead
import proofs.«170622_j83494164234284_2_alg».proof.Proof.Region5a

/-!
# The head kernel's payload is the reference's head

The head kernel stores one value: the 16×4 product `h2 · W3` at the end of the chain

  g = P1 · Wg₁ + P2 · Wg₂ + bg,   h1 = layer (g; W1, b1, γ1, β1, rm1, rv1),   h2 = layer (h1; W2, …),

where `Wg₁`, `Wg₂` are rows `0 … 127` and `128 … 255` of `Wg` and `layer` is a dense product followed by batch normalisation
and relu. The reference computes `concat (P1, P2) · Wg + bg` and the same two layers and product. Here the kernel's
payload is cut at `g`, `h1`, `h2` (by unfolding), each piece is identified with the reference's stage of the same
name, and the pieces are chained. Only `g` needs an argument about sums: entry `(r, q)` of `concat (P1, P2) · Wg` is a sum
over 256 columns, the first 128 of which read `P1` against `Wg`'s upper half and the last 128 `P2` against its lower half.
-/

noncomputable section

open Idealize.ShloMosaic Idealize.ShloMosaic.TcCoe Idealize.SL.Sem Idealize.ShloMosaic.ValueIdx
open scoped BigOperators

namespace Cert.Bridge

open Cert.KernelIdeal Cert.KernelIdeal.Gen

/-! ## The dimension numbers of the three later products are the reference's -/

theorem dot_16x128_128x64_eq :
    Cert.KernelIdeal.dot_S16x128_S128x64_S16x64_1_0_0_1_n_n = Cert.ReferenceIdeal.dot_S16x128_S128x64_S16x64_1_0_0_1_n_n := rfl
theorem dot_16x64_64x32_eq :
    Cert.KernelIdeal.dot_S16x64_S64x32_S16x32_1_0_0_1_n_n = Cert.ReferenceIdeal.dot_S16x64_S64x32_S16x32_1_0_0_1_n_n := rfl
theorem dot_16x32_32x4_eq :
    Cert.KernelIdeal.dot_S16x32_S32x4_S16x4_1_0_0_1_n_n = Cert.ReferenceIdeal.dot_S16x32_S32x4_S16x4_1_0_0_1_n_n := rfl

/-! ## The kernel's 16×128 by 128×128 product into zero, at an index

Its dimension numbers contract the left operand's columns with the right operand's rows, so entry `(r, q)` is the sum over
`k` of left `(r, k)` times right `(k, q)`. -/

theorem gateDot_lhs0 (i : S16x128.Idx) (q : dot_S16x128_S128x128_S16x128_1_0_0_1_n_n.contr.Idx) :
    (dot_S16x128_S128x128_S16x128_1_0_0_1_n_n.lhsIdx i q 0).val = (i 0).val := by
  unfold DotDims.lhsIdx
  rw [dif_neg (show ¬(0 : Fin S16x128.rank) ∈ dot_S16x128_S128x128_S16x128_1_0_0_1_n_n.lhsBatch by decide), dif_pos (show (0 : Fin S16x128.rank) ∈ dot_S16x128_S128x128_S16x128_1_0_0_1_n_n.lhsNonContracting by decide)]
  rfl
theorem gateDot_lhs1 (i : S16x128.Idx) (q : dot_S16x128_S128x128_S16x128_1_0_0_1_n_n.contr.Idx) :
    (dot_S16x128_S128x128_S16x128_1_0_0_1_n_n.lhsIdx i q 1).val = (q ⟨0, by decide⟩).val :=
  dot_S16x128_S128x128_S16x128_1_0_0_1_n_n.lhsIdx_val_of_single rfl i q
theorem gateDot_rhs0 (i : S16x128.Idx) (q : dot_S16x128_S128x128_S16x128_1_0_0_1_n_n.contr.Idx) :
    (dot_S16x128_S128x128_S16x128_1_0_0_1_n_n.rhsIdx i q 0).val = (q ⟨0, by decide⟩).val :=
  dot_S16x128_S128x128_S16x128_1_0_0_1_n_n.rhsIdx_val_of_single rfl i q
theorem gateDot_rhs1 (i : S16x128.Idx) (q : dot_S16x128_S128x128_S16x128_1_0_0_1_n_n.contr.Idx) :
    (dot_S16x128_S128x128_S16x128_1_0_0_1_n_n.rhsIdx i q 1).val = (i 1).val := by
  unfold DotDims.rhsIdx
  rw [dif_neg (show ¬(1 : Fin S128x128.rank) ∈ dot_S16x128_S128x128_S16x128_1_0_0_1_n_n.rhsBatch by decide), dif_pos (show (1 : Fin S128x128.rank) ∈ dot_S16x128_S128x128_S16x128_1_0_0_1_n_n.rhsNonContracting by decide)]
  rfl

theorem gateDot_apply {φ₁ φ₂ : FTy} (a : FVec Ideal S16x128 φ₁) (b : FVec Ideal S128x128 φ₂) (r : Fin 16) (q : Fin 128) :
    matmul dot_S16x128_S128x128_S16x128_1_0_0_1_n_n none a b (constant S16x128 .f32 0x00000000#32) (ix2 r q)
      = ∑ k : Fin 128, a (ix2 r k) * b (ix2 k q) := by
  simp only [matmul]
  rw [Ideal.matmul_constant_zero_apply, ← Equiv.sum_comp (contrEquiv1 dot_S16x128_S128x128_S16x128_1_0_0_1_n_n 128 rfl rfl).symm]
  refine Finset.sum_congr rfl fun k _ => ?_
  have hk := contrEquiv1_symm_val dot_S16x128_S128x128_S16x128_1_0_0_1_n_n 128 rfl rfl k
  have el : dot_S16x128_S128x128_S16x128_1_0_0_1_n_n.lhsIdx (ix2 r q) ((contrEquiv1 dot_S16x128_S128x128_S16x128_1_0_0_1_n_n 128 rfl rfl).symm k) = ix2 r k := funext fun ax => Fin.ext (by
    match ax with
    | ⟨0, _⟩ => exact gateDot_lhs0 _ _
    | ⟨1, _⟩ => exact (gateDot_lhs1 _ _).trans hk)
  have er : dot_S16x128_S128x128_S16x128_1_0_0_1_n_n.rhsIdx (ix2 r q) ((contrEquiv1 dot_S16x128_S128x128_S16x128_1_0_0_1_n_n 128 rfl rfl).symm k) = ix2 k q := funext fun ax => Fin.ext (by
    match ax with
    | ⟨0, _⟩ => exact (gateDot_rhs0 _ _).trans hk
    | ⟨1, _⟩ => exact gateDot_rhs1 _ _)
  rw [el, er]

/-! ## The gate `g` -/

/-- The kernel's `g`: the two pooled blocks against the two halves of `Wg` (every operand narrowed to bf16, which changes no
    extended real), added, plus the bias row over all 16 rows. -/
def kGate (P1 P2 : FVec Ideal S16x128 .f32) (G1 G2 : FVec Ideal S128x128 .f32) (bg : FVec Ideal S128 .f32) :
    FVec Ideal S16x128 .f32 :=
  addf
    (addf
      (matmul dot_S16x128_S128x128_S16x128_1_0_0_1_n_n none
        (truncf .bf16 (shapeCast S16x128 P1 shapeCasts_S16x128_S16x128) bitsLt_bf16_f32)
        (truncf .bf16 (shapeCast S128x128 G1 shapeCasts_S128x128_S128x128) bitsLt_bf16_f32)
        (constant S16x128 .f32 0x00000000#32))
      (matmul dot_S16x128_S128x128_S16x128_1_0_0_1_n_n none
        (truncf .bf16 (shapeCast S16x128 P2 shapeCasts_S16x128_S16x128) bitsLt_bf16_f32)
        (truncf .bf16 (shapeCast S128x128 G2 shapeCasts_S128x128_S128x128) bitsLt_bf16_f32)
        (constant S16x128 .f32 0x00000000#32)))
    (broadcastTo S16x128 (shapeCast S1x128 bg shapeCasts_S128_S1x128) broadcasts_S1x128_S16x128)

/-- Entry `(r, q)` of the kernel's `g`. -/
theorem kGate_apply (P1 P2 : FVec Ideal S16x128 .f32) (G1 G2 : FVec Ideal S128x128 .f32) (bg : FVec Ideal S128 .f32)
    (r : Fin 16) (q : Fin 128) :
    kGate P1 P2 G1 G2 bg (ix2 r q)
      = (∑ k : Fin 128, P1 (ix2 r k) * G1 (ix2 k q) + ∑ k : Fin 128, P2 (ix2 r k) * G2 (ix2 k q)) + bg (ix1 q) := by
  unfold kGate
  rw [addf_apply, addf_apply, gateDot_apply, gateDot_apply, rowStretch_apply]
  simp only [shapeCast_self, truncf_apply]

/-- The kernel's `g` of the reference's pooled blocks and of the two halves of `Wg` is the reference's
    `concat (P1, P2) · Wg + bg`. -/
theorem gate_eq (x0 : (⟨S100000x64, .f32⟩ : BufTy).Contents (Elt Ideal)) (x1 x2 : (⟨S800000, .i32⟩ : BufTy).Contents (Elt Ideal))
    (x3 : (⟨S100000, .i32⟩ : BufTy).Contents (Elt Ideal)) (x4 : (⟨S64x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 : (⟨S256x128, .f32⟩ : BufTy).Contents (Elt Ideal))
    (x11 : (⟨S128, .f32⟩ : BufTy).Contents (Elt Ideal)) :
    kGate (Cert.ReferenceIdeal.ReadP.val_main_v64 (F := Ideal) x0 x1 x2 x3 x4 x5 x6 x7)
        (Cert.ReferenceIdeal.ReadP.val_main_v124 (F := Ideal) x0 x1 x2 x3 x4 x5 x6 x7 x8 x9)
        (extractStridedSlice S128x128 ![0, 0] x10 slices_S256x128_S128x128_0_0)
        (extractStridedSlice S128x128 ![128, 0] x10 slices_S256x128_S128x128_128_0) x11
      = Cert.ReferenceIdeal.ReadP.val_main_v129 (F := Ideal) x0 x1 x2 x3 x4 x5 x6 x7 x8 x9 x10 x11 := by
  funext j
  obtain ⟨r, q, rfl⟩ : ∃ (r : Fin 16) (q : Fin 128), j = ix2 r q := ⟨j 0, j 1, eq_ix2 j⟩
  have hl : ∀ k : Fin 256, Cert.ReferenceIdeal.ReadP.lidx_main_v126 (ix2 r q) k = ix2 r k := fun k =>
    funext fun a => Fin.ext (by
      match a with
      | ⟨0, _⟩ => rfl
      | ⟨1, _⟩ => rfl)
  have hr : ∀ k : Fin 256, Cert.ReferenceIdeal.ReadP.ridx_main_v126 (ix2 r q) k = ix2 k q := fun k =>
    funext fun a => Fin.ext (by
      match a with
      | ⟨0, _⟩ => rfl
      | ⟨1, _⟩ => rfl)
  have hb : Cert.ReferenceIdeal.ReadP.idx_main_v127 (Cert.ReferenceIdeal.ReadP.idx_main_v128 (ix2 r q)) = ix1 q :=
    funext fun a => Fin.ext (by
      match a with
      | ⟨0, _⟩ => rfl)
  rw [kGate_apply, Cert.ReferenceIdeal.ReadP.val_main_v129_apply, Cert.ReferenceIdeal.ReadP.val_main_v126_apply,
    Cert.ReferenceIdeal.ReadP.val_main_v128_apply, Cert.ReferenceIdeal.ReadP.val_main_v127_apply]
  simp only [hl, hr, hb]
  unfold Cert.ReferenceIdeal.ReadP.val_main_v125
  rw [concat_dot_eq_halves _ _ _ _ slices_S256x128_S128x128_0_0 slices_S256x128_S128x128_128_0]
  rfl

/-! ## The whole payload -/

/-- The value the head kernel stores, of the reference's pooled blocks, the two halves of `Wg` and the layer parameters, is the
    reference's result. The payload unfolds to the last product of the second layer of the first layer of `g`; the
    reference's last stage unfolds to the same chain in its own spelling; `g` is `gate_eq`, each layer
    `denseNormK_eq_denseNormR`, the last product `matmul_trunc_eq_dotGeneral`. -/
theorem head_eq (x0 : (⟨S100000x64, .f32⟩ : BufTy).Contents (Elt Ideal)) (x1 x2 : (⟨S800000, .i32⟩ : BufTy).Contents (Elt Ideal))
    (x3 : (⟨S100000, .i32⟩ : BufTy).Contents (Elt Ideal)) (x4 : (⟨S64x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 : (⟨S256x128, .f32⟩ : BufTy).Contents (Elt Ideal))
    (x11 : (⟨S128, .f32⟩ : BufTy).Contents (Elt Ideal)) (x12 : (⟨S128x64, .f32⟩ : BufTy).Contents (Elt Ideal))
    (x13 x14 x15 x16 x17 : (⟨S64, .f32⟩ : BufTy).Contents (Elt Ideal)) (x18 : (⟨S64x32, .f32⟩ : BufTy).Contents (Elt Ideal))
    (x19 x20 x21 x22 x23 : (⟨S32, .f32⟩ : BufTy).Contents (Elt Ideal)) (x24 : (⟨S32x4, .f32⟩ : BufTy).Contents (Elt Ideal)) :
    k5_pay3 (F := Ideal)
        (k5_pay1 (F := Ideal) (Cert.ReferenceIdeal.ReadP.val_main_v64 (F := Ideal) x0 x1 x2 x3 x4 x5 x6 x7)
          (Cert.ReferenceIdeal.ReadP.val_main_v124 (F := Ideal) x0 x1 x2 x3 x4 x5 x6 x7 x8 x9)
          (extractStridedSlice S128x128 ![0, 0] x10 slices_S256x128_S128x128_0_0)
          (extractStridedSlice S128x128 ![128, 0] x10 slices_S256x128_S128x128_128_0) x11 x12 x13 x16 x17)
        (k5_pay2 (F := Ideal) x14) x15 x18 x19 x22 x23 x20 x21 x24
      = Cert.ReferenceIdeal.ReadP.val_main_v170 (F := Ideal) x0 x1 x2 x3 x4 x5 x6 x7 x8 x9 x10 x11 x12 x13 x14 x15 x16 x17 x18 x19 x20 x21 x22 x23 x24 := by
  show matmul Cert.KernelIdeal.dot_S16x32_S32x4_S16x4_1_0_0_1_n_n none
      (truncf .bf16
        (denseNormK Cert.KernelIdeal.dot_S16x64_S64x32_S16x32_1_0_0_1_n_n bitsLt_bf16_f32 shapeCasts_S32_S1x32 broadcasts_S1x32_S16x32 0x3727C5AC#32
          (denseNormK Cert.KernelIdeal.dot_S16x128_S128x64_S16x64_1_0_0_1_n_n bitsLt_bf16_f32 shapeCasts_S64_S1x64 broadcasts_S1x64_S16x64 0x3727C5AC#32
            (kGate (Cert.ReferenceIdeal.ReadP.val_main_v64 (F := Ideal) x0 x1 x2 x3 x4 x5 x6 x7)
              (Cert.ReferenceIdeal.ReadP.val_main_v124 (F := Ideal) x0 x1 x2 x3 x4 x5 x6 x7 x8 x9)
              (extractStridedSlice S128x128 ![0, 0] x10 slices_S256x128_S128x128_0_0)
              (extractStridedSlice S128x128 ![128, 0] x10 slices_S256x128_S128x128_128_0) x11)
            x12 x13 x14 x15 x16 x17)
          x18 x19 x20 x21 x22 x23) bitsLt_bf16_f32)
      (truncf .bf16 x24 bitsLt_bf16_f32) (constant S16x4 .f32 0x00000000#32)
    = Host.dotGeneral Cert.ReferenceIdeal.dot_S16x32_S32x4_S16x4_1_0_0_1_n_n none
      (denseNormR Cert.ReferenceIdeal.dot_S16x64_S64x32_S16x32_1_0_0_1_n_n Cert.ReferenceIdeal.Gen.bcast_S_S32 Cert.ReferenceIdeal.Gen.bcast_S32_S1x32_1 Cert.ReferenceIdeal.Gen.bcast_S1x32_S16x32_0_1 Cert.ReferenceIdeal.Gen.bcast_S_S16x32 0x3727C5AC#32
        (denseNormR Cert.ReferenceIdeal.dot_S16x128_S128x64_S16x64_1_0_0_1_n_n Cert.ReferenceIdeal.Gen.bcast_S_S64 Cert.ReferenceIdeal.Gen.bcast_S64_S1x64_1 Cert.ReferenceIdeal.Gen.bcast_S1x64_S16x64_0_1 Cert.ReferenceIdeal.Gen.bcast_S_S16x64 0x3727C5AC#32
          (Cert.ReferenceIdeal.ReadP.val_main_v129 (F := Ideal) x0 x1 x2 x3 x4 x5 x6 x7 x8 x9 x10 x11)
          x12 x13 x14 x15 x16 x17)
        x18 x19 x20 x21 x22 x23) x24
  rw [gate_eq,
    denseNormK_eq_denseNormR Cert.KernelIdeal.dot_S16x128_S128x64_S16x64_1_0_0_1_n_n Cert.ReferenceIdeal.dot_S16x128_S128x64_S16x64_1_0_0_1_n_n dot_16x128_128x64_eq bitsLt_bf16_f32 shapeCasts_S64_S1x64 broadcasts_S1x64_S16x64
      Cert.ReferenceIdeal.Gen.bcast_S_S64 Cert.ReferenceIdeal.Gen.bcast_S64_S1x64_1 Cert.ReferenceIdeal.Gen.bcast_S1x64_S16x64_0_1 Cert.ReferenceIdeal.Gen.bcast_S_S16x64,
    denseNormK_eq_denseNormR Cert.KernelIdeal.dot_S16x64_S64x32_S16x32_1_0_0_1_n_n Cert.ReferenceIdeal.dot_S16x64_S64x32_S16x32_1_0_0_1_n_n dot_16x64_64x32_eq bitsLt_bf16_f32 shapeCasts_S32_S1x32 broadcasts_S1x32_S16x32
      Cert.ReferenceIdeal.Gen.bcast_S_S32 Cert.ReferenceIdeal.Gen.bcast_S32_S1x32_1 Cert.ReferenceIdeal.Gen.bcast_S1x32_S16x32_0_1 Cert.ReferenceIdeal.Gen.bcast_S_S16x32,
    matmul_trunc_eq_dotGeneral Cert.KernelIdeal.dot_S16x32_S32x4_S16x4_1_0_0_1_n_n Cert.ReferenceIdeal.dot_S16x32_S32x4_S16x4_1_0_0_1_n_n dot_16x32_32x4_eq]

end Cert.Bridge

end
-- ==== Proof.Region5.lean ====
import proofs.«170622_j83494164234284_2_alg».proof.Proof.Gen.KernelIdeal.Frame
import proofs.«170622_j83494164234284_2_alg».proof.Proof.Region5b
import Idealize.ShloMosaic.Lib.Pipeline.Value

/-!
# Region 5: the head kernel's result array is the reference's head

The head kernel runs on a grid of one point. Each of its eighteen input windows stages a whole array — the two pooled feature
blocks, the two 128-row halves of `Wg`, and the fourteen layer parameters — and its output window is the whole 16×4 result.
So the array after the region is what the one point writes back, and that is the body's one store: the payload of
`head_eq` applied to the blocks, each of which is its array. Three steps: a block read off its array is the array (the
index maps are zero and the blocks as large as the arrays); the body's result over variables is the reference's last stage
(`out5_18_eq`); the one block covers the result array (`cover5`), so the array ends holding that value (`region5`).
-/

noncomputable section

open Idealize.ShloMosaic Idealize.ShloMosaic.TcCoe Idealize.SL.Sem Idealize.ShloMosaic.ValueIdx
open Idealize.ShloMosaic.Pipeline (Dat)
open scoped BigOperators

namespace Cert.Bridge

open Cert.KernelIdeal Cert.KernelIdeal.Gen

/-! ## Every window's block is its whole array

The grid has one point, and at it every index map returns block 0 of blocks as large as the arrays: an element of a block has
the same coordinates in the array, so reading a block off an array gives the array. -/

section Blocks
variable (V : (c : Dev nD) → (b : Ref sig .tc) → Buf (Elt Ideal) ((c : Thread nD τ).loc b))

theorem idx5_0 : ∀ (t : Fin cfg5.N) (a : Fin 2), win5_0.index t a = 0 :=
  (by decide +kernel : ∀ (t : Fin grid5.N) (a : Fin 2), _)
theorem idx5_1 : ∀ (t : Fin cfg5.N) (a : Fin 2), win5_1.index t a = 0 :=
  (by decide +kernel : ∀ (t : Fin grid5.N) (a : Fin 2), _)
theorem idx5_2 : ∀ (t : Fin cfg5.N) (a : Fin 2), win5_2.index t a = 0 :=
  (by decide +kernel : ∀ (t : Fin grid5.N) (a : Fin 2), _)
theorem idx5_3 : ∀ (t : Fin cfg5.N) (a : Fin 2), win5_3.index t a = 0 :=
  (by decide +kernel : ∀ (t : Fin grid5.N) (a : Fin 2), _)
theorem idx5_4 : ∀ (t : Fin cfg5.N) (a : Fin 1), win5_4.index t a = 0 :=
  (by decide +kernel : ∀ (t : Fin grid5.N) (a : Fin 1), _)
theorem idx5_5 : ∀ (t : Fin cfg5.N) (a : Fin 2), win5_5.index t a = 0 :=
  (by decide +kernel : ∀ (t : Fin grid5.N) (a : Fin 2), _)
theorem idx5_6 : ∀ (t : Fin cfg5.N) (a : Fin 1), win5_6.index t a = 0 :=
  (by decide +kernel : ∀ (t : Fin grid5.N) (a : Fin 1), _)
theorem idx5_7 : ∀ (t : Fin cfg5.N) (a : Fin 1), win5_7.index t a = 0 :=
  (by decide +kernel : ∀ (t : Fin grid5.N) (a : Fin 1), _)
theorem idx5_8 : ∀ (t : Fin cfg5.N) (a : Fin 1), win5_8.index t a = 0 :=
  (by decide +kernel : ∀ (t : Fin grid5.N) (a : Fin 1), _)
theorem idx5_9 : ∀ (t : Fin cfg5.N) (a : Fin 1), win5_9.index t a = 0 :=
  (by decide +kernel : ∀ (t : Fin grid5.N) (a : Fin 1), _)
theorem idx5_10 : ∀ (t : Fin cfg5.N) (a : Fin 1), win5_10.index t a = 0 :=
  (by decide +kernel : ∀ (t : Fin grid5.N) (a : Fin 1), _)
theorem idx5_11 : ∀ (t : Fin cfg5.N) (a : Fin 2), win5_11.index t a = 0 :=
  (by decide +kernel : ∀ (t : Fin grid5.N) (a : Fin 2), _)
theorem idx5_12 : ∀ (t : Fin cfg5.N) (a : Fin 1), win5_12.index t a = 0 :=
  (by decide +kernel : ∀ (t : Fin grid5.N) (a : Fin 1), _)
theorem idx5_13 : ∀ (t : Fin cfg5.N) (a : Fin 1), win5_13.index t a = 0 :=
  (by decide +kernel : ∀ (t : Fin grid5.N) (a : Fin 1), _)
theorem idx5_14 : ∀ (t : Fin cfg5.N) (a : Fin 1), win5_14.index t a = 0 :=
  (by decide +kernel : ∀ (t : Fin grid5.N) (a : Fin 1), _)
theorem idx5_15 : ∀ (t : Fin cfg5.N) (a : Fin 1), win5_15.index t a = 0 :=
  (by decide +kernel : ∀ (t : Fin grid5.N) (a : Fin 1), _)
theorem idx5_16 : ∀ (t : Fin cfg5.N) (a : Fin 1), win5_16.index t a = 0 :=
  (by decide +kernel : ∀ (t : Fin grid5.N) (a : Fin 1), _)
theorem idx5_17 : ∀ (t : Fin cfg5.N) (a : Fin 2), win5_17.index t a = 0 :=
  (by decide +kernel : ∀ (t : Fin grid5.N) (a : Fin 2), _)
theorem idx5_18 : ∀ (t : Fin cfg5.N) (a : Fin 2), win5_18.index t a = 0 :=
  (by decide +kernel : ∀ (t : Fin grid5.N) (a : Fin 2), _)

theorem iblk5_0 (c : Dev nD) (t : Fin cfg5.N) : (iblk5 (F := Ideal) V c 0 t : S16x128.Idx → EReal) = V c main_v55 :=
  funext fun y => congrArg (V c main_v55)
    (funext fun a => Fin.ext (win5_0.rect_emb_val_of_index_zero t a (idx5_0 t a) y))
theorem iblk5_1 (c : Dev nD) (t : Fin cfg5.N) : (iblk5 (F := Ideal) V c 1 t : S16x128.Idx → EReal) = V c main_v91 :=
  funext fun y => congrArg (V c main_v91)
    (funext fun a => Fin.ext (win5_1.rect_emb_val_of_index_zero t a (idx5_1 t a) y))
theorem iblk5_2 (c : Dev nD) (t : Fin cfg5.N) : (iblk5 (F := Ideal) V c 2 t : S128x128.Idx → EReal) = V c main_v92 :=
  funext fun y => congrArg (V c main_v92)
    (funext fun a => Fin.ext (win5_2.rect_emb_val_of_index_zero t a (idx5_2 t a) y))
theorem iblk5_3 (c : Dev nD) (t : Fin cfg5.N) : (iblk5 (F := Ideal) V c 3 t : S128x128.Idx → EReal) = V c main_v93 :=
  funext fun y => congrArg (V c main_v93)
    (funext fun a => Fin.ext (win5_3.rect_emb_val_of_index_zero t a (idx5_3 t a) y))
theorem iblk5_4 (c : Dev nD) (t : Fin cfg5.N) : (iblk5 (F := Ideal) V c 4 t : S128.Idx → EReal) = V c main_arg11 :=
  funext fun y => congrArg (V c main_arg11)
    (funext fun a => Fin.ext (win5_4.rect_emb_val_of_index_zero t a (idx5_4 t a) y))
theorem iblk5_5 (c : Dev nD) (t : Fin cfg5.N) : (iblk5 (F := Ideal) V c 5 t : S128x64.Idx → EReal) = V c main_arg12 :=
  funext fun y => congrArg (V c main_arg12)
    (funext fun a => Fin.ext (win5_5.rect_emb_val_of_index_zero t a (idx5_5 t a) y))
theorem iblk5_6 (c : Dev nD) (t : Fin cfg5.N) : (iblk5 (F := Ideal) V c 6 t : S64.Idx → EReal) = V c main_arg13 :=
  funext fun y => congrArg (V c main_arg13)
    (funext fun a => Fin.ext (win5_6.rect_emb_val_of_index_zero t a (idx5_6 t a) y))
theorem iblk5_7 (c : Dev nD) (t : Fin cfg5.N) : (iblk5 (F := Ideal) V c 7 t : S64.Idx → EReal) = V c main_arg14 :=
  funext fun y => congrArg (V c main_arg14)
    (funext fun a => Fin.ext (win5_7.rect_emb_val_of_index_zero t a (idx5_7 t a) y))
theorem iblk5_8 (c : Dev nD) (t : Fin cfg5.N) : (iblk5 (F := Ideal) V c 8 t : S64.Idx → EReal) = V c main_arg15 :=
  funext fun y => congrArg (V c main_arg15)
    (funext fun a => Fin.ext (win5_8.rect_emb_val_of_index_zero t a (idx5_8 t a) y))
theorem iblk5_9 (c : Dev nD) (t : Fin cfg5.N) : (iblk5 (F := Ideal) V c 9 t : S64.Idx → EReal) = V c main_arg16 :=
  funext fun y => congrArg (V c main_arg16)
    (funext fun a => Fin.ext (win5_9.rect_emb_val_of_index_zero t a (idx5_9 t a) y))
theorem iblk5_10 (c : Dev nD) (t : Fin cfg5.N) : (iblk5 (F := Ideal) V c 10 t : S64.Idx → EReal) = V c main_arg17 :=
  funext fun y => congrArg (V c main_arg17)
    (funext fun a => Fin.ext (win5_10.rect_emb_val_of_index_zero t a (idx5_10 t a) y))
theorem iblk5_11 (c : Dev nD) (t : Fin cfg5.N) : (iblk5 (F := Ideal) V c 11 t : S64x32.Idx → EReal) = V c main_arg18 :=
  funext fun y => congrArg (V c main_arg18)
    (funext fun a => Fin.ext (win5_11.rect_emb_val_of_index_zero t a (idx5_11 t a) y))
theorem iblk5_12 (c : Dev nD) (t : Fin cfg5.N) : (iblk5 (F := Ideal) V c 12 t : S32.Idx → EReal) = V c main_arg19 :=
  funext fun y => congrArg (V c main_arg19)
    (funext fun a => Fin.ext (win5_12.rect_emb_val_of_index_zero t a (idx5_12 t a) y))
theorem iblk5_13 (c : Dev nD) (t : Fin cfg5.N) : (iblk5 (F := Ideal) V c 13 t : S32.Idx → EReal) = V c main_arg20 :=
  funext fun y => congrArg (V c main_arg20)
    (funext fun a => Fin.ext (win5_13.rect_emb_val_of_index_zero t a (idx5_13 t a) y))
theorem iblk5_14 (c : Dev nD) (t : Fin cfg5.N) : (iblk5 (F := Ideal) V c 14 t : S32.Idx → EReal) = V c main_arg21 :=
  funext fun y => congrArg (V c main_arg21)
    (funext fun a => Fin.ext (win5_14.rect_emb_val_of_index_zero t a (idx5_14 t a) y))
theorem iblk5_15 (c : Dev nD) (t : Fin cfg5.N) : (iblk5 (F := Ideal) V c 15 t : S32.Idx → EReal) = V c main_arg22 :=
  funext fun y => congrArg (V c main_arg22)
    (funext fun a => Fin.ext (win5_15.rect_emb_val_of_index_zero t a (idx5_15 t a) y))
theorem iblk5_16 (c : Dev nD) (t : Fin cfg5.N) : (iblk5 (F := Ideal) V c 16 t : S32.Idx → EReal) = V c main_arg23 :=
  funext fun y => congrArg (V c main_arg23)
    (funext fun a => Fin.ext (win5_16.rect_emb_val_of_index_zero t a (idx5_16 t a) y))
theorem iblk5_17 (c : Dev nD) (t : Fin cfg5.N) : (iblk5 (F := Ideal) V c 17 t : S32x4.Idx → EReal) = V c main_arg24 :=
  funext fun y => congrArg (V c main_arg24)
    (funext fun a => Fin.ext (win5_17.rect_emb_val_of_index_zero t a (idx5_17 t a) y))

/-- An index of the result array is in the one point's block iff each coordinate is in the block's range. -/
theorem mem_blk5 (t : Fin cfg5.N) (i : S16x4.Idx) :
    i ∈ ((cfg5.win 18).blk t).view.set ↔ ∀ a : Fin 2, win5_18.index t a * S16x4.size a ≤ (i a).val ∧ (i a).val < win5_18.index t a * S16x4.size a + S16x4.size a := by
  show i ∈ ((View.whole main_v94).slice (win5_18.rect t)).set ↔ _
  rw [View.set_slice_whole, Rect.mem_set_unit]
  exact Iff.rfl

/-- The one point's block covers the whole 16×4 result. -/
theorem cover5 (i : S16x4.Idx) :
    ∃ t : Fin cfg5.N, (cfg5.win 18).flush t = true ∧ i ∈ ((cfg5.win 18).blk t).view.set := by
  refine ⟨t5_0, flush5_18 _, ?_⟩
  rw [mem_blk5]
  intro a
  have e := idx5_18 t5_0 a
  match a with
  | ⟨0, _⟩ =>
    have h : (i 0).val < 16 := (i 0).isLt
    have e' : win5_18.index t5_0 (0 : Fin 2) = 0 := e
    show win5_18.index t5_0 (0 : Fin 2) * 16 ≤ (i 0).val ∧ (i 0).val < win5_18.index t5_0 (0 : Fin 2) * 16 + 16
    omega
  | ⟨1, _⟩ =>
    have h : (i 1).val < 4 := (i 1).isLt
    have e' : win5_18.index t5_0 (1 : Fin 2) = 0 := e
    show win5_18.index t5_0 (1 : Fin 2) * 4 ≤ (i 1).val ∧ (i 1).val < win5_18.index t5_0 (1 : Fin 2) * 4 + 4
    omega

/-- What the point writes back of a whole-block value `G` is `G` read through the block, which is `G`. -/
theorem cut_read5 (G : S16x4.Idx → EReal) (t : Fin cfg5.N) :
    (cfg5.win 18).cut (grid5.coords t) G = ((cfg5.win 18).blk t).view.read (Elt Ideal) G := by
  funext y
  show G y = G (((cfg5.win 18).blk t).view.emb y)
  exact congrArg G (funext fun a => Fin.ext (win5_18.rect_emb_val_of_index_zero t a (idx5_18 t a) y).symm)

end Blocks

/-! ## The body's result over variables -/

theorem hz2 : (![0, 0] : Fin 2 → Nat) = fun _ => 0 := funext fun a => by fin_cases a <;> rfl
theorem hz1 : (![0] : Fin 1 → Nat) = fun _ => 0 := funext fun a => by fin_cases a <;> rfl

/-- The body's one store, of whole-buffer loads of blocks that are the reference's pooled features, the two halves of `Wg` and
    the layer parameters, leaves the reference's result: the store covers the buffer, each load reads its whole block, and the
    payload is `head_eq`. -/
theorem out5_18_eq (x0 : (⟨S100000x64, .f32⟩ : BufTy).Contents (Elt Ideal)) (x1 x2 : (⟨S800000, .i32⟩ : BufTy).Contents (Elt Ideal))
    (x3 : (⟨S100000, .i32⟩ : BufTy).Contents (Elt Ideal)) (x4 : (⟨S64x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 : (⟨S256x128, .f32⟩ : BufTy).Contents (Elt Ideal))
    (x11 : (⟨S128, .f32⟩ : BufTy).Contents (Elt Ideal)) (x12 : (⟨S128x64, .f32⟩ : BufTy).Contents (Elt Ideal))
    (x13 x14 x15 x16 x17 : (⟨S64, .f32⟩ : BufTy).Contents (Elt Ideal)) (x18 : (⟨S64x32, .f32⟩ : BufTy).Contents (Elt Ideal))
    (x19 x20 x21 x22 x23 : (⟨S32, .f32⟩ : BufTy).Contents (Elt Ideal)) (x24 : (⟨S32x4, .f32⟩ : BufTy).Contents (Elt Ideal))
    (b0 b1 : Vec Ideal S16x128 .f32) (b2 b3 : Vec Ideal S128x128 .f32) (b4 : Vec Ideal S128 .f32) (b5 : Vec Ideal S128x64 .f32)
    (b6 b7 b8 b9 b10 : Vec Ideal S64 .f32) (b11 : Vec Ideal S64x32 .f32) (b12 b13 b14 b15 b16 : Vec Ideal S32 .f32)
    (b17 : Vec Ideal S32x4 .f32)
    (e0 : b0 = Cert.ReferenceIdeal.ReadP.val_main_v64 (F := Ideal) x0 x1 x2 x3 x4 x5 x6 x7)
    (e1 : b1 = Cert.ReferenceIdeal.ReadP.val_main_v124 (F := Ideal) x0 x1 x2 x3 x4 x5 x6 x7 x8 x9)
    (e2 : b2 = extractStridedSlice S128x128 ![0, 0] x10 slices_S256x128_S128x128_0_0)
    (e3 : b3 = extractStridedSlice S128x128 ![128, 0] x10 slices_S256x128_S128x128_128_0)
    (e4 : b4 = x11) (e5 : b5 = x12) (e6 : b6 = x13) (e7 : b7 = x14) (e8 : b8 = x15) (e9 : b9 = x16) (e10 : b10 = x17)
    (e11 : b11 = x18) (e12 : b12 = x19) (e13 : b13 = x20) (e14 : b14 = x21) (e15 : b15 = x22) (e16 : b16 = x23)
    (e17 : b17 = x24) :
    out5_18 (F := Ideal) b0 b1 b2 b3 b4 b5 b6 b7 b8 b9 b10 b11 b12 b13 b14 b15 b16 b17
      = Cert.ReferenceIdeal.ReadP.val_main_v170 (F := Ideal) x0 x1 x2 x3 x4 x5 x6 x7 x8 x9 x10 x11 x12 x13 x14 x15 x16 x17 x18 x19 x20 x21 x22 x23 x24 := by
  subst e0 e1 e2 e3 e4 e5 e6 e7 e8 e9 e10 e11 e12 e13 e14 e15 e16 e17
  unfold out5_18
  rw [View.canon_unit_zero hz2]
  simp only [View.ld_unit_zero (S := S16x128) hz2, View.ld_unit_zero (S := S128x128) hz2, View.ld_unit_zero (S := S128) hz1,
    View.ld_unit_zero (S := S128x64) hz2, View.ld_unit_zero (S := S64) hz1, View.ld_unit_zero (S := S64x32) hz2,
    View.ld_unit_zero (S := S32) hz1, View.ld_unit_zero (S := S32x4) hz2]
  exact head_eq _ _ _ _ _ _ _ _ _ _ _ _ _ _ _ _ _ _ _ _ _ _ _ _ _

/-! ## The result array after the region -/

/-- REGION 5. After the head kernel's one grid point the result array holds the reference's head of the 25 arguments, when the
    region finds the reference's pooled features in the two pooled buffers, the two halves of `Wg` in the two slice buffers and
    the arguments in their own buffers. The point writes back the body's result (`out5_18_eq` of the blocks, each its whole array),
    and its block is the whole array. -/
theorem region5 (V : (c : Dev nD) → (b : Ref sig .tc) → Buf (Elt Ideal) ((c : Thread nD τ).loc b)) (c : Dev nD)
    (x0 : (⟨S100000x64, .f32⟩ : BufTy).Contents (Elt Ideal)) (x1 x2 : (⟨S800000, .i32⟩ : BufTy).Contents (Elt Ideal))
    (x3 : (⟨S100000, .i32⟩ : BufTy).Contents (Elt Ideal)) (x4 : (⟨S64x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 : (⟨S256x128, .f32⟩ : BufTy).Contents (Elt Ideal))
    (x11 : (⟨S128, .f32⟩ : BufTy).Contents (Elt Ideal)) (x12 : (⟨S128x64, .f32⟩ : BufTy).Contents (Elt Ideal))
    (x13 x14 x15 x16 x17 : (⟨S64, .f32⟩ : BufTy).Contents (Elt Ideal)) (x18 : (⟨S64x32, .f32⟩ : BufTy).Contents (Elt Ideal))
    (x19 x20 x21 x22 x23 : (⟨S32, .f32⟩ : BufTy).Contents (Elt Ideal)) (x24 : (⟨S32x4, .f32⟩ : BufTy).Contents (Elt Ideal))
    (hP1 : V c main_v55 = Cert.ReferenceIdeal.ReadP.val_main_v64 (F := Ideal) x0 x1 x2 x3 x4 x5 x6 x7)
    (hP2 : V c main_v91 = Cert.ReferenceIdeal.ReadP.val_main_v124 (F := Ideal) x0 x1 x2 x3 x4 x5 x6 x7 x8 x9)
    (hG1 : V c main_v92 = extractStridedSlice S128x128 ![0, 0] x10 slices_S256x128_S128x128_0_0)
    (hG2 : V c main_v93 = extractStridedSlice S128x128 ![128, 0] x10 slices_S256x128_S128x128_128_0)
    (h11 : V c main_arg11 = x11) (h12 : V c main_arg12 = x12) (h13 : V c main_arg13 = x13) (h14 : V c main_arg14 = x14)
    (h15 : V c main_arg15 = x15) (h16 : V c main_arg16 = x16) (h17 : V c main_arg17 = x17) (h18 : V c main_arg18 = x18)
    (h19 : V c main_arg19 = x19) (h20 : V c main_arg20 = x20) (h21 : V c main_arg21 = x21) (h22 : V c main_arg22 = x22)
    (h23 : V c main_arg23 = x23) (h24 : V c main_arg24 = x24) :
    (dat5 (F := Ideal) V c).arrAt 18 cfg5.N
      = Cert.ReferenceIdeal.ReadP.val_main_v170 (F := Ideal) x0 x1 x2 x3 x4 x5 x6 x7 x8 x9 x10 x11 x12 x13 x14 x15 x16 x17 x18 x19 x20 x21 x22 x23 x24 := by
  refine (dat5 (F := Ideal) V c).arrAt_eq_of_cover 18 (Cert.ReferenceIdeal.ReadP.val_main_v170 (F := Ideal) x0 x1 x2 x3 x4 x5 x6 x7 x8 x9 x10 x11 x12 x13 x14 x15 x16 x17 x18 x19 x20 x21 x22 x23 x24) (fun t _ => ?_) cover5
  show (cfg5.win 18).cut (grid5.coords t) ((dat5 (F := Ideal) V c).after 18 t) = _
  rw [after5_18,
    out5_18_eq x0 x1 x2 x3 x4 x5 x6 x7 x8 x9 x10 x11 x12 x13 x14 x15 x16 x17 x18 x19 x20 x21 x22 x23 x24
      (iblk5 V c 0 t) (iblk5 V c 1 t) (iblk5 V c 2 t) (iblk5 V c 3 t) (iblk5 V c 4 t) (iblk5 V c 5 t) (iblk5 V c 6 t)
      (iblk5 V c 7 t) (iblk5 V c 8 t) (iblk5 V c 9 t) (iblk5 V c 10 t) (iblk5 V c 11 t) (iblk5 V c 12 t) (iblk5 V c 13 t)
      (iblk5 V c 14 t) (iblk5 V c 15 t) (iblk5 V c 16 t) (iblk5 V c 17 t)
      ((iblk5_0 V c t).trans hP1) ((iblk5_1 V c t).trans hP2) ((iblk5_2 V c t).trans hG1) ((iblk5_3 V c t).trans hG2)
      ((iblk5_4 V c t).trans h11) ((iblk5_5 V c t).trans h12) ((iblk5_6 V c t).trans h13) ((iblk5_7 V c t).trans h14)
      ((iblk5_8 V c t).trans h15) ((iblk5_9 V c t).trans h16) ((iblk5_10 V c t).trans h17) ((iblk5_11 V c t).trans h18)
      ((iblk5_12 V c t).trans h19) ((iblk5_13 V c t).trans h20) ((iblk5_14 V c t).trans h21) ((iblk5_15 V c t).trans h22)
      ((iblk5_16 V c t).trans h23) ((iblk5_17 V c t).trans h24)]
  exact cut_read5 _ t

end Cert.Bridge

end
-- ==== Proof.HostStages.lean ====
/-
  The host stretches between the kernel's regions, each read as the reference's stage.

  Between two regions the kernel's @main runs a short line of StableHLO operations over the buffers the
  regions left: it wraps negative indices (index < 0 ↦ index + extent), gathers the rows of the previous
  stage at the wrapped indices, widens the gathered bf16 rows to f32 — at the extended reals no change —
  and scatter-adds them, from zero, along the other index array; or it mean-pools a stage over the batch
  index (a scatter-add of the rows, divided by the scatter-added count of ones clamped below by one).
  The reference performs the same operations in the same order on its own stage, so once the fold over
  the line is computed at its result buffer and the earlier stage is rewritten to the reference's, the two
  sides are one term up to the two programs' own names for the same literal shapes and dimension records:
  each theorem closes by unfolding the reference's stages down to the stage kept abstract and comparing.

  `W` is any valuation that holds the earlier stage at the stretch's input buffer and the index arrays at
  their argument buffers.
-/
import proofs.«170622_j83494164234284_2_alg».proof.Proof.Gen.KernelIdeal.Launch
import proofs.«170622_j83494164234284_2_alg».proof.Proof.RefRead
import Idealize.ShloMosaic.Lib.ValueIdx
import Idealize.ShloMosaic.Lib.StableHlo.Run
noncomputable section
open Idealize.ShloMosaic Idealize.ShloMosaic.TcCoe Idealize.SL.Sem
namespace Cert.Bridge
open Cert.KernelIdeal Cert.KernelIdeal.Gen

/-- At the extended reals widening a float format changes nothing, pointwise and so as whole arrays. -/
theorem extf_ideal {s : Shape} {φ ψ : FTy} (a : FVec Ideal s φ) (h : φ.bits < ψ.bits) :
    (extf ψ a h : FVec Ideal s ψ) = a := rfl

set_option maxHeartbeats 400000 in
/-- After region 0: the scatter-add over the hyperedge indices of the rows of `relu(x·W0 + b0)·Wc1` gathered at the
    (wrapped) node indices — the reference's stage 32. -/
theorem stretch1 (W : Valuation τ sig (Elt Ideal)) (x0 : (⟨S100000x64, .f32⟩ : BufTy).Contents (Elt Ideal)) (x1 x2 : (⟨S800000, .i32⟩ : BufTy).Contents (Elt Ideal))
    (x4 : (⟨S64x128, .f32⟩ : BufTy).Contents (Elt Ideal)) (x5 : (⟨S128, .f32⟩ : BufTy).Contents (Elt Ideal)) (x6 : (⟨S128x128, .f32⟩ : BufTy).Contents (Elt Ideal))
    (hT : W (Proc.devRef .tc main_v19) = Cert.ReferenceIdeal.ReadP.val_main_v5 (F := Ideal) x0 x4 x5 x6)
    (h1 : W (Proc.devRef .tc main_arg1) = x1) (h2 : W (Proc.devRef .tc main_arg2) = x2) :
    StableHlo.after (hostOps1 (F := Ideal)) W (Proc.devRef .tc main_v30)
      = Cert.ReferenceIdeal.ReadP.val_main_v32 (F := Ideal) x0 x1 x2 x4 x5 x6 := by
  subst h1 h2
  dsimp only [hostOps1]
  after_results_simp
  rw [hT, extf_ideal]
  simp only [
    Cert.ReferenceIdeal.ReadP.val_main_v32, Cert.ReferenceIdeal.ReadP.val_main_v31, Cert.ReferenceIdeal.ReadP.val_main_v30,
    Cert.ReferenceIdeal.ReadP.val_main_cst_9, Cert.ReferenceIdeal.ReadP.val_main_v29, Cert.ReferenceIdeal.ReadP.val_main_v28,
    Cert.ReferenceIdeal.ReadP.val_main_v27, Cert.ReferenceIdeal.ReadP.val_main_v26, Cert.ReferenceIdeal.ReadP.val_main_v25,
    Cert.ReferenceIdeal.ReadP.val_main_c_8, Cert.ReferenceIdeal.ReadP.val_main_v24, Cert.ReferenceIdeal.ReadP.val_main_v23,
    Cert.ReferenceIdeal.ReadP.val_main_c]
  rfl

set_option maxHeartbeats 400000 in
/-- After region 1: the scatter-add over the node indices of the rows of the normalised hyperedge features gathered at
    the (wrapped) hyperedge indices — the reference's stage 45. -/
theorem stretch2 (W : Valuation τ sig (Elt Ideal)) (x0 : (⟨S100000x64, .f32⟩ : BufTy).Contents (Elt Ideal)) (x1 x2 : (⟨S800000, .i32⟩ : BufTy).Contents (Elt Ideal))
    (x4 : (⟨S64x128, .f32⟩ : BufTy).Contents (Elt Ideal)) (x5 : (⟨S128, .f32⟩ : BufTy).Contents (Elt Ideal)) (x6 : (⟨S128x128, .f32⟩ : BufTy).Contents (Elt Ideal))
    (hE : W (Proc.devRef .tc main_v31) = Cert.ReferenceIdeal.ReadP.val_main_v35 (F := Ideal) x0 x1 x2 x4 x5 x6)
    (h1 : W (Proc.devRef .tc main_arg1) = x1) (h2 : W (Proc.devRef .tc main_arg2) = x2) :
    StableHlo.after (hostOps2 (F := Ideal)) W (Proc.devRef .tc main_v42)
      = Cert.ReferenceIdeal.ReadP.val_main_v45 (F := Ideal) x0 x1 x2 x4 x5 x6 := by
  subst h1 h2
  dsimp only [hostOps2]
  after_results_simp
  rw [hE, extf_ideal]
  simp only [
    Cert.ReferenceIdeal.ReadP.val_main_v45, Cert.ReferenceIdeal.ReadP.val_main_v44, Cert.ReferenceIdeal.ReadP.val_main_v43,
    Cert.ReferenceIdeal.ReadP.val_main_cst_12, Cert.ReferenceIdeal.ReadP.val_main_v42, Cert.ReferenceIdeal.ReadP.val_main_v41,
    Cert.ReferenceIdeal.ReadP.val_main_v40, Cert.ReferenceIdeal.ReadP.val_main_v39, Cert.ReferenceIdeal.ReadP.val_main_v38,
    Cert.ReferenceIdeal.ReadP.val_main_c_11, Cert.ReferenceIdeal.ReadP.val_main_v37, Cert.ReferenceIdeal.ReadP.val_main_v36,
    Cert.ReferenceIdeal.ReadP.val_main_c_10]
  rfl

set_option maxHeartbeats 400000 in
/-- After region 2: the mean-pool of the first layer's output over the batch index (stage 64: row sums per graph
    divided by the per-graph node count clamped below by one), and the scatter-add over the hyperedge indices of the
    rows of the second layer's projected features gathered at the (wrapped) node indices (stage 92). -/
theorem stretch3 (W : Valuation τ sig (Elt Ideal)) (x0 : (⟨S100000x64, .f32⟩ : BufTy).Contents (Elt Ideal)) (x1 x2 : (⟨S800000, .i32⟩ : BufTy).Contents (Elt Ideal))
    (x4 : (⟨S64x128, .f32⟩ : BufTy).Contents (Elt Ideal)) (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal)) (x3 : (⟨S100000, .i32⟩ : BufTy).Contents (Elt Ideal))
    (hH : W (Proc.devRef .tc main_v43_0) = Cert.ReferenceIdeal.ReadP.val_main_v52 (F := Ideal) x0 x1 x2 x4 x5 x6 x7)
    (hT : W (Proc.devRef .tc main_v43_1) = Cert.ReferenceIdeal.ReadP.val_main_v65 (F := Ideal) x0 x1 x2 x4 x5 x6 x7 x8)
    (h1 : W (Proc.devRef .tc main_arg1) = x1) (h2 : W (Proc.devRef .tc main_arg2) = x2) (h3 : W (Proc.devRef .tc main_arg3) = x3) :
    StableHlo.after (hostOps3 (F := Ideal)) W (Proc.devRef .tc main_v55)
      = Cert.ReferenceIdeal.ReadP.val_main_v64 (F := Ideal) x0 x1 x2 x3 x4 x5 x6 x7
    ∧ StableHlo.after (hostOps3 (F := Ideal)) W (Proc.devRef .tc main_v66)
      = Cert.ReferenceIdeal.ReadP.val_main_v92 (F := Ideal) x0 x1 x2 x4 x5 x6 x7 x8 := by
  subst h1 h2 h3
  dsimp only [hostOps3]
  constructor
  · after_results_simp
    rw [hH]
    simp only [
    Cert.ReferenceIdeal.ReadP.val_main_v64, Cert.ReferenceIdeal.ReadP.val_main_v63, Cert.ReferenceIdeal.ReadP.val_main_v62,
    Cert.ReferenceIdeal.ReadP.val_main_v61, Cert.ReferenceIdeal.ReadP.val_main_v60, Cert.ReferenceIdeal.ReadP.val_main_cst_16,
    Cert.ReferenceIdeal.ReadP.val_main_v59, Cert.ReferenceIdeal.ReadP.val_main_v58, Cert.ReferenceIdeal.ReadP.val_main_v57,
    Cert.ReferenceIdeal.ReadP.val_main_cst_15, Cert.ReferenceIdeal.ReadP.val_main_v56, Cert.ReferenceIdeal.ReadP.val_main_cst_14,
    Cert.ReferenceIdeal.ReadP.val_main_v55, Cert.ReferenceIdeal.ReadP.val_main_v54, Cert.ReferenceIdeal.ReadP.val_main_v53,
    Cert.ReferenceIdeal.ReadP.val_main_cst_13]
    rfl
  · after_results_simp
    rw [hT, extf_ideal]
    simp only [
    Cert.ReferenceIdeal.ReadP.val_main_v92, Cert.ReferenceIdeal.ReadP.val_main_v91, Cert.ReferenceIdeal.ReadP.val_main_v90,
    Cert.ReferenceIdeal.ReadP.val_main_cst_28, Cert.ReferenceIdeal.ReadP.val_main_v89, Cert.ReferenceIdeal.ReadP.val_main_v88,
    Cert.ReferenceIdeal.ReadP.val_main_v87, Cert.ReferenceIdeal.ReadP.val_main_v86, Cert.ReferenceIdeal.ReadP.val_main_v85,
    Cert.ReferenceIdeal.ReadP.val_main_c_27, Cert.ReferenceIdeal.ReadP.val_main_v84, Cert.ReferenceIdeal.ReadP.val_main_v83,
    Cert.ReferenceIdeal.ReadP.val_main_c_26]
    rfl

set_option maxHeartbeats 400000 in
/-- After region 3: the scatter-add over the node indices of the rows of the second layer's normalised hyperedge
    features gathered at the (wrapped) hyperedge indices — the reference's stage 105. -/
theorem stretch4 (W : Valuation τ sig (Elt Ideal)) (x0 : (⟨S100000x64, .f32⟩ : BufTy).Contents (Elt Ideal)) (x1 x2 : (⟨S800000, .i32⟩ : BufTy).Contents (Elt Ideal))
    (x4 : (⟨S64x128, .f32⟩ : BufTy).Contents (Elt Ideal)) (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (hE : W (Proc.devRef .tc main_v67) = Cert.ReferenceIdeal.ReadP.val_main_v95 (F := Ideal) x0 x1 x2 x4 x5 x6 x7 x8)
    (h1 : W (Proc.devRef .tc main_arg1) = x1) (h2 : W (Proc.devRef .tc main_arg2) = x2) :
    StableHlo.after (hostOps4 (F := Ideal)) W (Proc.devRef .tc main_v78)
      = Cert.ReferenceIdeal.ReadP.val_main_v105 (F := Ideal) x0 x1 x2 x4 x5 x6 x7 x8 := by
  subst h1 h2
  dsimp only [hostOps4]
  after_results_simp
  rw [hE, extf_ideal]
  simp only [
    Cert.ReferenceIdeal.ReadP.val_main_v105, Cert.ReferenceIdeal.ReadP.val_main_v104, Cert.ReferenceIdeal.ReadP.val_main_v103,
    Cert.ReferenceIdeal.ReadP.val_main_cst_31, Cert.ReferenceIdeal.ReadP.val_main_v102, Cert.ReferenceIdeal.ReadP.val_main_v101,
    Cert.ReferenceIdeal.ReadP.val_main_v100, Cert.ReferenceIdeal.ReadP.val_main_v99, Cert.ReferenceIdeal.ReadP.val_main_v98,
    Cert.ReferenceIdeal.ReadP.val_main_c_30, Cert.ReferenceIdeal.ReadP.val_main_v97, Cert.ReferenceIdeal.ReadP.val_main_v96,
    Cert.ReferenceIdeal.ReadP.val_main_c_29]
  rfl

set_option maxHeartbeats 400000 in
/-- After region 4: the mean-pool of the second layer's output over the batch index (stage 124), and the two halves
    of the head's first weight matrix, rows 0–127 and rows 128–255, as strided slices of the argument. -/
theorem stretch5 (W : Valuation τ sig (Elt Ideal)) (x0 : (⟨S100000x64, .f32⟩ : BufTy).Contents (Elt Ideal)) (x1 x2 : (⟨S800000, .i32⟩ : BufTy).Contents (Elt Ideal))
    (x4 : (⟨S64x128, .f32⟩ : BufTy).Contents (Elt Ideal)) (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal)) (x9 : (⟨S128, .f32⟩ : BufTy).Contents (Elt Ideal)) (x3 : (⟨S100000, .i32⟩ : BufTy).Contents (Elt Ideal)) (x10 : (⟨S256x128, .f32⟩ : BufTy).Contents (Elt Ideal))
    (hH : W (Proc.devRef .tc main_v79) = Cert.ReferenceIdeal.ReadP.val_main_v112 (F := Ideal) x0 x1 x2 x4 x5 x6 x7 x8 x9)
    (h3 : W (Proc.devRef .tc main_arg3) = x3) (h10 : W (Proc.devRef .tc main_arg10) = x10) :
    StableHlo.after (hostOps5 (F := Ideal)) W (Proc.devRef .tc main_v91)
      = Cert.ReferenceIdeal.ReadP.val_main_v124 (F := Ideal) x0 x1 x2 x3 x4 x5 x6 x7 x8 x9
    ∧ StableHlo.after (hostOps5 (F := Ideal)) W (Proc.devRef .tc main_v92)
      = extractStridedSlice S128x128 ![0, 0] x10 slices_S256x128_S128x128_0_0
    ∧ StableHlo.after (hostOps5 (F := Ideal)) W (Proc.devRef .tc main_v93)
      = extractStridedSlice S128x128 ![128, 0] x10 slices_S256x128_S128x128_128_0 := by
  subst h3 h10
  dsimp only [hostOps5]
  refine ⟨?_, ?_, ?_⟩
  · after_results_simp
    rw [hH]
    simp only [
    Cert.ReferenceIdeal.ReadP.val_main_v124, Cert.ReferenceIdeal.ReadP.val_main_v123, Cert.ReferenceIdeal.ReadP.val_main_v122,
    Cert.ReferenceIdeal.ReadP.val_main_v121, Cert.ReferenceIdeal.ReadP.val_main_v120, Cert.ReferenceIdeal.ReadP.val_main_cst_35,
    Cert.ReferenceIdeal.ReadP.val_main_v119, Cert.ReferenceIdeal.ReadP.val_main_v118, Cert.ReferenceIdeal.ReadP.val_main_v117,
    Cert.ReferenceIdeal.ReadP.val_main_cst_34, Cert.ReferenceIdeal.ReadP.val_main_v116, Cert.ReferenceIdeal.ReadP.val_main_cst_33,
    Cert.ReferenceIdeal.ReadP.val_main_v115, Cert.ReferenceIdeal.ReadP.val_main_v114, Cert.ReferenceIdeal.ReadP.val_main_v113,
    Cert.ReferenceIdeal.ReadP.val_main_cst_32]
    rfl
  · after_results_simp
  · after_results_simp

end Cert.Bridge
-- ==== Proof.HostNorms.lean ====
/-
  The two normalisations, as columns, from the five stretches of host operations before the kernel's first region.

  `d_inv` is, per node, the reciprocal of its degree where the degree is positive and zero elsewhere; `b_inv` the
  same per hyperedge. The kernel's @main computes them as the reference does — ones scattered along an index array,
  a comparison with zero, a division, a select inlined from `where` — and then reshapes each vector into a column for
  the regions that scale rows by it. The line is cut in five at the two inlined calls; each piece is read at a
  variable valuation, where every term is small, and the pieces are then composed from the outside in.
-/
import proofs.«170622_j83494164234284_2_alg».proof.Proof.Gen.KernelIdeal.Launch
import proofs.«170622_j83494164234284_2_alg».proof.Proof.RefRead
import Idealize.ShloMosaic.Lib.ValueIdx
import Idealize.ShloMosaic.Lib.StableHlo.Run
noncomputable section
open Idealize.ShloMosaic Idealize.ShloMosaic.TcCoe Idealize.SL.Sem
namespace Cert.Bridge
open Cert.KernelIdeal Cert.KernelIdeal.Gen

/-! ### The first stretch: node degrees

Ones, one per incidence, are scattered along the node indices into a zero vector — the degree of each node —, the
degrees are compared with zero and inverted; the line also leaves the vector of ones and a zero scalar for the lines
after it. -/

set_option maxHeartbeats 400000 in
/-- The mask `degree > 0` over the nodes is the reference's stage 11. -/
theorem deg_mask_nodes (W : Valuation τ sig (Elt Ideal)) (x1 : (⟨S800000, .i32⟩ : BufTy).Contents (Elt Ideal)) (h1 : W (Proc.devRef .tc main_arg1) = x1) :
    StableHlo.after (hostOps0 (F := Ideal)) W (Proc.devRef .tc main_v5)
      = Cert.ReferenceIdeal.ReadP.val_main_v11 (F := Ideal) x1 := by
  subst h1
  dsimp only [hostOps0]
  after_results_simp
  simp only [
    Cert.ReferenceIdeal.ReadP.val_main_v11, Cert.ReferenceIdeal.ReadP.val_main_v10, Cert.ReferenceIdeal.ReadP.val_main_cst_1,
    Cert.ReferenceIdeal.ReadP.val_main_v9, Cert.ReferenceIdeal.ReadP.val_main_v8, Cert.ReferenceIdeal.ReadP.val_main_v7,
    Cert.ReferenceIdeal.ReadP.val_main_cst_0, Cert.ReferenceIdeal.ReadP.val_main_v6, Cert.ReferenceIdeal.ReadP.val_main_cst]
  rfl

set_option maxHeartbeats 400000 in
/-- The reciprocal `1 / degree` over the nodes is the reference's stage 13. -/
theorem deg_inv_nodes (W : Valuation τ sig (Elt Ideal)) (x1 : (⟨S800000, .i32⟩ : BufTy).Contents (Elt Ideal)) (h1 : W (Proc.devRef .tc main_arg1) = x1) :
    StableHlo.after (hostOps0 (F := Ideal)) W (Proc.devRef .tc main_v7)
      = Cert.ReferenceIdeal.ReadP.val_main_v13 (F := Ideal) x1 := by
  subst h1
  dsimp only [hostOps0]
  after_results_simp
  simp only [
    Cert.ReferenceIdeal.ReadP.val_main_v13, Cert.ReferenceIdeal.ReadP.val_main_v12, Cert.ReferenceIdeal.ReadP.val_main_cst_2,
    Cert.ReferenceIdeal.ReadP.val_main_v9, Cert.ReferenceIdeal.ReadP.val_main_v8, Cert.ReferenceIdeal.ReadP.val_main_v7,
    Cert.ReferenceIdeal.ReadP.val_main_cst_0, Cert.ReferenceIdeal.ReadP.val_main_v6, Cert.ReferenceIdeal.ReadP.val_main_cst]
  rfl

set_option maxHeartbeats 400000 in
/-- The zero scalar the nodes' `where` fills with. -/
theorem zero_nodes (W : Valuation τ sig (Elt Ideal))  :
    StableHlo.after (hostOps0 (F := Ideal)) W (Proc.devRef .tc main_cst_3)
      = Cert.ReferenceIdeal.ReadP.val_main_cst_3 (F := Ideal) := by
  dsimp only [hostOps0]
  after_results_simp
  simp only [
    Cert.ReferenceIdeal.ReadP.val_main_cst_3]

set_option maxHeartbeats 400000 in
/-- The vector of ones, one per incidence, that both degree counts scatter. -/
theorem ones_first (W : Valuation τ sig (Elt Ideal))  :
    StableHlo.after (hostOps0 (F := Ideal)) W (Proc.devRef .tc main_v0)
      = Cert.ReferenceIdeal.ReadP.val_main_v6 (F := Ideal) := by
  dsimp only [hostOps0]
  after_results_simp
  simp only [
    Cert.ReferenceIdeal.ReadP.val_main_v6, Cert.ReferenceIdeal.ReadP.val_main_cst]

set_option maxHeartbeats 400000 in
/-- The first stretch does not write the hyperedge indices. -/
theorem hedge_idx_first (W : Valuation τ sig (Elt Ideal))  :
    StableHlo.after (hostOps0 (F := Ideal)) W (Proc.devRef .tc main_arg2)
      = W (Proc.devRef .tc main_arg2) := by
  dsimp only [hostOps0]
  after_results_simp

/-! ### The nodes' `where`: the reciprocal where the degree is positive, zero elsewhere

The three operations of the inlined function carry their operands through the identity transport between a buffer's
type and the type of the value it holds; with the valuation a variable both sides are small and equal by computation. -/

set_option maxHeartbeats 400000 in
/-- The select of the mask, the reciprocals and the broadcast zero. -/
theorem where_nodes (W : Valuation τ sig (Elt Ideal))  :
    StableHlo.after (hostOps0_1 (F := Ideal)) W (Proc.devRef .tc main_v8)
      = select (W (Proc.devRef .tc main_v5)) (W (Proc.devRef .tc main_v7))
          (broadcastInDim S100000 ![] bcast_S_S100000 (W (Proc.devRef .tc main_cst_3))) := by
  dsimp only [hostOps0_1]
  after_results_simp
  rfl

set_option maxHeartbeats 400000 in
/-- The nodes' `where` does not write the ones. -/
theorem ones_second (W : Valuation τ sig (Elt Ideal))  :
    StableHlo.after (hostOps0_1 (F := Ideal)) W (Proc.devRef .tc main_v0)
      = W (Proc.devRef .tc main_v0) := by
  dsimp only [hostOps0_1]
  after_results_simp

set_option maxHeartbeats 400000 in
/-- The nodes' `where` does not write the hyperedge indices. -/
theorem hedge_idx_second (W : Valuation τ sig (Elt Ideal))  :
    StableHlo.after (hostOps0_1 (F := Ideal)) W (Proc.devRef .tc main_arg2)
      = W (Proc.devRef .tc main_arg2) := by
  dsimp only [hostOps0_1]
  after_results_simp

/-! ### The third stretch: hyperedge degrees, from the same vector of ones -/

set_option maxHeartbeats 400000 in
/-- The mask `degree > 0` over the hyperedges is the reference's stage 19. -/
theorem deg_mask_hedges (W : Valuation τ sig (Elt Ideal)) (x2 : (⟨S800000, .i32⟩ : BufTy).Contents (Elt Ideal)) (h0 : W (Proc.devRef .tc main_v0) = Cert.ReferenceIdeal.ReadP.val_main_v6 (F := Ideal)) (h2 : W (Proc.devRef .tc main_arg2) = x2) :
    StableHlo.after (hostOps0_2 (F := Ideal)) W (Proc.devRef .tc main_v13)
      = Cert.ReferenceIdeal.ReadP.val_main_v19 (F := Ideal) x2 := by
  subst h2
  dsimp only [hostOps0_2]
  after_results_simp
  rw [h0]
  simp only [
    Cert.ReferenceIdeal.ReadP.val_main_v19, Cert.ReferenceIdeal.ReadP.val_main_v18, Cert.ReferenceIdeal.ReadP.val_main_cst_5,
    Cert.ReferenceIdeal.ReadP.val_main_v17, Cert.ReferenceIdeal.ReadP.val_main_v16, Cert.ReferenceIdeal.ReadP.val_main_v15,
    Cert.ReferenceIdeal.ReadP.val_main_cst_4]
  rfl

set_option maxHeartbeats 400000 in
/-- The reciprocal `1 / degree` over the hyperedges is the reference's stage 21. -/
theorem deg_inv_hedges (W : Valuation τ sig (Elt Ideal)) (x2 : (⟨S800000, .i32⟩ : BufTy).Contents (Elt Ideal)) (h0 : W (Proc.devRef .tc main_v0) = Cert.ReferenceIdeal.ReadP.val_main_v6 (F := Ideal)) (h2 : W (Proc.devRef .tc main_arg2) = x2) :
    StableHlo.after (hostOps0_2 (F := Ideal)) W (Proc.devRef .tc main_v15)
      = Cert.ReferenceIdeal.ReadP.val_main_v21 (F := Ideal) x2 := by
  subst h2
  dsimp only [hostOps0_2]
  after_results_simp
  rw [h0]
  simp only [
    Cert.ReferenceIdeal.ReadP.val_main_v21, Cert.ReferenceIdeal.ReadP.val_main_v20, Cert.ReferenceIdeal.ReadP.val_main_cst_6,
    Cert.ReferenceIdeal.ReadP.val_main_v17, Cert.ReferenceIdeal.ReadP.val_main_v16, Cert.ReferenceIdeal.ReadP.val_main_v15,
    Cert.ReferenceIdeal.ReadP.val_main_cst_4]
  rfl

set_option maxHeartbeats 400000 in
/-- The zero scalar the hyperedges' `where` fills with. -/
theorem zero_hedges (W : Valuation τ sig (Elt Ideal))  :
    StableHlo.after (hostOps0_2 (F := Ideal)) W (Proc.devRef .tc main_cst_7)
      = Cert.ReferenceIdeal.ReadP.val_main_cst_7 (F := Ideal) := by
  dsimp only [hostOps0_2]
  after_results_simp
  simp only [
    Cert.ReferenceIdeal.ReadP.val_main_cst_7]

set_option maxHeartbeats 400000 in
/-- The third stretch does not write the nodes' result. -/
theorem nodes_third (W : Valuation τ sig (Elt Ideal))  :
    StableHlo.after (hostOps0_2 (F := Ideal)) W (Proc.devRef .tc main_v8)
      = W (Proc.devRef .tc main_v8) := by
  dsimp only [hostOps0_2]
  after_results_simp

/-! ### The hyperedges' `where` -/

set_option maxHeartbeats 400000 in
/-- The select of the mask, the reciprocals and the broadcast zero. -/
theorem where_hedges (W : Valuation τ sig (Elt Ideal))  :
    StableHlo.after (hostOps0_3 (F := Ideal)) W (Proc.devRef .tc main_v16)
      = select (W (Proc.devRef .tc main_v13)) (W (Proc.devRef .tc main_v15))
          (broadcastInDim S25000 ![] bcast_S_S25000 (W (Proc.devRef .tc main_cst_7))) := by
  dsimp only [hostOps0_3]
  after_results_simp
  rfl

set_option maxHeartbeats 400000 in
/-- The hyperedges' `where` does not write the nodes' result. -/
theorem nodes_fourth (W : Valuation τ sig (Elt Ideal))  :
    StableHlo.after (hostOps0_3 (F := Ideal)) W (Proc.devRef .tc main_v8)
      = W (Proc.devRef .tc main_v8) := by
  dsimp only [hostOps0_3]
  after_results_simp

/-! ### The two reshapes into columns -/

set_option maxHeartbeats 400000 in
/-- The nodes' vector as a column: the same elements in row-major order. -/
theorem column_nodes (W : Valuation τ sig (Elt Ideal))  :
    StableHlo.after (hostOps0_4 (F := Ideal)) W (Proc.devRef .tc main_v17)
      = shapeCast S100000x1 (W (Proc.devRef .tc main_v8)) shapeCasts_S100000_S100000x1 := by
  dsimp only [hostOps0_4]
  after_results_simp
  rfl

set_option maxHeartbeats 400000 in
/-- The hyperedges' vector as a column. -/
theorem column_hedges (W : Valuation τ sig (Elt Ideal))  :
    StableHlo.after (hostOps0_4 (F := Ideal)) W (Proc.devRef .tc main_v18)
      = shapeCast S25000x1 (W (Proc.devRef .tc main_v16)) shapeCasts_S25000_S25000x1 := by
  dsimp only [hostOps0_4]
  after_results_simp
  rfl

/-! ### The five stretches folded -/

set_option maxHeartbeats 400000 in
/-- Before region 0 the two column buffers hold the reference's `d_inv` (stage 14) and `b_inv` (stage 22), reshaped:
    each fold is read from the outside in — the reshape, the buffers the later lines leave alone, the `where`, the
    degree line — and the reference's select of the same mask, reciprocals and zero is what remains. -/
theorem norms (W : Valuation τ sig (Elt Ideal)) (x1 x2 : (⟨S800000, .i32⟩ : BufTy).Contents (Elt Ideal))
    (h1 : W (Proc.devRef .tc main_arg1) = x1) (h2 : W (Proc.devRef .tc main_arg2) = x2) :
    let W5 := StableHlo.after (hostOps0_4 (F := Ideal)) (StableHlo.after hostOps0_3 (StableHlo.after hostOps0_2
      (StableHlo.after hostOps0_1 (StableHlo.after hostOps0 W))))
    W5 (Proc.devRef .tc main_v17)
        = shapeCast S100000x1 (Cert.ReferenceIdeal.ReadP.val_main_v14 (F := Ideal) x1) shapeCasts_S100000_S100000x1
    ∧ W5 (Proc.devRef .tc main_v18)
        = shapeCast S25000x1 (Cert.ReferenceIdeal.ReadP.val_main_v22 (F := Ideal) x2) shapeCasts_S25000_S25000x1 := by
  intro W5
  constructor
  · show StableHlo.after (hostOps0_4 (F := Ideal)) _ (Proc.devRef .tc main_v17) = _
    rw [column_nodes, nodes_fourth, nodes_third, where_nodes, deg_mask_nodes _ x1 h1, deg_inv_nodes _ x1 h1, zero_nodes]
    simp only [
    Cert.ReferenceIdeal.ReadP.val_main_v14, Cert.ReferenceIdeal.ReadP.val_main_call1_v1, Cert.ReferenceIdeal.ReadP.val_main_call1_v0]
    rfl
  · show StableHlo.after (hostOps0_4 (F := Ideal)) _ (Proc.devRef .tc main_v18) = _
    have h0 : StableHlo.after (hostOps0_1 (F := Ideal)) (StableHlo.after (hostOps0 (F := Ideal)) W) (Proc.devRef .tc main_v0)
        = Cert.ReferenceIdeal.ReadP.val_main_v6 (F := Ideal) := by rw [ones_second, ones_first]
    have h2' : StableHlo.after (hostOps0_1 (F := Ideal)) (StableHlo.after (hostOps0 (F := Ideal)) W) (Proc.devRef .tc main_arg2)
        = x2 := by rw [hedge_idx_second, hedge_idx_first, h2]
    rw [column_hedges, where_hedges, deg_mask_hedges _ x2 h0 h2', deg_inv_hedges _ x2 h0 h2', zero_hedges]
    simp only [
    Cert.ReferenceIdeal.ReadP.val_main_v22, Cert.ReferenceIdeal.ReadP.val_main_call2_v1, Cert.ReferenceIdeal.ReadP.val_main_call2_v0]
    rfl

end Cert.Bridge
-- ==== Proof.Chain.lean ====
/-
  The kernel program's result, stage by stage.

  Between the launch and the return the kernel program crosses sixteen boundaries; at each one every buffer has a known
  contents (the generated frame names them `W0` … `W16`). This module follows the arrays that matter through those
  boundaries and finds, at each, the reference's corresponding stage of the argument arrays:

    the inverse node degrees and inverse hyperedge sizes (host operations, the same on both sides);
    the projected input features (first launch) — the hyperedge sums of their gathered rows (host) — those sums scaled
    by the inverse sizes (second launch) — the node sums of the gathered scaled rows (host) — those sums scaled by the
    inverse degrees, plus a bias row, positive part, and its projection for the next layer (third launch) — the pooled
    first-layer output and the second layer's hyperedge sums (host) — scaled (fourth launch) — node sums (host) — scaled,
    biased, positive part (fifth launch) — pooled, and the head's first weight matrix cut in two (host) — the head (sixth launch).

  Each launch's arrays come from its region lemma (a blocked launch over rows computes the whole-array stage), each
  host stretch's result from its stretch lemma (the same host operations as the reference's), and a buffer that a segment
  neither writes nor owns is carried across it unchanged. The last boundary's result buffer is then the reference's
  result of the launch contents of the arguments.
-/
import proofs.«170622_j83494164234284_2_alg».proof.Proof.Gen.KernelIdeal.Frame
import proofs.«170622_j83494164234284_2_alg».proof.Proof.RefRead
import proofs.«170622_j83494164234284_2_alg».proof.Proof.HostKeep
import proofs.«170622_j83494164234284_2_alg».proof.Proof.Region0
import proofs.«170622_j83494164234284_2_alg».proof.Proof.Region1
import proofs.«170622_j83494164234284_2_alg».proof.Proof.Region2
import proofs.«170622_j83494164234284_2_alg».proof.Proof.Region3
import proofs.«170622_j83494164234284_2_alg».proof.Proof.Region4
import proofs.«170622_j83494164234284_2_alg».proof.Proof.Region5
import proofs.«170622_j83494164234284_2_alg».proof.Proof.HostStages
import proofs.«170622_j83494164234284_2_alg».proof.Proof.HostNorms
import Idealize.ShloMosaic.Lib.StableHlo.Run

set_option maxRecDepth 16384

noncomputable section

namespace Cert.Bridge

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## Buffers no host operation writes

An argument array is never the result of a host operation; neither is the pooled array of the first layer once it
exists. `Quiet b` says so of a buffer `b`, stretch by stretch; for a given buffer it is decided by looking the buffer up in
the ten lists. -/

/-- No host operation of the kernel program writes `b`. -/
abbrev Quiet (b : Ref sig .tc) : Prop :=
  b ∉ written0 ∧ b ∉ written0_1 ∧ b ∉ written0_2 ∧ b ∉ written0_3 ∧ b ∉ written0_4 ∧ b ∉ written1 ∧ b ∉ written2
    ∧ b ∉ written3 ∧ b ∉ written4 ∧ b ∉ written5

/-! A buffer that no host operation writes and that is no array of the launches so far holds at each boundary what it
held at launch. One lemma per boundary that is used, each from the previous one. -/

theorem at5 (b : Ref sig .tc) (h : Quiet b) : W5 m ρ c (Proc.devRef .tc b) = m ((c : Thread nD τ).loc b) :=
  (keep0_4 _ b h.2.2.2.2.1).trans <| (keep0_3 _ b h.2.2.2.1).trans <| (keep0_2 _ b h.2.2.1).trans <|
    (keep0_1 _ b h.2.1).trans <| (keep0 _ b h.1).trans rfl
theorem at6 (b : Ref sig .tc) (h : Quiet b) (r0 : ∀ w, Pipeline.arrRef spec0 w ≠ b) :
    W6 m ρ c (Proc.devRef .tc b) = m ((c : Thread nD τ).loc b) :=
  (W6_of_ne m ρ c b r0).trans (at5 m ρ c b h)
theorem at7 (b : Ref sig .tc) (h : Quiet b) (r0 : ∀ w, Pipeline.arrRef spec0 w ≠ b) :
    W7 m ρ c (Proc.devRef .tc b) = m ((c : Thread nD τ).loc b) :=
  (keep1 _ b h.2.2.2.2.2.1).trans (at6 m ρ c b h r0)
theorem at8 (b : Ref sig .tc) (h : Quiet b) (r0 : ∀ w, Pipeline.arrRef spec0 w ≠ b) (r1 : ∀ w, Pipeline.arrRef spec1 w ≠ b) :
    W8 m ρ c (Proc.devRef .tc b) = m ((c : Thread nD τ).loc b) :=
  (W8_of_ne m ρ c b r1).trans (at7 m ρ c b h r0)
theorem at9 (b : Ref sig .tc) (h : Quiet b) (r0 : ∀ w, Pipeline.arrRef spec0 w ≠ b) (r1 : ∀ w, Pipeline.arrRef spec1 w ≠ b) :
    W9 m ρ c (Proc.devRef .tc b) = m ((c : Thread nD τ).loc b) :=
  (keep2 _ b h.2.2.2.2.2.2.1).trans (at8 m ρ c b h r0 r1)
theorem at10 (b : Ref sig .tc) (h : Quiet b) (r0 : ∀ w, Pipeline.arrRef spec0 w ≠ b) (r1 : ∀ w, Pipeline.arrRef spec1 w ≠ b)
    (r2 : ∀ w, Pipeline.arrRef spec2 w ≠ b) : W10 m ρ c (Proc.devRef .tc b) = m ((c : Thread nD τ).loc b) :=
  (W10_of_ne m ρ c b r2).trans (at9 m ρ c b h r0 r1)
theorem at11 (b : Ref sig .tc) (h : Quiet b) (r0 : ∀ w, Pipeline.arrRef spec0 w ≠ b) (r1 : ∀ w, Pipeline.arrRef spec1 w ≠ b)
    (r2 : ∀ w, Pipeline.arrRef spec2 w ≠ b) : W11 m ρ c (Proc.devRef .tc b) = m ((c : Thread nD τ).loc b) :=
  (keep3 _ b h.2.2.2.2.2.2.2.1).trans (at10 m ρ c b h r0 r1 r2)
theorem at12 (b : Ref sig .tc) (h : Quiet b) (r0 : ∀ w, Pipeline.arrRef spec0 w ≠ b) (r1 : ∀ w, Pipeline.arrRef spec1 w ≠ b)
    (r2 : ∀ w, Pipeline.arrRef spec2 w ≠ b) (r3 : ∀ w, Pipeline.arrRef spec3 w ≠ b) :
    W12 m ρ c (Proc.devRef .tc b) = m ((c : Thread nD τ).loc b) :=
  (W12_of_ne m ρ c b r3).trans (at11 m ρ c b h r0 r1 r2)
theorem at13 (b : Ref sig .tc) (h : Quiet b) (r0 : ∀ w, Pipeline.arrRef spec0 w ≠ b) (r1 : ∀ w, Pipeline.arrRef spec1 w ≠ b)
    (r2 : ∀ w, Pipeline.arrRef spec2 w ≠ b) (r3 : ∀ w, Pipeline.arrRef spec3 w ≠ b) :
    W13 m ρ c (Proc.devRef .tc b) = m ((c : Thread nD τ).loc b) :=
  (keep4 _ b h.2.2.2.2.2.2.2.2.1).trans (at12 m ρ c b h r0 r1 r2 r3)
theorem at14 (b : Ref sig .tc) (h : Quiet b) (r0 : ∀ w, Pipeline.arrRef spec0 w ≠ b) (r1 : ∀ w, Pipeline.arrRef spec1 w ≠ b)
    (r2 : ∀ w, Pipeline.arrRef spec2 w ≠ b) (r3 : ∀ w, Pipeline.arrRef spec3 w ≠ b) (r4 : ∀ w, Pipeline.arrRef spec4 w ≠ b) :
    W14 m ρ c (Proc.devRef .tc b) = m ((c : Thread nD τ).loc b) :=
  (W14_of_ne m ρ c b r4).trans (at13 m ρ c b h r0 r1 r2 r3)
theorem at15 (b : Ref sig .tc) (h : Quiet b) (r0 : ∀ w, Pipeline.arrRef spec0 w ≠ b) (r1 : ∀ w, Pipeline.arrRef spec1 w ≠ b)
    (r2 : ∀ w, Pipeline.arrRef spec2 w ≠ b) (r3 : ∀ w, Pipeline.arrRef spec3 w ≠ b) (r4 : ∀ w, Pipeline.arrRef spec4 w ≠ b) :
    W15 m ρ c (Proc.devRef .tc b) = m ((c : Thread nD τ).loc b) :=
  (keep5 _ b h.2.2.2.2.2.2.2.2.2).trans (at14 m ρ c b h r0 r1 r2 r3 r4)

/-! ## The normalisers are computed twice by the reference, once by the kernel

The reference recomputes the inverse node degrees and the inverse hyperedge sizes inside its second convolution; the
second computation is the first one's operations again, on the same index arrays. -/

theorem dinv_again (x1 : (⟨S800000, .i32⟩ : BufTy).Contents (Elt Ideal)) : Cert.ReferenceIdeal.ReadP.val_main_v74 (F := Ideal) x1 = Cert.ReferenceIdeal.ReadP.val_main_v14 (F := Ideal) x1 := rfl
theorem binv_again (x2 : (⟨S800000, .i32⟩ : BufTy).Contents (Elt Ideal)) : Cert.ReferenceIdeal.ReadP.val_main_v82 (F := Ideal) x2 = Cert.ReferenceIdeal.ReadP.val_main_v22 (F := Ideal) x2 := rfl

/-! ## The stages, boundary by boundary

At each boundary the buffers that later segments read hold the reference's stage of the launch contents of the argument
arrays. A launch's output array is what its region lemma says, of the entry contents of its input arrays; a host
stretch's result is what its stretch lemma says; a buffer that a segment neither writes nor owns is carried over. -/

/-- Before the first launch: the inverse degrees and inverse sizes, as columns. -/
theorem stage5 :
    W5 m ρ c (Proc.devRef .tc main_v17) = shapeCast S100000x1 (Cert.ReferenceIdeal.ReadP.val_main_v14 (F := Ideal) (m ((c : Thread nD τ).loc main_arg1))) shapeCasts_S100000_S100000x1
    ∧ W5 m ρ c (Proc.devRef .tc main_v18) = shapeCast S25000x1 (Cert.ReferenceIdeal.ReadP.val_main_v22 (F := Ideal) (m ((c : Thread nD τ).loc main_arg2))) shapeCasts_S25000_S25000x1 :=
  norms (W0 m ρ c) _ _ rfl rfl

/-- After the first launch: the projected features. -/
theorem stage6 : W6 m ρ c (Proc.devRef .tc main_v19) = Cert.ReferenceIdeal.ReadP.val_main_v5 (F := Ideal) (m ((c : Thread nD τ).loc main_arg0)) (m ((c : Thread nD τ).loc main_arg4)) (m ((c : Thread nD τ).loc main_arg5)) (m ((c : Thread nD τ).loc main_arg6)) :=
  (W6_arr m ρ c 4).trans (region0 (V5 m ρ) c _ _ _ _ (at5 m ρ c main_arg0 (by decide)) (at5 m ρ c main_arg4 (by decide))
    (at5 m ρ c main_arg5 (by decide)) (at5 m ρ c main_arg6 (by decide)))

/-- The inverse-size column is carried to the second launch. -/
theorem stage7_binv : W7 m ρ c (Proc.devRef .tc main_v18) = shapeCast S25000x1 (Cert.ReferenceIdeal.ReadP.val_main_v22 (F := Ideal) (m ((c : Thread nD τ).loc main_arg2))) shapeCasts_S25000_S25000x1 :=
  (keep1 _ main_v18 (by decide)).trans ((W6_of_ne m ρ c main_v18 (by decide)).trans (stage5 m ρ c).2)

/-- The first layer's hyperedge sums. -/
theorem stage7 : W7 m ρ c (Proc.devRef .tc main_v30) = Cert.ReferenceIdeal.ReadP.val_main_v32 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  stretch1 (W6 m ρ c) _ _ _ _ _ _ (stage6 m ρ c) (at6 m ρ c main_arg1 (by decide) (by decide)) (at6 m ρ c main_arg2 (by decide) (by decide))

/-- The first layer's hyperedge means. -/
theorem stage8 : W8 m ρ c (Proc.devRef .tc main_v31) = Cert.ReferenceIdeal.ReadP.val_main_v35 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W8_arr m ρ c 2).trans (region1 (V7 m ρ) c _ _ _ _ _ _ (stage7 m ρ c) (stage7_binv m ρ c))

/-- The first layer's node sums. -/
theorem stage9 : W9 m ρ c (Proc.devRef .tc main_v42) = Cert.ReferenceIdeal.ReadP.val_main_v45 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  stretch2 (W8 m ρ c) _ _ _ _ _ _ (stage8 m ρ c) (at8 m ρ c main_arg1 (by decide) (by decide) (by decide))
    (at8 m ρ c main_arg2 (by decide) (by decide) (by decide))

/-- The inverse-degree column is carried to the third launch. -/
theorem stage9_dinv : W9 m ρ c (Proc.devRef .tc main_v17) = shapeCast S100000x1 (Cert.ReferenceIdeal.ReadP.val_main_v14 (F := Ideal) (m ((c : Thread nD τ).loc main_arg1))) shapeCasts_S100000_S100000x1 :=
  (keep2 _ main_v17 (by decide)).trans <| (W8_of_ne m ρ c main_v17 (by decide)).trans <| (keep1 _ main_v17 (by decide)).trans <|
    (W6_of_ne m ρ c main_v17 (by decide)).trans (stage5 m ρ c).1

/-- The first layer's output and its projection for the second layer. -/
theorem stage10 :
    W10 m ρ c (Proc.devRef .tc main_v43_0) = Cert.ReferenceIdeal.ReadP.val_main_v52 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))
    ∧ W10 m ρ c (Proc.devRef .tc main_v43_1) = Cert.ReferenceIdeal.ReadP.val_main_v65 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) :=
  have r := region2 (V9 m ρ) c _ _ _ _ _ _ _ _ (stage9 m ρ c) (stage9_dinv m ρ c)
    (at9 m ρ c main_arg7 (by decide) (by decide) (by decide)) (at9 m ρ c main_arg8 (by decide) (by decide) (by decide))
  ⟨(W10_arr m ρ c 4).trans r.1, (W10_arr m ρ c 5).trans r.2⟩

/-- The first layer's pooled output and the second layer's hyperedge sums. -/
theorem stage11 :
    W11 m ρ c (Proc.devRef .tc main_v55) = Cert.ReferenceIdeal.ReadP.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    ∧ W11 m ρ c (Proc.devRef .tc main_v66) = Cert.ReferenceIdeal.ReadP.val_main_v92 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) :=
  stretch3 (W10 m ρ c) _ _ _ _ _ _ _ _ _ (stage10 m ρ c).1 (stage10 m ρ c).2
    (at10 m ρ c main_arg1 (by decide) (by decide) (by decide) (by decide)) (at10 m ρ c main_arg2 (by decide) (by decide) (by decide) (by decide))
    (at10 m ρ c main_arg3 (by decide) (by decide) (by decide) (by decide))

/-- The inverse-size column is carried to the fourth launch: the second launch only read it. -/
theorem stage11_binv : W11 m ρ c (Proc.devRef .tc main_v18) = shapeCast S25000x1 (Cert.ReferenceIdeal.ReadP.val_main_v82 (F := Ideal) (m ((c : Thread nD τ).loc main_arg2))) shapeCasts_S25000_S25000x1 := by
  rw [binv_again]
  exact (keep3 _ main_v18 (by decide)).trans <| (W10_of_ne m ρ c main_v18 (by decide)).trans <| (keep2 _ main_v18 (by decide)).trans <|
    ((W8_arr m ρ c 1).trans (((dat1 (V7 m ρ) c).arrAt_in 1 rfl _).trans (A_eq1 (V7 m ρ) c 1))).trans (stage7_binv m ρ c)

/-- The second layer's hyperedge means. -/
theorem stage12 : W12 m ρ c (Proc.devRef .tc main_v67) = Cert.ReferenceIdeal.ReadP.val_main_v95 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) :=
  (W12_arr m ρ c 2).trans (region3 (V11 m ρ) c _ _ _ _ _ _ _ _ (stage11 m ρ c).2 (stage11_binv m ρ c))

/-- The second layer's node sums. -/
theorem stage13 : W13 m ρ c (Proc.devRef .tc main_v78) = Cert.ReferenceIdeal.ReadP.val_main_v105 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) :=
  stretch4 (W12 m ρ c) _ _ _ _ _ _ _ _ (stage12 m ρ c)
    (at12 m ρ c main_arg1 (by decide) (by decide) (by decide) (by decide) (by decide))
    (at12 m ρ c main_arg2 (by decide) (by decide) (by decide) (by decide) (by decide))

/-- The inverse-degree column is carried to the fifth launch: the third launch only read it. -/
theorem stage13_dinv : W13 m ρ c (Proc.devRef .tc main_v17) = shapeCast S100000x1 (Cert.ReferenceIdeal.ReadP.val_main_v74 (F := Ideal) (m ((c : Thread nD τ).loc main_arg1))) shapeCasts_S100000_S100000x1 := by
  rw [dinv_again]
  exact (keep4 _ main_v17 (by decide)).trans <| (W12_of_ne m ρ c main_v17 (by decide)).trans <| (keep3 _ main_v17 (by decide)).trans <|
    ((W10_arr m ρ c 1).trans (((dat2 (V9 m ρ) c).arrAt_in 1 rfl _).trans (A_eq2 (V9 m ρ) c 1))).trans (stage9_dinv m ρ c)

/-- The second layer's output. -/
theorem stage14 : W14 m ρ c (Proc.devRef .tc main_v79) = Cert.ReferenceIdeal.ReadP.val_main_v112 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W14_arr m ρ c 3).trans (region4 (V13 m ρ) c _ _ _ _ _ _ _ _ _ (stage13 m ρ c) (stage13_dinv m ρ c)
    (at13 m ρ c main_arg9 (by decide) (by decide) (by decide) (by decide) (by decide)))

/-- The second layer's pooled output and the two halves of the head's first weight matrix. -/
theorem stage15 :
    W15 m ρ c (Proc.devRef .tc main_v91) = Cert.ReferenceIdeal.ReadP.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    ∧ W15 m ρ c (Proc.devRef .tc main_v92) = extractStridedSlice S128x128 ![0, 0] (m ((c : Thread nD τ).loc main_arg10)) slices_S256x128_S128x128_0_0
    ∧ W15 m ρ c (Proc.devRef .tc main_v93) = extractStridedSlice S128x128 ![128, 0] (m ((c : Thread nD τ).loc main_arg10)) slices_S256x128_S128x128_128_0 :=
  stretch5 (W14 m ρ c) _ _ _ _ _ _ _ _ _ _ _ (stage14 m ρ c)
    (at14 m ρ c main_arg3 (by decide) (by decide) (by decide) (by decide) (by decide) (by decide))
    (at14 m ρ c main_arg10 (by decide) (by decide) (by decide) (by decide) (by decide) (by decide))

/-- The first layer's pooled output is carried to the last launch. -/
theorem stage15_pool : W15 m ρ c (Proc.devRef .tc main_v55) = Cert.ReferenceIdeal.ReadP.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (keep5 _ main_v55 (by decide)).trans <| (W14_of_ne m ρ c main_v55 (by decide)).trans <| (keep4 _ main_v55 (by decide)).trans <|
    (W12_of_ne m ρ c main_v55 (by decide)).trans (stage11 m ρ c).1

/-- The result buffer at the last boundary is the reference's result of the launch contents of the arguments. -/
theorem stage16 : W16 m ρ c (Proc.devRef .tc main_v94) = Cert.ReferenceIdeal.ReadP.val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) :=
  (W16_arr m ρ c 18).trans (region5 (V15 m ρ) c _ _ _ _ _ _ _ _ _ _ _ _ _ _ _ _ _ _ _ _ _ _ _ _ _ (stage15_pool m ρ c) (stage15 m ρ c).1
    (stage15 m ρ c).2.1 (stage15 m ρ c).2.2
    (at15 m ρ c main_arg11 (by decide) (by decide) (by decide) (by decide) (by decide) (by decide))
    (at15 m ρ c main_arg12 (by decide) (by decide) (by decide) (by decide) (by decide) (by decide))
    (at15 m ρ c main_arg13 (by decide) (by decide) (by decide) (by decide) (by decide) (by decide))
    (at15 m ρ c main_arg14 (by decide) (by decide) (by decide) (by decide) (by decide) (by decide))
    (at15 m ρ c main_arg15 (by decide) (by decide) (by decide) (by decide) (by decide) (by decide))
    (at15 m ρ c main_arg16 (by decide) (by decide) (by decide) (by decide) (by decide) (by decide))
    (at15 m ρ c main_arg17 (by decide) (by decide) (by decide) (by decide) (by decide) (by decide))
    (at15 m ρ c main_arg18 (by decide) (by decide) (by decide) (by decide) (by decide) (by decide))
    (at15 m ρ c main_arg19 (by decide) (by decide) (by decide) (by decide) (by decide) (by decide))
    (at15 m ρ c main_arg20 (by decide) (by decide) (by decide) (by decide) (by decide) (by decide))
    (at15 m ρ c main_arg21 (by decide) (by decide) (by decide) (by decide) (by decide) (by decide))
    (at15 m ρ c main_arg22 (by decide) (by decide) (by decide) (by decide) (by decide) (by decide))
    (at15 m ρ c main_arg23 (by decide) (by decide) (by decide) (by decide) (by decide) (by decide))
    (at15 m ρ c main_arg24 (by decide) (by decide) (by decide) (by decide) (by decide) (by decide)))

end Cert.Bridge

end
-- ==== Proof.lean ====
/-
  The kernel program and its reference compute one function of the argument arrays, at the extended reals.

  The program is a two-layer hypergraph convolution followed by a small head. Per layer: project the node features by a
  weight matrix; sum the projected rows of each hyperedge's member nodes and scale the sum by the inverse hyperedge size;
  sum, for each node, the scaled rows of the hyperedges it belongs to, scale by the inverse node degree, add a bias row
  and take the positive part. Each layer's output is mean-pooled over the sixteen graphs of the batch; the two pooled
  arrays, side by side, go through a linear layer, two batch-normalised linear layers with positive parts, and a last
  linear layer.

  The reference does all of it with host operations. The kernel does the gathers and scatter-additions with the same
  host operations, and the dense parts — the two projections fused with what precedes them, the two row scalings, the two
  bias-and-positive-part steps, the head — as six blocked launches over rows, rounding the gathered arrays to a shorter
  float format on the way. Read at the extended reals a change of float format is the identity, a matrix product into a
  zero accumulator is the plain sum over the contracted axis, and a blocked launch over rows computes row by row what
  the whole-array operation computes; so stage by stage the two programs hold the same arrays. The one place where the two
  arrange a computation differently is the head's first layer: the kernel multiplies each pooled array by its half of the
  weight matrix and adds the two products, the reference multiplies the two arrays laid side by side by the whole matrix —
  a sum over 256 terms split into its first and last 128, which needs only that addition is commutative and associative.
  No step divides, cancels or distributes, so the precondition (every float input finite) is not used by the value claim.

  The frames of the two kernel programs are the generated launch proofs; the reference's frame is its run with the result
  dropped; the kernel's idealisation rewrote nothing, so it preserves trivially.
-/
import proofs.«170622_j83494164234284_2_alg».proof.Defs
import proofs.«170622_j83494164234284_2_alg».proof.Proof.Gen.Kernel
import proofs.«170622_j83494164234284_2_alg».proof.Proof.Gen.Kernel.Skeleton
import proofs.«170622_j83494164234284_2_alg».proof.Proof.Gen.Kernel.Launch
import proofs.«170622_j83494164234284_2_alg».proof.Proof.Gen.Kernel.Points
import proofs.«170622_j83494164234284_2_alg».proof.Proof.Gen.Kernel.Frame
import proofs.«170622_j83494164234284_2_alg».proof.Proof.Gen.KernelIdeal
import proofs.«170622_j83494164234284_2_alg».proof.Proof.Gen.KernelIdeal.Skeleton
import proofs.«170622_j83494164234284_2_alg».proof.Proof.Gen.KernelIdeal.Launch
import proofs.«170622_j83494164234284_2_alg».proof.Proof.Gen.KernelIdeal.Points
import proofs.«170622_j83494164234284_2_alg».proof.Proof.Gen.KernelIdeal.Frame
import proofs.«170622_j83494164234284_2_alg».proof.Proof.Gen.ReferenceIdeal
import proofs.«170622_j83494164234284_2_alg».proof.Proof.Gen.Pre_finite_inputs
import proofs.«170622_j83494164234284_2_alg».proof.Proof.RefRunMain
import proofs.«170622_j83494164234284_2_alg».proof.Proof.RefRead
import proofs.«170622_j83494164234284_2_alg».proof.Proof.RunResult
import proofs.«170622_j83494164234284_2_alg».proof.Proof.Chain
import Idealize.ShloMosaic.Adequacy
import Idealize.ShloMosaic.Init

noncomputable section

namespace Cert.Proof

open Idealize.ShloMosaic Idealize.SL.Sem

/-- The word-level kernel program terminates without a fault and leaves its arguments unchanged. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueQ.refRun m ρ)

/-- Reading the kernel at the extended reals rewrote nothing. -/
theorem preserves : Cert.preserves_Kernel_KernelIdeal := trivial

/-- From memories that agree on the arguments both programs end with the result array at the reference's last stage of
    the arguments: the kernel by the chain of its sixteen segments, the reference by its run. -/
theorem algebraic : Cert.algebraic_KernelIdeal_ReferenceIdeal := by
  intro m ρ m' ρ' _ hagree
  refine ⟨fun c => Cert.ReferenceIdeal.ReadP.val_main_v170 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)), ?_, ?_⟩
  · exact (θ_run Cert.KernelIdeal.defs _ _).mono
      (fun r h c => ⟨(h c).1.trans (Cert.Bridge.stage16 m ρ c), (h c).2⟩) (Cert.Bridge.run_result (F := Ideal) m ρ)
  · refine (θ_run Cert.ReferenceIdeal.defs _ _).mono (fun r h c => ⟨?_, (h c).2⟩)
      (Cert.ReferenceIdeal.ValueQ.refRun m' ρ')
    obtain ⟨e0, e1, e2, e3, e4, e5, e6, e7, e8, e9, e10, e11, e12, e13, e14, e15, e16, e17, e18, e19, e20, e21, e22, e23, e24⟩ := hagree c
    rw [(h c).1, e0, e1, e2, e3, e4, e5, e6, e7, e8, e9, e10, e11, e12, e13, e14, e15, e16, e17, e18, e19, e20, e21, e22, e23, e24]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
